-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v106)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v106) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v127) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x1024 : Shape := ⟨2, ![50000, 1024]⟩
abbrev S160000 : Shape := ⟨1, ![160000]⟩
abbrev S1024x512 : Shape := ⟨2, ![1024, 512]⟩
abbrev S512 : Shape := ⟨1, ![512]⟩
abbrev S512x512 : Shape := ⟨2, ![512, 512]⟩
abbrev S512x64 : Shape := ⟨2, ![512, 64]⟩
abbrev S64 : Shape := ⟨1, ![64]⟩
abbrev S_ : Shape := ⟨0, ![]⟩

class Facts : Prop where
  bcast_S_S50000x1024 : S_.BroadcastsInDim S50000x1024 (![] : Fin 0 → Fin S50000x1024.rank)
  reducesTo_S50000x1024_S_d0_1 : S50000x1024.ReducesTo [0, 1] S_
  h_S_ : 0 < S_.numel
  bcast_S_S160000 : S_.BroadcastsInDim S160000 (![] : Fin 0 → Fin S160000.rank)
  reducesTo_S160000_S_d0 : S160000.ReducesTo [0] S_
  bcast_S_S1024x512 : S_.BroadcastsInDim S1024x512 (![] : Fin 0 → Fin S1024x512.rank)
  reducesTo_S1024x512_S_d0_1 : S1024x512.ReducesTo [0, 1] S_
  bcast_S_S512 : S_.BroadcastsInDim S512 (![] : Fin 0 → Fin S512.rank)
  reducesTo_S512_S_d0 : S512.ReducesTo [0] S_
  bcast_S_S512x512 : S_.BroadcastsInDim S512x512 (![] : Fin 0 → Fin S512x512.rank)
  reducesTo_S512x512_S_d0_1 : S512x512.ReducesTo [0, 1] S_
  bcast_S_S512x64 : S_.BroadcastsInDim S512x64 (![] : Fin 0 → Fin S512x64.rank)
  reducesTo_S512x64_S_d0_1 : S512x64.ReducesTo [0, 1] S_
  bcast_S_S64 : S_.BroadcastsInDim S64 (![] : Fin 0 → Fin S64.rank)
  reducesTo_S64_S_d0 : S64.ReducesTo [0] S_

variable [Facts]

def fn_part3 {F : FTy → Type} [FloatOps F] (main_arg13 : FVec F S64 .f32) (main_v48 : IVec S_ 1) (main_v49 : FVec F S512x64 .f32) (main_v50 : FVec F S512x64 .f32) : IVec S_ 1 :=
  let main_v51 : IVec S512x64 1 := cmpf .olt main_v49 main_v50
  let main_c_19 : IVec S_ 1 := constantI S_ 1 1#1
  let main_v52 : IVec S_ 1 := (fun x v => Host.reduce IntOp.andi x v reducesTo_S512x64_S_d0_1 h_S_) main_v51 main_c_19
  let main_v53 : IVec S_ 1 := andi main_v48 main_v52
  let main_v54 : FVec F S64 .f32 := Host.absf main_arg13
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  main_v58

def fn_part2 {F : FTy → Type} [FloatOps F] (main_arg9 : FVec F S512 .f32) (main_arg10 : FVec F S512x64 .f32) (main_arg11 : FVec F S64 .f32) (main_arg12 : FVec F S512x64 .f32) (main_arg13 : FVec F S64 .f32) (main_v33 : IVec S_ 1) : IVec S_ 1 :=
  let main_v34 : FVec F S512 .f32 := Host.absf main_arg9
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  let main_v39 : FVec F S512x64 .f32 := Host.absf main_arg10
  let main_cst_14 : FVec F S_ .f32 := constant S_ .f32 0x7F800000#32
  let main_v40 : FVec F S512x64 .f32 := broadcastInDim S512x64 ![] bcast_S_S512x64 main_cst_14
  let main_v41 : IVec S512x64 1 := cmpf .olt main_v39 main_v40
  let main_c_15 : IVec S_ 1 := constantI S_ 1 1#1
  let main_v42 : IVec S_ 1 := (fun x v => Host.reduce IntOp.andi x v reducesTo_S512x64_S_d0_1 h_S_) main_v41 main_c_15
  let main_v43 : IVec S_ 1 := andi main_v38 main_v42
  let main_v44 : FVec F S64 .f32 := Host.absf main_arg11
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S512x64 .f32 := Host.absf main_arg12
  let main_cst_18 : FVec F S_ .f32 := constant S_ .f32 0x7F800000#32
  let main_v50 : FVec F S512x64 .f32 := broadcastInDim S512x64 ![] bcast_S_S512x64 main_cst_18
  fn_part3 (F := F) main_arg13 main_v48 main_v49 main_v50

def fn_part1 {F : FTy → Type} [FloatOps F] (main_arg6 : FVec F S1024x512 .f32) (main_arg7 : FVec F S512 .f32) (main_arg8 : FVec F S512x512 .f32) (main_arg9 : FVec F S512 .f32) (main_arg10 : FVec F S512x64 .f32) (main_arg11 : FVec F S64 .f32) (main_arg12 : FVec F S512x64 .f32) (main_arg13 : FVec F S64 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S1024x512 .f32 := Host.absf main_arg6
  let main_cst_6 : FVec F S_ .f32 := constant S_ .f32 0x7F800000#32
  let main_v20 : FVec F S1024x512 .f32 := broadcastInDim S1024x512 ![] bcast_S_S1024x512 main_cst_6
  let main_v21 : IVec S1024x512 1 := cmpf .olt main_v19 main_v20
  let main_c_7 : IVec S_ 1 := constantI S_ 1 1#1
  let main_v22 : IVec S_ 1 := (fun x v => Host.reduce IntOp.andi x v reducesTo_S1024x512_S_d0_1 h_S_) main_v21 main_c_7
  let main_v23 : IVec S_ 1 := andi main_v18 main_v22
  let main_v24 : FVec F S512 .f32 := Host.absf main_arg7
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512x512 .f32 := Host.absf main_arg8
  let main_cst_10 : FVec F S_ .f32 := constant S_ .f32 0x7F800000#32
  let main_v30 : FVec F S512x512 .f32 := broadcastInDim S512x512 ![] bcast_S_S512x512 main_cst_10
  let main_v31 : IVec S512x512 1 := cmpf .olt main_v29 main_v30
  let main_c_11 : IVec S_ 1 := constantI S_ 1 1#1
  let main_v32 : IVec S_ 1 := (fun x v => Host.reduce IntOp.andi x v reducesTo_S512x512_S_d0_1 h_S_) main_v31 main_c_11
  let main_v33 : IVec S_ 1 := andi main_v28 main_v32
  fn_part2 (F := F) main_arg9 main_arg10 main_arg11 main_arg12 main_arg13 main_v33

def fn {F : FTy → Type} [FloatOps F] (main_arg0 : FVec F S50000x1024 .f32) (main_arg1 : IVec S160000 32) (main_arg2 : IVec S160000 32) (main_arg3 : FVec F S160000 .f32) (main_arg4 : FVec F S1024x512 .f32) (main_arg5 : FVec F S512 .f32) (main_arg6 : FVec F S1024x512 .f32) (main_arg7 : FVec F S512 .f32) (main_arg8 : FVec F S512x512 .f32) (main_arg9 : FVec F S512 .f32) (main_arg10 : FVec F S512x64 .f32) (main_arg11 : FVec F S64 .f32) (main_arg12 : FVec F S512x64 .f32) (main_arg13 : FVec F S64 .f32) : IVec S_ 1 :=
  let main_v0 : FVec F S50000x1024 .f32 := Host.absf main_arg0
  let main_cst : FVec F S_ .f32 := constant S_ .f32 0x7F800000#32
  let main_v1 : FVec F S50000x1024 .f32 := broadcastInDim S50000x1024 ![] bcast_S_S50000x1024 main_cst
  let main_v2 : IVec S50000x1024 1 := cmpf .olt main_v0 main_v1
  let main_c : IVec S_ 1 := constantI S_ 1 1#1
  let main_v3 : IVec S_ 1 := (fun x v => Host.reduce IntOp.andi x v reducesTo_S50000x1024_S_d0_1 h_S_) main_v2 main_c
  let main_v4 : FVec F S160000 .f32 := Host.absf main_arg3
  let main_cst_0 : FVec F S_ .f32 := constant S_ .f32 0x7F800000#32
  let main_v5 : FVec F S160000 .f32 := broadcastInDim S160000 ![] bcast_S_S160000 main_cst_0
  let main_v6 : IVec S160000 1 := cmpf .olt main_v4 main_v5
  let main_c_1 : IVec S_ 1 := constantI S_ 1 1#1
  let main_v7 : IVec S_ 1 := (fun x v => Host.reduce IntOp.andi x v reducesTo_S160000_S_d0 h_S_) main_v6 main_c_1
  let main_v8 : IVec S_ 1 := andi main_v3 main_v7
  let main_v9 : FVec F S1024x512 .f32 := Host.absf main_arg4
  let main_cst_2 : FVec F S_ .f32 := constant S_ .f32 0x7F800000#32
  let main_v10 : FVec F S1024x512 .f32 := broadcastInDim S1024x512 ![] bcast_S_S1024x512 main_cst_2
  let main_v11 : IVec S1024x512 1 := cmpf .olt main_v9 main_v10
  let main_c_3 : IVec S_ 1 := constantI S_ 1 1#1
  let main_v12 : IVec S_ 1 := (fun x v => Host.reduce IntOp.andi x v reducesTo_S1024x512_S_d0_1 h_S_) main_v11 main_c_3
  let main_v13 : IVec S_ 1 := andi main_v8 main_v12
  let main_v14 : FVec F S512 .f32 := Host.absf main_arg5
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg6 main_arg7 main_arg8 main_arg9 main_arg10 main_arg11 main_arg12 main_arg13 main_v13 main_v16
-- ==== Kernel.lean ====
abbrev S50000x1024 : Shape := ⟨2, ![50000, 1024]⟩
abbrev S160000 : Shape := ⟨1, ![160000]⟩
abbrev S1024x512 : Shape := ⟨2, ![1024, 512]⟩
abbrev S512 : Shape := ⟨1, ![512]⟩
abbrev S512x512 : Shape := ⟨2, ![512, 512]⟩
abbrev S512x64 : Shape := ⟨2, ![512, 64]⟩
abbrev S64 : Shape := ⟨1, ![64]⟩
abbrev S50000x512 : Shape := ⟨2, ![50000, 512]⟩
abbrev S2000x1024 : Shape := ⟨2, ![2000, 1024]⟩
abbrev S2000x512 : Shape := ⟨2, ![2000, 512]⟩
abbrev S160000x1 : Shape := ⟨2, ![160000, 1]⟩
abbrev S_ : Shape := ⟨0, ![]⟩
abbrev S160000x512 : Shape := ⟨2, ![160000, 512]⟩
abbrev S1x512 : Shape := ⟨2, ![1, 512]⟩
abbrev S5000x512 : Shape := ⟨2, ![5000, 512]⟩
abbrev S512x128 : Shape := ⟨2, ![512, 128]⟩
abbrev S50000x128 : Shape := ⟨2, ![50000, 128]⟩
abbrev S2000x128 : Shape := ⟨2, ![2000, 128]⟩
abbrev S50000x64 : Shape := ⟨2, ![50000, 64]⟩
abbrev S160000x64 : Shape := ⟨2, ![160000, 64]⟩
abbrev S1x64 : Shape := ⟨2, ![1, 64]⟩
abbrev S2000x64 : Shape := ⟨2, ![2000, 64]⟩
abbrev S2000 : Shape := ⟨1, ![2000]⟩
abbrev S2000x1 : Shape := ⟨2, ![2000, 1]⟩

abbrev nBuf : Space → Nat
  | .hbm => 140
  | .vmem => 77
  | .smem => 0
  | _ => 0

abbrev hbmTy0_0 (i : Nat) : BufTy := match i % 128 with
  | 0 => ⟨S50000x1024, .f32⟩
  | 1 => ⟨S160000, .i32⟩
  | 2 => ⟨S160000, .i32⟩
  | 3 => ⟨S160000, .f32⟩
  | 4 => ⟨S1024x512, .f32⟩
  | 5 => ⟨S512, .f32⟩
  | 6 => ⟨S1024x512, .f32⟩
  | 7 => ⟨S512, .f32⟩
  | 8 => ⟨S512x512, .f32⟩
  | 9 => ⟨S512, .f32⟩
  | 10 => ⟨S512x64, .f32⟩
  | 11 => ⟨S64, .f32⟩
  | 12 => ⟨S512x64, .f32⟩
  | 13 => ⟨S64, .f32⟩
  | 14 => ⟨S50000x512, .bf16⟩
  | 15 => ⟨S50000x512, .f32⟩
  | 16 => ⟨S160000x1, .f32⟩
  | 17 => ⟨S_, .i32⟩
  | 18 => ⟨S160000, .i32⟩
  | 19 => ⟨S160000, .i1⟩
  | 20 => ⟨S_, .i32⟩
  | 21 => ⟨S160000, .i32⟩
  | 22 => ⟨S160000, .i32⟩
  | 23 => ⟨S160000, .i32⟩
  | 24 => ⟨S160000x1, .i32⟩
  | 25 => ⟨S160000x512, .bf16⟩
  | 26 => ⟨S160000x512, .f32⟩
  | 27 => ⟨S160000x512, .f32⟩
  | 28 => ⟨S160000x512, .f32⟩
  | 29 => ⟨S_, .f32⟩
  | 30 => ⟨S50000x512, .f32⟩
  | 31 => ⟨S160000x1, .i32⟩
  | 32 => ⟨S50000x512, .f32⟩
  | 33 => ⟨S1x512, .f32⟩
  | 34 => ⟨S1x512, .f32⟩
  | 35 => ⟨S50000x512, .bf16⟩
  | 36 => ⟨S50000x512, .bf16⟩
  | 37 => ⟨S160000x1, .f32⟩
  | 38 => ⟨S_, .i32⟩
  | 39 => ⟨S160000, .i32⟩
  | 40 => ⟨S160000, .i1⟩
  | 41 => ⟨S_, .i32⟩
  | 42 => ⟨S160000, .i32⟩
  | 43 => ⟨S160000, .i32⟩
  | 44 => ⟨S160000, .i32⟩
  | 45 => ⟨S160000x1, .i32⟩
  | 46 => ⟨S160000x512, .bf16⟩
  | 47 => ⟨S160000x512, .f32⟩
  | 48 => ⟨S160000x512, .f32⟩
  | 49 => ⟨S160000x512, .f32⟩
  | 50 => ⟨S_, .f32⟩
  | 51 => ⟨S50000x512, .f32⟩
  | 52 => ⟨S160000x1, .i32⟩
  | 53 => ⟨S50000x512, .f32⟩
  | 54 => ⟨S1x512, .f32⟩
  | 55 => ⟨S50000x512, .bf16⟩
  | 56 => ⟨S50000x512, .bf16⟩
  | 57 => ⟨S160000x1, .f32⟩
  | 58 => ⟨S_, .i32⟩
  | 59 => ⟨S160000, .i32⟩
  | 60 => ⟨S160000, .i1⟩
  | 61 => ⟨S_, .i32⟩
  | 62 => ⟨S160000, .i32⟩
  | 63 => ⟨S160000, .i32⟩
  | 64 => ⟨S160000, .i32⟩
  | 65 => ⟨S160000x1, .i32⟩
  | 66 => ⟨S160000x512, .bf16⟩
  | 67 => ⟨S160000x512, .f32⟩
  | 68 => ⟨S160000x512, .f32⟩
  | 69 => ⟨S160000x512, .f32⟩
  | 70 => ⟨S_, .f32⟩
  | 71 => ⟨S50000x512, .f32⟩
  | 72 => ⟨S160000x1, .i32⟩
  | 73 => ⟨S50000x512, .f32⟩
  | 74 => ⟨S1x512, .f32⟩
  | 75 => ⟨S50000x512, .bf16⟩
  | 76 => ⟨S50000x512, .bf16⟩
  | 77 => ⟨S160000x1, .f32⟩
  | 78 => ⟨S_, .i32⟩
  | 79 => ⟨S160000, .i32⟩
  | 80 => ⟨S160000, .i1⟩
  | 81 => ⟨S_, .i32⟩
  | 82 => ⟨S160000, .i32⟩
  | 83 => ⟨S160000, .i32⟩
  | 84 => ⟨S160000, .i32⟩
  | 85 => ⟨S160000x1, .i32⟩
  | 86 => ⟨S160000x512, .bf16⟩
  | 87 => ⟨S160000x512, .f32⟩
  | 88 => ⟨S160000x512, .f32⟩
  | 89 => ⟨S160000x512, .f32⟩
  | 90 => ⟨S_, .f32⟩
  | 91 => ⟨S50000x512, .f32⟩
  | 92 => ⟨S160000x1, .i32⟩
  | 93 => ⟨S50000x512, .f32⟩
  | 94 => ⟨S1x512, .f32⟩
  | 95 => ⟨S50000x512, .bf16⟩
  | 96 => ⟨S50000x512, .bf16⟩
  | 97 => ⟨S160000x1, .f32⟩
  | 98 => ⟨S_, .i32⟩
  | 99 => ⟨S160000, .i32⟩
  | 100 => ⟨S160000, .i1⟩
  | 101 => ⟨S_, .i32⟩
  | 102 => ⟨S160000, .i32⟩
  | 103 => ⟨S160000, .i32⟩
  | 104 => ⟨S160000, .i32⟩
  | 105 => ⟨S160000x1, .i32⟩
  | 106 => ⟨S160000x512, .bf16⟩
  | 107 => ⟨S160000x512, .f32⟩
  | 108 => ⟨S160000x512, .f32⟩
  | 109 => ⟨S160000x512, .f32⟩
  | 110 => ⟨S_, .f32⟩
  | 111 => ⟨S50000x512, .f32⟩
  | 112 => ⟨S160000x1, .i32⟩
  | 113 => ⟨S50000x512, .f32⟩
  | 114 => ⟨S1x512, .f32⟩
  | 115 => ⟨S50000x512, .bf16⟩
  | 116 => ⟨S512x128, .f32⟩
  | 117 => ⟨S50000x128, .bf16⟩
  | 118 => ⟨S50000x64, .bf16⟩
  | 119 => ⟨S50000x64, .bf16⟩
  | 120 => ⟨S160000x1, .f32⟩
  | 121 => ⟨S_, .i32⟩
  | 122 => ⟨S160000, .i32⟩
  | 123 => ⟨S160000, .i1⟩
  | 124 => ⟨S_, .i32⟩
  | 125 => ⟨S160000, .i32⟩
  | 126 => ⟨S160000, .i32⟩
  | 127 => ⟨S160000, .i32⟩
  | _ => ⟨S50000x1024, .f32⟩

abbrev hbmTy0_1 (i : Nat) : BufTy := match i % 128 with
  | 0 => ⟨S160000x1, .i32⟩
  | 1 => ⟨S160000x64, .bf16⟩
  | 2 => ⟨S160000x64, .f32⟩
  | 3 => ⟨S160000x64, .f32⟩
  | 4 => ⟨S160000x64, .f32⟩
  | 5 => ⟨S_, .f32⟩
  | 6 => ⟨S50000x64, .f32⟩
  | 7 => ⟨S160000x1, .i32⟩
  | 8 => ⟨S50000x64, .f32⟩
  | 9 => ⟨S1x64, .f32⟩
  | 10 => ⟨S1x64, .f32⟩
  | 11 => ⟨S50000x64, .f32⟩
  | _ => ⟨S50000x1024, .f32⟩

abbrev hbmTy (i : Nat) : BufTy := match i / 128 with
  | 0 => hbmTy0_0 i
  | 1 => hbmTy0_1 i
  | _ => ⟨S50000x1024, .f32⟩

abbrev bufTy : (tb : Table) → Fin (tcTables nBuf tb) → BufTy
  | .hbm, ⟨i, _⟩ => hbmTy i
  | .local _ .vmem, ⟨0, _⟩ => ⟨S2000x1024, .f32⟩
  | .local _ .vmem, ⟨1, _⟩ => ⟨S2000x1024, .f32⟩
  | .local _ .vmem, ⟨2, _⟩ => ⟨S1024x512, .f32⟩
  | .local _ .vmem, ⟨3, _⟩ => ⟨S1024x512, .f32⟩
  | .local _ .vmem, ⟨4, _⟩ => ⟨S2000x512, .bf16⟩
  | .local _ .vmem, ⟨5, _⟩ => ⟨S2000x512, .bf16⟩
  | .local _ .vmem, ⟨6, _⟩ => ⟨S2000x512, .f32⟩
  | .local _ .vmem, ⟨7, _⟩ => ⟨S2000x512, .f32⟩
  | .local _ .vmem, ⟨8, _⟩ => ⟨S2000x512, .f32⟩
  | .local _ .vmem, ⟨9, _⟩ => ⟨S2000x512, .f32⟩
  | .local _ .vmem, ⟨10, _⟩ => ⟨S2000x512, .f32⟩
  | .local _ .vmem, ⟨11, _⟩ => ⟨S2000x512, .f32⟩
  | .local _ .vmem, ⟨12, _⟩ => ⟨S1x512, .f32⟩
  | .local _ .vmem, ⟨13, _⟩ => ⟨S1x512, .f32⟩
  | .local _ .vmem, ⟨14, _⟩ => ⟨S2000x512, .bf16⟩
  | .local _ .vmem, ⟨15, _⟩ => ⟨S2000x512, .bf16⟩
  | .local _ .vmem, ⟨16, _⟩ => ⟨S5000x512, .bf16⟩
  | .local _ .vmem, ⟨17, _⟩ => ⟨S5000x512, .bf16⟩
  | .local _ .vmem, ⟨18, _⟩ => ⟨S512x512, .f32⟩
  | .local _ .vmem, ⟨19, _⟩ => ⟨S5000x512, .bf16⟩
  | .local _ .vmem, ⟨20, _⟩ => ⟨S5000x512, .bf16⟩
  | .local _ .vmem, ⟨21, _⟩ => ⟨S2000x512, .f32⟩
  | .local _ .vmem, ⟨22, _⟩ => ⟨S2000x512, .f32⟩
  | .local _ .vmem, ⟨23, _⟩ => ⟨S2000x512, .bf16⟩
  | .local _ .vmem, ⟨24, _⟩ => ⟨S2000x512, .bf16⟩
  | .local _ .vmem, ⟨25, _⟩ => ⟨S1x512, .f32⟩
  | .local _ .vmem, ⟨26, _⟩ => ⟨S2000x512, .bf16⟩
  | .local _ .vmem, ⟨27, _⟩ => ⟨S2000x512, .bf16⟩
  | .local _ .vmem, ⟨28, _⟩ => ⟨S5000x512, .bf16⟩
  | .local _ .vmem, ⟨29, _⟩ => ⟨S5000x512, .bf16⟩
  | .local _ .vmem, ⟨30, _⟩ => ⟨S512x512, .f32⟩
  | .local _ .vmem, ⟨31, _⟩ => ⟨S5000x512, .bf16⟩
  | .local _ .vmem, ⟨32, _⟩ => ⟨S5000x512, .bf16⟩
  | .local _ .vmem, ⟨33, _⟩ => ⟨S2000x512, .f32⟩
  | .local _ .vmem, ⟨34, _⟩ => ⟨S2000x512, .f32⟩
  | .local _ .vmem, ⟨35, _⟩ => ⟨S2000x512, .bf16⟩
  | .local _ .vmem, ⟨36, _⟩ => ⟨S2000x512, .bf16⟩
  | .local _ .vmem, ⟨37, _⟩ => ⟨S1x512, .f32⟩
  | .local _ .vmem, ⟨38, _⟩ => ⟨S2000x512, .bf16⟩
  | .local _ .vmem, ⟨39, _⟩ => ⟨S2000x512, .bf16⟩
  | .local _ .vmem, ⟨40, _⟩ => ⟨S5000x512, .bf16⟩
  | .local _ .vmem, ⟨41, _⟩ => ⟨S5000x512, .bf16⟩
  | .local _ .vmem, ⟨42, _⟩ => ⟨S512x512, .f32⟩
  | .local _ .vmem, ⟨43, _⟩ => ⟨S5000x512, .bf16⟩
  | .local _ .vmem, ⟨44, _⟩ => ⟨S5000x512, .bf16⟩
  | .local _ .vmem, ⟨45, _⟩ => ⟨S2000x512, .f32⟩
  | .local _ .vmem, ⟨46, _⟩ => ⟨S2000x512, .f32⟩
  | .local _ .vmem, ⟨47, _⟩ => ⟨S2000x512, .bf16⟩
  | .local _ .vmem, ⟨48, _⟩ => ⟨S2000x512, .bf16⟩
  | .local _ .vmem, ⟨49, _⟩ => ⟨S1x512, .f32⟩
  | .local _ .vmem, ⟨50, _⟩ => ⟨S2000x512, .bf16⟩
  | .local _ .vmem, ⟨51, _⟩ => ⟨S2000x512, .bf16⟩
  | .local _ .vmem, ⟨52, _⟩ => ⟨S5000x512, .bf16⟩
  | .local _ .vmem, ⟨53, _⟩ => ⟨S5000x512, .bf16⟩
  | .local _ .vmem, ⟨54, _⟩ => ⟨S512x512, .f32⟩
  | .local _ .vmem, ⟨55, _⟩ => ⟨S5000x512, .bf16⟩
  | .local _ .vmem, ⟨56, _⟩ => ⟨S5000x512, .bf16⟩
  | .local _ .vmem, ⟨57, _⟩ => ⟨S2000x512, .f32⟩
  | .local _ .vmem, ⟨58, _⟩ => ⟨S2000x512, .f32⟩
  | .local _ .vmem, ⟨59, _⟩ => ⟨S2000x512, .bf16⟩
  | .local _ .vmem, ⟨60, _⟩ => ⟨S2000x512, .bf16⟩
  | .local _ .vmem, ⟨61, _⟩ => ⟨S1x512, .f32⟩
  | .local _ .vmem, ⟨62, _⟩ => ⟨S2000x512, .bf16⟩
  | .local _ .vmem, ⟨63, _⟩ => ⟨S2000x512, .bf16⟩
  | .local _ .vmem, ⟨64, _⟩ => ⟨S2000x512, .bf16⟩
  | .local _ .vmem, ⟨65, _⟩ => ⟨S2000x512, .bf16⟩
  | .local _ .vmem, ⟨66, _⟩ => ⟨S512x128, .f32⟩
  | .local _ .vmem, ⟨67, _⟩ => ⟨S2000x128, .bf16⟩
  | .local _ .vmem, ⟨68, _⟩ => ⟨S2000x128, .bf16⟩
  | .local _ .vmem, ⟨69, _⟩ => ⟨S2000x64, .f32⟩
  | .local _ .vmem, ⟨70, _⟩ => ⟨S2000x64, .f32⟩
  | .local _ .vmem, ⟨71, _⟩ => ⟨S2000x64, .bf16⟩
  | .local _ .vmem, ⟨72, _⟩ => ⟨S2000x64, .bf16⟩
  | .local _ .vmem, ⟨73, _⟩ => ⟨S1x64, .f32⟩
  | .local _ .vmem, ⟨74, _⟩ => ⟨S1x64, .f32⟩
  | .local _ .vmem, ⟨75, _⟩ => ⟨S2000x64, .f32⟩
  | .local _ .vmem, ⟨76, _⟩ => ⟨S2000x64, .f32⟩
  | _, _ => ⟨S50000x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | _, _ => false

abbrev semScoped : Fin 0 → Bool
  | ⟨_, h⟩ => absurd h (Nat.not_lt_zero _)

abbrev dmaSemScoped : Fin 77 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | _ => false

abbrev sig : RefSig :=
  ofTc nBuf bufTy 0 77 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0_0 : Ref sig .tc := ⟨.hbm, 14, rfl⟩
abbrev main_v0_1 : Ref sig .tc := ⟨.hbm, 15, rfl⟩
abbrev main_v1 : Ref sig .tc := ⟨.hbm, 16, rfl⟩
abbrev main_c : Ref sig .tc := ⟨.hbm, 17, rfl⟩
abbrev main_v2 : Ref sig .tc := ⟨.hbm, 18, rfl⟩
abbrev main_v3 : Ref sig .tc := ⟨.hbm, 19, rfl⟩
abbrev main_c_0 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_cst : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_c_1 : Ref sig .tc := ⟨.hbm, 38, rfl⟩
abbrev main_v20 : Ref sig .tc := ⟨.hbm, 39, rfl⟩
abbrev main_v21 : Ref sig .tc := ⟨.hbm, 40, rfl⟩
abbrev main_c_2 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_cst_3 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_c_4 : Ref sig .tc := ⟨.hbm, 58, rfl⟩
abbrev main_v37 : Ref sig .tc := ⟨.hbm, 59, rfl⟩
abbrev main_v38 : Ref sig .tc := ⟨.hbm, 60, rfl⟩
abbrev main_c_5 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_cst_6 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_c_7 : Ref sig .tc := ⟨.hbm, 78, rfl⟩
abbrev main_v54 : Ref sig .tc := ⟨.hbm, 79, rfl⟩
abbrev main_v55 : Ref sig .tc := ⟨.hbm, 80, rfl⟩
abbrev main_c_8 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_cst_9 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_c_10 : Ref sig .tc := ⟨.hbm, 98, rfl⟩
abbrev main_v71 : Ref sig .tc := ⟨.hbm, 99, rfl⟩
abbrev main_v72 : Ref sig .tc := ⟨.hbm, 100, rfl⟩
abbrev main_c_11 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_cst_12 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_c_13 : Ref sig .tc := ⟨.hbm, 121, rfl⟩
abbrev main_v91 : Ref sig .tc := ⟨.hbm, 122, rfl⟩
abbrev main_v92 : Ref sig .tc := ⟨.hbm, 123, rfl⟩
abbrev main_c_14 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_cst_15 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg2_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg3_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg2_1 : Ref sig .tc := ⟨.vmem, 32, rfl⟩
abbrev cc5_stg0_0 : Ref sig .tc := ⟨.vmem, 33, rfl⟩
abbrev cc5_stg0_1 : Ref sig .tc := ⟨.vmem, 34, rfl⟩
abbrev cc5_stg1_0 : Ref sig .tc := ⟨.vmem, 35, rfl⟩
abbrev cc5_stg1_1 : Ref sig .tc := ⟨.vmem, 36, rfl⟩
abbrev cc5_stg2_0 : Ref sig .tc := ⟨.vmem, 37, rfl⟩
abbrev cc5_stg3_0 : Ref sig .tc := ⟨.vmem, 38, rfl⟩
abbrev cc5_stg3_1 : Ref sig .tc := ⟨.vmem, 39, rfl⟩
abbrev cc6_stg0_0 : Ref sig .tc := ⟨.vmem, 40, rfl⟩
abbrev cc6_stg0_1 : Ref sig .tc := ⟨.vmem, 41, rfl⟩
abbrev cc6_stg1_0 : Ref sig .tc := ⟨.vmem, 42, rfl⟩
abbrev cc6_stg2_0 : Ref sig .tc := ⟨.vmem, 43, rfl⟩
abbrev cc6_stg2_1 : Ref sig .tc := ⟨.vmem, 44, rfl⟩
abbrev cc7_stg0_0 : Ref sig .tc := ⟨.vmem, 45, rfl⟩
abbrev cc7_stg0_1 : Ref sig .tc := ⟨.vmem, 46, rfl⟩
abbrev cc7_stg1_0 : Ref sig .tc := ⟨.vmem, 47, rfl⟩
abbrev cc7_stg1_1 : Ref sig .tc := ⟨.vmem, 48, rfl⟩
abbrev cc7_stg2_0 : Ref sig .tc := ⟨.vmem, 49, rfl⟩
abbrev cc7_stg3_0 : Ref sig .tc := ⟨.vmem, 50, rfl⟩
abbrev cc7_stg3_1 : Ref sig .tc := ⟨.vmem, 51, rfl⟩
abbrev cc8_stg0_0 : Ref sig .tc := ⟨.vmem, 52, rfl⟩
abbrev cc8_stg0_1 : Ref sig .tc := ⟨.vmem, 53, rfl⟩
abbrev cc8_stg1_0 : Ref sig .tc := ⟨.vmem, 54, rfl⟩
abbrev cc8_stg2_0 : Ref sig .tc := ⟨.vmem, 55, rfl⟩
abbrev cc8_stg2_1 : Ref sig .tc := ⟨.vmem, 56, rfl⟩
abbrev cc9_stg0_0 : Ref sig .tc := ⟨.vmem, 57, rfl⟩
abbrev cc9_stg0_1 : Ref sig .tc := ⟨.vmem, 58, rfl⟩
abbrev cc9_stg1_0 : Ref sig .tc := ⟨.vmem, 59, rfl⟩
abbrev cc9_stg1_1 : Ref sig .tc := ⟨.vmem, 60, rfl⟩
abbrev cc9_stg2_0 : Ref sig .tc := ⟨.vmem, 61, rfl⟩
abbrev cc9_stg3_0 : Ref sig .tc := ⟨.vmem, 62, rfl⟩
abbrev cc9_stg3_1 : Ref sig .tc := ⟨.vmem, 63, rfl⟩
abbrev cc10_stg0_0 : Ref sig .tc := ⟨.vmem, 64, rfl⟩
abbrev cc10_stg0_1 : Ref sig .tc := ⟨.vmem, 65, rfl⟩
abbrev cc10_stg1_0 : Ref sig .tc := ⟨.vmem, 66, rfl⟩
abbrev cc10_stg2_0 : Ref sig .tc := ⟨.vmem, 67, rfl⟩
abbrev cc10_stg2_1 : Ref sig .tc := ⟨.vmem, 68, rfl⟩
abbrev cc11_stg0_0 : Ref sig .tc := ⟨.vmem, 69, rfl⟩
abbrev cc11_stg0_1 : Ref sig .tc := ⟨.vmem, 70, rfl⟩
abbrev cc11_stg1_0 : Ref sig .tc := ⟨.vmem, 71, rfl⟩
abbrev cc11_stg1_1 : Ref sig .tc := ⟨.vmem, 72, rfl⟩
abbrev cc11_stg2_0 : Ref sig .tc := ⟨.vmem, 73, rfl⟩
abbrev cc11_stg3_0 : Ref sig .tc := ⟨.vmem, 74, rfl⟩
abbrev cc11_stg4_0 : Ref sig .tc := ⟨.vmem, 75, rfl⟩
abbrev cc11_stg4_1 : Ref sig .tc := ⟨.vmem, 76, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem4_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem2_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem3_0 : DmaSem sig := 26
abbrev cc3_sem3_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem2_1 : DmaSem sig := 32
abbrev cc5_sem0_0 : DmaSem sig := 33
abbrev cc5_sem0_1 : DmaSem sig := 34
abbrev cc5_sem1_0 : DmaSem sig := 35
abbrev cc5_sem1_1 : DmaSem sig := 36
abbrev cc5_sem2_0 : DmaSem sig := 37
abbrev cc5_sem3_0 : DmaSem sig := 38
abbrev cc5_sem3_1 : DmaSem sig := 39
abbrev cc6_sem0_0 : DmaSem sig := 40
abbrev cc6_sem0_1 : DmaSem sig := 41
abbrev cc6_sem1_0 : DmaSem sig := 42
abbrev cc6_sem2_0 : DmaSem sig := 43
abbrev cc6_sem2_1 : DmaSem sig := 44
abbrev cc7_sem0_0 : DmaSem sig := 45
abbrev cc7_sem0_1 : DmaSem sig := 46
abbrev cc7_sem1_0 : DmaSem sig := 47
abbrev cc7_sem1_1 : DmaSem sig := 48
abbrev cc7_sem2_0 : DmaSem sig := 49
abbrev cc7_sem3_0 : DmaSem sig := 50
abbrev cc7_sem3_1 : DmaSem sig := 51
abbrev cc8_sem0_0 : DmaSem sig := 52
abbrev cc8_sem0_1 : DmaSem sig := 53
abbrev cc8_sem1_0 : DmaSem sig := 54
abbrev cc8_sem2_0 : DmaSem sig := 55
abbrev cc8_sem2_1 : DmaSem sig := 56
abbrev cc9_sem0_0 : DmaSem sig := 57
abbrev cc9_sem0_1 : DmaSem sig := 58
abbrev cc9_sem1_0 : DmaSem sig := 59
abbrev cc9_sem1_1 : DmaSem sig := 60
abbrev cc9_sem2_0 : DmaSem sig := 61
abbrev cc9_sem3_0 : DmaSem sig := 62
abbrev cc9_sem3_1 : DmaSem sig := 63
abbrev cc10_sem0_0 : DmaSem sig := 64
abbrev cc10_sem0_1 : DmaSem sig := 65
abbrev cc10_sem1_0 : DmaSem sig := 66
abbrev cc10_sem2_0 : DmaSem sig := 67
abbrev cc10_sem2_1 : DmaSem sig := 68
abbrev cc11_sem0_0 : DmaSem sig := 69
abbrev cc11_sem0_1 : DmaSem sig := 70
abbrev cc11_sem1_0 : DmaSem sig := 71
abbrev cc11_sem1_1 : DmaSem sig := 72
abbrev cc11_sem2_0 : DmaSem sig := 73
abbrev cc11_sem3_0 : DmaSem sig := 74
abbrev cc11_sem4_0 : DmaSem sig := 75
abbrev cc11_sem4_1 : DmaSem sig := 76

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2000x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x512 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x512 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S512x512 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x512 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x512 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x512 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x512 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S2000x512 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x512 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S512x512 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x512 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x512 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S2000x512 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S1x512 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S2000x512 .bf16 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x512 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S512x512 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S5000x512 .bf16 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![25], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S2000x512 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S2000x512 .bf16 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 1 → Memref sig .tc .vmem S1x512 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 2 → Memref sig .tc .vmem S2000x512 .bf16 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

abbrev grid8 : Pipeline.Grid := ⟨1, ![10], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S5000x512 .bf16 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S512x512 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 2 → Memref sig .tc .vmem S5000x512 .bf16 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev grid9 : Pipeline.Grid := ⟨1, ![25], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S2000x512 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S2000x512 .bf16 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev stage9_2 : Fin 1 → Memref sig .tc .vmem S1x512 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 2 → Memref sig .tc .vmem S2000x512 .bf16 := fun | 0 => Memref.whole cc9_stg3_0 | 1 => Memref.whole cc9_stg3_1 | ⟨_ + 2, h⟩ => absurd h (Nat.not_lt.2 (Nat.le_add_left _ _))
abbrev sem9_3 : Fin 2 → DmaSem sig := fun | 0 => cc9_sem3_0 | 1 => cc9_sem3_1 | ⟨_ + 2, h⟩ => absurd h (Nat.not_lt.2 (Nat.le_add_left _ _))
abbrev reads9_3 : Fin grid9.rank → Bool := ![true]

abbrev grid10 : Pipeline.Grid := ⟨1, ![25], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S2000x512 .bf16 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 1 → Memref sig .tc .vmem S512x128 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 2 → Memref sig .tc .vmem S2000x128 .bf16 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true]

abbrev grid11 : Pipeline.Grid := ⟨1, ![25], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_2 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_3 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_4 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S2000x64 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 2 → Memref sig .tc .vmem S2000x64 .bf16 := fun | 0 => Memref.whole cc11_stg1_0 | 1 => Memref.whole cc11_stg1_1 | ⟨_ + 2, h⟩ => absurd h (Nat.not_lt.2 (Nat.le_add_left _ _))
abbrev sem11_1 : Fin 2 → DmaSem sig := fun | 0 => cc11_sem1_0 | 1 => cc11_sem1_1 | ⟨_ + 2, h⟩ => absurd h (Nat.not_lt.2 (Nat.le_add_left _ _))
abbrev reads11_1 : Fin grid11.rank → Bool := ![true]

abbrev stage11_2 : Fin 1 → Memref sig .tc .vmem S1x64 .f32 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))
abbrev reads11_2 : Fin grid11.rank → Bool := ![false]

abbrev stage11_3 : Fin 1 → Memref sig .tc .vmem S1x64 .f32 := fun | 0 => Memref.whole cc11_stg3_0 | ⟨_ + 1, h⟩ => absurd h (Nat.not_lt.2 (Nat.le_add_left _ _))
abbrev sem11_3 : Fin 1 → DmaSem sig := fun | 0 => cc11_sem3_0 | ⟨_ + 1, h⟩ => absurd h (Nat.not_lt.2 (Nat.le_add_left _ _))
abbrev reads11_3 : Fin grid11.rank → Bool := ![false]

abbrev stage11_4 : Fin 2 → Memref sig .tc .vmem S2000x64 .f32 := fun | 0 => Memref.whole cc11_stg4_0 | 1 => Memref.whole cc11_stg4_1 | ⟨_ + 2, h⟩ => absurd h (Nat.not_lt.2 (Nat.le_add_left _ _))
abbrev sem11_4 : Fin 2 → DmaSem sig := fun | 0 => cc11_sem4_0 | 1 => cc11_sem4_1 | ⟨_ + 2, h⟩ => absurd h (Nat.not_lt.2 (Nat.le_add_left _ _))
abbrev reads11_4 : Fin grid11.rank → Bool := ![true]

class Facts₀ : Prop where
  inb_S2000x1024_S2000x1024_0_0 : ∀ a, (![0, 0] : Fin 2 → Nat) a + S2000x1024.size a ≤ S2000x1024.size a
  h_S2000x1024 : 0 < S2000x1024.numel
  bitsLt_bf16_f32 : FTy.bits .bf16 < FTy.bits .f32
  inb_S1024x512_S1024x512_0_0 : ∀ a, (![0, 0] : Fin 2 → Nat) a + S1024x512.size a ≤ S1024x512.size a
  h_S1024x512 : 0 < S1024x512.numel
  inb_S2000x512_S2000x512_0_0 : ∀ a, (![0, 0] : Fin 2 → Nat) a + S2000x512.size a ≤ S2000x512.size a
  h_S2000x512 : 0 < S2000x512.numel
  packedbf16_S2000x512_S2000x512_0_0 : (Rect.unit (s := S2000x512) ![0, 0] S2000x512.size inb_S2000x512_S2000x512_0_0).PackedRows (EltTy.packing .bf16)
  bcast_S160000_S160000x1_0 : S160000.BroadcastsInDim S160000x1 (![0] : Fin 1 → Fin S160000x1.rank)
  bcast_S_S160000 : S_.BroadcastsInDim S160000 (![] : Fin 0 → Fin S160000.rank)
  bcast_S160000x1_S160000x512_0_1 : S160000x1.BroadcastsInDim S160000x512 (![0, 1] : Fin 2 → Fin S160000x512.rank)
  bcast_S_S50000x512 : S_.BroadcastsInDim S50000x512 (![] : Fin 0 → Fin S50000x512.rank)
  shapeCasts_S512_S1x512 : S512.ShapeCasts S1x512
  shapeCasts_S2000x512_S2000x512 : S2000x512.ShapeCasts S2000x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2000x512 : S1x512.Broadcasts S2000x512
  inb_S5000x512_S5000x512_0_0 : ∀ a, (![0, 0] : Fin 2 → Nat) a + S5000x512.size a ≤ S5000x512.size a
  h_S5000x512 : 0 < S5000x512.numel
  shapeCasts_S5000x512_S5000x512 : S5000x512.ShapeCasts S5000x512
  inb_S512x512_S512x512_0_0 : ∀ a, (![0, 0] : Fin 2 → Nat) a + S512x512.size a ≤ S512x512.size a
  h_S512x512 : 0 < S512x512.numel
  packedbf16_S5000x512_S5000x512_0_0 : (Rect.unit (s := S5000x512) ![0, 0] S5000x512.size inb_S5000x512_S5000x512_0_0).PackedRows (EltTy.packing .bf16)
  concatenates_S512x64_S512x64_S512x128_d1 : Shape.Concatenates [S512x64, S512x64] S512x128 1
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S2000x128_S2000x128_0_0 : ∀ a, (![0, 0] : Fin 2 → Nat) a + S2000x128.size a ≤ S2000x128.size a
  h_S2000x128 : 0 < S2000x128.numel
  packedbf16_S2000x128_S2000x128_0_0 : (Rect.unit (s := S2000x128) ![0, 0] S2000x128.size inb_S2000x128_S2000x128_0_0).PackedRows (EltTy.packing .bf16)
  slices_S50000x128_S50000x64_0_0 : S50000x128.Slices ![0, 0] S50000x64
  slices_S50000x128_S50000x64_0_64 : S50000x128.Slices ![0, 64] S50000x64
  bcast_S160000x1_S160000x64_0_1 : S160000x1.BroadcastsInDim S160000x64 (![0, 1] : Fin 2 → Fin S160000x64.rank)
  bcast_S_S50000x64 : S_.BroadcastsInDim S50000x64 (![] : Fin 0 → Fin S50000x64.rank)
  shapeCasts_S64_S1x64 : S64.ShapeCasts S1x64
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  reduces_S2000x64_S2000 : S2000x64.Reduces [1] S2000
  shapeCasts_S2000_S2000x1 : S2000.ShapeCasts S2000x1
  broadcasts_S2000x1_S2000x64 : S2000x1.Broadcasts S2000x64
  dot_S2000x1024_S1024x512_S2000x512_1_0_0_1_n_n_wf : DotDims.WF S2000x1024 S1024x512 S2000x512 [1] [0] [0] [1] [] []
  gather_S50000x512_S160000x1_S160000x512_1_0_n_n_0_1_1512_wf : GatherDims.WF S50000x512 S160000x1 S160000x512 [1] [0] [] [0] [] 1 ![1, 512]
  scatter_S50000x512_S160000x1_S160000x512_1_0_0_1_wf : ScatterDims.WF S50000x512 S160000x1 S160000x512 [1] [0] [0] 1
  dot_S5000x512_S512x512_S5000x512_1_0_0_1_n_n_wf : DotDims.WF S5000x512 S512x512 S5000x512 [1] [0] [0] [1] [] []
  dot_S2000x512_S512x128_S2000x128_1_0_0_1_n_n_wf : DotDims.WF S2000x512 S512x128 S2000x128 [1] [0] [0] [1] [] []
  gather_S50000x64_S160000x1_S160000x64_1_0_n_n_0_1_164_wf : GatherDims.WF S50000x64 S160000x1 S160000x64 [1] [0] [] [0] [] 1 ![1, 64]
  scatter_S50000x64_S160000x1_S160000x64_1_0_0_1_wf : ScatterDims.WF S50000x64 S160000x1 S160000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x1024.size a ≤ S50000x1024.size a
  hwx0_0 : ∀ i : grid0.Coords, EltTy.bits .f32 = 32 ∨ (Rect.block (s := S50000x1024) S2000x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S1024x512.size a
  hwx0_1 : ∀ i : grid0.Coords, EltTy.bits .f32 = 32 ∨ (Rect.block (s := S1024x512) S1024x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x512.size a ≤ S1024x512.size a
  hwx0_2 : ∀ i : grid0.Coords, EltTy.bits .f32 = 32 ∨ (Rect.block (s := S1024x512) S1024x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x512.size a ≤ S50000x512.size a
  hwx0_3 : ∀ i : grid0.Coords, EltTy.bits .bf16 = 32 ∨ (Rect.block (s := S50000x512) S2000x512.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x512.size a ≤ S50000x512.size a
  hwx0_4 : ∀ i : grid0.Coords, EltTy.bits .f32 = 32 ∨ (Rect.block (s := S50000x512) S2000x512.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x512.size a ≤ S50000x512.size a
  hwx1_0 : ∀ i : grid1.Coords, EltTy.bits .f32 = 32 ∨ (Rect.block (s := S50000x512) S2000x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x512.size a ≤ S50000x512.size a
  hwx1_1 : ∀ i : grid1.Coords, EltTy.bits .f32 = 32 ∨ (Rect.block (s := S50000x512) S2000x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x512.size a
  hwx1_2 : ∀ i : grid1.Coords, EltTy.bits .f32 = 32 ∨ (Rect.block (s := S1x512) S1x512.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x512.size a ≤ S1x512.size a
  hwx1_3 : ∀ i : grid1.Coords, EltTy.bits .f32 = 32 ∨ (Rect.block (s := S1x512) S1x512.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x512.size a ≤ S50000x512.size a
  hwx1_4 : ∀ i : grid1.Coords, EltTy.bits .bf16 = 32 ∨ (Rect.block (s := S50000x512) S2000x512.size (cc1_transform_4 i) (hinb1_4 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x512.size a ≤ S50000x512.size a
  hwx2_0 : ∀ i : grid2.Coords, EltTy.bits .bf16 = 32 ∨ (Rect.block (s := S50000x512) S5000x512.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S512x512.size a ≤ S512x512.size a
  hwx2_1 : ∀ i : grid2.Coords, EltTy.bits .f32 = 32 ∨ (Rect.block (s := S512x512) S512x512.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x512.size a ≤ S50000x512.size a
  hwx2_2 : ∀ i : grid2.Coords, EltTy.bits .bf16 = 32 ∨ (Rect.block (s := S50000x512) S5000x512.size (cc2_transform_2 i) (hinb2_2 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x512.size a ≤ S50000x512.size a
  hwx3_0 : ∀ i : grid3.Coords, EltTy.bits .f32 = 32 ∨ (Rect.block (s := S50000x512) S2000x512.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x512.size a ≤ S50000x512.size a
  hwx3_1 : ∀ i : grid3.Coords, EltTy.bits .bf16 = 32 ∨ (Rect.block (s := S50000x512) S2000x512.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x512.size a ≤ S1x512.size a
  hwx3_2 : ∀ i : grid3.Coords, EltTy.bits .f32 = 32 ∨ (Rect.block (s := S1x512) S1x512.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2000x512.size a ≤ S50000x512.size a
  hwx3_3 : ∀ i : grid3.Coords, EltTy.bits .bf16 = 32 ∨ (Rect.block (s := S50000x512) S2000x512.size (cc3_transform_3 i) (hinb3_3 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x512.size a ≤ S50000x512.size a
  hwx4_0 : ∀ i : grid4.Coords, EltTy.bits .bf16 = 32 ∨ (Rect.block (s := S50000x512) S5000x512.size (cc4_transform_0 i) (hinb4_0 i)).WholeWords (EltTy.packing .bf16)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S512x512.size a ≤ S512x512.size a
  hwx4_1 : ∀ i : grid4.Coords, EltTy.bits .f32 = 32 ∨ (Rect.block (s := S512x512) S512x512.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x512.size a ≤ S50000x512.size a
  hwx4_2 : ∀ i : grid4.Coords, EltTy.bits .bf16 = 32 ∨ (Rect.block (s := S50000x512) S5000x512.size (cc4_transform_2 i) (hinb4_2 i)).WholeWords (EltTy.packing .bf16)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x512.size a ≤ S50000x512.size a
  hwx5_0 : ∀ i : grid5.Coords, EltTy.bits .f32 = 32 ∨ (Rect.block (s := S50000x512) S2000x512.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2000x512.size a ≤ S50000x512.size a
  hwx5_1 : ∀ i : grid5.Coords, EltTy.bits .bf16 = 32 ∨ (Rect.block (s := S50000x512) S2000x512.size (cc5_transform_1 i) (hinb5_1 i)).WholeWords (EltTy.packing .bf16)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x512.size a ≤ S1x512.size a
  hwx5_2 : ∀ i : grid5.Coords, EltTy.bits .f32 = 32 ∨ (Rect.block (s := S1x512) S1x512.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S2000x512.size a ≤ S50000x512.size a
  hwx5_3 : ∀ i : grid5.Coords, EltTy.bits .bf16 = 32 ∨ (Rect.block (s := S50000x512) S2000x512.size (cc5_transform_3 i) (hinb5_3 i)).WholeWords (EltTy.packing .bf16)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x512.size a ≤ S50000x512.size a
  hwx6_0 : ∀ i : grid6.Coords, EltTy.bits .bf16 = 32 ∨ (Rect.block (s := S50000x512) S5000x512.size (cc6_transform_0 i) (hinb6_0 i)).WholeWords (EltTy.packing .bf16)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S512x512.size a ≤ S512x512.size a
  hwx6_1 : ∀ i : grid6.Coords, EltTy.bits .f32 = 32 ∨ (Rect.block (s := S512x512) S512x512.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S5000x512.size a ≤ S50000x512.size a
  hwx6_2 : ∀ i : grid6.Coords, EltTy.bits .bf16 = 32 ∨ (Rect.block (s := S50000x512) S5000x512.size (cc6_transform_2 i) (hinb6_2 i)).WholeWords (EltTy.packing .bf16)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S2000x512.size a ≤ S50000x512.size a
  hwx7_0 : ∀ i : grid7.Coords, EltTy.bits .f32 = 32 ∨ (Rect.block (s := S50000x512) S2000x512.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S2000x512.size a ≤ S50000x512.size a
  hwx7_1 : ∀ i : grid7.Coords, EltTy.bits .bf16 = 32 ∨ (Rect.block (s := S50000x512) S2000x512.size (cc7_transform_1 i) (hinb7_1 i)).WholeWords (EltTy.packing .bf16)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x512.size a ≤ S1x512.size a
  hwx7_2 : ∀ i : grid7.Coords, EltTy.bits .f32 = 32 ∨ (Rect.block (s := S1x512) S1x512.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S2000x512.size a ≤ S50000x512.size a
  hwx7_3 : ∀ i : grid7.Coords, EltTy.bits .bf16 = 32 ∨ (Rect.block (s := S50000x512) S2000x512.size (cc7_transform_3 i) (hinb7_3 i)).WholeWords (EltTy.packing .bf16)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x512.size a ≤ S50000x512.size a
  hwx8_0 : ∀ i : grid8.Coords, EltTy.bits .bf16 = 32 ∨ (Rect.block (s := S50000x512) S5000x512.size (cc8_transform_0 i) (hinb8_0 i)).WholeWords (EltTy.packing .bf16)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S512x512.size a ≤ S512x512.size a
  hwx8_1 : ∀ i : grid8.Coords, EltTy.bits .f32 = 32 ∨ (Rect.block (s := S512x512) S512x512.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S5000x512.size a ≤ S50000x512.size a
  hwx8_2 : ∀ i : grid8.Coords, EltTy.bits .bf16 = 32 ∨ (Rect.block (s := S50000x512) S5000x512.size (cc8_transform_2 i) (hinb8_2 i)).WholeWords (EltTy.packing .bf16)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S2000x512.size a ≤ S50000x512.size a
  hwx9_0 : ∀ i : grid9.Coords, EltTy.bits .f32 = 32 ∨ (Rect.block (s := S50000x512) S2000x512.size (cc9_transform_0 i) (hinb9_0 i)).WholeWords (EltTy.packing .f32)
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S2000x512.size a ≤ S50000x512.size a
  hwx9_1 : ∀ i : grid9.Coords, EltTy.bits .bf16 = 32 ∨ (Rect.block (s := S50000x512) S2000x512.size (cc9_transform_1 i) (hinb9_1 i)).WholeWords (EltTy.packing .bf16)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S1x512.size a ≤ S1x512.size a
  hwx9_2 : ∀ i : grid9.Coords, EltTy.bits .f32 = 32 ∨ (Rect.block (s := S1x512) S1x512.size (cc9_transform_2 i) (hinb9_2 i)).WholeWords (EltTy.packing .f32)
  hstage9_3 : ∀ j, (stage9_3 j).IsWhole
  nbuf9_3 : grid9.bufCount reads9_3 false = 2
  hreads9_3 : ∀ i i' : grid9.Coords, (∀ a, reads9_3 a = true → i a = i' a) → cc9_transform_3 i = cc9_transform_3 i'
  hinb9_3 : ∀ (i : grid9.Coords) a, (cc9_transform_3 i a + 1) * S2000x512.size a ≤ S50000x512.size a
  hwx9_3 : ∀ i : grid9.Coords, EltTy.bits .bf16 = 32 ∨ (Rect.block (s := S50000x512) S2000x512.size (cc9_transform_3 i) (hinb9_3 i)).WholeWords (EltTy.packing .bf16)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S2000x512.size a ≤ S50000x512.size a
  hwx10_0 : ∀ i : grid10.Coords, EltTy.bits .bf16 = 32 ∨ (Rect.block (s := S50000x512) S2000x512.size (cc10_transform_0 i) (hinb10_0 i)).WholeWords (EltTy.packing .bf16)
  hstage10_1 : ∀ j, (stage10_1 j).IsWhole
  nbuf10_1 : grid10.bufCount reads10_1 true = 1
  hreads10_1 : ∀ i i' : grid10.Coords, (∀ a, reads10_1 a = true → i a = i' a) → cc10_transform_1 i = cc10_transform_1 i'
  hinb10_1 : ∀ (i : grid10.Coords) a, (cc10_transform_1 i a + 1) * S512x128.size a ≤ S512x128.size a
  hwx10_1 : ∀ i : grid10.Coords, EltTy.bits .f32 = 32 ∨ (Rect.block (s := S512x128) S512x128.size (cc10_transform_1 i) (hinb10_1 i)).WholeWords (EltTy.packing .f32)
  hstage10_2 : ∀ j, (stage10_2 j).IsWhole
  nbuf10_2 : grid10.bufCount reads10_2 false = 2
  hreads10_2 : ∀ i i' : grid10.Coords, (∀ a, reads10_2 a = true → i a = i' a) → cc10_transform_2 i = cc10_transform_2 i'
  hinb10_2 : ∀ (i : grid10.Coords) a, (cc10_transform_2 i a + 1) * S2000x128.size a ≤ S50000x128.size a
  hwx10_2 : ∀ i : grid10.Coords, EltTy.bits .bf16 = 32 ∨ (Rect.block (s := S50000x128) S2000x128.size (cc10_transform_2 i) (hinb10_2 i)).WholeWords (EltTy.packing .bf16)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S2000x64.size a ≤ S50000x64.size a
  hwx11_0 : ∀ i : grid11.Coords, EltTy.bits .f32 = 32 ∨ (Rect.block (s := S50000x64) S2000x64.size (cc11_transform_0 i) (hinb11_0 i)).WholeWords (EltTy.packing .f32)
  hstage11_1 : ∀ j, (stage11_1 j).IsWhole
  nbuf11_1 : grid11.bufCount reads11_1 false = 2
  hreads11_1 : ∀ i i' : grid11.Coords, (∀ a, reads11_1 a = true → i a = i' a) → cc11_transform_1 i = cc11_transform_1 i'
  hinb11_1 : ∀ (i : grid11.Coords) a, (cc11_transform_1 i a + 1) * S2000x64.size a ≤ S50000x64.size a
  hwx11_1 : ∀ i : grid11.Coords, EltTy.bits .bf16 = 32 ∨ (Rect.block (s := S50000x64) S2000x64.size (cc11_transform_1 i) (hinb11_1 i)).WholeWords (EltTy.packing .bf16)
  hstage11_2 : ∀ j, (stage11_2 j).IsWhole
  nbuf11_2 : grid11.bufCount reads11_2 true = 1
  hreads11_2 : ∀ i i' : grid11.Coords, (∀ a, reads11_2 a = true → i a = i' a) → cc11_transform_2 i = cc11_transform_2 i'
  hinb11_2 : ∀ (i : grid11.Coords) a, (cc11_transform_2 i a + 1) * S1x64.size a ≤ S1x64.size a
  hwx11_2 : ∀ i : grid11.Coords, EltTy.bits .f32 = 32 ∨ (Rect.block (s := S1x64) S1x64.size (cc11_transform_2 i) (hinb11_2 i)).WholeWords (EltTy.packing .f32)
  hstage11_3 : ∀ j, (stage11_3 j).IsWhole
  nbuf11_3 : grid11.bufCount reads11_3 true = 1
  hreads11_3 : ∀ i i' : grid11.Coords, (∀ a, reads11_3 a = true → i a = i' a) → cc11_transform_3 i = cc11_transform_3 i'
  hinb11_3 : ∀ (i : grid11.Coords) a, (cc11_transform_3 i a + 1) * S1x64.size a ≤ S1x64.size a
  hwx11_3 : ∀ i : grid11.Coords, EltTy.bits .f32 = 32 ∨ (Rect.block (s := S1x64) S1x64.size (cc11_transform_3 i) (hinb11_3 i)).WholeWords (EltTy.packing .f32)
  hstage11_4 : ∀ j, (stage11_4 j).IsWhole
  nbuf11_4 : grid11.bufCount reads11_4 false = 2
  hreads11_4 : ∀ i i' : grid11.Coords, (∀ a, reads11_4 a = true → i a = i' a) → cc11_transform_4 i = cc11_transform_4 i'
  hinb11_4 : ∀ (i : grid11.Coords) a, (cc11_transform_4 i a + 1) * S2000x64.size a ≤ S50000x64.size a
  hwx11_4 : ∀ i : grid11.Coords, EltTy.bits .f32 = 32 ∨ (Rect.block (s := S50000x64) S2000x64.size (cc11_transform_4 i) (hinb11_4 i)).WholeWords (EltTy.packing .f32)

variable [Facts₀]

def dot_S2000x1024_S1024x512_S2000x512_1_0_0_1_n_n : DotDims S2000x1024 S1024x512 S2000x512 where
  lhsContracting := [1]
  rhsContracting := [0]
  lhsNonContracting := [0]
  rhsNonContracting := [1]
  lhsBatch := []
  rhsBatch := []
  wf := dot_S2000x1024_S1024x512_S2000x512_1_0_0_1_n_n_wf
def gather_S50000x512_S160000x1_S160000x512_1_0_n_n_0_1_1512 : GatherDims S50000x512 S160000x1 S160000x512 where
  offsetDims := [1]
  collapsedSliceDims := [0]
  operandBatchingDims := []
  startIndicesBatchingDims := []
  startIndexMap := [0]
  indexVectorDim := 1
  sliceSizes := ![1, 512]
  wf := gather_S50000x512_S160000x1_S160000x512_1_0_n_n_0_1_1512_wf
def scatter_S50000x512_S160000x1_S160000x512_1_0_0_1 : ScatterDims S50000x512 S160000x1 S160000x512 where
  updateWindowDims := [1]
  insertedWindowDims := [0]
  scatterDimsToOperandDims := [0]
  indexVectorDim := 1
  wf := scatter_S50000x512_S160000x1_S160000x512_1_0_0_1_wf
def dot_S5000x512_S512x512_S5000x512_1_0_0_1_n_n : DotDims S5000x512 S512x512 S5000x512 where
  lhsContracting := [1]
  rhsContracting := [0]
  lhsNonContracting := [0]
  rhsNonContracting := [1]
  lhsBatch := []
  rhsBatch := []
  wf := dot_S5000x512_S512x512_S5000x512_1_0_0_1_n_n_wf
def dot_S2000x512_S512x128_S2000x128_1_0_0_1_n_n : DotDims S2000x512 S512x128 S2000x128 where
  lhsContracting := [1]
  rhsContracting := [0]
  lhsNonContracting := [0]
  rhsNonContracting := [1]
  lhsBatch := []
  rhsBatch := []
  wf := dot_S2000x512_S512x128_S2000x128_1_0_0_1_n_n_wf
def gather_S50000x64_S160000x1_S160000x64_1_0_n_n_0_1_164 : GatherDims S50000x64 S160000x1 S160000x64 where
  offsetDims := [1]
  collapsedSliceDims := [0]
  operandBatchingDims := []
  startIndicesBatchingDims := []
  startIndexMap := [0]
  indexVectorDim := 1
  sliceSizes := ![1, 64]
  wf := gather_S50000x64_S160000x1_S160000x64_1_0_n_n_0_1_164_wf
def scatter_S50000x64_S160000x1_S160000x64_1_0_0_1 : ScatterDims S50000x64 S160000x1 S160000x64 where
  updateWindowDims := [1]
  insertedWindowDims := [0]
  scatterDimsToOperandDims := [0]
  indexVectorDim := 1
  wf := scatter_S50000x64_S160000x1_S160000x64_1_0_0_1_wf

abbrev win0_0 : Pipeline.Window sig grid0 :=
  Pipeline.Window.ofSpec (Memref.whole main_arg0) S2000x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S1024x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg6) S1024x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S2000x512.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S2000x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v14) S2000x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0_1) S2000x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v15) S1x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v16) S1x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v17) S2000x512.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v17) S5000x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg8) S512x512.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v18) S5000x512.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v32) S2000x512.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v17) S2000x512.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v33) S1x512.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v34) S2000x512.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v34) S5000x512.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg8) S512x512.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v35) S5000x512.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v49) S2000x512.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v34) S2000x512.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v50) S1x512.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v51) S2000x512.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v51) S5000x512.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg8) S512x512.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v52) S5000x512.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v66) S2000x512.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v51) S2000x512.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v67) S1x512.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v68) S2000x512.size cc7_transform_3 reads7_3 true false 2 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

abbrev win8_0 : Pipeline.Window sig grid8 :=
  Pipeline.Window.ofSpec (Memref.whole main_v68) S5000x512.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_arg8) S512x512.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v69) S5000x512.size cc8_transform_2 reads8_2 true false 2 stage8_2 sem8_2
    hrank8 hreads8_2 hinb8_2 nbuf8_2 (Memref.isWhole_whole _) hwx8_2 hstage8_2

abbrev win8 : Fin 3 → Pipeline.Window sig grid8 := fun | 0 => win8_0 | 1 => win8_1 | 2 => win8_2 | ⟨_ + 3, h⟩ => absurd h (Nat.not_lt.2 (Nat.le_add_left _ _))
abbrev spec8 : Fin 3 → Pipeline.WinSpec sig grid8.rank := fun w => (win8 w).toWinSpec

abbrev win9_0 : Pipeline.Window sig grid9 :=
  Pipeline.Window.ofSpec (Memref.whole main_v83) S2000x512.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v68) S2000x512.size cc9_transform_1 reads9_1 false false 2 stage9_1 sem9_1
    hrank9 hreads9_1 hinb9_1 nbuf9_1 (Memref.isWhole_whole _) hwx9_1 hstage9_1

abbrev win9_2 : Pipeline.Window sig grid9 :=
  Pipeline.Window.ofSpec (Memref.whole main_v84) S1x512.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v85) S2000x512.size cc9_transform_3 reads9_3 true false 2 stage9_3 sem9_3
    hrank9 hreads9_3 hinb9_3 nbuf9_3 (Memref.isWhole_whole _) hwx9_3 hstage9_3

abbrev win9 : Fin 4 → Pipeline.Window sig grid9 := fun | 0 => win9_0 | 1 => win9_1 | 2 => win9_2 | 3 => win9_3 | ⟨_ + 4, h⟩ => absurd h (Nat.not_lt.2 (Nat.le_add_left _ _))
abbrev spec9 : Fin 4 → Pipeline.WinSpec sig grid9.rank := fun w => (win9 w).toWinSpec

abbrev win10_0 : Pipeline.Window sig grid10 :=
  Pipeline.Window.ofSpec (Memref.whole main_v85) S2000x512.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v86) S512x128.size cc10_transform_1 reads10_1 false true 1 stage10_1 sem10_1
    hrank10 hreads10_1 hinb10_1 nbuf10_1 (Memref.isWhole_whole _) hwx10_1 hstage10_1

abbrev win10_2 : Pipeline.Window sig grid10 :=
  Pipeline.Window.ofSpec (Memref.whole main_v87) S2000x128.size cc10_transform_2 reads10_2 true false 2 stage10_2 sem10_2
    hrank10 hreads10_2 hinb10_2 nbuf10_2 (Memref.isWhole_whole _) hwx10_2 hstage10_2

abbrev win10 : Fin 3 → Pipeline.Window sig grid10 := fun | 0 => win10_0 | 1 => win10_1 | 2 => win10_2 | ⟨_ + 3, h⟩ => absurd h (Nat.not_lt.2 (Nat.le_add_left _ _))
abbrev spec10 : Fin 3 → Pipeline.WinSpec sig grid10.rank := fun w => (win10 w).toWinSpec

abbrev win11_0 : Pipeline.Window sig grid11 :=
  Pipeline.Window.ofSpec (Memref.whole main_v103) S2000x64.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v89) S2000x64.size cc11_transform_1 reads11_1 false false 2 stage11_1 sem11_1
    hrank11 hreads11_1 hinb11_1 nbuf11_1 (Memref.isWhole_whole _) hwx11_1 hstage11_1

abbrev win11_2 : Pipeline.Window sig grid11 :=
  Pipeline.Window.ofSpec (Memref.whole main_v104) S1x64.size cc11_transform_2 reads11_2 false true 1 stage11_2 sem11_2
    hrank11 hreads11_2 hinb11_2 nbuf11_2 (Memref.isWhole_whole _) hwx11_2 hstage11_2

abbrev win11_3 : Pipeline.Window sig grid11 :=
  Pipeline.Window.ofSpec (Memref.whole main_v105) S1x64.size cc11_transform_3 reads11_3 false true 1 stage11_3 sem11_3
    hrank11 hreads11_3 hinb11_3 nbuf11_3 (Memref.isWhole_whole _) hwx11_3 hstage11_3

abbrev win11_4 : Pipeline.Window sig grid11 :=
  Pipeline.Window.ofSpec (Memref.whole main_v106) S2000x64.size cc11_transform_4 reads11_4 true false 2 stage11_4 sem11_4
    hrank11 hreads11_4 hinb11_4 nbuf11_4 (Memref.isWhole_whole _) hwx11_4 hstage11_4

abbrev win11 : Fin 5 → Pipeline.Window sig grid11 := fun | 0 => win11_0 | 1 => win11_1 | 2 => win11_2 | 3 => win11_3 | 4 => win11_4 | ⟨_ + 5, h⟩ => absurd h (Nat.not_lt.2 (Nat.le_add_left _ _))
abbrev spec11 : Fin 5 → Pipeline.WinSpec sig grid11.rank := fun w => (win11 w).toWinSpec

class Facts : Prop extends Facts₀ where

variable [Facts]
-- ==== ReferenceIdeal.lean ====
abbrev S50000x1024 : Shape := ⟨2, ![50000, 1024]⟩
abbrev S160000 : Shape := ⟨1, ![160000]⟩
abbrev S1024x512 : Shape := ⟨2, ![1024, 512]⟩
abbrev S512 : Shape := ⟨1, ![512]⟩
abbrev S512x512 : Shape := ⟨2, ![512, 512]⟩
abbrev S512x64 : Shape := ⟨2, ![512, 64]⟩
abbrev S64 : Shape := ⟨1, ![64]⟩
abbrev S50000x512 : Shape := ⟨2, ![50000, 512]⟩
abbrev S160000x1 : Shape := ⟨2, ![160000, 1]⟩
abbrev S_ : Shape := ⟨0, ![]⟩
abbrev S160000x512 : Shape := ⟨2, ![160000, 512]⟩
abbrev S1x512 : Shape := ⟨2, ![1, 512]⟩
abbrev S50000x64 : Shape := ⟨2, ![50000, 64]⟩
abbrev S160000x64 : Shape := ⟨2, ![160000, 64]⟩
abbrev S1x64 : Shape := ⟨2, ![1, 64]⟩
abbrev S50000 : Shape := ⟨1, ![50000]⟩
abbrev S50000x1 : Shape := ⟨2, ![50000, 1]⟩

abbrev nBuf : Space → Nat
  | .hbm => 196
  | .vmem => 0
  | .smem => 0
  | _ => 0

abbrev hbmTy0_0 (i : Nat) : BufTy := match i % 128 with
  | 0 => ⟨S50000x1024, .f32⟩
  | 1 => ⟨S160000, .i32⟩
  | 2 => ⟨S160000, .i32⟩
  | 3 => ⟨S160000, .f32⟩
  | 4 => ⟨S1024x512, .f32⟩
  | 5 => ⟨S512, .f32⟩
  | 6 => ⟨S1024x512, .f32⟩
  | 7 => ⟨S512, .f32⟩
  | 8 => ⟨S512x512, .f32⟩
  | 9 => ⟨S512, .f32⟩
  | 10 => ⟨S512x64, .f32⟩
  | 11 => ⟨S64, .f32⟩
  | 12 => ⟨S512x64, .f32⟩
  | 13 => ⟨S64, .f32⟩
  | 14 => ⟨S50000x512, .f32⟩
  | 15 => ⟨S160000x1, .f32⟩
  | 16 => ⟨S_, .i32⟩
  | 17 => ⟨S160000, .i32⟩
  | 18 => ⟨S160000, .i1⟩
  | 19 => ⟨S_, .i32⟩
  | 20 => ⟨S160000, .i32⟩
  | 21 => ⟨S160000, .i32⟩
  | 22 => ⟨S160000, .i32⟩
  | 23 => ⟨S160000x1, .i32⟩
  | 24 => ⟨S160000x512, .f32⟩
  | 25 => ⟨S160000x512, .f32⟩
  | 26 => ⟨S160000x512, .f32⟩
  | 27 => ⟨S_, .f32⟩
  | 28 => ⟨S50000x512, .f32⟩
  | 29 => ⟨S160000x1, .i32⟩
  | 30 => ⟨S50000x512, .f32⟩
  | 31 => ⟨S1x512, .f32⟩
  | 32 => ⟨S50000x512, .f32⟩
  | 33 => ⟨S50000x512, .f32⟩
  | 34 => ⟨S50000x512, .f32⟩
  | 35 => ⟨S50000x512, .f32⟩
  | 36 => ⟨S1x512, .f32⟩
  | 37 => ⟨S50000x512, .f32⟩
  | 38 => ⟨S50000x512, .f32⟩
  | 39 => ⟨S_, .f32⟩
  | 40 => ⟨S50000x512, .f32⟩
  | 41 => ⟨S50000x512, .f32⟩
  | 42 => ⟨S_, .f32⟩
  | 43 => ⟨S50000x512, .f32⟩
  | 44 => ⟨S50000x512, .f32⟩
  | 45 => ⟨S50000x512, .f32⟩
  | 46 => ⟨S160000x1, .f32⟩
  | 47 => ⟨S_, .i32⟩
  | 48 => ⟨S160000, .i32⟩
  | 49 => ⟨S160000, .i1⟩
  | 50 => ⟨S_, .i32⟩
  | 51 => ⟨S160000, .i32⟩
  | 52 => ⟨S160000, .i32⟩
  | 53 => ⟨S160000, .i32⟩
  | 54 => ⟨S160000x1, .i32⟩
  | 55 => ⟨S160000x512, .f32⟩
  | 56 => ⟨S160000x512, .f32⟩
  | 57 => ⟨S160000x512, .f32⟩
  | 58 => ⟨S_, .f32⟩
  | 59 => ⟨S50000x512, .f32⟩
  | 60 => ⟨S160000x1, .i32⟩
  | 61 => ⟨S50000x512, .f32⟩
  | 62 => ⟨S1x512, .f32⟩
  | 63 => ⟨S50000x512, .f32⟩
  | 64 => ⟨S50000x512, .f32⟩
  | 65 => ⟨S50000x512, .f32⟩
  | 66 => ⟨S_, .f32⟩
  | 67 => ⟨S50000x512, .f32⟩
  | 68 => ⟨S50000x512, .f32⟩
  | 69 => ⟨S_, .f32⟩
  | 70 => ⟨S50000x512, .f32⟩
  | 71 => ⟨S50000x512, .f32⟩
  | 72 => ⟨S50000x512, .f32⟩
  | 73 => ⟨S160000x1, .f32⟩
  | 74 => ⟨S_, .i32⟩
  | 75 => ⟨S160000, .i32⟩
  | 76 => ⟨S160000, .i1⟩
  | 77 => ⟨S_, .i32⟩
  | 78 => ⟨S160000, .i32⟩
  | 79 => ⟨S160000, .i32⟩
  | 80 => ⟨S160000, .i32⟩
  | 81 => ⟨S160000x1, .i32⟩
  | 82 => ⟨S160000x512, .f32⟩
  | 83 => ⟨S160000x512, .f32⟩
  | 84 => ⟨S160000x512, .f32⟩
  | 85 => ⟨S_, .f32⟩
  | 86 => ⟨S50000x512, .f32⟩
  | 87 => ⟨S160000x1, .i32⟩
  | 88 => ⟨S50000x512, .f32⟩
  | 89 => ⟨S1x512, .f32⟩
  | 90 => ⟨S50000x512, .f32⟩
  | 91 => ⟨S50000x512, .f32⟩
  | 92 => ⟨S50000x512, .f32⟩
  | 93 => ⟨S_, .f32⟩
  | 94 => ⟨S50000x512, .f32⟩
  | 95 => ⟨S50000x512, .f32⟩
  | 96 => ⟨S_, .f32⟩
  | 97 => ⟨S50000x512, .f32⟩
  | 98 => ⟨S50000x512, .f32⟩
  | 99 => ⟨S50000x512, .f32⟩
  | 100 => ⟨S160000x1, .f32⟩
  | 101 => ⟨S_, .i32⟩
  | 102 => ⟨S160000, .i32⟩
  | 103 => ⟨S160000, .i1⟩
  | 104 => ⟨S_, .i32⟩
  | 105 => ⟨S160000, .i32⟩
  | 106 => ⟨S160000, .i32⟩
  | 107 => ⟨S160000, .i32⟩
  | 108 => ⟨S160000x1, .i32⟩
  | 109 => ⟨S160000x512, .f32⟩
  | 110 => ⟨S160000x512, .f32⟩
  | 111 => ⟨S160000x512, .f32⟩
  | 112 => ⟨S_, .f32⟩
  | 113 => ⟨S50000x512, .f32⟩
  | 114 => ⟨S160000x1, .i32⟩
  | 115 => ⟨S50000x512, .f32⟩
  | 116 => ⟨S1x512, .f32⟩
  | 117 => ⟨S50000x512, .f32⟩
  | 118 => ⟨S50000x512, .f32⟩
  | 119 => ⟨S50000x512, .f32⟩
  | 120 => ⟨S_, .f32⟩
  | 121 => ⟨S50000x512, .f32⟩
  | 122 => ⟨S50000x512, .f32⟩
  | 123 => ⟨S_, .f32⟩
  | 124 => ⟨S50000x512, .f32⟩
  | 125 => ⟨S50000x512, .f32⟩
  | 126 => ⟨S50000x512, .f32⟩
  | 127 => ⟨S160000x1, .f32⟩
  | _ => ⟨S50000x1024, .f32⟩

abbrev hbmTy0_1 (i : Nat) : BufTy := match i % 128 with
  | 0 => ⟨S_, .i32⟩
  | 1 => ⟨S160000, .i32⟩
  | 2 => ⟨S160000, .i1⟩
  | 3 => ⟨S_, .i32⟩
  | 4 => ⟨S160000, .i32⟩
  | 5 => ⟨S160000, .i32⟩
  | 6 => ⟨S160000, .i32⟩
  | 7 => ⟨S160000x1, .i32⟩
  | 8 => ⟨S160000x512, .f32⟩
  | 9 => ⟨S160000x512, .f32⟩
  | 10 => ⟨S160000x512, .f32⟩
  | 11 => ⟨S_, .f32⟩
  | 12 => ⟨S50000x512, .f32⟩
  | 13 => ⟨S160000x1, .i32⟩
  | 14 => ⟨S50000x512, .f32⟩
  | 15 => ⟨S1x512, .f32⟩
  | 16 => ⟨S50000x512, .f32⟩
  | 17 => ⟨S50000x512, .f32⟩
  | 18 => ⟨S50000x512, .f32⟩
  | 19 => ⟨S_, .f32⟩
  | 20 => ⟨S50000x512, .f32⟩
  | 21 => ⟨S50000x512, .f32⟩
  | 22 => ⟨S_, .f32⟩
  | 23 => ⟨S50000x512, .f32⟩
  | 24 => ⟨S50000x512, .f32⟩
  | 25 => ⟨S50000x64, .f32⟩
  | 26 => ⟨S160000x1, .f32⟩
  | 27 => ⟨S_, .i32⟩
  | 28 => ⟨S160000, .i32⟩
  | 29 => ⟨S160000, .i1⟩
  | 30 => ⟨S_, .i32⟩
  | 31 => ⟨S160000, .i32⟩
  | 32 => ⟨S160000, .i32⟩
  | 33 => ⟨S160000, .i32⟩
  | 34 => ⟨S160000x1, .i32⟩
  | 35 => ⟨S160000x64, .f32⟩
  | 36 => ⟨S160000x64, .f32⟩
  | 37 => ⟨S160000x64, .f32⟩
  | 38 => ⟨S_, .f32⟩
  | 39 => ⟨S50000x64, .f32⟩
  | 40 => ⟨S160000x1, .i32⟩
  | 41 => ⟨S50000x64, .f32⟩
  | 42 => ⟨S1x64, .f32⟩
  | 43 => ⟨S50000x64, .f32⟩
  | 44 => ⟨S50000x64, .f32⟩
  | 45 => ⟨S50000x64, .f32⟩
  | 46 => ⟨S50000x64, .f32⟩
  | 47 => ⟨S1x64, .f32⟩
  | 48 => ⟨S50000x64, .f32⟩
  | 49 => ⟨S50000x64, .f32⟩
  | 50 => ⟨S_, .f32⟩
  | 51 => ⟨S50000x64, .f32⟩
  | 52 => ⟨S50000x64, .f32⟩
  | 53 => ⟨S_, .f32⟩
  | 54 => ⟨S50000, .f32⟩
  | 55 => ⟨S_, .f32⟩
  | 56 => ⟨S50000, .f32⟩
  | 57 => ⟨S50000, .f32⟩
  | 58 => ⟨S50000x1, .f32⟩
  | 59 => ⟨S50000x64, .f32⟩
  | 60 => ⟨S50000x64, .f32⟩
  | 61 => ⟨S50000x64, .f32⟩
  | 62 => ⟨S_, .f32⟩
  | 63 => ⟨S50000, .f32⟩
  | 64 => ⟨S50000x1, .f32⟩
  | 65 => ⟨S50000x1, .f32⟩
  | 66 => ⟨S50000x64, .f32⟩
  | 67 => ⟨S50000x64, .f32⟩
  | _ => ⟨S50000x1024, .f32⟩

abbrev hbmTy (i : Nat) : BufTy := match i / 128 with
  | 0 => hbmTy0_0 i
  | 1 => hbmTy0_1 i
  | _ => ⟨S50000x1024, .f32⟩

abbrev bufTy : (tb : Table) → Fin (tcTables nBuf tb) → BufTy
  | .hbm, ⟨i, _⟩ => hbmTy i
  | _, _ => ⟨S50000x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_c : Ref sig .tc := ⟨.hbm, 16, rfl⟩
abbrev main_v2 : Ref sig .tc := ⟨.hbm, 17, rfl⟩
abbrev main_v3 : Ref sig .tc := ⟨.hbm, 18, rfl⟩
abbrev main_c_0 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_call0_cst : Ref sig .tc := ⟨.hbm, 39, rfl⟩
abbrev main_call0_v0 : Ref sig .tc := ⟨.hbm, 40, rfl⟩
abbrev main_v22 : Ref sig .tc := ⟨.hbm, 41, rfl⟩
abbrev main_call1_cst : Ref sig .tc := ⟨.hbm, 42, rfl⟩
abbrev main_call1_v0 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_c_1 : Ref sig .tc := ⟨.hbm, 47, rfl⟩
abbrev main_v26 : Ref sig .tc := ⟨.hbm, 48, rfl⟩
abbrev main_v27 : Ref sig .tc := ⟨.hbm, 49, rfl⟩
abbrev main_c_2 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_cst_3 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_call2_cst : Ref sig .tc := ⟨.hbm, 66, rfl⟩
abbrev main_call2_v0 : Ref sig .tc := ⟨.hbm, 67, rfl⟩
abbrev main_v42 : Ref sig .tc := ⟨.hbm, 68, rfl⟩
abbrev main_call3_cst : Ref sig .tc := ⟨.hbm, 69, rfl⟩
abbrev main_call3_v0 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_c_4 : Ref sig .tc := ⟨.hbm, 74, rfl⟩
abbrev main_v46 : Ref sig .tc := ⟨.hbm, 75, rfl⟩
abbrev main_v47 : Ref sig .tc := ⟨.hbm, 76, rfl⟩
abbrev main_c_5 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_cst_6 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_call4_cst : Ref sig .tc := ⟨.hbm, 93, rfl⟩
abbrev main_call4_v0 : Ref sig .tc := ⟨.hbm, 94, rfl⟩
abbrev main_v62 : Ref sig .tc := ⟨.hbm, 95, rfl⟩
abbrev main_call5_cst : Ref sig .tc := ⟨.hbm, 96, rfl⟩
abbrev main_call5_v0 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_c_7 : Ref sig .tc := ⟨.hbm, 101, rfl⟩
abbrev main_v66 : Ref sig .tc := ⟨.hbm, 102, rfl⟩
abbrev main_v67 : Ref sig .tc := ⟨.hbm, 103, rfl⟩
abbrev main_c_8 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_cst_9 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_call6_cst : Ref sig .tc := ⟨.hbm, 120, rfl⟩
abbrev main_call6_v0 : Ref sig .tc := ⟨.hbm, 121, rfl⟩
abbrev main_v82 : Ref sig .tc := ⟨.hbm, 122, rfl⟩
abbrev main_call7_cst : Ref sig .tc := ⟨.hbm, 123, rfl⟩
abbrev main_call7_v0 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_c_10 : Ref sig .tc := ⟨.hbm, 128, rfl⟩
abbrev main_v86 : Ref sig .tc := ⟨.hbm, 129, rfl⟩
abbrev main_v87 : Ref sig .tc := ⟨.hbm, 130, rfl⟩
abbrev main_c_11 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_cst_12 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev main_call8_cst : Ref sig .tc := ⟨.hbm, 147, rfl⟩
abbrev main_call8_v0 : Ref sig .tc := ⟨.hbm, 148, rfl⟩
abbrev main_v102 : Ref sig .tc := ⟨.hbm, 149, rfl⟩
abbrev main_call9_cst : Ref sig .tc := ⟨.hbm, 150, rfl⟩
abbrev main_call9_v0 : Ref sig .tc := ⟨.hbm, 151, rfl⟩
abbrev main_v103 : Ref sig .tc := ⟨.hbm, 152, rfl⟩
abbrev main_v104 : Ref sig .tc := ⟨.hbm, 153, rfl⟩
abbrev main_v105 : Ref sig .tc := ⟨.hbm, 154, rfl⟩
abbrev main_c_13 : Ref sig .tc := ⟨.hbm, 155, rfl⟩
abbrev main_v106 : Ref sig .tc := ⟨.hbm, 156, rfl⟩
abbrev main_v107 : Ref sig .tc := ⟨.hbm, 157, rfl⟩
abbrev main_c_14 : Ref sig .tc := ⟨.hbm, 158, rfl⟩
abbrev main_v108 : Ref sig .tc := ⟨.hbm, 159, rfl⟩
abbrev main_v109 : Ref sig .tc := ⟨.hbm, 160, rfl⟩
abbrev main_v110 : Ref sig .tc := ⟨.hbm, 161, rfl⟩
abbrev main_v111 : Ref sig .tc := ⟨.hbm, 162, rfl⟩
abbrev main_v112 : Ref sig .tc := ⟨.hbm, 163, rfl⟩
abbrev main_v113 : Ref sig .tc := ⟨.hbm, 164, rfl⟩
abbrev main_v114 : Ref sig .tc := ⟨.hbm, 165, rfl⟩
abbrev main_cst_15 : Ref sig .tc := ⟨.hbm, 166, rfl⟩
abbrev main_v115 : Ref sig .tc := ⟨.hbm, 167, rfl⟩
abbrev main_v116 : Ref sig .tc := ⟨.hbm, 168, rfl⟩
abbrev main_v117 : Ref sig .tc := ⟨.hbm, 169, rfl⟩
abbrev main_v118 : Ref sig .tc := ⟨.hbm, 170, rfl⟩
abbrev main_v119 : Ref sig .tc := ⟨.hbm, 171, rfl⟩
abbrev main_v120 : Ref sig .tc := ⟨.hbm, 172, rfl⟩
abbrev main_v121 : Ref sig .tc := ⟨.hbm, 173, rfl⟩
abbrev main_v122 : Ref sig .tc := ⟨.hbm, 174, rfl⟩
abbrev main_v123 : Ref sig .tc := ⟨.hbm, 175, rfl⟩
abbrev main_v124 : Ref sig .tc := ⟨.hbm, 176, rfl⟩
abbrev main_v125 : Ref sig .tc := ⟨.hbm, 177, rfl⟩
abbrev main_call10_cst : Ref sig .tc := ⟨.hbm, 178, rfl⟩
abbrev main_call10_v0 : Ref sig .tc := ⟨.hbm, 179, rfl⟩
abbrev main_v126 : Ref sig .tc := ⟨.hbm, 180, rfl⟩
abbrev main_call11_cst : Ref sig .tc := ⟨.hbm, 181, rfl⟩
abbrev main_call11_v0 : Ref sig .tc := ⟨.hbm, 182, rfl⟩
abbrev main_call11_cst_0 : Ref sig .tc := ⟨.hbm, 183, rfl⟩
abbrev main_call11_v1 : Ref sig .tc := ⟨.hbm, 184, rfl⟩
abbrev main_call11_v2 : Ref sig .tc := ⟨.hbm, 185, rfl⟩
abbrev main_call11_v3 : Ref sig .tc := ⟨.hbm, 186, rfl⟩
abbrev main_call11_v4 : Ref sig .tc := ⟨.hbm, 187, rfl⟩
abbrev main_call11_v5 : Ref sig .tc := ⟨.hbm, 188, rfl⟩
abbrev main_call11_v6 : Ref sig .tc := ⟨.hbm, 189, rfl⟩
abbrev main_call11_cst_1 : Ref sig .tc := ⟨.hbm, 190, rfl⟩
abbrev main_call11_v7 : Ref sig .tc := ⟨.hbm, 191, rfl⟩
abbrev main_call11_v8 : Ref sig .tc := ⟨.hbm, 192, rfl⟩
abbrev main_call11_v9 : Ref sig .tc := ⟨.hbm, 193, rfl⟩
abbrev main_call11_v10 : Ref sig .tc := ⟨.hbm, 194, rfl⟩
abbrev main_v127 : Ref sig .tc := ⟨.hbm, 195, rfl⟩

abbrev nD : Nat := 1
abbrev τ : Topo := Topo.v7x

variable {F : FTy → Type} [FloatOps F]

class Facts₀ : Prop where
  bcast_S160000_S160000x1_0 : S160000.BroadcastsInDim S160000x1 (![0] : Fin 1 → Fin S160000x1.rank)
  bcast_S_S160000 : S_.BroadcastsInDim S160000 (![] : Fin 0 → Fin S160000.rank)
  bcast_S160000x1_S160000x512_0_1 : S160000x1.BroadcastsInDim S160000x512 (![0, 1] : Fin 2 → Fin S160000x512.rank)
  bcast_S_S50000x512 : S_.BroadcastsInDim S50000x512 (![] : Fin 0 → Fin S50000x512.rank)
  bcast_S512_S1x512_1 : S512.BroadcastsInDim S1x512 (![1] : Fin 1 → Fin S1x512.rank)
  bcast_S1x512_S50000x512_0_1 : S1x512.BroadcastsInDim S50000x512 (![0, 1] : Fin 2 → Fin S50000x512.rank)
  bcast_S160000x1_S160000x64_0_1 : S160000x1.BroadcastsInDim S160000x64 (![0, 1] : Fin 2 → Fin S160000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  reducesTo_S50000x64_S50000_d1 : S50000x64.ReducesTo [1] S50000
  h_S_ : 0 < S_.numel
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  dot_S50000x1024_S1024x512_S50000x512_1_0_0_1_n_n_wf : DotDims.WF S50000x1024 S1024x512 S50000x512 [1] [0] [0] [1] [] []
  gather_S50000x512_S160000x1_S160000x512_1_0_n_n_0_1_1512_wf : GatherDims.WF S50000x512 S160000x1 S160000x512 [1] [0] [] [0] [] 1 ![1, 512]
  scatter_S50000x512_S160000x1_S160000x512_1_0_0_1_wf : ScatterDims.WF S50000x512 S160000x1 S160000x512 [1] [0] [0] 1
  dot_S50000x512_S512x512_S50000x512_1_0_0_1_n_n_wf : DotDims.WF S50000x512 S512x512 S50000x512 [1] [0] [0] [1] [] []
  dot_S50000x512_S512x64_S50000x64_1_0_0_1_n_n_wf : DotDims.WF S50000x512 S512x64 S50000x64 [1] [0] [0] [1] [] []
  gather_S50000x64_S160000x1_S160000x64_1_0_n_n_0_1_164_wf : GatherDims.WF S50000x64 S160000x1 S160000x64 [1] [0] [] [0] [] 1 ![1, 64]
  scatter_S50000x64_S160000x1_S160000x64_1_0_0_1_wf : ScatterDims.WF S50000x64 S160000x1 S160000x64 [1] [0] [0] 1

variable [Facts₀]

def dot_S50000x1024_S1024x512_S50000x512_1_0_0_1_n_n : DotDims S50000x1024 S1024x512 S50000x512 where
  lhsContracting := [1]
  rhsContracting := [0]
  lhsNonContracting := [0]
  rhsNonContracting := [1]
  lhsBatch := []
  rhsBatch := []
  wf := dot_S50000x1024_S1024x512_S50000x512_1_0_0_1_n_n_wf
def gather_S50000x512_S160000x1_S160000x512_1_0_n_n_0_1_1512 : GatherDims S50000x512 S160000x1 S160000x512 where
  offsetDims := [1]
  collapsedSliceDims := [0]
  operandBatchingDims := []
  startIndicesBatchingDims := []
  startIndexMap := [0]
  indexVectorDim := 1
  sliceSizes := ![1, 512]
  wf := gather_S50000x512_S160000x1_S160000x512_1_0_n_n_0_1_1512_wf
def scatter_S50000x512_S160000x1_S160000x512_1_0_0_1 : ScatterDims S50000x512 S160000x1 S160000x512 where
  updateWindowDims := [1]
  insertedWindowDims := [0]
  scatterDimsToOperandDims := [0]
  indexVectorDim := 1
  wf := scatter_S50000x512_S160000x1_S160000x512_1_0_0_1_wf
def dot_S50000x512_S512x512_S50000x512_1_0_0_1_n_n : DotDims S50000x512 S512x512 S50000x512 where
  lhsContracting := [1]
  rhsContracting := [0]
  lhsNonContracting := [0]
  rhsNonContracting := [1]
  lhsBatch := []
  rhsBatch := []
  wf := dot_S50000x512_S512x512_S50000x512_1_0_0_1_n_n_wf
def dot_S50000x512_S512x64_S50000x64_1_0_0_1_n_n : DotDims S50000x512 S512x64 S50000x64 where
  lhsContracting := [1]
  rhsContracting := [0]
  lhsNonContracting := [0]
  rhsNonContracting := [1]
  lhsBatch := []
  rhsBatch := []
  wf := dot_S50000x512_S512x64_S50000x64_1_0_0_1_n_n_wf
def gather_S50000x64_S160000x1_S160000x64_1_0_n_n_0_1_164 : GatherDims S50000x64 S160000x1 S160000x64 where
  offsetDims := [1]
  collapsedSliceDims := [0]
  operandBatchingDims := []
  startIndicesBatchingDims := []
  startIndexMap := [0]
  indexVectorDim := 1
  sliceSizes := ![1, 64]
  wf := gather_S50000x64_S160000x1_S160000x64_1_0_n_n_0_1_164_wf
def scatter_S50000x64_S160000x1_S160000x64_1_0_0_1 : ScatterDims S50000x64 S160000x1 S160000x64 where
  updateWindowDims := [1]
  insertedWindowDims := [0]
  scatterDimsToOperandDims := [0]
  indexVectorDim := 1
  wf := scatter_S50000x64_S160000x1_S160000x64_1_0_0_1_wf

class Facts : Prop extends Facts₀ where

variable [Facts]
-- ==== Proof.KernelRun.lean ====
import proofs.«153699_j13692355740362_2_alg».proof.Proof.Gen.KernelIdeal.Frame

/-!
# The kernel program's run, with its result named

The program is twelve pallas_calls among stretches of host operations.  Its run is the library's theorem for such a
chain of segments; the final thread state holds every buffer at the contents after the last segment, so besides the
arguments ending as launched the RESULT buffer ends at those contents too.  What those contents are, as a function of
the arguments, is the business of the other modules.
-/

set_option maxRecDepth 16384

noncomputable section

namespace Cert.KernelIdeal.ValueRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel program terminates, nothing faulting, with the result buffer at the
    contents the last segment leaves and the argument arrays as launched. -/
theorem run : θ_run defs (onTc (τ := τ) (main (F := F))) ⟨m, fun _ => 0, ρ⟩ (fun r => ∀ c : Dev nD,
      r.2.mem ((c.tc : Thread nD τ).loc main_v106) = W19 m ρ c (Proc.devRef .tc main_v106)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W19 m ρ c b)
    (hfin := fun c s' => by
      iintro ⟨⟨Hh, -⟩, HSI⟩
      unfold StableHlo.held
      imodintro
      iapply (pointsTo_read_all (Pipeline.ucRefs τ sig) (fun b => (((c : Thread nD τ)).1, b)) (W19 m ρ c) s')
      isplitl [Hh] <;> iassumption)
    (hQ := fun s h c =>
      ⟨h c _ (mem_uc main_v106 (by decide)),
       (h c _ (mem_uc main_arg0 (by decide))).trans (W19_main_arg0 m ρ c),
       (h c _ (mem_uc main_arg1 (by decide))).trans (W19_main_arg1 m ρ c),
       (h c _ (mem_uc main_arg2 (by decide))).trans (W19_main_arg2 m ρ c),
       (h c _ (mem_uc main_arg3 (by decide))).trans (W19_main_arg3 m ρ c),
       (h c _ (mem_uc main_arg4 (by decide))).trans (W19_main_arg4 m ρ c),
       (h c _ (mem_uc main_arg5 (by decide))).trans (W19_main_arg5 m ρ c),
       (h c _ (mem_uc main_arg6 (by decide))).trans (W19_main_arg6 m ρ c),
       (h c _ (mem_uc main_arg7 (by decide))).trans (W19_main_arg7 m ρ c),
       (h c _ (mem_uc main_arg8 (by decide))).trans (W19_main_arg8 m ρ c),
       (h c _ (mem_uc main_arg9 (by decide))).trans (W19_main_arg9 m ρ c),
       (h c _ (mem_uc main_arg10 (by decide))).trans (W19_main_arg10 m ρ c),
       (h c _ (mem_uc main_arg11 (by decide))).trans (W19_main_arg11 m ρ c),
       (h c _ (mem_uc main_arg12 (by decide))).trans (W19_main_arg12 m ρ c),
       (h c _ (mem_uc main_arg13 (by decide))).trans (W19_main_arg13 m ρ c)⟩)

end Cert.KernelIdeal.ValueRun

end
-- ==== Proof.Spec.lean ====
import Idealize.ShloMosaic.PureOps.Ideal
import Idealize.ShloMosaic.PureOps.Ideal.Laws
import Idealize.ShloMosaic.Lib.ValueIdx

/-!
# The graph-convolution network as whole-array functions over the extended reals

Every array is a function from a two-coordinate (or one-coordinate) index to an extended real.
`mm` is the matrix product, `act4` / `act3` the bias + residual + rectifier of a layer with / without a projected
residual, `lsm` the row-wise log-softmax in its shifted form, and `net` the six layers in order.  The sparse
adjacency product is a PARAMETER (`sp`, `sq`): both programs apply one and the same gather–scale–scatter chain, so the
network is stated for any such function and the chain is never opened.
-/

noncomputable section

open scoped BigOperators

namespace Cert.Gcn

open Idealize.ShloMosaic Idealize.ShloMosaic.ValueIdx

/-- An R × C matrix of extended reals. -/
abbrev Mat (R C : Nat) : Type := (⟨2, ![R, C]⟩ : Shape).Idx → EReal
/-- A vector of C extended reals. -/
abbrev Vct (C : Nat) : Type := (⟨1, ![C]⟩ : Shape).Idx → EReal

/-- A 1 × C row read as a vector. -/
def rowVec {C : Nat} (b : Mat 1 C) : Vct C := fun j => b (ix2 (0 : Fin 1) (j 0))

/-- The matrix product: entry (n, j) is the sum over k of A(n, k) · W(k, j). -/
def mm {R K C : Nat} (A : Mat R K) (W : Mat K C) : Mat R C :=
  fun i => ∑ k : Fin K, A (ix2 (i 0) k) * W (ix2 k (i 1))

/-- A layer's output with a projected residual: max(s + r + b + pb, 0), the biases repeated down the rows. -/
def act4 {R C : Nat} (s r : Mat R C) (b pb : Vct C) : Mat R C :=
  fun i => max (s i + r i + b (ix1 (i 1)) + pb (ix1 (i 1))) 0

/-- A layer's output with the identity residual: max(s + r + b, 0). -/
def act3 {R C : Nat} (s r : Mat R C) (b : Vct C) : Mat R C :=
  fun i => max (s i + r i + b (ix1 (i 1))) 0

/-- The maximum of row n of a matrix, folded from −∞. -/
def rowMax {R C : Nat} (x : Mat R C) (n : Fin R) : EReal :=
  (Finset.univ : Finset (Fin C)).fold max ⊥ (fun a => x (ix2 n a))

/-- A matrix with each row shifted down by that row's maximum. -/
def shifted {R C : Nat} (x : Mat R C) : Mat R C := fun i => x i - rowMax x (i 0)

/-- The row-wise log-softmax in its shifted form: z − log Σ exp z with z the shifted rows. -/
def lsm {R C : Nat} (x : Mat R C) : Mat R C :=
  fun i => shifted x i - Ideal.log (∑ a : Fin C, Ideal.exp (shifted x (ix2 (i 0) a)))

/-- One middle layer: the sparse product of h · W, plus the bias and h itself, rectified. -/
def mid {N H : Nat} (sp : Mat N H → Mat N H) (W : Mat H H) (b : Vct H) (h : Mat N H) : Mat N H :=
  act3 (sp (mm h W)) h b

/-- The whole network on N nodes: a projected first layer, four middle layers with shared weights, a projected last
    layer, and the log-softmax of its rows. -/
def net {N Fi H Cl : Nat} (sp : Mat N H → Mat N H) (sq : Mat N Cl → Mat N Cl)
    (x : Mat N Fi) (W1 : Mat Fi H) (b1 : Vct H) (P1 : Mat Fi H) (pb1 : Vct H)
    (W3 : Mat H H) (b3 : Vct H) (W2 : Mat H Cl) (b2 : Vct Cl) (P2 : Mat H Cl) (pb2 : Vct Cl) : Mat N Cl :=
  let h1 := act4 (sp (mm x W1)) (mm x P1) b1 pb1
  let h5 := mid sp W3 b3 (mid sp W3 b3 (mid sp W3 b3 (mid sp W3 b3 h1)))
  lsm (act4 (sq (mm h5 W2)) (mm h5 P2) b2 pb2)

/-! ## The two scalar laws that join the two programs -/

/-- Rectifying twice is rectifying once. -/
theorem max_zero_idem (u : EReal) : max (max u 0) 0 = max u 0 := by
  rw [max_assoc, max_self]

/-- The reference adds the bias before the residual, the kernel after it: one sum. -/
theorem add_swap3 (s r b : EReal) : s + b + r = s + r + b := by
  rw [add_assoc, add_comm b r, ← add_assoc]

/-- The same with a second bias. -/
theorem add_swap4 (s r b pb : EReal) : s + b + r + pb = s + r + b + pb := by
  rw [add_swap3 s r b]

end Cert.Gcn

end
-- ==== Proof.Sparse.lean ====
import proofs.«153699_j13692355740362_2_alg».proof.ReferenceIdeal
import Idealize.ShloMosaic.PureOps.Ideal

/-!
# The sparse adjacency product as one function

Both programs compute "adjacency times support" by the same chain of host operations: the column indices wrapped
(a negative index has the node count added), the support's rows gathered at them, each gathered row scaled by its
edge's value, and the scaled rows scatter-added into a zero matrix at the row indices.  `sp512` and `sp64` name that
chain for a support of 512 and of 64 columns; nothing below ever opens it.
-/

noncomputable section

namespace Cert.Gcn

open Cert.ReferenceIdeal Idealize.ShloMosaic Idealize.ShloMosaic.TcCoe

variable [Cert.ReferenceIdeal.Facts]
open Cert.ReferenceIdeal.Facts₀ Cert.ReferenceIdeal.Facts

/-- The column indices, a negative one wrapped by the node count, laid as a column of start indices. -/
def wrapCol (col : (⟨S160000, .i32⟩ : BufTy).Contents (Elt Ideal)) : (⟨S160000x1, .i32⟩ : BufTy).Contents (Elt Ideal) :=
  broadcastInDim S160000x1 ![0] bcast_S160000_S160000x1_0
    (select (cmpi .slt col (broadcastInDim S160000 ![] bcast_S_S160000 (constantI S_ 32 0#32)))
      (addi col (broadcastInDim S160000 ![] bcast_S_S160000 (constantI S_ 32 50000#32))) col)

/-- Adjacency times a support of 512 columns. -/
def sp512 (row col : (⟨S160000, .i32⟩ : BufTy).Contents (Elt Ideal)) (val : (⟨S160000, .f32⟩ : BufTy).Contents (Elt Ideal))
    (t : (⟨S50000x512, .f32⟩ : BufTy).Contents (Elt Ideal)) : (⟨S50000x512, .f32⟩ : BufTy).Contents (Elt Ideal) :=
  Host.scatterAdd scatter_S50000x512_S160000x1_S160000x512_1_0_0_1
    (broadcastInDim S50000x512 ![] bcast_S_S50000x512 (constant (F := Ideal) S_ .f32 0x00000000#32))
    (broadcastInDim S160000x1 ![0] bcast_S160000_S160000x1_0 row)
    (mulf (broadcastInDim S160000x512 ![0, 1] bcast_S160000x1_S160000x512_0_1
        (broadcastInDim S160000x1 ![0] bcast_S160000_S160000x1_0 val))
      (Host.gather gather_S50000x512_S160000x1_S160000x512_1_0_n_n_0_1_1512 t (wrapCol col)))

/-- Adjacency times a support of 64 columns. -/
def sp64 (row col : (⟨S160000, .i32⟩ : BufTy).Contents (Elt Ideal)) (val : (⟨S160000, .f32⟩ : BufTy).Contents (Elt Ideal))
    (t : (⟨S50000x64, .f32⟩ : BufTy).Contents (Elt Ideal)) : (⟨S50000x64, .f32⟩ : BufTy).Contents (Elt Ideal) :=
  Host.scatterAdd scatter_S50000x64_S160000x1_S160000x64_1_0_0_1
    (broadcastInDim S50000x64 ![] bcast_S_S50000x64 (constant (F := Ideal) S_ .f32 0x00000000#32))
    (broadcastInDim S160000x1 ![0] bcast_S160000_S160000x1_0 row)
    (mulf (broadcastInDim S160000x64 ![0, 1] bcast_S160000x1_S160000x64_0_1
        (broadcastInDim S160000x1 ![0] bcast_S160000_S160000x1_0 val))
      (Host.gather gather_S50000x64_S160000x1_S160000x64_1_0_n_n_0_1_164 t (wrapCol col)))

end Cert.Gcn

end
-- ==== Proof.KernelArgs.lean ====
import proofs.«153699_j13692355740362_2_alg».proof.Proof.Gen.KernelIdeal.Frame
import Idealize.ShloMosaic.PureOps.Ideal

/-!
# The arguments stay as launched through the kernel program's segments

The program's buffer contents are followed boundary by boundary (`W0` at launch, `W1` after the first pallas_call,
`W2` after the host operations that follow it, …).  No host operation writes an argument and a pallas_call only reads
one through an input window, so at every boundary the arguments that later segments still read — the edge arrays
(arguments 1, 2, 3), the shared middle weights and bias (8, 9) and the last layer's weights and biases (10–13) — hold
their launch contents.  Arguments 5 and 7 (the first layer's biases) are read once, right after the first call.
-/

set_option maxRecDepth 16384

noncomputable section

namespace Cert.KernelIdeal.Chain

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg) (c : Dev nD)

/-- The arguments later segments still read are as launched, in the buffer contents `W`. -/
structure Kept (W : Valuation τ sig (Elt Ideal)) : Prop where
  a1 : W (Proc.devRef .tc main_arg1) = m ((c : Thread nD τ).loc main_arg1)
  a2 : W (Proc.devRef .tc main_arg2) = m ((c : Thread nD τ).loc main_arg2)
  a3 : W (Proc.devRef .tc main_arg3) = m ((c : Thread nD τ).loc main_arg3)
  a8 : W (Proc.devRef .tc main_arg8) = m ((c : Thread nD τ).loc main_arg8)
  a9 : W (Proc.devRef .tc main_arg9) = m ((c : Thread nD τ).loc main_arg9)
  a10 : W (Proc.devRef .tc main_arg10) = m ((c : Thread nD τ).loc main_arg10)
  a11 : W (Proc.devRef .tc main_arg11) = m ((c : Thread nD τ).loc main_arg11)
  a12 : W (Proc.devRef .tc main_arg12) = m ((c : Thread nD τ).loc main_arg12)
  a13 : W (Proc.devRef .tc main_arg13) = m ((c : Thread nD τ).loc main_arg13)

/-- At launch. -/
theorem kept0 : Kept m c (W0 m ρ c) where
  a1 := rfl
  a2 := rfl
  a3 := rfl
  a8 := rfl
  a9 := rfl
  a10 := rfl
  a11 := rfl
  a12 := rfl
  a13 := rfl

/-- Across segment 1: pallas_call 0 stages none of these arguments (it reads arguments 0, 4 and 6, which nothing later reads). -/
theorem kept1 (h : Kept m c (W0 m ρ c)) : Kept m c (W1 m ρ c) where
    a1 := (W1_of_ne m ρ c main_arg1 (by decide)).trans h.a1
    a2 := (W1_of_ne m ρ c main_arg2 (by decide)).trans h.a2
    a3 := (W1_of_ne m ρ c main_arg3 (by decide)).trans h.a3
    a8 := (W1_of_ne m ρ c main_arg8 (by decide)).trans h.a8
    a9 := (W1_of_ne m ρ c main_arg9 (by decide)).trans h.a9
    a10 := (W1_of_ne m ρ c main_arg10 (by decide)).trans h.a10
    a11 := (W1_of_ne m ρ c main_arg11 (by decide)).trans h.a11
    a12 := (W1_of_ne m ρ c main_arg12 (by decide)).trans h.a12
    a13 := (W1_of_ne m ρ c main_arg13 (by decide)).trans h.a13

/-- Across segment 2: the host stretch `hostOps1` writes no argument. -/
theorem kept2 (h : Kept m c (W1 m ρ c)) : Kept m c (W2 m ρ c) where
    a1 := (StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans h.a1
    a2 := (StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans h.a2
    a3 := (StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans h.a3
    a8 := (StableHlo.after_of_forall_not_mem (b := Proc.devRef .tc main_arg8) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans h.a8
    a9 := (StableHlo.after_of_forall_not_mem (b := Proc.devRef .tc main_arg9) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans h.a9
    a10 := (StableHlo.after_of_forall_not_mem (b := Proc.devRef .tc main_arg10) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans h.a10
    a11 := (StableHlo.after_of_forall_not_mem (b := Proc.devRef .tc main_arg11) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans h.a11
    a12 := (StableHlo.after_of_forall_not_mem (b := Proc.devRef .tc main_arg12) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans h.a12
    a13 := (StableHlo.after_of_forall_not_mem (b := Proc.devRef .tc main_arg13) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans h.a13

/-- Across segment 3: pallas_call 1 stages none of these arguments. -/
theorem kept3 (h : Kept m c (W2 m ρ c)) : Kept m c (W3 m ρ c) where
    a1 := (W3_of_ne m ρ c main_arg1 (by decide)).trans h.a1
    a2 := (W3_of_ne m ρ c main_arg2 (by decide)).trans h.a2
    a3 := (W3_of_ne m ρ c main_arg3 (by decide)).trans h.a3
    a8 := (W3_of_ne m ρ c main_arg8 (by decide)).trans h.a8
    a9 := (W3_of_ne m ρ c main_arg9 (by decide)).trans h.a9
    a10 := (W3_of_ne m ρ c main_arg10 (by decide)).trans h.a10
    a11 := (W3_of_ne m ρ c main_arg11 (by decide)).trans h.a11
    a12 := (W3_of_ne m ρ c main_arg12 (by decide)).trans h.a12
    a13 := (W3_of_ne m ρ c main_arg13 (by decide)).trans h.a13

/-- Across segment 4: pallas_call 2 stages `main_arg8` as an input window and no other argument. -/
theorem kept4 (h : Kept m c (W3 m ρ c)) : Kept m c (W4 m ρ c) where
    a1 := (W4_of_ne m ρ c main_arg1 (by decide)).trans h.a1
    a2 := (W4_of_ne m ρ c main_arg2 (by decide)).trans h.a2
    a3 := (W4_of_ne m ρ c main_arg3 (by decide)).trans h.a3
    a8 := (show W4 m ρ c (Proc.devRef .tc main_arg8) = W3 m ρ c (Proc.devRef .tc main_arg8) from
      (W4_arr m ρ c 1).trans (((dat2 (V3 m ρ) c).arrAt_in 1 rfl _).trans (A_eq2 (V3 m ρ) c 1))).trans h.a8
    a9 := (W4_of_ne m ρ c main_arg9 (by decide)).trans h.a9
    a10 := (W4_of_ne m ρ c main_arg10 (by decide)).trans h.a10
    a11 := (W4_of_ne m ρ c main_arg11 (by decide)).trans h.a11
    a12 := (W4_of_ne m ρ c main_arg12 (by decide)).trans h.a12
    a13 := (W4_of_ne m ρ c main_arg13 (by decide)).trans h.a13

/-- Across segment 5: the host stretch `hostOps3` writes no argument. -/
theorem kept5 (h : Kept m c (W4 m ρ c)) : Kept m c (W5 m ρ c) where
    a1 := (StableHlo.after_of_forall_not_mem (b := Proc.devRef .tc main_arg1) _ _ (List.forall_iff_forall_mem.mp (by
      simp only [hostOps3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans h.a1
    a2 := (StableHlo.after_of_forall_not_mem (b := Proc.devRef .tc main_arg2) _ _ (List.forall_iff_forall_mem.mp (by
      simp only [hostOps3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans h.a2
    a3 := (StableHlo.after_of_forall_not_mem (b := Proc.devRef .tc main_arg3) _ _ (List.forall_iff_forall_mem.mp (by
      simp only [hostOps3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans h.a3
    a8 := (StableHlo.after_of_forall_not_mem (b := Proc.devRef .tc main_arg8) _ _ (List.forall_iff_forall_mem.mp (by
      simp only [hostOps3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans h.a8
    a9 := (StableHlo.after_of_forall_not_mem (b := Proc.devRef .tc main_arg9) _ _ (List.forall_iff_forall_mem.mp (by
      simp only [hostOps3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans h.a9
    a10 := (StableHlo.after_of_forall_not_mem (b := Proc.devRef .tc main_arg10) _ _ (List.forall_iff_forall_mem.mp (by
      simp only [hostOps3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans h.a10
    a11 := (StableHlo.after_of_forall_not_mem (b := Proc.devRef .tc main_arg11) _ _ (List.forall_iff_forall_mem.mp (by
      simp only [hostOps3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans h.a11
    a12 := (StableHlo.after_of_forall_not_mem (b := Proc.devRef .tc main_arg12) _ _ (List.forall_iff_forall_mem.mp (by
      simp only [hostOps3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans h.a12
    a13 := (StableHlo.after_of_forall_not_mem (b := Proc.devRef .tc main_arg13) _ _ (List.forall_iff_forall_mem.mp (by
      simp only [hostOps3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans h.a13

/-- Across segment 6: pallas_call 3 stages none of these arguments. -/
theorem kept6 (h : Kept m c (W5 m ρ c)) : Kept m c (W6 m ρ c) where
    a1 := (W6_of_ne m ρ c main_arg1 (by decide)).trans h.a1
    a2 := (W6_of_ne m ρ c main_arg2 (by decide)).trans h.a2
    a3 := (W6_of_ne m ρ c main_arg3 (by decide)).trans h.a3
    a8 := (W6_of_ne m ρ c main_arg8 (by decide)).trans h.a8
    a9 := (W6_of_ne m ρ c main_arg9 (by decide)).trans h.a9
    a10 := (W6_of_ne m ρ c main_arg10 (by decide)).trans h.a10
    a11 := (W6_of_ne m ρ c main_arg11 (by decide)).trans h.a11
    a12 := (W6_of_ne m ρ c main_arg12 (by decide)).trans h.a12
    a13 := (W6_of_ne m ρ c main_arg13 (by decide)).trans h.a13

/-- Across segment 7: pallas_call 4 stages `main_arg8` as an input window and no other argument. -/
theorem kept7 (h : Kept m c (W6 m ρ c)) : Kept m c (W7 m ρ c) where
    a1 := (W7_of_ne m ρ c main_arg1 (by decide)).trans h.a1
    a2 := (W7_of_ne m ρ c main_arg2 (by decide)).trans h.a2
    a3 := (W7_of_ne m ρ c main_arg3 (by decide)).trans h.a3
    a8 := (show W7 m ρ c (Proc.devRef .tc main_arg8) = W6 m ρ c (Proc.devRef .tc main_arg8) from
      (W7_arr m ρ c 1).trans (((dat4 (V6 m ρ) c).arrAt_in 1 rfl _).trans (A_eq4 (V6 m ρ) c 1))).trans h.a8
    a9 := (W7_of_ne m ρ c main_arg9 (by decide)).trans h.a9
    a10 := (W7_of_ne m ρ c main_arg10 (by decide)).trans h.a10
    a11 := (W7_of_ne m ρ c main_arg11 (by decide)).trans h.a11
    a12 := (W7_of_ne m ρ c main_arg12 (by decide)).trans h.a12
    a13 := (W7_of_ne m ρ c main_arg13 (by decide)).trans h.a13

/-- Across segment 8: the host stretch `hostOps5` writes no argument. -/
theorem kept8 (h : Kept m c (W7 m ρ c)) : Kept m c (W8 m ρ c) where
    a1 := (StableHlo.after_of_forall_not_mem (b := Proc.devRef .tc main_arg1) _ _ (List.forall_iff_forall_mem.mp (by
      simp only [hostOps5, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans h.a1
    a2 := (StableHlo.after_of_forall_not_mem (b := Proc.devRef .tc main_arg2) _ _ (List.forall_iff_forall_mem.mp (by
      simp only [hostOps5, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans h.a2
    a3 := (StableHlo.after_of_forall_not_mem (b := Proc.devRef .tc main_arg3) _ _ (List.forall_iff_forall_mem.mp (by
      simp only [hostOps5, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans h.a3
    a8 := (StableHlo.after_of_forall_not_mem (b := Proc.devRef .tc main_arg8) _ _ (List.forall_iff_forall_mem.mp (by
      simp only [hostOps5, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans h.a8
    a9 := (StableHlo.after_of_forall_not_mem (b := Proc.devRef .tc main_arg9) _ _ (List.forall_iff_forall_mem.mp (by
      simp only [hostOps5, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans h.a9
    a10 := (StableHlo.after_of_forall_not_mem (b := Proc.devRef .tc main_arg10) _ _ (List.forall_iff_forall_mem.mp (by
      simp only [hostOps5, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans h.a10
    a11 := (StableHlo.after_of_forall_not_mem (b := Proc.devRef .tc main_arg11) _ _ (List.forall_iff_forall_mem.mp (by
      simp only [hostOps5, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans h.a11
    a12 := (StableHlo.after_of_forall_not_mem (b := Proc.devRef .tc main_arg12) _ _ (List.forall_iff_forall_mem.mp (by
      simp only [hostOps5, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans h.a12
    a13 := (StableHlo.after_of_forall_not_mem (b := Proc.devRef .tc main_arg13) _ _ (List.forall_iff_forall_mem.mp (by
      simp only [hostOps5, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans h.a13

/-- Across segment 9: pallas_call 5 stages none of these arguments. -/
theorem kept9 (h : Kept m c (W8 m ρ c)) : Kept m c (W9 m ρ c) where
    a1 := (W9_of_ne m ρ c main_arg1 (by decide)).trans h.a1
    a2 := (W9_of_ne m ρ c main_arg2 (by decide)).trans h.a2
    a3 := (W9_of_ne m ρ c main_arg3 (by decide)).trans h.a3
    a8 := (W9_of_ne m ρ c main_arg8 (by decide)).trans h.a8
    a9 := (W9_of_ne m ρ c main_arg9 (by decide)).trans h.a9
    a10 := (W9_of_ne m ρ c main_arg10 (by decide)).trans h.a10
    a11 := (W9_of_ne m ρ c main_arg11 (by decide)).trans h.a11
    a12 := (W9_of_ne m ρ c main_arg12 (by decide)).trans h.a12
    a13 := (W9_of_ne m ρ c main_arg13 (by decide)).trans h.a13

/-- Across segment 10: pallas_call 6 stages `main_arg8` as an input window and no other argument. -/
theorem kept10 (h : Kept m c (W9 m ρ c)) : Kept m c (W10 m ρ c) where
    a1 := (W10_of_ne m ρ c main_arg1 (by decide)).trans h.a1
    a2 := (W10_of_ne m ρ c main_arg2 (by decide)).trans h.a2
    a3 := (W10_of_ne m ρ c main_arg3 (by decide)).trans h.a3
    a8 := (show W10 m ρ c (Proc.devRef .tc main_arg8) = W9 m ρ c (Proc.devRef .tc main_arg8) from
      (W10_arr m ρ c 1).trans (((dat6 (V9 m ρ) c).arrAt_in 1 rfl _).trans (A_eq6 (V9 m ρ) c 1))).trans h.a8
    a9 := (W10_of_ne m ρ c main_arg9 (by decide)).trans h.a9
    a10 := (W10_of_ne m ρ c main_arg10 (by decide)).trans h.a10
    a11 := (W10_of_ne m ρ c main_arg11 (by decide)).trans h.a11
    a12 := (W10_of_ne m ρ c main_arg12 (by decide)).trans h.a12
    a13 := (W10_of_ne m ρ c main_arg13 (by decide)).trans h.a13

/-- Across segment 11: the host stretch `hostOps7` writes no argument. -/
theorem kept11 (h : Kept m c (W10 m ρ c)) : Kept m c (W11 m ρ c) where
    a1 := (StableHlo.after_of_forall_not_mem (b := Proc.devRef .tc main_arg1) _ _ (List.forall_iff_forall_mem.mp (by
      simp only [hostOps7, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans h.a1
    a2 := (StableHlo.after_of_forall_not_mem (b := Proc.devRef .tc main_arg2) _ _ (List.forall_iff_forall_mem.mp (by
      simp only [hostOps7, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans h.a2
    a3 := (StableHlo.after_of_forall_not_mem (b := Proc.devRef .tc main_arg3) _ _ (List.forall_iff_forall_mem.mp (by
      simp only [hostOps7, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans h.a3
    a8 := (StableHlo.after_of_forall_not_mem (b := Proc.devRef .tc main_arg8) _ _ (List.forall_iff_forall_mem.mp (by
      simp only [hostOps7, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans h.a8
    a9 := (StableHlo.after_of_forall_not_mem (b := Proc.devRef .tc main_arg9) _ _ (List.forall_iff_forall_mem.mp (by
      simp only [hostOps7, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans h.a9
    a10 := (StableHlo.after_of_forall_not_mem (b := Proc.devRef .tc main_arg10) _ _ (List.forall_iff_forall_mem.mp (by
      simp only [hostOps7, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans h.a10
    a11 := (StableHlo.after_of_forall_not_mem (b := Proc.devRef .tc main_arg11) _ _ (List.forall_iff_forall_mem.mp (by
      simp only [hostOps7, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans h.a11
    a12 := (StableHlo.after_of_forall_not_mem (b := Proc.devRef .tc main_arg12) _ _ (List.forall_iff_forall_mem.mp (by
      simp only [hostOps7, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans h.a12
    a13 := (StableHlo.after_of_forall_not_mem (b := Proc.devRef .tc main_arg13) _ _ (List.forall_iff_forall_mem.mp (by
      simp only [hostOps7, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans h.a13

/-- Across segment 12: pallas_call 7 stages none of these arguments. -/
theorem kept12 (h : Kept m c (W11 m ρ c)) : Kept m c (W12 m ρ c) where
    a1 := (W12_of_ne m ρ c main_arg1 (by decide)).trans h.a1
    a2 := (W12_of_ne m ρ c main_arg2 (by decide)).trans h.a2
    a3 := (W12_of_ne m ρ c main_arg3 (by decide)).trans h.a3
    a8 := (W12_of_ne m ρ c main_arg8 (by decide)).trans h.a8
    a9 := (W12_of_ne m ρ c main_arg9 (by decide)).trans h.a9
    a10 := (W12_of_ne m ρ c main_arg10 (by decide)).trans h.a10
    a11 := (W12_of_ne m ρ c main_arg11 (by decide)).trans h.a11
    a12 := (W12_of_ne m ρ c main_arg12 (by decide)).trans h.a12
    a13 := (W12_of_ne m ρ c main_arg13 (by decide)).trans h.a13

/-- Across segment 13: pallas_call 8 stages `main_arg8` as an input window and no other argument. -/
theorem kept13 (h : Kept m c (W12 m ρ c)) : Kept m c (W13 m ρ c) where
    a1 := (W13_of_ne m ρ c main_arg1 (by decide)).trans h.a1
    a2 := (W13_of_ne m ρ c main_arg2 (by decide)).trans h.a2
    a3 := (W13_of_ne m ρ c main_arg3 (by decide)).trans h.a3
    a8 := (show W13 m ρ c (Proc.devRef .tc main_arg8) = W12 m ρ c (Proc.devRef .tc main_arg8) from
      (W13_arr m ρ c 1).trans (((dat8 (V12 m ρ) c).arrAt_in 1 rfl _).trans (A_eq8 (V12 m ρ) c 1))).trans h.a8
    a9 := (W13_of_ne m ρ c main_arg9 (by decide)).trans h.a9
    a10 := (W13_of_ne m ρ c main_arg10 (by decide)).trans h.a10
    a11 := (W13_of_ne m ρ c main_arg11 (by decide)).trans h.a11
    a12 := (W13_of_ne m ρ c main_arg12 (by decide)).trans h.a12
    a13 := (W13_of_ne m ρ c main_arg13 (by decide)).trans h.a13

/-- Across segment 14: the host stretch `hostOps9` writes no argument. -/
theorem kept14 (h : Kept m c (W13 m ρ c)) : Kept m c (W14 m ρ c) where
    a1 := (StableHlo.after_of_forall_not_mem (b := Proc.devRef .tc main_arg1) _ _ (List.forall_iff_forall_mem.mp (by
      simp only [hostOps9, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans h.a1
    a2 := (StableHlo.after_of_forall_not_mem (b := Proc.devRef .tc main_arg2) _ _ (List.forall_iff_forall_mem.mp (by
      simp only [hostOps9, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans h.a2
    a3 := (StableHlo.after_of_forall_not_mem (b := Proc.devRef .tc main_arg3) _ _ (List.forall_iff_forall_mem.mp (by
      simp only [hostOps9, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans h.a3
    a8 := (StableHlo.after_of_forall_not_mem (b := Proc.devRef .tc main_arg8) _ _ (List.forall_iff_forall_mem.mp (by
      simp only [hostOps9, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans h.a8
    a9 := (StableHlo.after_of_forall_not_mem (b := Proc.devRef .tc main_arg9) _ _ (List.forall_iff_forall_mem.mp (by
      simp only [hostOps9, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans h.a9
    a10 := (StableHlo.after_of_forall_not_mem (b := Proc.devRef .tc main_arg10) _ _ (List.forall_iff_forall_mem.mp (by
      simp only [hostOps9, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans h.a10
    a11 := (StableHlo.after_of_forall_not_mem (b := Proc.devRef .tc main_arg11) _ _ (List.forall_iff_forall_mem.mp (by
      simp only [hostOps9, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans h.a11
    a12 := (StableHlo.after_of_forall_not_mem (b := Proc.devRef .tc main_arg12) _ _ (List.forall_iff_forall_mem.mp (by
      simp only [hostOps9, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans h.a12
    a13 := (StableHlo.after_of_forall_not_mem (b := Proc.devRef .tc main_arg13) _ _ (List.forall_iff_forall_mem.mp (by
      simp only [hostOps9, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans h.a13

/-- Across segment 15: pallas_call 9 stages none of these arguments. -/
theorem kept15 (h : Kept m c (W14 m ρ c)) : Kept m c (W15 m ρ c) where
    a1 := (W15_of_ne m ρ c main_arg1 (by decide)).trans h.a1
    a2 := (W15_of_ne m ρ c main_arg2 (by decide)).trans h.a2
    a3 := (W15_of_ne m ρ c main_arg3 (by decide)).trans h.a3
    a8 := (W15_of_ne m ρ c main_arg8 (by decide)).trans h.a8
    a9 := (W15_of_ne m ρ c main_arg9 (by decide)).trans h.a9
    a10 := (W15_of_ne m ρ c main_arg10 (by decide)).trans h.a10
    a11 := (W15_of_ne m ρ c main_arg11 (by decide)).trans h.a11
    a12 := (W15_of_ne m ρ c main_arg12 (by decide)).trans h.a12
    a13 := (W15_of_ne m ρ c main_arg13 (by decide)).trans h.a13

/-- Across segment 16: the host stretch `hostOps10` writes no argument. -/
theorem kept16 (h : Kept m c (W15 m ρ c)) : Kept m c (W16 m ρ c) where
    a1 := (StableHlo.after_of_forall_not_mem (b := Proc.devRef .tc main_arg1) _ _ (List.forall_iff_forall_mem.mp (by
      simp only [hostOps10, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans h.a1
    a2 := (StableHlo.after_of_forall_not_mem (b := Proc.devRef .tc main_arg2) _ _ (List.forall_iff_forall_mem.mp (by
      simp only [hostOps10, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans h.a2
    a3 := (StableHlo.after_of_forall_not_mem (b := Proc.devRef .tc main_arg3) _ _ (List.forall_iff_forall_mem.mp (by
      simp only [hostOps10, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans h.a3
    a8 := (StableHlo.after_of_forall_not_mem (b := Proc.devRef .tc main_arg8) _ _ (List.forall_iff_forall_mem.mp (by
      simp only [hostOps10, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans h.a8
    a9 := (StableHlo.after_of_forall_not_mem (b := Proc.devRef .tc main_arg9) _ _ (List.forall_iff_forall_mem.mp (by
      simp only [hostOps10, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans h.a9
    a10 := (StableHlo.after_of_forall_not_mem (b := Proc.devRef .tc main_arg10) _ _ (List.forall_iff_forall_mem.mp (by
      simp only [hostOps10, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans h.a10
    a11 := (StableHlo.after_of_forall_not_mem (b := Proc.devRef .tc main_arg11) _ _ (List.forall_iff_forall_mem.mp (by
      simp only [hostOps10, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans h.a11
    a12 := (StableHlo.after_of_forall_not_mem (b := Proc.devRef .tc main_arg12) _ _ (List.forall_iff_forall_mem.mp (by
      simp only [hostOps10, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans h.a12
    a13 := (StableHlo.after_of_forall_not_mem (b := Proc.devRef .tc main_arg13) _ _ (List.forall_iff_forall_mem.mp (by
      simp only [hostOps10, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans h.a13

/-- Across segment 17: pallas_call 10 stages none of these arguments. -/
theorem kept17 (h : Kept m c (W16 m ρ c)) : Kept m c (W17 m ρ c) where
    a1 := (W17_of_ne m ρ c main_arg1 (by decide)).trans h.a1
    a2 := (W17_of_ne m ρ c main_arg2 (by decide)).trans h.a2
    a3 := (W17_of_ne m ρ c main_arg3 (by decide)).trans h.a3
    a8 := (W17_of_ne m ρ c main_arg8 (by decide)).trans h.a8
    a9 := (W17_of_ne m ρ c main_arg9 (by decide)).trans h.a9
    a10 := (W17_of_ne m ρ c main_arg10 (by decide)).trans h.a10
    a11 := (W17_of_ne m ρ c main_arg11 (by decide)).trans h.a11
    a12 := (W17_of_ne m ρ c main_arg12 (by decide)).trans h.a12
    a13 := (W17_of_ne m ρ c main_arg13 (by decide)).trans h.a13

/-- The first layer's two biases right after the first pallas_call, which stages neither. -/
theorem arg5_at1 : W1 m ρ c (Proc.devRef .tc main_arg5) = m ((c : Thread nD τ).loc main_arg5) :=
  W1_of_ne m ρ c main_arg5 (by decide)
theorem arg7_at1 : W1 m ρ c (Proc.devRef .tc main_arg7) = m ((c : Thread nD τ).loc main_arg7) :=
  W1_of_ne m ρ c main_arg7 (by decide)

/-- The invariant at each boundary where a segment reads an argument. -/
theorem keptAt1 : Kept m c (W1 m ρ c) := kept1 m ρ c (kept0 m ρ c)
theorem keptAt3 : Kept m c (W3 m ρ c) := kept3 m ρ c (kept2 m ρ c (keptAt1 m ρ c))
theorem keptAt4 : Kept m c (W4 m ρ c) := kept4 m ρ c (keptAt3 m ρ c)
theorem keptAt6 : Kept m c (W6 m ρ c) := kept6 m ρ c (kept5 m ρ c (keptAt4 m ρ c))
theorem keptAt7 : Kept m c (W7 m ρ c) := kept7 m ρ c (keptAt6 m ρ c)
theorem keptAt9 : Kept m c (W9 m ρ c) := kept9 m ρ c (kept8 m ρ c (keptAt7 m ρ c))
theorem keptAt10 : Kept m c (W10 m ρ c) := kept10 m ρ c (keptAt9 m ρ c)
theorem keptAt12 : Kept m c (W12 m ρ c) := kept12 m ρ c (kept11 m ρ c (keptAt10 m ρ c))
theorem keptAt13 : Kept m c (W13 m ρ c) := kept13 m ρ c (keptAt12 m ρ c)
theorem keptAt15 : Kept m c (W15 m ρ c) := kept15 m ρ c (kept14 m ρ c (keptAt13 m ρ c))
theorem keptAt17 : Kept m c (W17 m ρ c) := kept17 m ρ c (kept16 m ρ c (keptAt15 m ρ c))

end Cert.KernelIdeal.Chain

end
-- ==== Proof.KernelHost.lean ====
import proofs.«153699_j13692355740362_2_alg».proof.Proof.Gen.KernelIdeal.Frame
import proofs.«153699_j13692355740362_2_alg».proof.Proof.Gen.ReferenceIdeal
import proofs.«153699_j13692355740362_2_alg».proof.Proof.Spec
import proofs.«153699_j13692355740362_2_alg».proof.Proof.Sparse
import Idealize.ShloMosaic.PureOps.Ideal
import Idealize.ShloMosaic.Lib.ValueIdx
import Idealize.ShloMosaic.Lib.ValueLayout
import Idealize.ShloMosaic.Lib.Pipeline.Value

/-!
# The kernel program's host stretches, read

Between the pallas_calls the kernel program runs the same gather–scale–scatter chain as the reference (on a support
stored in a narrower float format, widened again right after the gather: at the ideal values both changes of format
are the identity), lays each bias vector as a 1 × C row, sets the last layer's two weight matrices side by side and
cuts the product back into its two halves.  This module names the kernel's spelling of the sparse chain, shows it is
the reference's function, and reads the bias rows.
-/

set_option maxRecDepth 16384

noncomputable section

namespace Cert.KernelIdeal.Chain

open Cert.KernelIdeal Cert.KernelIdeal.Gen Idealize.ShloMosaic Idealize.ShloMosaic.TcCoe Idealize.SL.Sem
open Idealize.ShloMosaic.ValueIdx

/-- The kernel program's spelling of "adjacency times a support of 512 columns": the support in the narrow format,
    gathered, widened, scaled and scatter-added. -/
def kSp512 (row col : (⟨S160000, .i32⟩ : BufTy).Contents (Elt Ideal)) (val : (⟨S160000, .f32⟩ : BufTy).Contents (Elt Ideal))
    (t : (⟨S50000x512, .bf16⟩ : BufTy).Contents (Elt Ideal)) : (⟨S50000x512, .f32⟩ : BufTy).Contents (Elt Ideal) :=
  Host.scatterAdd scatter_S50000x512_S160000x1_S160000x512_1_0_0_1
    (broadcastInDim S50000x512 ![] bcast_S_S50000x512 (constant (F := Ideal) S_ .f32 0x00000000#32))
    (broadcastInDim S160000x1 ![0] bcast_S160000_S160000x1_0 row)
    (mulf (broadcastInDim S160000x512 ![0, 1] bcast_S160000x1_S160000x512_0_1
        (broadcastInDim S160000x1 ![0] bcast_S160000_S160000x1_0 val))
      (extf .f32 (Host.gather gather_S50000x512_S160000x1_S160000x512_1_0_n_n_0_1_1512 t
        (broadcastInDim S160000x1 ![0] bcast_S160000_S160000x1_0
          (select (cmpi .slt col (broadcastInDim S160000 ![] bcast_S_S160000 (constantI S_ 32 0#32)))
            (addi col (broadcastInDim S160000 ![] bcast_S_S160000 (constantI S_ 32 50000#32))) col))) bitsLt_bf16_f32))

/-- The two spellings are one function: the records agree field by field and widening is the identity. -/
theorem kSp512_eq (row col : (⟨S160000, .i32⟩ : BufTy).Contents (Elt Ideal)) (val : (⟨S160000, .f32⟩ : BufTy).Contents (Elt Ideal))
    (t : (⟨S50000x512, .bf16⟩ : BufTy).Contents (Elt Ideal)) :
    kSp512 row col val t = Cert.Gcn.sp512 row col val t := rfl

/-- The same chain for a support of 64 columns. -/
def kSp64 (row col : (⟨S160000, .i32⟩ : BufTy).Contents (Elt Ideal)) (val : (⟨S160000, .f32⟩ : BufTy).Contents (Elt Ideal))
    (t : (⟨S50000x64, .bf16⟩ : BufTy).Contents (Elt Ideal)) : (⟨S50000x64, .f32⟩ : BufTy).Contents (Elt Ideal) :=
  Host.scatterAdd scatter_S50000x64_S160000x1_S160000x64_1_0_0_1
    (broadcastInDim S50000x64 ![] bcast_S_S50000x64 (constant (F := Ideal) S_ .f32 0x00000000#32))
    (broadcastInDim S160000x1 ![0] bcast_S160000_S160000x1_0 row)
    (mulf (broadcastInDim S160000x64 ![0, 1] bcast_S160000x1_S160000x64_0_1
        (broadcastInDim S160000x1 ![0] bcast_S160000_S160000x1_0 val))
      (extf .f32 (Host.gather gather_S50000x64_S160000x1_S160000x64_1_0_n_n_0_1_164 t
        (broadcastInDim S160000x1 ![0] bcast_S160000_S160000x1_0
          (select (cmpi .slt col (broadcastInDim S160000 ![] bcast_S_S160000 (constantI S_ 32 0#32)))
            (addi col (broadcastInDim S160000 ![] bcast_S_S160000 (constantI S_ 32 50000#32))) col))) bitsLt_bf16_f32))

theorem kSp64_eq (row col : (⟨S160000, .i32⟩ : BufTy).Contents (Elt Ideal)) (val : (⟨S160000, .f32⟩ : BufTy).Contents (Elt Ideal))
    (t : (⟨S50000x64, .bf16⟩ : BufTy).Contents (Elt Ideal)) :
    kSp64 row col val t = Cert.Gcn.sp64 row col val t := rfl

end Cert.KernelIdeal.Chain

end
-- ==== Proof.LibMatmulZero.lean ====
/-
  A matrix product into the zero accumulator, read at one entry, at the ideal values.

  For ANY dimension numbers of an [R, K] × [K, C] → [R, C] product that contract the left operand's axis 1 with the
  right operand's axis 0 (one contracted axis, of extent K) and carry the left's axis 0 and the right's axis 1 to the
  result, any operand formats and any precision attribute: at the ideal values, `matmul` with the all-zero f32
  accumulator has, at entry (p, q), the value
      Σ_{k < K} l(p, k) · r(k, q).
  The sum over the contraction shape's one-axis index type is re-indexed over `Fin K`, and the operand indices the
  dimension numbers read at result entry (p, q) and contracted position k are (p, k) and (k, q).

  The two hypotheses `hl0` and `hr1` say that the result's axis 0 is the left operand's axis 0 and the result's axis 1
  the right operand's axis 1; for a printed record `D` (no batch axes) each is four lines:
      fun i c => by
        unfold DotDims.lhsIdx
        rw [dif_neg (show ¬(0 : Fin _) ∈ D.lhsBatch by decide), dif_pos (show (0 : Fin _) ∈ D.lhsNonContracting by decide)]
        rfl
  (and the same with `rhsIdx`, `1`, `rhsBatch`, `rhsNonContracting`); `hlc`, `hrc`, `hr`, `hs` are `rfl`.
  Imports only the library.
-/
import Idealize.ShloMosaic.PureOps.Ideal.Laws
import Idealize.ShloMosaic.Lib.ValueIdx

noncomputable section

namespace Cert.LibMatmulZero

open Idealize.ShloMosaic Idealize.ShloMosaic.ValueIdx

/-- `matmul D prec l r 0 (p, q) = Σ_k l(p, k) · r(k, q)` at the ideal values, for two-dimensional operands with one
    contracted axis. -/
theorem matmul_zero_ix2 {R K C : Nat} {φ₁ φ₂ : FTy} (D : DotDims ⟨2, ![R, K]⟩ ⟨2, ![K, C]⟩ ⟨2, ![R, C]⟩)
    (hlc : D.lhsContracting = [1]) (hrc : D.rhsContracting = [0]) (hr : D.contr.rank = 1)
    (hs : D.contr.size ⟨0, by omega⟩ = K)
    (hl0 : ∀ (i : (⟨2, ![R, C]⟩ : Shape).Idx) (c : D.contr.Idx), (D.lhsIdx i c 0).val = (i 0).val)
    (hr1 : ∀ (i : (⟨2, ![R, C]⟩ : Shape).Idx) (c : D.contr.Idx), (D.rhsIdx i c 1).val = (i 1).val)
    (prec : Option ContractPrecision)
    (l : FVec Ideal ⟨2, ![R, K]⟩ φ₁) (r : FVec Ideal ⟨2, ![K, C]⟩ φ₂) (p : Fin R) (q : Fin C) :
    matmul D prec l r (constant ⟨2, ![R, C]⟩ .f32 0x00000000#32) (ix2 p q) = ∑ k : Fin K, l (ix2 p k) * r (ix2 k q) := by
  refine (Ideal.matmul_constant_zero_apply D prec l r (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k :=
    funext fun a => Fin.ext (by
      match a with
      | ⟨0, _⟩ => exact hl0 _ _
      | ⟨1, _⟩ => exact (D.lhsIdx_val_of_single hlc _ _).trans hk)
  have er : D.rhsIdx (ix2 p q) ((contrEquiv1 D K hr hs).symm k) = ix2 k q :=
    funext fun a => Fin.ext (by
      match a with
      | ⟨0, _⟩ => exact (D.rhsIdx_val_of_single hrc _ _).trans hk
      | ⟨1, _⟩ => exact hr1 _ _)
  rw [el, er]

end Cert.LibMatmulZero

end
-- ==== Proof.Reg0.lean ====
import proofs.«153699_j13692355740362_2_alg».proof.Proof.Gen.KernelIdeal.Frame
import proofs.«153699_j13692355740362_2_alg».proof.Proof.Spec
import proofs.«153699_j13692355740362_2_alg».proof.Proof.LibMatmulZero
import Idealize.ShloMosaic.Lib.Pipeline.Value
import Idealize.ShloMosaic.Lib.ValueIdx

/-!
# The first layer's two matrix products (the first pallas_call)

The call tiles the 50000 rows of x into twenty-five blocks of 2000 rows; at a block it multiplies the block of x by
each of two whole 1024 × 512 weight matrices into zero accumulators and writes the two products to two output
windows.  Row r of block t is row 2000·t + r of the array, so every block written back is that block of ONE matrix
(x · W for the first output, x · P for the second), and the blocks cover all rows.
-/

noncomputable section

open scoped BigOperators

namespace Cert.KernelIdeal.Reg0

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem off_zero : (![0, 0] : Fin 2 → Nat) = fun _ => 0 := funext fun a => by fin_cases a <;> rfl

/-- The block product at an entry: the sum over k of the block of x at (p, k) times the weights at (k, q). -/
theorem pay3_ix2 (x0 : FVec Ideal S2000x1024 .f32) (x1 : FVec Ideal S1024x512 .f32) (p : Fin 2000) (q : Fin 512) :
    (k0_pay3 (F := Ideal) x0 x1 (ix2 p q) : EReal) = ∑ k : Fin 1024, (x0 (ix2 p k) * x1 (ix2 k q) : EReal) := by
  unfold k0_pay3 k0_pay1
  show matmul dot_S2000x1024_S1024x512_S2000x512_1_0_0_1_n_n none (truncf .bf16 x0 bitsLt_bf16_f32) (truncf .bf16 x1 bitsLt_bf16_f32)
      (constant S2000x512 .f32 0x00000000#32) (ix2 p q) = _
  exact Cert.LibMatmulZero.matmul_zero_ix2 (φ₁ := .bf16) (φ₂ := .bf16) dot_S2000x1024_S1024x512_S2000x512_1_0_0_1_n_n rfl rfl rfl rfl
    (fun i c => by
      unfold DotDims.lhsIdx
      rw [dif_neg (show ¬(0 : Fin _) ∈ dot_S2000x1024_S1024x512_S2000x512_1_0_0_1_n_n.lhsBatch by decide),
        dif_pos (show (0 : Fin _) ∈ dot_S2000x1024_S1024x512_S2000x512_1_0_0_1_n_n.lhsNonContracting by decide)]
      rfl)
    (fun i c => by
      unfold DotDims.rhsIdx
      rw [dif_neg (show ¬(1 : Fin _) ∈ dot_S2000x1024_S1024x512_S2000x512_1_0_0_1_n_n.rhsBatch by decide),
        dif_pos (show (1 : Fin _) ∈ dot_S2000x1024_S1024x512_S2000x512_1_0_0_1_n_n.rhsNonContracting by decide)]
      rfl)
    none (truncf .bf16 x0 bitsLt_bf16_f32) (truncf .bf16 x1 bitsLt_bf16_f32) p q

/-- The same at any index of the block. -/
theorem pay3_apply (x0 : FVec Ideal S2000x1024 .f32) (x1 : FVec Ideal S1024x512 .f32) (j : S2000x512.Idx) :
    (k0_pay3 (F := Ideal) x0 x1 j : EReal) = ∑ k : Fin 1024, (x0 (ix2 (j 0) k) * x1 (ix2 k (j 1)) : EReal) :=
  (congrArg (fun i => (k0_pay3 (F := Ideal) x0 x1 i : EReal)) (eq_ix2 j)).trans (by exact pay3_ix2 x0 x1 (j 0) (j 1))

/-- The block product at an entry: the sum over k of the block of x at (p, k) times the weights at (k, q). -/
theorem pay2_ix2 (x0 : FVec Ideal S2000x1024 .f32) (x1 : FVec Ideal S1024x512 .f32) (p : Fin 2000) (q : Fin 512) :
    k0_pay2 x0 x1 (ix2 p q) = ∑ k : Fin 1024, x0 (ix2 p k) * x1 (ix2 k q) := by
  unfold k0_pay2 k0_pay1
  show matmul dot_S2000x1024_S1024x512_S2000x512_1_0_0_1_n_n none (truncf .bf16 x0 bitsLt_bf16_f32) (truncf .bf16 x1 bitsLt_bf16_f32)
      (constant S2000x512 .f32 0x00000000#32) (ix2 p q) = _
  exact Cert.LibMatmulZero.matmul_zero_ix2 (φ₁ := .bf16) (φ₂ := .bf16) dot_S2000x1024_S1024x512_S2000x512_1_0_0_1_n_n rfl rfl rfl rfl
    (fun i c => by
      unfold DotDims.lhsIdx
      rw [dif_neg (show ¬(0 : Fin _) ∈ dot_S2000x1024_S1024x512_S2000x512_1_0_0_1_n_n.lhsBatch by decide),
        dif_pos (show (0 : Fin _) ∈ dot_S2000x1024_S1024x512_S2000x512_1_0_0_1_n_n.lhsNonContracting by decide)]
      rfl)
    (fun i c => by
      unfold DotDims.rhsIdx
      rw [dif_neg (show ¬(1 : Fin _) ∈ dot_S2000x1024_S1024x512_S2000x512_1_0_0_1_n_n.rhsBatch by decide),
        dif_pos (show (1 : Fin _) ∈ dot_S2000x1024_S1024x512_S2000x512_1_0_0_1_n_n.rhsNonContracting by decide)]
      rfl)
    none (truncf .bf16 x0 bitsLt_bf16_f32) (truncf .bf16 x1 bitsLt_bf16_f32) p q

/-- The same at any index of the block. -/
theorem pay2_apply (x0 : FVec Ideal S2000x1024 .f32) (x1 : FVec Ideal S1024x512 .f32) (j : S2000x512.Idx) :
    k0_pay2 x0 x1 j = ∑ k : Fin 1024, x0 (ix2 (j 0) k) * x1 (ix2 k (j 1)) :=
  (congrArg (k0_pay2 x0 x1) (eq_ix2 j)).trans (by exact pay2_ix2 x0 x1 (j 0) (j 1))

/-- The printed index maps, decided over the twenty-five points: the block of x and both output blocks sit at block
    row t, the two weight matrices at the origin. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- What point t writes back to output window 3 is block t of the product of x and the weight matrix the window's
    payload reads. -/
theorem flushed3_eq (c : Dev nD) (t : Fin cfg0.N) :
    (dat0 V c).flushed 3 t
      = ((cfg0.win 3).blk t).view.read (Elt Ideal) (Cert.Gcn.mm (V c main_arg0) (V c main_arg4)) := by
  show (cfg0.win 3).cut (grid0.coords t) ((dat0 V c).after 3 t) = _
  rw [after0_3]
  unfold out0_3
  rw [View.canon_unit_zero off_zero]
  simp only [View.ld_unit_zero (S := S2000x1024) off_zero, View.ld_unit_zero (S := S1024x512) off_zero]
  obtain ⟨e0, e1, e2, e3, e4, e5, e6, e7, e8, e9⟩ := idx_facts t
  funext j
  refine (pay3_apply _ _ j).trans ?_
  let A : Cert.Gcn.Mat 50000 1024 := V c main_arg0
  let W : Cert.Gcn.Mat 1024 512 := V c main_arg4
  show ∑ k : Fin 1024, A (((cfg0.win 0).blk t).view.emb (ix2 (j 0) k)) * W (((cfg0.win 1).blk t).view.emb (ix2 k (j 1)))
      = ∑ k : Fin 1024, A (ix2 ((((cfg0.win 3).blk t).view.emb j) 0) k) * W (ix2 k ((((cfg0.win 3).blk t).view.emb j) 1))
  refine Finset.sum_congr rfl fun k _ => ?_
  have h0 : ((cfg0.win 0).blk t).view.emb (ix2 (j 0) k) = ix2 ((((cfg0.win 3).blk t).view.emb j) 0) k := by
    funext a; apply Fin.ext
    match a with
    | ⟨0, _⟩ =>
      show win0_0.index t (0 : Fin 2) * 2000 + 1 * (j 0).val = win0_3.index t (0 : Fin 2) * 2000 + 1 * (j 0).val
      omega
    | ⟨1, _⟩ =>
      show win0_0.index t (1 : Fin 2) * 1024 + 1 * k.val = k.val
      omega
  have h1 : ((cfg0.win 1).blk t).view.emb (ix2 k (j 1)) = ix2 k ((((cfg0.win 3).blk t).view.emb j) 1) := by
    funext a; apply Fin.ext
    match a with
    | ⟨0, _⟩ =>
      show win0_1.index t (0 : Fin 2) * 1024 + 1 * k.val = k.val
      omega
    | ⟨1, _⟩ =>
      show win0_1.index t (1 : Fin 2) * 512 + 1 * (j 1).val = win0_3.index t (1 : Fin 2) * 512 + 1 * (j 1).val
      omega
  rw [h0, h1]
  rfl

/-- An index of output window 3's array is in point t's block iff each coordinate is in the block's range. -/
theorem mem_blk3 (t : Fin cfg0.N) (i : S50000x512.Idx) :
    i ∈ ((cfg0.win 3).blk t).view.set ↔ ∀ a : Fin 2, win0_3.index t a * S2000x512.size a ≤ (i a).val
      ∧ (i a).val < win0_3.index t a * S2000x512.size a + S2000x512.size a := by
  show i ∈ ((View.whole main_v0_0).slice (win0_3.rect t)).set ↔ _
  rw [View.set_slice_whole, Rect.mem_set_unit]
  exact Iff.rfl

/-- Row r of the array lies in the block of point r / 2000: the twenty-five blocks cover it. -/
theorem cover3 (i : S50000x512.Idx) :
    ∃ t : Fin cfg0.N, (cfg0.win 3).flush t = true ∧ i ∈ ((cfg0.win 3).blk t).view.set := by
  have hi0 : (i 0).val < 50000 := (i 0).isLt
  have hi1 : (i 1).val < 512 := (i 1).isLt
  have hN : grid0.N = 25 := N_0
  obtain ⟨e0, e1, e2, e3, e4, e5, e6, e7, e8, e9⟩ := idx_facts ⟨(i 0).val / 2000, by show (i 0).val / 2000 < grid0.N; rw [hN]; omega⟩
  refine ⟨⟨(i 0).val / 2000, by show (i 0).val / 2000 < grid0.N; rw [hN]; omega⟩, flush0_3 _, ?_⟩
  rw [mem_blk3]
  intro a
  match a with
  | ⟨0, _⟩ =>
    show win0_3.index _ (0 : Fin 2) * 2000 ≤ (i 0).val ∧ (i 0).val < win0_3.index _ (0 : Fin 2) * 2000 + 2000
    rw [e6]
    show (i 0).val / 2000 * 2000 ≤ (i 0).val ∧ (i 0).val < (i 0).val / 2000 * 2000 + 2000
    omega
  | ⟨1, _⟩ =>
    show win0_3.index _ (1 : Fin 2) * 512 ≤ (i 1).val ∧ (i 1).val < win0_3.index _ (1 : Fin 2) * 512 + 512
    rw [e7]
    omega

/-- After the call output window 3's array is the product of x and that weight matrix. -/
theorem final3 (c : Dev nD) :
    (dat0 V c).arrAt 3 cfg0.N = Cert.Gcn.mm (V c main_arg0) (V c main_arg4) :=
  (dat0 V c).arrAt_eq_of_cover 3 _ (fun t _ => flushed3_eq V c t) cover3

/-- What point t writes back to output window 4 is block t of the product of x and the weight matrix the window's
    payload reads. -/
theorem flushed4_eq (c : Dev nD) (t : Fin cfg0.N) :
    (dat0 V c).flushed 4 t
      = ((cfg0.win 4).blk t).view.read (Elt Ideal) (Cert.Gcn.mm (V c main_arg0) (V c main_arg6)) := by
  show (cfg0.win 4).cut (grid0.coords t) ((dat0 V c).after 4 t) = _
  rw [after0_4]
  unfold out0_4
  rw [View.canon_unit_zero off_zero]
  simp only [View.ld_unit_zero (S := S2000x1024) off_zero, View.ld_unit_zero (S := S1024x512) off_zero]
  obtain ⟨e0, e1, e2, e3, e4, e5, e6, e7, e8, e9⟩ := idx_facts t
  funext j
  refine (pay2_apply _ _ j).trans ?_
  let A : Cert.Gcn.Mat 50000 1024 := V c main_arg0
  let W : Cert.Gcn.Mat 1024 512 := V c main_arg6
  show ∑ k : Fin 1024, A (((cfg0.win 0).blk t).view.emb (ix2 (j 0) k)) * W (((cfg0.win 2).blk t).view.emb (ix2 k (j 1)))
      = ∑ k : Fin 1024, A (ix2 ((((cfg0.win 4).blk t).view.emb j) 0) k) * W (ix2 k ((((cfg0.win 4).blk t).view.emb j) 1))
  refine Finset.sum_congr rfl fun k _ => ?_
  have h0 : ((cfg0.win 0).blk t).view.emb (ix2 (j 0) k) = ix2 ((((cfg0.win 4).blk t).view.emb j) 0) k := by
    funext a; apply Fin.ext
    match a with
    | ⟨0, _⟩ =>
      show win0_0.index t (0 : Fin 2) * 2000 + 1 * (j 0).val = win0_4.index t (0 : Fin 2) * 2000 + 1 * (j 0).val
      omega
    | ⟨1, _⟩ =>
      show win0_0.index t (1 : Fin 2) * 1024 + 1 * k.val = k.val
      omega
  have h1 : ((cfg0.win 2).blk t).view.emb (ix2 k (j 1)) = ix2 k ((((cfg0.win 4).blk t).view.emb j) 1) := by
    funext a; apply Fin.ext
    match a with
    | ⟨0, _⟩ =>
      show win0_2.index t (0 : Fin 2) * 1024 + 1 * k.val = k.val
      omega
    | ⟨1, _⟩ =>
      show win0_2.index t (1 : Fin 2) * 512 + 1 * (j 1).val = win0_4.index t (1 : Fin 2) * 512 + 1 * (j 1).val
      omega
  rw [h0, h1]
  rfl

/-- An index of output window 4's array is in point t's block iff each coordinate is in the block's range. -/
theorem mem_blk4 (t : Fin cfg0.N) (i : S50000x512.Idx) :
    i ∈ ((cfg0.win 4).blk t).view.set ↔ ∀ a : Fin 2, win0_4.index t a * S2000x512.size a ≤ (i a).val
      ∧ (i a).val < win0_4.index t a * S2000x512.size a + S2000x512.size a := by
  show i ∈ ((View.whole main_v0_1).slice (win0_4.rect t)).set ↔ _
  rw [View.set_slice_whole, Rect.mem_set_unit]
  exact Iff.rfl

/-- Row r of the array lies in the block of point r / 2000: the twenty-five blocks cover it. -/
theorem cover4 (i : S50000x512.Idx) :
    ∃ t : Fin cfg0.N, (cfg0.win 4).flush t = true ∧ i ∈ ((cfg0.win 4).blk t).view.set := by
  have hi0 : (i 0).val < 50000 := (i 0).isLt
  have hi1 : (i 1).val < 512 := (i 1).isLt
  have hN : grid0.N = 25 := N_0
  obtain ⟨e0, e1, e2, e3, e4, e5, e6, e7, e8, e9⟩ := idx_facts ⟨(i 0).val / 2000, by show (i 0).val / 2000 < grid0.N; rw [hN]; omega⟩
  refine ⟨⟨(i 0).val / 2000, by show (i 0).val / 2000 < grid0.N; rw [hN]; omega⟩, flush0_4 _, ?_⟩
  rw [mem_blk4]
  intro a
  match a with
  | ⟨0, _⟩ =>
    show win0_4.index _ (0 : Fin 2) * 2000 ≤ (i 0).val ∧ (i 0).val < win0_4.index _ (0 : Fin 2) * 2000 + 2000
    rw [e8]
    show (i 0).val / 2000 * 2000 ≤ (i 0).val ∧ (i 0).val < (i 0).val / 2000 * 2000 + 2000
    omega
  | ⟨1, _⟩ =>
    show win0_4.index _ (1 : Fin 2) * 512 ≤ (i 1).val ∧ (i 1).val < win0_4.index _ (1 : Fin 2) * 512 + 512
    rw [e9]
    omega

/-- After the call output window 4's array is the product of x and that weight matrix. -/
theorem final4 (c : Dev nD) :
    (dat0 V c).arrAt 4 cfg0.N = Cert.Gcn.mm (V c main_arg0) (V c main_arg6) :=
  (dat0 V c).arrAt_eq_of_cover 4 _ (fun t _ => flushed4_eq V c t) cover4

end Cert.KernelIdeal.Reg0

end
-- ==== Proof.Reg1.lean ====
import proofs.«153699_j13692355740362_2_alg».proof.Proof.Gen.KernelIdeal.Frame
import proofs.«153699_j13692355740362_2_alg».proof.Proof.Spec
import Idealize.ShloMosaic.Lib.Pipeline.Value
import Idealize.ShloMosaic.Lib.ValueIdx
import Idealize.ShloMosaic.Lib.ValueLayout
import Idealize.ShloMosaic.PureOps.Ideal.Laws

/-!
# The first layer's two biases, projected residual and rectifier (the second pallas_call)

The call tiles the 50000 rows into twenty-five blocks of 2000 rows, all 512 columns wide; at a block it adds the block
of the sparse product, the block of the projected residual and the two bias rows, each repeated down the rows, and
takes the maximum with zero.  Entry (p, q) of the block written at point t depends only on entry (p, q) of the two
input blocks and on entry q of each bias row, and row p of block t is row 2000·t + p of the array, so every block
written back is that block of ONE matrix, max(s + r + b + pb, 0), and the twenty-five blocks cover all rows.
-/

noncomputable section

open scoped BigOperators

namespace Cert.KernelIdeal.Reg1

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem off_zero : (![0, 0] : Fin 2 → Nat) = fun _ => 0 := funext fun a => by fin_cases a <;> rfl

/-- The block's arithmetic at an entry: the sum of the two blocks' entries there and the two bias rows' entries in
    that column, rectified.  The shape changes keep the shape, the format change keeps the extended real, and the zero
    word is the extended real 0. -/
theorem pay_ix2 (x0 x1 : FVec Ideal S2000x512 .f32) (x2 x3 : FVec Ideal S1x512 .f32) (p : Fin 2000) (q : Fin 512) :
    (k1_pay1 (F := Ideal) x0 x1 x2 x3 (ix2 p q) : EReal)
      = max (x0 (ix2 p q) + x1 (ix2 p q) + x2 (ix2 (0 : Fin 1) q) + x3 (ix2 (0 : Fin 1) q)) 0 := by
  unfold k1_pay1
  rw [shapeCast_self, shapeCast_self, shapeCast_self, shapeCast_self]
  show max (x0 (ix2 p q) + x1 (ix2 p q) + broadcastTo S2000x512 x2 broadcasts_S1x512_S2000x512 (ix2 p q)
        + broadcastTo S2000x512 x3 broadcasts_S1x512_S2000x512 (ix2 p q))
      (Ideal.ofBits .f32 0x00000000#32) = _
  rw [Ideal.ofBits_zero_f32]
  refine (congrArg (fun u => max (x0 (ix2 p q) + x1 (ix2 p q) + u
      + broadcastTo S2000x512 x3 broadcasts_S1x512_S2000x512 (ix2 p q)) 0)
    (broadcastTo_1b_ab_apply (a := 2000) (b := 512) x2 broadcasts_S1x512_S2000x512 p q)).trans ?_
  exact congrArg (fun u => max (x0 (ix2 p q) + x1 (ix2 p q) + x2 (ix2 (0 : Fin 1) q) + u) 0)
    (broadcastTo_1b_ab_apply (a := 2000) (b := 512) x3 broadcasts_S1x512_S2000x512 p q)

/-- The same at any index of the block. -/
theorem pay_apply (x0 x1 : FVec Ideal S2000x512 .f32) (x2 x3 : FVec Ideal S1x512 .f32) (j : S2000x512.Idx) :
    (k1_pay1 (F := Ideal) x0 x1 x2 x3 j : EReal)
      = max (x0 j + x1 j + x2 (ix2 (0 : Fin 1) (j 1)) + x3 (ix2 (0 : Fin 1) (j 1))) 0 := by
  refine (congrArg (k1_pay1 (F := Ideal) x0 x1 x2 x3) (eq_ix2 j)).trans ?_
  refine (by exact pay_ix2 x0 x1 x2 x3 (j 0) (j 1) : _ = max (x0 (ix2 (j 0) (j 1)) + x1 (ix2 (j 0) (j 1))
      + x2 (ix2 (0 : Fin 1) (j 1)) + x3 (ix2 (0 : Fin 1) (j 1))) 0).trans ?_
  exact (congrArg (fun i : S2000x512.Idx => max (x0 i + x1 i + x2 (ix2 (0 : Fin 1) (j 1))
      + x3 (ix2 (0 : Fin 1) (j 1))) 0) (eq_ix2 j)).symm

/-- The printed index maps, decided over the twenty-five points: the two input blocks and the output block sit at
    block row t, the two bias rows at the origin. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- What point t writes back is block t of the rectified sum of the arrays the call finds. -/
theorem flushed_eq (c : Dev nD) (t : Fin cfg1.N) :
    (dat1 V c).flushed 4 t
      = ((cfg1.win 4).blk t).view.read (Elt Ideal)
          (Cert.Gcn.act4 (V c main_v14) (V c main_v0_1) (Cert.Gcn.rowVec (V c main_v15))
            (Cert.Gcn.rowVec (V c main_v16))) := by
  show (cfg1.win 4).cut (grid1.coords t) ((dat1 V c).after 4 t) = _
  rw [after1_4]
  unfold out1_4
  rw [View.canon_unit_zero off_zero]
  simp only [View.ld_unit_zero (S := S2000x512) off_zero, View.ld_unit_zero (S := S1x512) off_zero]
  obtain ⟨e0, e1, e2, e3, e4, e5, e6, e7, e8, e9⟩ := idx_facts t
  funext j
  refine (pay_apply _ _ _ _ j).trans ?_
  let A : Cert.Gcn.Mat 50000 512 := V c main_v14
  let R : Cert.Gcn.Mat 50000 512 := V c main_v0_1
  let B : Cert.Gcn.Mat 1 512 := V c main_v15
  let P : Cert.Gcn.Mat 1 512 := V c main_v16
  show max (A (((cfg1.win 0).blk t).view.emb j) + R (((cfg1.win 1).blk t).view.emb j)
        + B (((cfg1.win 2).blk t).view.emb (ix2 (0 : Fin 1) (j 1)))
        + P (((cfg1.win 3).blk t).view.emb (ix2 (0 : Fin 1) (j 1)))) 0
      = max (A (((cfg1.win 4).blk t).view.emb j) + R (((cfg1.win 4).blk t).view.emb j)
        + B (ix2 (0 : Fin 1) ((((cfg1.win 4).blk t).view.emb j) 1))
        + P (ix2 (0 : Fin 1) ((((cfg1.win 4).blk t).view.emb j) 1))) 0
  have h0 : ((cfg1.win 0).blk t).view.emb j = ((cfg1.win 4).blk t).view.emb j := by
    funext a; apply Fin.ext
    match a with
    | ⟨0, _⟩ =>
      show win1_0.index t (0 : Fin 2) * 2000 + 1 * (j 0).val = win1_4.index t (0 : Fin 2) * 2000 + 1 * (j 0).val
      omega
    | ⟨1, _⟩ =>
      show win1_0.index t (1 : Fin 2) * 512 + 1 * (j 1).val = win1_4.index t (1 : Fin 2) * 512 + 1 * (j 1).val
      omega
  have h1 : ((cfg1.win 1).blk t).view.emb j = ((cfg1.win 4).blk t).view.emb j := by
    funext a; apply Fin.ext
    match a with
    | ⟨0, _⟩ =>
      show win1_1.index t (0 : Fin 2) * 2000 + 1 * (j 0).val = win1_4.index t (0 : Fin 2) * 2000 + 1 * (j 0).val
      omega
    | ⟨1, _⟩ =>
      show win1_1.index t (1 : Fin 2) * 512 + 1 * (j 1).val = win1_4.index t (1 : Fin 2) * 512 + 1 * (j 1).val
      omega
  have h2 : ((cfg1.win 2).blk t).view.emb (ix2 (0 : Fin 1) (j 1))
      = ix2 (0 : Fin 1) ((((cfg1.win 4).blk t).view.emb j) 1) := by
    funext a; apply Fin.ext
    match a with
    | ⟨0, _⟩ =>
      show win1_2.index t (0 : Fin 2) * 1 + 1 * 0 = 0
      omega
    | ⟨1, _⟩ =>
      show win1_2.index t (1 : Fin 2) * 512 + 1 * (j 1).val = win1_4.index t (1 : Fin 2) * 512 + 1 * (j 1).val
      omega
  have h3 : ((cfg1.win 3).blk t).view.emb (ix2 (0 : Fin 1) (j 1))
      = ix2 (0 : Fin 1) ((((cfg1.win 4).blk t).view.emb j) 1) := by
    funext a; apply Fin.ext
    match a with
    | ⟨0, _⟩ =>
      show win1_3.index t (0 : Fin 2) * 1 + 1 * 0 = 0
      omega
    | ⟨1, _⟩ =>
      show win1_3.index t (1 : Fin 2) * 512 + 1 * (j 1).val = win1_4.index t (1 : Fin 2) * 512 + 1 * (j 1).val
      omega
  rw [h0, h1, h2, h3]
  rfl

/-- An index of the array is in point t's block iff each coordinate is in the block's range on its axis. -/
theorem mem_blk (t : Fin cfg1.N) (i : S50000x512.Idx) :
    i ∈ ((cfg1.win 4).blk t).view.set ↔ ∀ a : Fin 2, win1_4.index t a * S2000x512.size a ≤ (i a).val
      ∧ (i a).val < win1_4.index t a * S2000x512.size a + S2000x512.size a := by
  show i ∈ ((View.whole main_v17).slice (win1_4.rect t)).set ↔ _
  rw [View.set_slice_whole, Rect.mem_set_unit]
  exact Iff.rfl

/-- Row r of the array lies in the block of point r / 2000: the twenty-five blocks cover the array. -/
theorem cover (i : S50000x512.Idx) :
    ∃ t : Fin cfg1.N, (cfg1.win 4).flush t = true ∧ i ∈ ((cfg1.win 4).blk t).view.set := by
  have hi0 : (i 0).val < 50000 := (i 0).isLt
  have hi1 : (i 1).val < 512 := (i 1).isLt
  have hN : grid1.N = 25 := N_1
  obtain ⟨e0, e1, e2, e3, e4, e5, e6, e7, e8, e9⟩ :=
    idx_facts ⟨(i 0).val / 2000, by show (i 0).val / 2000 < grid1.N; rw [hN]; omega⟩
  refine ⟨⟨(i 0).val / 2000, by show (i 0).val / 2000 < grid1.N; rw [hN]; omega⟩, flush1_4 _, ?_⟩
  rw [mem_blk]
  intro a
  match a with
  | ⟨0, _⟩ =>
    show win1_4.index _ (0 : Fin 2) * 2000 ≤ (i 0).val ∧ (i 0).val < win1_4.index _ (0 : Fin 2) * 2000 + 2000
    rw [e8]
    show (i 0).val / 2000 * 2000 ≤ (i 0).val ∧ (i 0).val < (i 0).val / 2000 * 2000 + 2000
    omega
  | ⟨1, _⟩ =>
    show win1_4.index _ (1 : Fin 2) * 512 ≤ (i 1).val ∧ (i 1).val < win1_4.index _ (1 : Fin 2) * 512 + 512
    rw [e9]
    omega

/-- After the call the output array is the rectified sum of the arrays the call finds. -/
theorem final (c : Dev nD) :
    (dat1 V c).arrAt 4 cfg1.N
      = Cert.Gcn.act4 (V c main_v14) (V c main_v0_1) (Cert.Gcn.rowVec (V c main_v15))
          (Cert.Gcn.rowVec (V c main_v16)) :=
  (dat1 V c).arrAt_eq_of_cover 4 _ (fun t _ => flushed_eq V c t) cover

end Cert.KernelIdeal.Reg1

end
-- ==== Proof.Reg2.lean ====
import proofs.«153699_j13692355740362_2_alg».proof.Proof.Gen.KernelIdeal.Frame
import proofs.«153699_j13692355740362_2_alg».proof.Proof.Spec
import proofs.«153699_j13692355740362_2_alg».proof.Proof.LibMatmulZero
import Idealize.ShloMosaic.Lib.Pipeline.Value
import Idealize.ShloMosaic.Lib.ValueIdx

/-!
# The first middle layer's matrix product (the third pallas_call)

The call tiles the 50000 rows of h into ten blocks of 5000 rows; at a block it multiplies the block of h by the
whole 512 × 512 weight matrix into a zero accumulator.  Row r of block t is row 5000·t + r of the array, so every
block written back is that block of ONE matrix, the product h · W, and the ten blocks cover all rows.
-/

noncomputable section

open scoped BigOperators

namespace Cert.KernelIdeal.Reg2

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem off_zero : (![0, 0] : Fin 2 → Nat) = fun _ => 0 := funext fun a => by fin_cases a <;> rfl

/-- The block product at an entry: the sum over k of the block of h at (p, k) times the weights at (k, q). -/
theorem pay_ix2 (x0 : FVec Ideal S5000x512 .bf16) (x1 : FVec Ideal S512x512 .f32) (p : Fin 5000) (q : Fin 512) :
    k2_pay1 x0 x1 (ix2 p q) = ∑ k : Fin 512, x0 (ix2 p k) * x1 (ix2 k q) := by
  unfold k2_pay1
  rw [shapeCast_self]
  show matmul dot_S5000x512_S512x512_S5000x512_1_0_0_1_n_n none x0 (truncf .bf16 x1 bitsLt_bf16_f32)
      (constant S5000x512 .f32 0x00000000#32) (ix2 p q) = _
  exact Cert.LibMatmulZero.matmul_zero_ix2 (φ₁ := .bf16) (φ₂ := .bf16) dot_S5000x512_S512x512_S5000x512_1_0_0_1_n_n rfl rfl rfl rfl
    (fun i c => by
      unfold DotDims.lhsIdx
      rw [dif_neg (show ¬(0 : Fin _) ∈ dot_S5000x512_S512x512_S5000x512_1_0_0_1_n_n.lhsBatch by decide),
        dif_pos (show (0 : Fin _) ∈ dot_S5000x512_S512x512_S5000x512_1_0_0_1_n_n.lhsNonContracting by decide)]
      rfl)
    (fun i c => by
      unfold DotDims.rhsIdx
      rw [dif_neg (show ¬(1 : Fin _) ∈ dot_S5000x512_S512x512_S5000x512_1_0_0_1_n_n.rhsBatch by decide),
        dif_pos (show (1 : Fin _) ∈ dot_S5000x512_S512x512_S5000x512_1_0_0_1_n_n.rhsNonContracting by decide)]
      rfl)
    none x0 (truncf .bf16 x1 bitsLt_bf16_f32) p q

/-- The same at any index of the block. -/
theorem pay_apply (x0 : FVec Ideal S5000x512 .bf16) (x1 : FVec Ideal S512x512 .f32) (j : S5000x512.Idx) :
    k2_pay1 x0 x1 j = ∑ k : Fin 512, x0 (ix2 (j 0) k) * x1 (ix2 k (j 1)) := by
  exact (congrArg (k2_pay1 x0 x1) (eq_ix2 j)).trans (by exact pay_ix2 x0 x1 (j 0) (j 1))

/-- The printed index maps, decided over the ten points: the block of h and the output block sit at block row t, the
    weights at the origin. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point t writes back is block t of the product of the arrays the call finds. -/
theorem flushed_eq (c : Dev nD) (t : Fin cfg2.N) :
    (dat2 V c).flushed 2 t
      = ((cfg2.win 2).blk t).view.read (Elt Ideal) (Cert.Gcn.mm (V c main_v17) (V c main_arg8)) := by
  show (cfg2.win 2).cut (grid2.coords t) ((dat2 V c).after 2 t) = _
  rw [after2_2]
  unfold out2_2
  rw [View.canon_unit_zero off_zero]
  simp only [View.ld_unit_zero (S := S5000x512) off_zero, View.ld_unit_zero (S := S512x512) off_zero]
  obtain ⟨e0, e1, e2, e3, e4, e5⟩ := idx_facts t
  funext j
  refine (pay_apply _ _ j).trans ?_
  let A : Cert.Gcn.Mat 50000 512 := V c main_v17
  let W : Cert.Gcn.Mat 512 512 := V c main_arg8
  show ∑ k : Fin 512, A (((cfg2.win 0).blk t).view.emb (ix2 (j 0) k)) * W (((cfg2.win 1).blk t).view.emb (ix2 k (j 1)))
      = ∑ k : Fin 512, A (ix2 ((((cfg2.win 2).blk t).view.emb j) 0) k) * W (ix2 k ((((cfg2.win 2).blk t).view.emb j) 1))
  refine Finset.sum_congr rfl fun k _ => ?_
  have h0 : ((cfg2.win 0).blk t).view.emb (ix2 (j 0) k) = ix2 ((((cfg2.win 2).blk t).view.emb j) 0) k := by
    funext a; apply Fin.ext
    match a with
    | ⟨0, _⟩ =>
      show win2_0.index t (0 : Fin 2) * 5000 + 1 * (j 0).val = win2_2.index t (0 : Fin 2) * 5000 + 1 * (j 0).val
      omega
    | ⟨1, _⟩ =>
      show win2_0.index t (1 : Fin 2) * 512 + 1 * k.val = k.val
      omega
  have h1 : ((cfg2.win 1).blk t).view.emb (ix2 k (j 1)) = ix2 k ((((cfg2.win 2).blk t).view.emb j) 1) := by
    funext a; apply Fin.ext
    match a with
    | ⟨0, _⟩ =>
      show win2_1.index t (0 : Fin 2) * 512 + 1 * k.val = k.val
      omega
    | ⟨1, _⟩ =>
      show win2_1.index t (1 : Fin 2) * 512 + 1 * (j 1).val = win2_2.index t (1 : Fin 2) * 512 + 1 * (j 1).val
      omega
  rw [h0, h1]
  rfl

/-- An index of the array is in point t's block iff each coordinate is in the block's range on its axis. -/
theorem mem_blk (t : Fin cfg2.N) (i : S50000x512.Idx) :
    i ∈ ((cfg2.win 2).blk t).view.set ↔ ∀ a : Fin 2, win2_2.index t a * S5000x512.size a ≤ (i a).val
      ∧ (i a).val < win2_2.index t a * S5000x512.size a + S5000x512.size a := by
  show i ∈ ((View.whole main_v18).slice (win2_2.rect t)).set ↔ _
  rw [View.set_slice_whole, Rect.mem_set_unit]
  exact Iff.rfl

/-- Row r of the array lies in the block of point r / 5000: the ten blocks cover the array. -/
theorem cover (i : S50000x512.Idx) :
    ∃ t : Fin cfg2.N, (cfg2.win 2).flush t = true ∧ i ∈ ((cfg2.win 2).blk t).view.set := by
  have hi0 : (i 0).val < 50000 := (i 0).isLt
  have hi1 : (i 1).val < 512 := (i 1).isLt
  have hN : grid2.N = 10 := N_2
  obtain ⟨e0, e1, e2, e3, e4, e5⟩ := idx_facts ⟨(i 0).val / 5000, by show (i 0).val / 5000 < grid2.N; rw [hN]; omega⟩
  refine ⟨⟨(i 0).val / 5000, by show (i 0).val / 5000 < grid2.N; rw [hN]; omega⟩, flush2_2 _, ?_⟩
  rw [mem_blk]
  intro a
  match a with
  | ⟨0, _⟩ =>
    show win2_2.index _ (0 : Fin 2) * 5000 ≤ (i 0).val ∧ (i 0).val < win2_2.index _ (0 : Fin 2) * 5000 + 5000
    rw [e4]
    show (i 0).val / 5000 * 5000 ≤ (i 0).val ∧ (i 0).val < (i 0).val / 5000 * 5000 + 5000
    omega
  | ⟨1, _⟩ =>
    show win2_2.index _ (1 : Fin 2) * 512 ≤ (i 1).val ∧ (i 1).val < win2_2.index _ (1 : Fin 2) * 512 + 512
    rw [e5]
    omega

/-- After the call the output array is the product of the arrays the call finds. -/
theorem final (c : Dev nD) :
    (dat2 V c).arrAt 2 cfg2.N = Cert.Gcn.mm (V c main_v17) (V c main_arg8) :=
  (dat2 V c).arrAt_eq_of_cover 2 _ (fun t _ => flushed_eq V c t) cover

end Cert.KernelIdeal.Reg2

end
-- ==== Proof.Reg3.lean ====
import proofs.«153699_j13692355740362_2_alg».proof.Proof.Gen.KernelIdeal.Frame
import proofs.«153699_j13692355740362_2_alg».proof.Proof.Spec
import Idealize.ShloMosaic.Lib.Pipeline.Value
import Idealize.ShloMosaic.Lib.ValueIdx
import Idealize.ShloMosaic.Lib.ValueLayout
import Idealize.ShloMosaic.PureOps.Ideal.Laws

/-!
# The first middle layer's bias, residual and rectifier (the fourth pallas_call)

The call tiles the 50000 rows into twenty-five blocks of 2000 rows, all 512 columns wide; at a block it adds the block
of the sparse product, the block of h (the identity residual) and the one bias row repeated down the rows, and takes
the maximum with zero.  Entry (p, q) of the block written at point t depends only on entry (p, q) of the two input
blocks and on entry q of the bias row, and row p of block t is row 2000·t + p of the array, so every block written
back is that block of ONE matrix, max(s + h + b, 0), and the twenty-five blocks cover all rows.
-/

noncomputable section

open scoped BigOperators

namespace Cert.KernelIdeal.Reg3

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem off_zero : (![0, 0] : Fin 2 → Nat) = fun _ => 0 := funext fun a => by fin_cases a <;> rfl

/-- The block's arithmetic at an entry: the sum of the two blocks' entries there and the bias row's entry in that
    column, rectified.  The shape changes keep the shape, the format changes keep the extended real, and the zero word
    is the extended real 0. -/
theorem pay_ix2 (x0 : FVec Ideal S2000x512 .f32) (x1 : FVec Ideal S2000x512 .bf16) (x2 : FVec Ideal S1x512 .f32)
    (p : Fin 2000) (q : Fin 512) :
    (k3_pay1 (F := Ideal) x0 x1 x2 (ix2 p q) : EReal) = max (x0 (ix2 p q) + x1 (ix2 p q) + x2 (ix2 (0 : Fin 1) q)) 0 := by
  unfold k3_pay1
  rw [shapeCast_self, shapeCast_self, shapeCast_self]
  show max (x0 (ix2 p q) + x1 (ix2 p q) + broadcastTo S2000x512 x2 broadcasts_S1x512_S2000x512 (ix2 p q))
      (Ideal.ofBits .f32 0x00000000#32) = _
  rw [Ideal.ofBits_zero_f32]
  exact congrArg (fun u => max (x0 (ix2 p q) + x1 (ix2 p q) + u) 0)
    (broadcastTo_1b_ab_apply (a := 2000) (b := 512) x2 broadcasts_S1x512_S2000x512 p q)

/-- The same at any index of the block. -/
theorem pay_apply (x0 : FVec Ideal S2000x512 .f32) (x1 : FVec Ideal S2000x512 .bf16) (x2 : FVec Ideal S1x512 .f32)
    (j : S2000x512.Idx) :
    (k3_pay1 (F := Ideal) x0 x1 x2 j : EReal) = max (x0 j + x1 j + x2 (ix2 (0 : Fin 1) (j 1))) 0 := by
  refine (congrArg (k3_pay1 (F := Ideal) x0 x1 x2) (eq_ix2 j)).trans ?_
  refine (by exact pay_ix2 x0 x1 x2 (j 0) (j 1) : _ = max (x0 (ix2 (j 0) (j 1)) + x1 (ix2 (j 0) (j 1)) + x2 (ix2 (0 : Fin 1) (j 1))) 0).trans ?_
  exact (congrArg (fun i : S2000x512.Idx => max (x0 i + x1 i + x2 (ix2 (0 : Fin 1) (j 1))) 0) (eq_ix2 j)).symm

/-- The printed index maps, decided over the twenty-five points: the two input blocks and the output block sit at
    block row t, the bias row at the origin. -/
theorem idx_facts : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- What point t writes back is block t of the rectified sum of the arrays the call finds. -/
theorem flushed_eq (c : Dev nD) (t : Fin cfg3.N) :
    (dat3 V c).flushed 3 t
      = ((cfg3.win 3).blk t).view.read (Elt Ideal)
          (Cert.Gcn.act3 (V c main_v32) (V c main_v17) (Cert.Gcn.rowVec (V c main_v33))) := by
  show (cfg3.win 3).cut (grid3.coords t) ((dat3 V c).after 3 t) = _
  rw [after3_3]
  unfold out3_3
  rw [View.canon_unit_zero off_zero]
  simp only [View.ld_unit_zero (S := S2000x512) off_zero, View.ld_unit_zero (S := S1x512) off_zero]
  obtain ⟨e0, e1, e2, e3, e4, e5, e6, e7⟩ := idx_facts t
  funext j
  refine (pay_apply _ _ _ j).trans ?_
  let A : Cert.Gcn.Mat 50000 512 := V c main_v32
  let H : Cert.Gcn.Mat 50000 512 := V c main_v17
  let B : Cert.Gcn.Mat 1 512 := V c main_v33
  show max (A (((cfg3.win 0).blk t).view.emb j) + H (((cfg3.win 1).blk t).view.emb j)
        + B (((cfg3.win 2).blk t).view.emb (ix2 (0 : Fin 1) (j 1)))) 0
      = max (A (((cfg3.win 3).blk t).view.emb j) + H (((cfg3.win 3).blk t).view.emb j)
        + B (ix2 (0 : Fin 1) ((((cfg3.win 3).blk t).view.emb j) 1))) 0
  have h0 : ((cfg3.win 0).blk t).view.emb j = ((cfg3.win 3).blk t).view.emb j := by
    funext a; apply Fin.ext
    match a with
    | ⟨0, _⟩ =>
      show win3_0.index t (0 : Fin 2) * 2000 + 1 * (j 0).val = win3_3.index t (0 : Fin 2) * 2000 + 1 * (j 0).val
      omega
    | ⟨1, _⟩ =>
      show win3_0.index t (1 : Fin 2) * 512 + 1 * (j 1).val = win3_3.index t (1 : Fin 2) * 512 + 1 * (j 1).val
      omega
  have h1 : ((cfg3.win 1).blk t).view.emb j = ((cfg3.win 3).blk t).view.emb j := by
    funext a; apply Fin.ext
    match a with
    | ⟨0, _⟩ =>
      show win3_1.index t (0 : Fin 2) * 2000 + 1 * (j 0).val = win3_3.index t (0 : Fin 2) * 2000 + 1 * (j 0).val
      omega
    | ⟨1, _⟩ =>
      show win3_1.index t (1 : Fin 2) * 512 + 1 * (j 1).val = win3_3.index t (1 : Fin 2) * 512 + 1 * (j 1).val
      omega
  have h2 : ((cfg3.win 2).blk t).view.emb (ix2 (0 : Fin 1) (j 1))
      = ix2 (0 : Fin 1) ((((cfg3.win 3).blk t).view.emb j) 1) := by
    funext a; apply Fin.ext
    match a with
    | ⟨0, _⟩ =>
      show win3_2.index t (0 : Fin 2) * 1 + 1 * 0 = 0
      omega
    | ⟨1, _⟩ =>
      show win3_2.index t (1 : Fin 2) * 512 + 1 * (j 1).val = win3_3.index t (1 : Fin 2) * 512 + 1 * (j 1).val
      omega
  rw [h0, h1, h2]
  rfl

/-- An index of the array is in point t's block iff each coordinate is in the block's range on its axis. -/
theorem mem_blk (t : Fin cfg3.N) (i : S50000x512.Idx) :
    i ∈ ((cfg3.win 3).blk t).view.set ↔ ∀ a : Fin 2, win3_3.index t a * S2000x512.size a ≤ (i a).val
      ∧ (i a).val < win3_3.index t a * S2000x512.size a + S2000x512.size a := by
  show i ∈ ((View.whole main_v34).slice (win3_3.rect t)).set ↔ _
  rw [View.set_slice_whole, Rect.mem_set_unit]
  exact Iff.rfl

/-- Row r of the array lies in the block of point r / 2000: the twenty-five blocks cover the array. -/
theorem cover (i : S50000x512.Idx) :
    ∃ t : Fin cfg3.N, (cfg3.win 3).flush t = true ∧ i ∈ ((cfg3.win 3).blk t).view.set := by
  have hi0 : (i 0).val < 50000 := (i 0).isLt
  have hi1 : (i 1).val < 512 := (i 1).isLt
  have hN : grid3.N = 25 := N_3
  obtain ⟨e0, e1, e2, e3, e4, e5, e6, e7⟩ :=
    idx_facts ⟨(i 0).val / 2000, by show (i 0).val / 2000 < grid3.N; rw [hN]; omega⟩
  refine ⟨⟨(i 0).val / 2000, by show (i 0).val / 2000 < grid3.N; rw [hN]; omega⟩, flush3_3 _, ?_⟩
  rw [mem_blk]
  intro a
  match a with
  | ⟨0, _⟩ =>
    show win3_3.index _ (0 : Fin 2) * 2000 ≤ (i 0).val ∧ (i 0).val < win3_3.index _ (0 : Fin 2) * 2000 + 2000
    rw [e6]
    show (i 0).val / 2000 * 2000 ≤ (i 0).val ∧ (i 0).val < (i 0).val / 2000 * 2000 + 2000
    omega
  | ⟨1, _⟩ =>
    show win3_3.index _ (1 : Fin 2) * 512 ≤ (i 1).val ∧ (i 1).val < win3_3.index _ (1 : Fin 2) * 512 + 512
    rw [e7]
    omega

/-- After the call the output array is the rectified sum of the arrays the call finds. -/
theorem final (c : Dev nD) :
    (dat3 V c).arrAt 3 cfg3.N
      = Cert.Gcn.act3 (V c main_v32) (V c main_v17) (Cert.Gcn.rowVec (V c main_v33)) :=
  (dat3 V c).arrAt_eq_of_cover 3 _ (fun t _ => flushed_eq V c t) cover

end Cert.KernelIdeal.Reg3

end
-- ==== Proof.Reg4.lean ====
import proofs.«153699_j13692355740362_2_alg».proof.Proof.Gen.KernelIdeal.Frame
import proofs.«153699_j13692355740362_2_alg».proof.Proof.Spec
import proofs.«153699_j13692355740362_2_alg».proof.Proof.LibMatmulZero
import Idealize.ShloMosaic.Lib.Pipeline.Value
import Idealize.ShloMosaic.Lib.ValueIdx

/-!
# The second middle layer's matrix product (the fifth pallas_call)

The call tiles the 50000 rows of h into ten blocks of 5000 rows; at a block it multiplies the block of h by the
whole 512 × 512 weight matrix into a zero accumulator.  Row r of block t is row 5000·t + r of the array, so every
block written back is that block of ONE matrix, the product h · W, and the ten blocks cover all rows.
-/

noncomputable section

open scoped BigOperators

namespace Cert.KernelIdeal.Reg4

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem off_zero : (![0, 0] : Fin 2 → Nat) = fun _ => 0 := funext fun a => by fin_cases a <;> rfl

/-- The block product at an entry: the sum over k of the block of h at (p, k) times the weights at (k, q). -/
theorem pay_ix2 (x0 : FVec Ideal S5000x512 .bf16) (x1 : FVec Ideal S512x512 .f32) (p : Fin 5000) (q : Fin 512) :
    k4_pay1 x0 x1 (ix2 p q) = ∑ k : Fin 512, x0 (ix2 p k) * x1 (ix2 k q) := by
  unfold k4_pay1
  rw [shapeCast_self]
  show matmul dot_S5000x512_S512x512_S5000x512_1_0_0_1_n_n none x0 (truncf .bf16 x1 bitsLt_bf16_f32)
      (constant S5000x512 .f32 0x00000000#32) (ix2 p q) = _
  exact Cert.LibMatmulZero.matmul_zero_ix2 (φ₁ := .bf16) (φ₂ := .bf16) dot_S5000x512_S512x512_S5000x512_1_0_0_1_n_n rfl rfl rfl rfl
    (fun i c => by
      unfold DotDims.lhsIdx
      rw [dif_neg (show ¬(0 : Fin _) ∈ dot_S5000x512_S512x512_S5000x512_1_0_0_1_n_n.lhsBatch by decide),
        dif_pos (show (0 : Fin _) ∈ dot_S5000x512_S512x512_S5000x512_1_0_0_1_n_n.lhsNonContracting by decide)]
      rfl)
    (fun i c => by
      unfold DotDims.rhsIdx
      rw [dif_neg (show ¬(1 : Fin _) ∈ dot_S5000x512_S512x512_S5000x512_1_0_0_1_n_n.rhsBatch by decide),
        dif_pos (show (1 : Fin _) ∈ dot_S5000x512_S512x512_S5000x512_1_0_0_1_n_n.rhsNonContracting by decide)]
      rfl)
    none x0 (truncf .bf16 x1 bitsLt_bf16_f32) p q

/-- The same at any index of the block. -/
theorem pay_apply (x0 : FVec Ideal S5000x512 .bf16) (x1 : FVec Ideal S512x512 .f32) (j : S5000x512.Idx) :
    k4_pay1 x0 x1 j = ∑ k : Fin 512, x0 (ix2 (j 0) k) * x1 (ix2 k (j 1)) := by
  exact (congrArg (k4_pay1 x0 x1) (eq_ix2 j)).trans (by exact pay_ix2 x0 x1 (j 0) (j 1))

/-- The printed index maps, decided over the ten points: the block of h and the output block sit at block row t, the
    weights at the origin. -/
theorem idx_facts : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- What point t writes back is block t of the product of the arrays the call finds. -/
theorem flushed_eq (c : Dev nD) (t : Fin cfg4.N) :
    (dat4 V c).flushed 2 t
      = ((cfg4.win 2).blk t).view.read (Elt Ideal) (Cert.Gcn.mm (V c main_v34) (V c main_arg8)) := by
  show (cfg4.win 2).cut (grid4.coords t) ((dat4 V c).after 2 t) = _
  rw [after4_2]
  unfold out4_2
  rw [View.canon_unit_zero off_zero]
  simp only [View.ld_unit_zero (S := S5000x512) off_zero, View.ld_unit_zero (S := S512x512) off_zero]
  obtain ⟨e0, e1, e2, e3, e4, e5⟩ := idx_facts t
  funext j
  refine (pay_apply _ _ j).trans ?_
  let A : Cert.Gcn.Mat 50000 512 := V c main_v34
  let W : Cert.Gcn.Mat 512 512 := V c main_arg8
  show ∑ k : Fin 512, A (((cfg4.win 0).blk t).view.emb (ix2 (j 0) k)) * W (((cfg4.win 1).blk t).view.emb (ix2 k (j 1)))
      = ∑ k : Fin 512, A (ix2 ((((cfg4.win 2).blk t).view.emb j) 0) k) * W (ix2 k ((((cfg4.win 2).blk t).view.emb j) 1))
  refine Finset.sum_congr rfl fun k _ => ?_
  have h0 : ((cfg4.win 0).blk t).view.emb (ix2 (j 0) k) = ix2 ((((cfg4.win 2).blk t).view.emb j) 0) k := by
    funext a; apply Fin.ext
    match a with
    | ⟨0, _⟩ =>
      show win4_0.index t (0 : Fin 2) * 5000 + 1 * (j 0).val = win4_2.index t (0 : Fin 2) * 5000 + 1 * (j 0).val
      omega
    | ⟨1, _⟩ =>
      show win4_0.index t (1 : Fin 2) * 512 + 1 * k.val = k.val
      omega
  have h1 : ((cfg4.win 1).blk t).view.emb (ix2 k (j 1)) = ix2 k ((((cfg4.win 2).blk t).view.emb j) 1) := by
    funext a; apply Fin.ext
    match a with
    | ⟨0, _⟩ =>
      show win4_1.index t (0 : Fin 2) * 512 + 1 * k.val = k.val
      omega
    | ⟨1, _⟩ =>
      show win4_1.index t (1 : Fin 2) * 512 + 1 * (j 1).val = win4_2.index t (1 : Fin 2) * 512 + 1 * (j 1).val
      omega
  rw [h0, h1]
  rfl

/-- An index of the array is in point t's block iff each coordinate is in the block's range on its axis. -/
theorem mem_blk (t : Fin cfg4.N) (i : S50000x512.Idx) :
    i ∈ ((cfg4.win 2).blk t).view.set ↔ ∀ a : Fin 2, win4_2.index t a * S5000x512.size a ≤ (i a).val
      ∧ (i a).val < win4_2.index t a * S5000x512.size a + S5000x512.size a := by
  show i ∈ ((View.whole main_v35).slice (win4_2.rect t)).set ↔ _
  rw [View.set_slice_whole, Rect.mem_set_unit]
  exact Iff.rfl

/-- Row r of the array lies in the block of point r / 5000: the ten blocks cover the array. -/
theorem cover (i : S50000x512.Idx) :
    ∃ t : Fin cfg4.N, (cfg4.win 2).flush t = true ∧ i ∈ ((cfg4.win 2).blk t).view.set := by
  have hi0 : (i 0).val < 50000 := (i 0).isLt
  have hi1 : (i 1).val < 512 := (i 1).isLt
  have hN : grid4.N = 10 := N_4
  obtain ⟨e0, e1, e2, e3, e4, e5⟩ := idx_facts ⟨(i 0).val / 5000, by show (i 0).val / 5000 < grid4.N; rw [hN]; omega⟩
  refine ⟨⟨(i 0).val / 5000, by show (i 0).val / 5000 < grid4.N; rw [hN]; omega⟩, flush4_2 _, ?_⟩
  rw [mem_blk]
  intro a
  match a with
  | ⟨0, _⟩ =>
    show win4_2.index _ (0 : Fin 2) * 5000 ≤ (i 0).val ∧ (i 0).val < win4_2.index _ (0 : Fin 2) * 5000 + 5000
    rw [e4]
    show (i 0).val / 5000 * 5000 ≤ (i 0).val ∧ (i 0).val < (i 0).val / 5000 * 5000 + 5000
    omega
  | ⟨1, _⟩ =>
    show win4_2.index _ (1 : Fin 2) * 512 ≤ (i 1).val ∧ (i 1).val < win4_2.index _ (1 : Fin 2) * 512 + 512
    rw [e5]
    omega

/-- After the call the output array is the product of the arrays the call finds. -/
theorem final (c : Dev nD) :
    (dat4 V c).arrAt 2 cfg4.N = Cert.Gcn.mm (V c main_v34) (V c main_arg8) :=
  (dat4 V c).arrAt_eq_of_cover 2 _ (fun t _ => flushed_eq V c t) cover

end Cert.KernelIdeal.Reg4

end
-- ==== Proof.Reg5.lean ====
import proofs.«153699_j13692355740362_2_alg».proof.Proof.Gen.KernelIdeal.Frame
import proofs.«153699_j13692355740362_2_alg».proof.Proof.Spec
import Idealize.ShloMosaic.Lib.Pipeline.Value
import Idealize.ShloMosaic.Lib.ValueIdx
import Idealize.ShloMosaic.Lib.ValueLayout
import Idealize.ShloMosaic.PureOps.Ideal.Laws

/-!
# The second middle layer's bias, residual and rectifier (the sixth pallas_call)

The call tiles the 50000 rows into twenty-five blocks of 2000 rows, all 512 columns wide; at a block it adds the block
of the sparse product, the block of h (the identity residual) and the one bias row repeated down the rows, and takes
the maximum with zero.  Entry (p, q) of the block written at point t depends only on entry (p, q) of the two input
blocks and on entry q of the bias row, and row p of block t is row 2000·t + p of the array, so every block written
back is that block of ONE matrix, max(s + h + b, 0), and the twenty-five blocks cover all rows.
-/

noncomputable section

open scoped BigOperators

namespace Cert.KernelIdeal.Reg5

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem off_zero : (![0, 0] : Fin 2 → Nat) = fun _ => 0 := funext fun a => by fin_cases a <;> rfl

/-- The block's arithmetic at an entry: the sum of the two blocks' entries there and the bias row's entry in that
    column, rectified.  The shape changes keep the shape, the format changes keep the extended real, and the zero word
    is the extended real 0. -/
theorem pay_ix2 (x0 : FVec Ideal S2000x512 .f32) (x1 : FVec Ideal S2000x512 .bf16) (x2 : FVec Ideal S1x512 .f32)
    (p : Fin 2000) (q : Fin 512) :
    (k5_pay1 (F := Ideal) x0 x1 x2 (ix2 p q) : EReal) = max (x0 (ix2 p q) + x1 (ix2 p q) + x2 (ix2 (0 : Fin 1) q)) 0 := by
  unfold k5_pay1
  rw [shapeCast_self, shapeCast_self, shapeCast_self]
  show max (x0 (ix2 p q) + x1 (ix2 p q) + broadcastTo S2000x512 x2 broadcasts_S1x512_S2000x512 (ix2 p q))
      (Ideal.ofBits .f32 0x00000000#32) = _
  rw [Ideal.ofBits_zero_f32]
  exact congrArg (fun u => max (x0 (ix2 p q) + x1 (ix2 p q) + u) 0)
    (broadcastTo_1b_ab_apply (a := 2000) (b := 512) x2 broadcasts_S1x512_S2000x512 p q)

/-- The same at any index of the block. -/
theorem pay_apply (x0 : FVec Ideal S2000x512 .f32) (x1 : FVec Ideal S2000x512 .bf16) (x2 : FVec Ideal S1x512 .f32)
    (j : S2000x512.Idx) :
    (k5_pay1 (F := Ideal) x0 x1 x2 j : EReal) = max (x0 j + x1 j + x2 (ix2 (0 : Fin 1) (j 1))) 0 := by
  refine (congrArg (k5_pay1 (F := Ideal) x0 x1 x2) (eq_ix2 j)).trans ?_
  refine (by exact pay_ix2 x0 x1 x2 (j 0) (j 1) : _ = max (x0 (ix2 (j 0) (j 1)) + x1 (ix2 (j 0) (j 1)) + x2 (ix2 (0 : Fin 1) (j 1))) 0).trans ?_
  exact (congrArg (fun i : S2000x512.Idx => max (x0 i + x1 i + x2 (ix2 (0 : Fin 1) (j 1))) 0) (eq_ix2 j)).symm

/-- The printed index maps, decided over the twenty-five points: the two input blocks and the output block sit at
    block row t, the bias row at the origin. -/
theorem idx_facts : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0 :=
  (by decide +kernel : ∀ t : Fin grid5.N, _)

/-- What point t writes back is block t of the rectified sum of the arrays the call finds. -/
theorem flushed_eq (c : Dev nD) (t : Fin cfg5.N) :
    (dat5 V c).flushed 3 t
      = ((cfg5.win 3).blk t).view.read (Elt Ideal)
          (Cert.Gcn.act3 (V c main_v49) (V c main_v34) (Cert.Gcn.rowVec (V c main_v50))) := by
  show (cfg5.win 3).cut (grid5.coords t) ((dat5 V c).after 3 t) = _
  rw [after5_3]
  unfold out5_3
  rw [View.canon_unit_zero off_zero]
  simp only [View.ld_unit_zero (S := S2000x512) off_zero, View.ld_unit_zero (S := S1x512) off_zero]
  obtain ⟨e0, e1, e2, e3, e4, e5, e6, e7⟩ := idx_facts t
  funext j
  refine (pay_apply _ _ _ j).trans ?_
  let A : Cert.Gcn.Mat 50000 512 := V c main_v49
  let H : Cert.Gcn.Mat 50000 512 := V c main_v34
  let B : Cert.Gcn.Mat 1 512 := V c main_v50
  show max (A (((cfg5.win 0).blk t).view.emb j) + H (((cfg5.win 1).blk t).view.emb j)
        + B (((cfg5.win 2).blk t).view.emb (ix2 (0 : Fin 1) (j 1)))) 0
      = max (A (((cfg5.win 3).blk t).view.emb j) + H (((cfg5.win 3).blk t).view.emb j)
        + B (ix2 (0 : Fin 1) ((((cfg5.win 3).blk t).view.emb j) 1))) 0
  have h0 : ((cfg5.win 0).blk t).view.emb j = ((cfg5.win 3).blk t).view.emb j := by
    funext a; apply Fin.ext
    match a with
    | ⟨0, _⟩ =>
      show win5_0.index t (0 : Fin 2) * 2000 + 1 * (j 0).val = win5_3.index t (0 : Fin 2) * 2000 + 1 * (j 0).val
      omega
    | ⟨1, _⟩ =>
      show win5_0.index t (1 : Fin 2) * 512 + 1 * (j 1).val = win5_3.index t (1 : Fin 2) * 512 + 1 * (j 1).val
      omega
  have h1 : ((cfg5.win 1).blk t).view.emb j = ((cfg5.win 3).blk t).view.emb j := by
    funext a; apply Fin.ext
    match a with
    | ⟨0, _⟩ =>
      show win5_1.index t (0 : Fin 2) * 2000 + 1 * (j 0).val = win5_3.index t (0 : Fin 2) * 2000 + 1 * (j 0).val
      omega
    | ⟨1, _⟩ =>
      show win5_1.index t (1 : Fin 2) * 512 + 1 * (j 1).val = win5_3.index t (1 : Fin 2) * 512 + 1 * (j 1).val
      omega
  have h2 : ((cfg5.win 2).blk t).view.emb (ix2 (0 : Fin 1) (j 1))
      = ix2 (0 : Fin 1) ((((cfg5.win 3).blk t).view.emb j) 1) := by
    funext a; apply Fin.ext
    match a with
    | ⟨0, _⟩ =>
      show win5_2.index t (0 : Fin 2) * 1 + 1 * 0 = 0
      omega
    | ⟨1, _⟩ =>
      show win5_2.index t (1 : Fin 2) * 512 + 1 * (j 1).val = win5_3.index t (1 : Fin 2) * 512 + 1 * (j 1).val
      omega
  rw [h0, h1, h2]
  rfl

/-- An index of the array is in point t's block iff each coordinate is in the block's range on its axis. -/
theorem mem_blk (t : Fin cfg5.N) (i : S50000x512.Idx) :
    i ∈ ((cfg5.win 3).blk t).view.set ↔ ∀ a : Fin 2, win5_3.index t a * S2000x512.size a ≤ (i a).val
      ∧ (i a).val < win5_3.index t a * S2000x512.size a + S2000x512.size a := by
  show i ∈ ((View.whole main_v51).slice (win5_3.rect t)).set ↔ _
  rw [View.set_slice_whole, Rect.mem_set_unit]
  exact Iff.rfl

/-- Row r of the array lies in the block of point r / 2000: the twenty-five blocks cover the array. -/
theorem cover (i : S50000x512.Idx) :
    ∃ t : Fin cfg5.N, (cfg5.win 3).flush t = true ∧ i ∈ ((cfg5.win 3).blk t).view.set := by
  have hi0 : (i 0).val < 50000 := (i 0).isLt
  have hi1 : (i 1).val < 512 := (i 1).isLt
  have hN : grid5.N = 25 := N_5
  obtain ⟨e0, e1, e2, e3, e4, e5, e6, e7⟩ :=
    idx_facts ⟨(i 0).val / 2000, by show (i 0).val / 2000 < grid5.N; rw [hN]; omega⟩
  refine ⟨⟨(i 0).val / 2000, by show (i 0).val / 2000 < grid5.N; rw [hN]; omega⟩, flush5_3 _, ?_⟩
  rw [mem_blk]
  intro a
  match a with
  | ⟨0, _⟩ =>
    show win5_3.index _ (0 : Fin 2) * 2000 ≤ (i 0).val ∧ (i 0).val < win5_3.index _ (0 : Fin 2) * 2000 + 2000
    rw [e6]
    show (i 0).val / 2000 * 2000 ≤ (i 0).val ∧ (i 0).val < (i 0).val / 2000 * 2000 + 2000
    omega
  | ⟨1, _⟩ =>
    show win5_3.index _ (1 : Fin 2) * 512 ≤ (i 1).val ∧ (i 1).val < win5_3.index _ (1 : Fin 2) * 512 + 512
    rw [e7]
    omega

/-- After the call the output array is the rectified sum of the arrays the call finds. -/
theorem final (c : Dev nD) :
    (dat5 V c).arrAt 3 cfg5.N
      = Cert.Gcn.act3 (V c main_v49) (V c main_v34) (Cert.Gcn.rowVec (V c main_v50)) :=
  (dat5 V c).arrAt_eq_of_cover 3 _ (fun t _ => flushed_eq V c t) cover

end Cert.KernelIdeal.Reg5

end
-- ==== Proof.Reg6.lean ====
import proofs.«153699_j13692355740362_2_alg».proof.Proof.Gen.KernelIdeal.Frame
import proofs.«153699_j13692355740362_2_alg».proof.Proof.Spec
import proofs.«153699_j13692355740362_2_alg».proof.Proof.LibMatmulZero
import Idealize.ShloMosaic.Lib.Pipeline.Value
import Idealize.ShloMosaic.Lib.ValueIdx

/-!
# The third middle layer's matrix product (the seventh pallas_call)

The call tiles the 50000 rows of h into ten blocks of 5000 rows; at a block it multiplies the block of h by the
whole 512 × 512 weight matrix into a zero accumulator.  Row r of block t is row 5000·t + r of the array, so every
block written back is that block of ONE matrix, the product h · W, and the ten blocks cover all rows.
-/

noncomputable section

open scoped BigOperators

namespace Cert.KernelIdeal.Reg6

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem off_zero : (![0, 0] : Fin 2 → Nat) = fun _ => 0 := funext fun a => by fin_cases a <;> rfl

/-- The block product at an entry: the sum over k of the block of h at (p, k) times the weights at (k, q). -/
theorem pay_ix2 (x0 : FVec Ideal S5000x512 .bf16) (x1 : FVec Ideal S512x512 .f32) (p : Fin 5000) (q : Fin 512) :
    k6_pay1 x0 x1 (ix2 p q) = ∑ k : Fin 512, x0 (ix2 p k) * x1 (ix2 k q) := by
  unfold k6_pay1
  rw [shapeCast_self]
  show matmul dot_S5000x512_S512x512_S5000x512_1_0_0_1_n_n none x0 (truncf .bf16 x1 bitsLt_bf16_f32)
      (constant S5000x512 .f32 0x00000000#32) (ix2 p q) = _
  exact Cert.LibMatmulZero.matmul_zero_ix2 (φ₁ := .bf16) (φ₂ := .bf16) dot_S5000x512_S512x512_S5000x512_1_0_0_1_n_n rfl rfl rfl rfl
    (fun i c => by
      unfold DotDims.lhsIdx
      rw [dif_neg (show ¬(0 : Fin _) ∈ dot_S5000x512_S512x512_S5000x512_1_0_0_1_n_n.lhsBatch by decide),
        dif_pos (show (0 : Fin _) ∈ dot_S5000x512_S512x512_S5000x512_1_0_0_1_n_n.lhsNonContracting by decide)]
      rfl)
    (fun i c => by
      unfold DotDims.rhsIdx
      rw [dif_neg (show ¬(1 : Fin _) ∈ dot_S5000x512_S512x512_S5000x512_1_0_0_1_n_n.rhsBatch by decide),
        dif_pos (show (1 : Fin _) ∈ dot_S5000x512_S512x512_S5000x512_1_0_0_1_n_n.rhsNonContracting by decide)]
      rfl)
    none x0 (truncf .bf16 x1 bitsLt_bf16_f32) p q

/-- The same at any index of the block. -/
theorem pay_apply (x0 : FVec Ideal S5000x512 .bf16) (x1 : FVec Ideal S512x512 .f32) (j : S5000x512.Idx) :
    k6_pay1 x0 x1 j = ∑ k : Fin 512, x0 (ix2 (j 0) k) * x1 (ix2 k (j 1)) := by
  exact (congrArg (k6_pay1 x0 x1) (eq_ix2 j)).trans (by exact pay_ix2 x0 x1 (j 0) (j 1))

/-- The printed index maps, decided over the ten points: the block of h and the output block sit at block row t, the
    weights at the origin. -/
theorem idx_facts : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0 :=
  (by decide +kernel : ∀ t : Fin grid6.N, _)

/-- What point t writes back is block t of the product of the arrays the call finds. -/
theorem flushed_eq (c : Dev nD) (t : Fin cfg6.N) :
    (dat6 V c).flushed 2 t
      = ((cfg6.win 2).blk t).view.read (Elt Ideal) (Cert.Gcn.mm (V c main_v51) (V c main_arg8)) := by
  show (cfg6.win 2).cut (grid6.coords t) ((dat6 V c).after 2 t) = _
  rw [after6_2]
  unfold out6_2
  rw [View.canon_unit_zero off_zero]
  simp only [View.ld_unit_zero (S := S5000x512) off_zero, View.ld_unit_zero (S := S512x512) off_zero]
  obtain ⟨e0, e1, e2, e3, e4, e5⟩ := idx_facts t
  funext j
  refine (pay_apply _ _ j).trans ?_
  let A : Cert.Gcn.Mat 50000 512 := V c main_v51
  let W : Cert.Gcn.Mat 512 512 := V c main_arg8
  show ∑ k : Fin 512, A (((cfg6.win 0).blk t).view.emb (ix2 (j 0) k)) * W (((cfg6.win 1).blk t).view.emb (ix2 k (j 1)))
      = ∑ k : Fin 512, A (ix2 ((((cfg6.win 2).blk t).view.emb j) 0) k) * W (ix2 k ((((cfg6.win 2).blk t).view.emb j) 1))
  refine Finset.sum_congr rfl fun k _ => ?_
  have h0 : ((cfg6.win 0).blk t).view.emb (ix2 (j 0) k) = ix2 ((((cfg6.win 2).blk t).view.emb j) 0) k := by
    funext a; apply Fin.ext
    match a with
    | ⟨0, _⟩ =>
      show win6_0.index t (0 : Fin 2) * 5000 + 1 * (j 0).val = win6_2.index t (0 : Fin 2) * 5000 + 1 * (j 0).val
      omega
    | ⟨1, _⟩ =>
      show win6_0.index t (1 : Fin 2) * 512 + 1 * k.val = k.val
      omega
  have h1 : ((cfg6.win 1).blk t).view.emb (ix2 k (j 1)) = ix2 k ((((cfg6.win 2).blk t).view.emb j) 1) := by
    funext a; apply Fin.ext
    match a with
    | ⟨0, _⟩ =>
      show win6_1.index t (0 : Fin 2) * 512 + 1 * k.val = k.val
      omega
    | ⟨1, _⟩ =>
      show win6_1.index t (1 : Fin 2) * 512 + 1 * (j 1).val = win6_2.index t (1 : Fin 2) * 512 + 1 * (j 1).val
      omega
  rw [h0, h1]
  rfl

/-- An index of the array is in point t's block iff each coordinate is in the block's range on its axis. -/
theorem mem_blk (t : Fin cfg6.N) (i : S50000x512.Idx) :
    i ∈ ((cfg6.win 2).blk t).view.set ↔ ∀ a : Fin 2, win6_2.index t a * S5000x512.size a ≤ (i a).val
      ∧ (i a).val < win6_2.index t a * S5000x512.size a + S5000x512.size a := by
  show i ∈ ((View.whole main_v52).slice (win6_2.rect t)).set ↔ _
  rw [View.set_slice_whole, Rect.mem_set_unit]
  exact Iff.rfl

/-- Row r of the array lies in the block of point r / 5000: the ten blocks cover the array. -/
theorem cover (i : S50000x512.Idx) :
    ∃ t : Fin cfg6.N, (cfg6.win 2).flush t = true ∧ i ∈ ((cfg6.win 2).blk t).view.set := by
  have hi0 : (i 0).val < 50000 := (i 0).isLt
  have hi1 : (i 1).val < 512 := (i 1).isLt
  have hN : grid6.N = 10 := N_6
  obtain ⟨e0, e1, e2, e3, e4, e5⟩ := idx_facts ⟨(i 0).val / 5000, by show (i 0).val / 5000 < grid6.N; rw [hN]; omega⟩
  refine ⟨⟨(i 0).val / 5000, by show (i 0).val / 5000 < grid6.N; rw [hN]; omega⟩, flush6_2 _, ?_⟩
  rw [mem_blk]
  intro a
  match a with
  | ⟨0, _⟩ =>
    show win6_2.index _ (0 : Fin 2) * 5000 ≤ (i 0).val ∧ (i 0).val < win6_2.index _ (0 : Fin 2) * 5000 + 5000
    rw [e4]
    show (i 0).val / 5000 * 5000 ≤ (i 0).val ∧ (i 0).val < (i 0).val / 5000 * 5000 + 5000
    omega
  | ⟨1, _⟩ =>
    show win6_2.index _ (1 : Fin 2) * 512 ≤ (i 1).val ∧ (i 1).val < win6_2.index _ (1 : Fin 2) * 512 + 512
    rw [e5]
    omega

/-- After the call the output array is the product of the arrays the call finds. -/
theorem final (c : Dev nD) :
    (dat6 V c).arrAt 2 cfg6.N = Cert.Gcn.mm (V c main_v51) (V c main_arg8) :=
  (dat6 V c).arrAt_eq_of_cover 2 _ (fun t _ => flushed_eq V c t) cover

end Cert.KernelIdeal.Reg6

end
-- ==== Proof.Reg7.lean ====
import proofs.«153699_j13692355740362_2_alg».proof.Proof.Gen.KernelIdeal.Frame
import proofs.«153699_j13692355740362_2_alg».proof.Proof.Spec
import Idealize.ShloMosaic.Lib.Pipeline.Value
import Idealize.ShloMosaic.Lib.ValueIdx
import Idealize.ShloMosaic.Lib.ValueLayout
import Idealize.ShloMosaic.PureOps.Ideal.Laws

/-!
# The third middle layer's bias, residual and rectifier (the eighth pallas_call)

The call tiles the 50000 rows into twenty-five blocks of 2000 rows, all 512 columns wide; at a block it adds the block
of the sparse product, the block of h (the identity residual) and the one bias row repeated down the rows, and takes
the maximum with zero.  Entry (p, q) of the block written at point t depends only on entry (p, q) of the two input
blocks and on entry q of the bias row, and row p of block t is row 2000·t + p of the array, so every block written
back is that block of ONE matrix, max(s + h + b, 0), and the twenty-five blocks cover all rows.
-/

noncomputable section

open scoped BigOperators

namespace Cert.KernelIdeal.Reg7

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem off_zero : (![0, 0] : Fin 2 → Nat) = fun _ => 0 := funext fun a => by fin_cases a <;> rfl

/-- The block's arithmetic at an entry: the sum of the two blocks' entries there and the bias row's entry in that
    column, rectified.  The shape changes keep the shape, the format changes keep the extended real, and the zero word
    is the extended real 0. -/
theorem pay_ix2 (x0 : FVec Ideal S2000x512 .f32) (x1 : FVec Ideal S2000x512 .bf16) (x2 : FVec Ideal S1x512 .f32)
    (p : Fin 2000) (q : Fin 512) :
    (k7_pay1 (F := Ideal) x0 x1 x2 (ix2 p q) : EReal) = max (x0 (ix2 p q) + x1 (ix2 p q) + x2 (ix2 (0 : Fin 1) q)) 0 := by
  unfold k7_pay1
  rw [shapeCast_self, shapeCast_self, shapeCast_self]
  show max (x0 (ix2 p q) + x1 (ix2 p q) + broadcastTo S2000x512 x2 broadcasts_S1x512_S2000x512 (ix2 p q))
      (Ideal.ofBits .f32 0x00000000#32) = _
  rw [Ideal.ofBits_zero_f32]
  exact congrArg (fun u => max (x0 (ix2 p q) + x1 (ix2 p q) + u) 0)
    (broadcastTo_1b_ab_apply (a := 2000) (b := 512) x2 broadcasts_S1x512_S2000x512 p q)

/-- The same at any index of the block. -/
theorem pay_apply (x0 : FVec Ideal S2000x512 .f32) (x1 : FVec Ideal S2000x512 .bf16) (x2 : FVec Ideal S1x512 .f32)
    (j : S2000x512.Idx) :
    (k7_pay1 (F := Ideal) x0 x1 x2 j : EReal) = max (x0 j + x1 j + x2 (ix2 (0 : Fin 1) (j 1))) 0 := by
  refine (congrArg (k7_pay1 (F := Ideal) x0 x1 x2) (eq_ix2 j)).trans ?_
  refine (by exact pay_ix2 x0 x1 x2 (j 0) (j 1) : _ = max (x0 (ix2 (j 0) (j 1)) + x1 (ix2 (j 0) (j 1)) + x2 (ix2 (0 : Fin 1) (j 1))) 0).trans ?_
  exact (congrArg (fun i : S2000x512.Idx => max (x0 i + x1 i + x2 (ix2 (0 : Fin 1) (j 1))) 0) (eq_ix2 j)).symm

/-- The printed index maps, decided over the twenty-five points: the two input blocks and the output block sit at
    block row t, the bias row at the origin. -/
theorem idx_facts : ∀ t : Fin cfg7.N, win7_0.index t (0 : Fin 2) = t.val ∧ win7_0.index t (1 : Fin 2) = 0
    ∧ win7_1.index t (0 : Fin 2) = t.val ∧ win7_1.index t (1 : Fin 2) = 0
    ∧ win7_2.index t (0 : Fin 2) = 0 ∧ win7_2.index t (1 : Fin 2) = 0
    ∧ win7_3.index t (0 : Fin 2) = t.val ∧ win7_3.index t (1 : Fin 2) = 0 :=
  (by decide +kernel : ∀ t : Fin grid7.N, _)

/-- What point t writes back is block t of the rectified sum of the arrays the call finds. -/
theorem flushed_eq (c : Dev nD) (t : Fin cfg7.N) :
    (dat7 V c).flushed 3 t
      = ((cfg7.win 3).blk t).view.read (Elt Ideal)
          (Cert.Gcn.act3 (V c main_v66) (V c main_v51) (Cert.Gcn.rowVec (V c main_v67))) := by
  show (cfg7.win 3).cut (grid7.coords t) ((dat7 V c).after 3 t) = _
  rw [after7_3]
  unfold out7_3
  rw [View.canon_unit_zero off_zero]
  simp only [View.ld_unit_zero (S := S2000x512) off_zero, View.ld_unit_zero (S := S1x512) off_zero]
  obtain ⟨e0, e1, e2, e3, e4, e5, e6, e7⟩ := idx_facts t
  funext j
  refine (pay_apply _ _ _ j).trans ?_
  let A : Cert.Gcn.Mat 50000 512 := V c main_v66
  let H : Cert.Gcn.Mat 50000 512 := V c main_v51
  let B : Cert.Gcn.Mat 1 512 := V c main_v67
  show max (A (((cfg7.win 0).blk t).view.emb j) + H (((cfg7.win 1).blk t).view.emb j)
        + B (((cfg7.win 2).blk t).view.emb (ix2 (0 : Fin 1) (j 1)))) 0
      = max (A (((cfg7.win 3).blk t).view.emb j) + H (((cfg7.win 3).blk t).view.emb j)
        + B (ix2 (0 : Fin 1) ((((cfg7.win 3).blk t).view.emb j) 1))) 0
  have h0 : ((cfg7.win 0).blk t).view.emb j = ((cfg7.win 3).blk t).view.emb j := by
    funext a; apply Fin.ext
    match a with
    | ⟨0, _⟩ =>
      show win7_0.index t (0 : Fin 2) * 2000 + 1 * (j 0).val = win7_3.index t (0 : Fin 2) * 2000 + 1 * (j 0).val
      omega
    | ⟨1, _⟩ =>
      show win7_0.index t (1 : Fin 2) * 512 + 1 * (j 1).val = win7_3.index t (1 : Fin 2) * 512 + 1 * (j 1).val
      omega
  have h1 : ((cfg7.win 1).blk t).view.emb j = ((cfg7.win 3).blk t).view.emb j := by
    funext a; apply Fin.ext
    match a with
    | ⟨0, _⟩ =>
      show win7_1.index t (0 : Fin 2) * 2000 + 1 * (j 0).val = win7_3.index t (0 : Fin 2) * 2000 + 1 * (j 0).val
      omega
    | ⟨1, _⟩ =>
      show win7_1.index t (1 : Fin 2) * 512 + 1 * (j 1).val = win7_3.index t (1 : Fin 2) * 512 + 1 * (j 1).val
      omega
  have h2 : ((cfg7.win 2).blk t).view.emb (ix2 (0 : Fin 1) (j 1))
      = ix2 (0 : Fin 1) ((((cfg7.win 3).blk t).view.emb j) 1) := by
    funext a; apply Fin.ext
    match a with
    | ⟨0, _⟩ =>
      show win7_2.index t (0 : Fin 2) * 1 + 1 * 0 = 0
      omega
    | ⟨1, _⟩ =>
      show win7_2.index t (1 : Fin 2) * 512 + 1 * (j 1).val = win7_3.index t (1 : Fin 2) * 512 + 1 * (j 1).val
      omega
  rw [h0, h1, h2]
  rfl

/-- An index of the array is in point t's block iff each coordinate is in the block's range on its axis. -/
theorem mem_blk (t : Fin cfg7.N) (i : S50000x512.Idx) :
    i ∈ ((cfg7.win 3).blk t).view.set ↔ ∀ a : Fin 2, win7_3.index t a * S2000x512.size a ≤ (i a).val
      ∧ (i a).val < win7_3.index t a * S2000x512.size a + S2000x512.size a := by
  show i ∈ ((View.whole main_v68).slice (win7_3.rect t)).set ↔ _
  rw [View.set_slice_whole, Rect.mem_set_unit]
  exact Iff.rfl

/-- Row r of the array lies in the block of point r / 2000: the twenty-five blocks cover the array. -/
theorem cover (i : S50000x512.Idx) :
    ∃ t : Fin cfg7.N, (cfg7.win 3).flush t = true ∧ i ∈ ((cfg7.win 3).blk t).view.set := by
  have hi0 : (i 0).val < 50000 := (i 0).isLt
  have hi1 : (i 1).val < 512 := (i 1).isLt
  have hN : grid7.N = 25 := N_7
  obtain ⟨e0, e1, e2, e3, e4, e5, e6, e7⟩ :=
    idx_facts ⟨(i 0).val / 2000, by show (i 0).val / 2000 < grid7.N; rw [hN]; omega⟩
  refine ⟨⟨(i 0).val / 2000, by show (i 0).val / 2000 < grid7.N; rw [hN]; omega⟩, flush7_3 _, ?_⟩
  rw [mem_blk]
  intro a
  match a with
  | ⟨0, _⟩ =>
    show win7_3.index _ (0 : Fin 2) * 2000 ≤ (i 0).val ∧ (i 0).val < win7_3.index _ (0 : Fin 2) * 2000 + 2000
    rw [e6]
    show (i 0).val / 2000 * 2000 ≤ (i 0).val ∧ (i 0).val < (i 0).val / 2000 * 2000 + 2000
    omega
  | ⟨1, _⟩ =>
    show win7_3.index _ (1 : Fin 2) * 512 ≤ (i 1).val ∧ (i 1).val < win7_3.index _ (1 : Fin 2) * 512 + 512
    rw [e7]
    omega

/-- After the call the output array is the rectified sum of the arrays the call finds. -/
theorem final (c : Dev nD) :
    (dat7 V c).arrAt 3 cfg7.N
      = Cert.Gcn.act3 (V c main_v66) (V c main_v51) (Cert.Gcn.rowVec (V c main_v67)) :=
  (dat7 V c).arrAt_eq_of_cover 3 _ (fun t _ => flushed_eq V c t) cover

end Cert.KernelIdeal.Reg7

end
-- ==== Proof.Reg8.lean ====
import proofs.«153699_j13692355740362_2_alg».proof.Proof.Gen.KernelIdeal.Frame
import proofs.«153699_j13692355740362_2_alg».proof.Proof.Spec
import proofs.«153699_j13692355740362_2_alg».proof.Proof.LibMatmulZero
import Idealize.ShloMosaic.Lib.Pipeline.Value
import Idealize.ShloMosaic.Lib.ValueIdx

/-!
# The fourth middle layer's matrix product (the ninth pallas_call)

The call tiles the 50000 rows of h into ten blocks of 5000 rows; at a block it multiplies the block of h by the
whole 512 × 512 weight matrix into a zero accumulator.  Row r of block t is row 5000·t + r of the array, so every
block written back is that block of ONE matrix, the product h · W, and the ten blocks cover all rows.
-/

noncomputable section

open scoped BigOperators

namespace Cert.KernelIdeal.Reg8

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem off_zero : (![0, 0] : Fin 2 → Nat) = fun _ => 0 := funext fun a => by fin_cases a <;> rfl

/-- The block product at an entry: the sum over k of the block of h at (p, k) times the weights at (k, q). -/
theorem pay_ix2 (x0 : FVec Ideal S5000x512 .bf16) (x1 : FVec Ideal S512x512 .f32) (p : Fin 5000) (q : Fin 512) :
    k8_pay1 x0 x1 (ix2 p q) = ∑ k : Fin 512, x0 (ix2 p k) * x1 (ix2 k q) := by
  unfold k8_pay1
  rw [shapeCast_self]
  show matmul dot_S5000x512_S512x512_S5000x512_1_0_0_1_n_n none x0 (truncf .bf16 x1 bitsLt_bf16_f32)
      (constant S5000x512 .f32 0x00000000#32) (ix2 p q) = _
  exact Cert.LibMatmulZero.matmul_zero_ix2 (φ₁ := .bf16) (φ₂ := .bf16) dot_S5000x512_S512x512_S5000x512_1_0_0_1_n_n rfl rfl rfl rfl
    (fun i c => by
      unfold DotDims.lhsIdx
      rw [dif_neg (show ¬(0 : Fin _) ∈ dot_S5000x512_S512x512_S5000x512_1_0_0_1_n_n.lhsBatch by decide),
        dif_pos (show (0 : Fin _) ∈ dot_S5000x512_S512x512_S5000x512_1_0_0_1_n_n.lhsNonContracting by decide)]
      rfl)
    (fun i c => by
      unfold DotDims.rhsIdx
      rw [dif_neg (show ¬(1 : Fin _) ∈ dot_S5000x512_S512x512_S5000x512_1_0_0_1_n_n.rhsBatch by decide),
        dif_pos (show (1 : Fin _) ∈ dot_S5000x512_S512x512_S5000x512_1_0_0_1_n_n.rhsNonContracting by decide)]
      rfl)
    none x0 (truncf .bf16 x1 bitsLt_bf16_f32) p q

/-- The same at any index of the block. -/
theorem pay_apply (x0 : FVec Ideal S5000x512 .bf16) (x1 : FVec Ideal S512x512 .f32) (j : S5000x512.Idx) :
    k8_pay1 x0 x1 j = ∑ k : Fin 512, x0 (ix2 (j 0) k) * x1 (ix2 k (j 1)) := by
  exact (congrArg (k8_pay1 x0 x1) (eq_ix2 j)).trans (by exact pay_ix2 x0 x1 (j 0) (j 1))

/-- The printed index maps, decided over the ten points: the block of h and the output block sit at block row t, the
    weights at the origin. -/
theorem idx_facts : ∀ t : Fin cfg8.N, win8_0.index t (0 : Fin 2) = t.val ∧ win8_0.index t (1 : Fin 2) = 0
    ∧ win8_1.index t (0 : Fin 2) = 0 ∧ win8_1.index t (1 : Fin 2) = 0
    ∧ win8_2.index t (0 : Fin 2) = t.val ∧ win8_2.index t (1 : Fin 2) = 0 :=
  (by decide +kernel : ∀ t : Fin grid8.N, _)

/-- What point t writes back is block t of the product of the arrays the call finds. -/
theorem flushed_eq (c : Dev nD) (t : Fin cfg8.N) :
    (dat8 V c).flushed 2 t
      = ((cfg8.win 2).blk t).view.read (Elt Ideal) (Cert.Gcn.mm (V c main_v68) (V c main_arg8)) := by
  show (cfg8.win 2).cut (grid8.coords t) ((dat8 V c).after 2 t) = _
  rw [after8_2]
  unfold out8_2
  rw [View.canon_unit_zero off_zero]
  simp only [View.ld_unit_zero (S := S5000x512) off_zero, View.ld_unit_zero (S := S512x512) off_zero]
  obtain ⟨e0, e1, e2, e3, e4, e5⟩ := idx_facts t
  funext j
  refine (pay_apply _ _ j).trans ?_
  let A : Cert.Gcn.Mat 50000 512 := V c main_v68
  let W : Cert.Gcn.Mat 512 512 := V c main_arg8
  show ∑ k : Fin 512, A (((cfg8.win 0).blk t).view.emb (ix2 (j 0) k)) * W (((cfg8.win 1).blk t).view.emb (ix2 k (j 1)))
      = ∑ k : Fin 512, A (ix2 ((((cfg8.win 2).blk t).view.emb j) 0) k) * W (ix2 k ((((cfg8.win 2).blk t).view.emb j) 1))
  refine Finset.sum_congr rfl fun k _ => ?_
  have h0 : ((cfg8.win 0).blk t).view.emb (ix2 (j 0) k) = ix2 ((((cfg8.win 2).blk t).view.emb j) 0) k := by
    funext a; apply Fin.ext
    match a with
    | ⟨0, _⟩ =>
      show win8_0.index t (0 : Fin 2) * 5000 + 1 * (j 0).val = win8_2.index t (0 : Fin 2) * 5000 + 1 * (j 0).val
      omega
    | ⟨1, _⟩ =>
      show win8_0.index t (1 : Fin 2) * 512 + 1 * k.val = k.val
      omega
  have h1 : ((cfg8.win 1).blk t).view.emb (ix2 k (j 1)) = ix2 k ((((cfg8.win 2).blk t).view.emb j) 1) := by
    funext a; apply Fin.ext
    match a with
    | ⟨0, _⟩ =>
      show win8_1.index t (0 : Fin 2) * 512 + 1 * k.val = k.val
      omega
    | ⟨1, _⟩ =>
      show win8_1.index t (1 : Fin 2) * 512 + 1 * (j 1).val = win8_2.index t (1 : Fin 2) * 512 + 1 * (j 1).val
      omega
  rw [h0, h1]
  rfl

/-- An index of the array is in point t's block iff each coordinate is in the block's range on its axis. -/
theorem mem_blk (t : Fin cfg8.N) (i : S50000x512.Idx) :
    i ∈ ((cfg8.win 2).blk t).view.set ↔ ∀ a : Fin 2, win8_2.index t a * S5000x512.size a ≤ (i a).val
      ∧ (i a).val < win8_2.index t a * S5000x512.size a + S5000x512.size a := by
  show i ∈ ((View.whole main_v69).slice (win8_2.rect t)).set ↔ _
  rw [View.set_slice_whole, Rect.mem_set_unit]
  exact Iff.rfl

/-- Row r of the array lies in the block of point r / 5000: the ten blocks cover the array. -/
theorem cover (i : S50000x512.Idx) :
    ∃ t : Fin cfg8.N, (cfg8.win 2).flush t = true ∧ i ∈ ((cfg8.win 2).blk t).view.set := by
  have hi0 : (i 0).val < 50000 := (i 0).isLt
  have hi1 : (i 1).val < 512 := (i 1).isLt
  have hN : grid8.N = 10 := N_8
  obtain ⟨e0, e1, e2, e3, e4, e5⟩ := idx_facts ⟨(i 0).val / 5000, by show (i 0).val / 5000 < grid8.N; rw [hN]; omega⟩
  refine ⟨⟨(i 0).val / 5000, by show (i 0).val / 5000 < grid8.N; rw [hN]; omega⟩, flush8_2 _, ?_⟩
  rw [mem_blk]
  intro a
  match a with
  | ⟨0, _⟩ =>
    show win8_2.index _ (0 : Fin 2) * 5000 ≤ (i 0).val ∧ (i 0).val < win8_2.index _ (0 : Fin 2) * 5000 + 5000
    rw [e4]
    show (i 0).val / 5000 * 5000 ≤ (i 0).val ∧ (i 0).val < (i 0).val / 5000 * 5000 + 5000
    omega
  | ⟨1, _⟩ =>
    show win8_2.index _ (1 : Fin 2) * 512 ≤ (i 1).val ∧ (i 1).val < win8_2.index _ (1 : Fin 2) * 512 + 512
    rw [e5]
    omega

/-- After the call the output array is the product of the arrays the call finds. -/
theorem final (c : Dev nD) :
    (dat8 V c).arrAt 2 cfg8.N = Cert.Gcn.mm (V c main_v68) (V c main_arg8) :=
  (dat8 V c).arrAt_eq_of_cover 2 _ (fun t _ => flushed_eq V c t) cover

end Cert.KernelIdeal.Reg8

end
-- ==== Proof.Reg9.lean ====
import proofs.«153699_j13692355740362_2_alg».proof.Proof.Gen.KernelIdeal.Frame
import proofs.«153699_j13692355740362_2_alg».proof.Proof.Spec
import Idealize.ShloMosaic.Lib.Pipeline.Value
import Idealize.ShloMosaic.Lib.ValueIdx
import Idealize.ShloMosaic.Lib.ValueLayout
import Idealize.ShloMosaic.PureOps.Ideal.Laws

/-!
# The fourth middle layer's bias, residual and rectifier (the tenth pallas_call)

The call tiles the 50000 rows into twenty-five blocks of 2000 rows, all 512 columns wide; at a block it adds the block
of the sparse product, the block of h (the identity residual) and the one bias row repeated down the rows, and takes
the maximum with zero.  Entry (p, q) of the block written at point t depends only on entry (p, q) of the two input
blocks and on entry q of the bias row, and row p of block t is row 2000·t + p of the array, so every block written
back is that block of ONE matrix, max(s + h + b, 0), and the twenty-five blocks cover all rows.
-/

noncomputable section

open scoped BigOperators

namespace Cert.KernelIdeal.Reg9

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem off_zero : (![0, 0] : Fin 2 → Nat) = fun _ => 0 := funext fun a => by fin_cases a <;> rfl

/-- The block's arithmetic at an entry: the sum of the two blocks' entries there and the bias row's entry in that
    column, rectified.  The shape changes keep the shape, the format changes keep the extended real, and the zero word
    is the extended real 0. -/
theorem pay_ix2 (x0 : FVec Ideal S2000x512 .f32) (x1 : FVec Ideal S2000x512 .bf16) (x2 : FVec Ideal S1x512 .f32)
    (p : Fin 2000) (q : Fin 512) :
    (k9_pay1 (F := Ideal) x0 x1 x2 (ix2 p q) : EReal) = max (x0 (ix2 p q) + x1 (ix2 p q) + x2 (ix2 (0 : Fin 1) q)) 0 := by
  unfold k9_pay1
  rw [shapeCast_self, shapeCast_self, shapeCast_self]
  show max (x0 (ix2 p q) + x1 (ix2 p q) + broadcastTo S2000x512 x2 broadcasts_S1x512_S2000x512 (ix2 p q))
      (Ideal.ofBits .f32 0x00000000#32) = _
  rw [Ideal.ofBits_zero_f32]
  exact congrArg (fun u => max (x0 (ix2 p q) + x1 (ix2 p q) + u) 0)
    (broadcastTo_1b_ab_apply (a := 2000) (b := 512) x2 broadcasts_S1x512_S2000x512 p q)

/-- The same at any index of the block. -/
theorem pay_apply (x0 : FVec Ideal S2000x512 .f32) (x1 : FVec Ideal S2000x512 .bf16) (x2 : FVec Ideal S1x512 .f32)
    (j : S2000x512.Idx) :
    (k9_pay1 (F := Ideal) x0 x1 x2 j : EReal) = max (x0 j + x1 j + x2 (ix2 (0 : Fin 1) (j 1))) 0 := by
  refine (congrArg (k9_pay1 (F := Ideal) x0 x1 x2) (eq_ix2 j)).trans ?_
  refine (by exact pay_ix2 x0 x1 x2 (j 0) (j 1) : _ = max (x0 (ix2 (j 0) (j 1)) + x1 (ix2 (j 0) (j 1)) + x2 (ix2 (0 : Fin 1) (j 1))) 0).trans ?_
  exact (congrArg (fun i : S2000x512.Idx => max (x0 i + x1 i + x2 (ix2 (0 : Fin 1) (j 1))) 0) (eq_ix2 j)).symm

/-- The printed index maps, decided over the twenty-five points: the two input blocks and the output block sit at
    block row t, the bias row at the origin. -/
theorem idx_facts : ∀ t : Fin cfg9.N, win9_0.index t (0 : Fin 2) = t.val ∧ win9_0.index t (1 : Fin 2) = 0
    ∧ win9_1.index t (0 : Fin 2) = t.val ∧ win9_1.index t (1 : Fin 2) = 0
    ∧ win9_2.index t (0 : Fin 2) = 0 ∧ win9_2.index t (1 : Fin 2) = 0
    ∧ win9_3.index t (0 : Fin 2) = t.val ∧ win9_3.index t (1 : Fin 2) = 0 :=
  (by decide +kernel : ∀ t : Fin grid9.N, _)

/-- What point t writes back is block t of the rectified sum of the arrays the call finds. -/
theorem flushed_eq (c : Dev nD) (t : Fin cfg9.N) :
    (dat9 V c).flushed 3 t
      = ((cfg9.win 3).blk t).view.read (Elt Ideal)
          (Cert.Gcn.act3 (V c main_v83) (V c main_v68) (Cert.Gcn.rowVec (V c main_v84))) := by
  show (cfg9.win 3).cut (grid9.coords t) ((dat9 V c).after 3 t) = _
  rw [after9_3]
  unfold out9_3
  rw [View.canon_unit_zero off_zero]
  simp only [View.ld_unit_zero (S := S2000x512) off_zero, View.ld_unit_zero (S := S1x512) off_zero]
  obtain ⟨e0, e1, e2, e3, e4, e5, e6, e7⟩ := idx_facts t
  funext j
  refine (pay_apply _ _ _ j).trans ?_
  let A : Cert.Gcn.Mat 50000 512 := V c main_v83
  let H : Cert.Gcn.Mat 50000 512 := V c main_v68
  let B : Cert.Gcn.Mat 1 512 := V c main_v84
  show max (A (((cfg9.win 0).blk t).view.emb j) + H (((cfg9.win 1).blk t).view.emb j)
        + B (((cfg9.win 2).blk t).view.emb (ix2 (0 : Fin 1) (j 1)))) 0
      = max (A (((cfg9.win 3).blk t).view.emb j) + H (((cfg9.win 3).blk t).view.emb j)
        + B (ix2 (0 : Fin 1) ((((cfg9.win 3).blk t).view.emb j) 1))) 0
  have h0 : ((cfg9.win 0).blk t).view.emb j = ((cfg9.win 3).blk t).view.emb j := by
    funext a; apply Fin.ext
    match a with
    | ⟨0, _⟩ =>
      show win9_0.index t (0 : Fin 2) * 2000 + 1 * (j 0).val = win9_3.index t (0 : Fin 2) * 2000 + 1 * (j 0).val
      omega
    | ⟨1, _⟩ =>
      show win9_0.index t (1 : Fin 2) * 512 + 1 * (j 1).val = win9_3.index t (1 : Fin 2) * 512 + 1 * (j 1).val
      omega
  have h1 : ((cfg9.win 1).blk t).view.emb j = ((cfg9.win 3).blk t).view.emb j := by
    funext a; apply Fin.ext
    match a with
    | ⟨0, _⟩ =>
      show win9_1.index t (0 : Fin 2) * 2000 + 1 * (j 0).val = win9_3.index t (0 : Fin 2) * 2000 + 1 * (j 0).val
      omega
    | ⟨1, _⟩ =>
      show win9_1.index t (1 : Fin 2) * 512 + 1 * (j 1).val = win9_3.index t (1 : Fin 2) * 512 + 1 * (j 1).val
      omega
  have h2 : ((cfg9.win 2).blk t).view.emb (ix2 (0 : Fin 1) (j 1))
      = ix2 (0 : Fin 1) ((((cfg9.win 3).blk t).view.emb j) 1) := by
    funext a; apply Fin.ext
    match a with
    | ⟨0, _⟩ =>
      show win9_2.index t (0 : Fin 2) * 1 + 1 * 0 = 0
      omega
    | ⟨1, _⟩ =>
      show win9_2.index t (1 : Fin 2) * 512 + 1 * (j 1).val = win9_3.index t (1 : Fin 2) * 512 + 1 * (j 1).val
      omega
  rw [h0, h1, h2]
  rfl

/-- An index of the array is in point t's block iff each coordinate is in the block's range on its axis. -/
theorem mem_blk (t : Fin cfg9.N) (i : S50000x512.Idx) :
    i ∈ ((cfg9.win 3).blk t).view.set ↔ ∀ a : Fin 2, win9_3.index t a * S2000x512.size a ≤ (i a).val
      ∧ (i a).val < win9_3.index t a * S2000x512.size a + S2000x512.size a := by
  show i ∈ ((View.whole main_v85).slice (win9_3.rect t)).set ↔ _
  rw [View.set_slice_whole, Rect.mem_set_unit]
  exact Iff.rfl

/-- Row r of the array lies in the block of point r / 2000: the twenty-five blocks cover the array. -/
theorem cover (i : S50000x512.Idx) :
    ∃ t : Fin cfg9.N, (cfg9.win 3).flush t = true ∧ i ∈ ((cfg9.win 3).blk t).view.set := by
  have hi0 : (i 0).val < 50000 := (i 0).isLt
  have hi1 : (i 1).val < 512 := (i 1).isLt
  have hN : grid9.N = 25 := N_9
  obtain ⟨e0, e1, e2, e3, e4, e5, e6, e7⟩ :=
    idx_facts ⟨(i 0).val / 2000, by show (i 0).val / 2000 < grid9.N; rw [hN]; omega⟩
  refine ⟨⟨(i 0).val / 2000, by show (i 0).val / 2000 < grid9.N; rw [hN]; omega⟩, flush9_3 _, ?_⟩
  rw [mem_blk]
  intro a
  match a with
  | ⟨0, _⟩ =>
    show win9_3.index _ (0 : Fin 2) * 2000 ≤ (i 0).val ∧ (i 0).val < win9_3.index _ (0 : Fin 2) * 2000 + 2000
    rw [e6]
    show (i 0).val / 2000 * 2000 ≤ (i 0).val ∧ (i 0).val < (i 0).val / 2000 * 2000 + 2000
    omega
  | ⟨1, _⟩ =>
    show win9_3.index _ (1 : Fin 2) * 512 ≤ (i 1).val ∧ (i 1).val < win9_3.index _ (1 : Fin 2) * 512 + 512
    rw [e7]
    omega

/-- After the call the output array is the rectified sum of the arrays the call finds. -/
theorem final (c : Dev nD) :
    (dat9 V c).arrAt 3 cfg9.N
      = Cert.Gcn.act3 (V c main_v83) (V c main_v68) (Cert.Gcn.rowVec (V c main_v84)) :=
  (dat9 V c).arrAt_eq_of_cover 3 _ (fun t _ => flushed_eq V c t) cover

end Cert.KernelIdeal.Reg9

end
-- ==== Proof.KernelChain.lean ====
import proofs.«153699_j13692355740362_2_alg».proof.Proof.Gen.KernelIdeal.Frame
import proofs.«153699_j13692355740362_2_alg».proof.Proof.Gen.ReferenceIdeal
import proofs.«153699_j13692355740362_2_alg».proof.Proof.Spec
import proofs.«153699_j13692355740362_2_alg».proof.Proof.Sparse
import proofs.«153699_j13692355740362_2_alg».proof.Proof.KernelArgs
import proofs.«153699_j13692355740362_2_alg».proof.Proof.KernelHost
import proofs.«153699_j13692355740362_2_alg».proof.Proof.Reg0
import proofs.«153699_j13692355740362_2_alg».proof.Proof.Reg1
import proofs.«153699_j13692355740362_2_alg».proof.Proof.Reg2
import proofs.«153699_j13692355740362_2_alg».proof.Proof.Reg3
import proofs.«153699_j13692355740362_2_alg».proof.Proof.Reg4
import proofs.«153699_j13692355740362_2_alg».proof.Proof.Reg5
import proofs.«153699_j13692355740362_2_alg».proof.Proof.Reg6
import proofs.«153699_j13692355740362_2_alg».proof.Proof.Reg7
import proofs.«153699_j13692355740362_2_alg».proof.Proof.Reg8
import proofs.«153699_j13692355740362_2_alg».proof.Proof.Reg9
import Idealize.ShloMosaic.PureOps.Ideal
import Idealize.ShloMosaic.Lib.ValueIdx
import Idealize.ShloMosaic.Lib.ValueLayout
import Idealize.ShloMosaic.Lib.Pipeline.Value

/-!
# The kernel program's buffers, followed through the first five layers

`H1 … H5` are the five hidden activations as functions of the launch arrays: the projected first layer and four
applications of the shared middle layer.  Each lemma reads ONE buffer at ONE boundary of the program: a pallas_call's
output array by that call's closed form at the arrays it finds, a host stretch's result by unfolding the stretch,
the arguments by the invariant that they stay as launched.  After the tenth call the buffer `main_v85` holds `H5`.
-/

set_option maxRecDepth 16384

noncomputable section

namespace Cert.KernelIdeal.Chain

open Cert.KernelIdeal Cert.KernelIdeal.Gen Idealize.ShloMosaic Idealize.ShloMosaic.TcCoe Idealize.SL.Sem
open Idealize.ShloMosaic.ValueIdx
open Idealize.ShloMosaic.Pipeline (Dat)

/-- A vector laid as a 1 × C row and read back as a vector is the vector. -/
theorem rowVec_shapeCast {C : Nat} (x : Cert.Gcn.Vct C) (h : (⟨1, ![C]⟩ : Shape).ShapeCasts ⟨2, ![1, C]⟩) :
    Cert.Gcn.rowVec (shapeCast ⟨2, ![1, C]⟩ x h) = x := by
  funext j
  unfold Cert.Gcn.rowVec
  exact (shapeCast_a_1a_apply x h (0 : Fin 1) (j 0)).trans (congrArg x (eq_ix1 j).symm)

variable (m : (ℓ : Loc nD τ sig) → Buf (Elt Ideal) ℓ) (c : Dev nD)

/-- The first hidden activation: the projected first layer of the launch arrays. -/
def H1 : Cert.Gcn.Mat 50000 512 :=
  Cert.Gcn.act4 ((Cert.Gcn.sp512 (m ((c : Thread nD τ).loc main_arg1)) (m ((c : Thread nD τ).loc main_arg2)) (m ((c : Thread nD τ).loc main_arg3))) (Cert.Gcn.mm (m ((c : Thread nD τ).loc main_arg0)) (m ((c : Thread nD τ).loc main_arg4)))) (Cert.Gcn.mm (m ((c : Thread nD τ).loc main_arg0)) (m ((c : Thread nD τ).loc main_arg6))) (m ((c : Thread nD τ).loc main_arg5)) (m ((c : Thread nD τ).loc main_arg7))
/-- The later hidden activations: the shared middle layer applied again. -/
def H2 : Cert.Gcn.Mat 50000 512 := Cert.Gcn.mid (Cert.Gcn.sp512 (m ((c : Thread nD τ).loc main_arg1)) (m ((c : Thread nD τ).loc main_arg2)) (m ((c : Thread nD τ).loc main_arg3))) (m ((c : Thread nD τ).loc main_arg8)) (m ((c : Thread nD τ).loc main_arg9)) (H1 m c)
def H3 : Cert.Gcn.Mat 50000 512 := Cert.Gcn.mid (Cert.Gcn.sp512 (m ((c : Thread nD τ).loc main_arg1)) (m ((c : Thread nD τ).loc main_arg2)) (m ((c : Thread nD τ).loc main_arg3))) (m ((c : Thread nD τ).loc main_arg8)) (m ((c : Thread nD τ).loc main_arg9)) (H2 m c)
def H4 : Cert.Gcn.Mat 50000 512 := Cert.Gcn.mid (Cert.Gcn.sp512 (m ((c : Thread nD τ).loc main_arg1)) (m ((c : Thread nD τ).loc main_arg2)) (m ((c : Thread nD τ).loc main_arg3))) (m ((c : Thread nD τ).loc main_arg8)) (m ((c : Thread nD τ).loc main_arg9)) (H3 m c)
def H5 : Cert.Gcn.Mat 50000 512 := Cert.Gcn.mid (Cert.Gcn.sp512 (m ((c : Thread nD τ).loc main_arg1)) (m ((c : Thread nD τ).loc main_arg2)) (m ((c : Thread nD τ).loc main_arg3))) (m ((c : Thread nD τ).loc main_arg8)) (m ((c : Thread nD τ).loc main_arg9)) (H4 m c)

variable (ρ : Dev nD → PrngReg)

/-! ## The first layer: pallas_call 0 (two products), `hostOps1`, pallas_call 1 -/

/-- The first call's two output arrays are x · W1 and x · P1 (it is entered from the launch contents). -/
theorem main_v0_0_at1 : W1 (F := Ideal) m ρ c (Proc.devRef .tc main_v0_0) = Cert.Gcn.mm (m ((c : Thread nD τ).loc main_arg0)) (m ((c : Thread nD τ).loc main_arg4)) :=
  (W1_arr m ρ c 3).trans (Cert.KernelIdeal.Reg0.final3 (V0 m ρ) c)
theorem main_v0_1_at1 : W1 (F := Ideal) m ρ c (Proc.devRef .tc main_v0_1) = Cert.Gcn.mm (m ((c : Thread nD τ).loc main_arg0)) (m ((c : Thread nD τ).loc main_arg6)) :=
  (W1_arr m ρ c 4).trans (Cert.KernelIdeal.Reg0.final4 (V0 m ρ) c)

set_option maxHeartbeats 4000000 in
/-- The host stretch's sparse product is the adjacency applied to x · W1. -/
theorem main_v14_at2 : W2 (F := Ideal) m ρ c (Proc.devRef .tc main_v14) = (Cert.Gcn.sp512 (m ((c : Thread nD τ).loc main_arg1)) (m ((c : Thread nD τ).loc main_arg2)) (m ((c : Thread nD τ).loc main_arg3))) (Cert.Gcn.mm (m ((c : Thread nD τ).loc main_arg0)) (m ((c : Thread nD τ).loc main_arg4))) := by
  have e : W2 (F := Ideal) m ρ c (Proc.devRef .tc main_v14)
      = kSp512 (W1 m ρ c (Proc.devRef .tc main_arg1)) (W1 m ρ c (Proc.devRef .tc main_arg2))
          (W1 m ρ c (Proc.devRef .tc main_arg3)) (W1 m ρ c (Proc.devRef .tc main_v0_0)) := by
    show StableHlo.after hostOps1 (W1 m ρ c) (Proc.devRef .tc main_v14) = _
    after_results_simp
    rfl
  rw [e, kSp512_eq, (keptAt1 m ρ c).a1, (keptAt1 m ρ c).a2, (keptAt1 m ρ c).a3, main_v0_0_at1 m c ρ]

/-- The two bias vectors laid as rows, read back. -/
theorem main_v15_at2 : Cert.Gcn.rowVec (W2 (F := Ideal) m ρ c (Proc.devRef .tc main_v15)) = (m ((c : Thread nD τ).loc main_arg5)) := by
  have e : W2 (F := Ideal) m ρ c (Proc.devRef .tc main_v15)
      = shapeCast S1x512 (W1 m ρ c (Proc.devRef .tc main_arg5)) shapeCasts_S512_S1x512 := by
    show StableHlo.after hostOps1 (W1 m ρ c) (Proc.devRef .tc main_v15) = _
    after_results
    rfl
  rw [e, arg5_at1 m ρ c]
  exact rowVec_shapeCast _ _
theorem main_v16_at2 : Cert.Gcn.rowVec (W2 (F := Ideal) m ρ c (Proc.devRef .tc main_v16)) = (m ((c : Thread nD τ).loc main_arg7)) := by
  have e : W2 (F := Ideal) m ρ c (Proc.devRef .tc main_v16)
      = shapeCast S1x512 (W1 m ρ c (Proc.devRef .tc main_arg7)) shapeCasts_S512_S1x512 := by
    show StableHlo.after hostOps1 (W1 m ρ c) (Proc.devRef .tc main_v16) = _
    after_results
    rfl
  rw [e, arg7_at1 m ρ c]
  exact rowVec_shapeCast _ _

/-- The host stretch does not write the projected residual. -/
theorem main_v0_1_at2 : W2 (F := Ideal) m ρ c (Proc.devRef .tc main_v0_1) = Cert.Gcn.mm (m ((c : Thread nD τ).loc main_arg0)) (m ((c : Thread nD τ).loc main_arg6)) := by
  have e : W2 (F := Ideal) m ρ c (Proc.devRef .tc main_v0_1) = W1 m ρ c (Proc.devRef .tc main_v0_1) := by
    show StableHlo.after hostOps1 (W1 m ρ c) (Proc.devRef .tc main_v0_1) = _
    after_results
  rw [e, main_v0_1_at1 m c ρ]

/-- The second call's output array is the first hidden activation. -/
theorem main_v17_at3 : W3 (F := Ideal) m ρ c (Proc.devRef .tc main_v17) = H1 m c :=
  (W3_arr m ρ c 4).trans ((Cert.KernelIdeal.Reg1.final (V2 m ρ) c).trans (by
    show Cert.Gcn.act4 (W2 m ρ c (Proc.devRef .tc main_v14)) (W2 m ρ c (Proc.devRef .tc main_v0_1))
      (Cert.Gcn.rowVec (W2 m ρ c (Proc.devRef .tc main_v15))) (Cert.Gcn.rowVec (W2 m ρ c (Proc.devRef .tc main_v16))) = _
    rw [main_v14_at2 m c ρ, main_v0_1_at2 m c ρ, main_v15_at2 m c ρ, main_v16_at2 m c ρ]
    rfl))

/-! ## Middle layer 2: pallas_call 2 (the product), the host stretch `hostOps3` (the sparse product and the bias row),
    pallas_call 3 (bias, residual, rectifier) -/

/-- The product call's output array is h · W3. -/
theorem main_v18_at4 : W4 (F := Ideal) m ρ c (Proc.devRef .tc main_v18) = Cert.Gcn.mm (H1 m c) (m ((c : Thread nD τ).loc main_arg8)) :=
  (W4_arr m ρ c 2).trans ((Cert.KernelIdeal.Reg2.final (V3 m ρ) c).trans
    (congrArg₂ Cert.Gcn.mm (main_v17_at3 m c ρ) (keptAt3 m ρ c).a8))

/-- The product call only reads h. -/
theorem main_v17_at4 : W4 (F := Ideal) m ρ c (Proc.devRef .tc main_v17) = H1 m c :=
  (show W4 m ρ c (Proc.devRef .tc main_v17) = W3 m ρ c (Proc.devRef .tc main_v17) from
    (W4_arr m ρ c 0).trans (((dat2 (V3 m ρ) c).arrAt_in 0 rfl _).trans (A_eq2 (V3 m ρ) c 0))).trans (main_v17_at3 m c ρ)

set_option maxHeartbeats 4000000 in
/-- The host stretch's sparse product is the adjacency applied to h · W3. -/
theorem main_v32_at5 : W5 (F := Ideal) m ρ c (Proc.devRef .tc main_v32) = (Cert.Gcn.sp512 (m ((c : Thread nD τ).loc main_arg1)) (m ((c : Thread nD τ).loc main_arg2)) (m ((c : Thread nD τ).loc main_arg3))) (Cert.Gcn.mm (H1 m c) (m ((c : Thread nD τ).loc main_arg8))) := by
  have e : W5 (F := Ideal) m ρ c (Proc.devRef .tc main_v32)
      = kSp512 (W4 m ρ c (Proc.devRef .tc main_arg1)) (W4 m ρ c (Proc.devRef .tc main_arg2))
          (W4 m ρ c (Proc.devRef .tc main_arg3)) (W4 m ρ c (Proc.devRef .tc main_v18)) := by
    show StableHlo.after hostOps3 (W4 m ρ c) (Proc.devRef .tc main_v32) = _
    after_results_simp
    rfl
  rw [e, kSp512_eq, (keptAt4 m ρ c).a1, (keptAt4 m ρ c).a2, (keptAt4 m ρ c).a3, main_v18_at4 m c ρ]

/-- The bias vector laid as a 1 × 512 row, read back as a vector. -/
theorem main_v33_at5 : Cert.Gcn.rowVec (W5 (F := Ideal) m ρ c (Proc.devRef .tc main_v33)) = (m ((c : Thread nD τ).loc main_arg9)) := by
  have e : W5 (F := Ideal) m ρ c (Proc.devRef .tc main_v33)
      = shapeCast S1x512 (W4 m ρ c (Proc.devRef .tc main_arg9)) shapeCasts_S512_S1x512 := by
    show StableHlo.after hostOps3 (W4 m ρ c) (Proc.devRef .tc main_v33) = _
    after_results
    rfl
  rw [e, (keptAt4 m ρ c).a9]
  exact rowVec_shapeCast _ _

/-- The host stretch does not write h. -/
theorem main_v17_at5 : W5 (F := Ideal) m ρ c (Proc.devRef .tc main_v17) = H1 m c := by
  have e : W5 (F := Ideal) m ρ c (Proc.devRef .tc main_v17) = W4 m ρ c (Proc.devRef .tc main_v17) := by
    show StableHlo.after hostOps3 (W4 m ρ c) (Proc.devRef .tc main_v17) = _
    after_results
  rw [e, main_v17_at4 m c ρ]

/-- The epilogue call's output array is the next h. -/
theorem main_v34_at6 : W6 (F := Ideal) m ρ c (Proc.devRef .tc main_v34) = H2 m c :=
  (W6_arr m ρ c 3).trans ((Cert.KernelIdeal.Reg3.final (V5 m ρ) c).trans (by
    show Cert.Gcn.act3 (W5 m ρ c (Proc.devRef .tc main_v32)) (W5 m ρ c (Proc.devRef .tc main_v17))
      (Cert.Gcn.rowVec (W5 m ρ c (Proc.devRef .tc main_v33))) = _
    rw [main_v32_at5 m c ρ, main_v17_at5 m c ρ, main_v33_at5 m c ρ]
    rfl))

/-! ## Middle layer 3: pallas_call 4 (the product), the host stretch `hostOps5` (the sparse product and the bias row),
    pallas_call 5 (bias, residual, rectifier) -/

/-- The product call's output array is h · W3. -/
theorem main_v35_at7 : W7 (F := Ideal) m ρ c (Proc.devRef .tc main_v35) = Cert.Gcn.mm (H2 m c) (m ((c : Thread nD τ).loc main_arg8)) :=
  (W7_arr m ρ c 2).trans ((Cert.KernelIdeal.Reg4.final (V6 m ρ) c).trans
    (congrArg₂ Cert.Gcn.mm (main_v34_at6 m c ρ) (keptAt6 m ρ c).a8))

/-- The product call only reads h. -/
theorem main_v34_at7 : W7 (F := Ideal) m ρ c (Proc.devRef .tc main_v34) = H2 m c :=
  (show W7 m ρ c (Proc.devRef .tc main_v34) = W6 m ρ c (Proc.devRef .tc main_v34) from
    (W7_arr m ρ c 0).trans (((dat4 (V6 m ρ) c).arrAt_in 0 rfl _).trans (A_eq4 (V6 m ρ) c 0))).trans (main_v34_at6 m c ρ)

set_option maxHeartbeats 4000000 in
/-- The host stretch's sparse product is the adjacency applied to h · W3. -/
theorem main_v49_at8 : W8 (F := Ideal) m ρ c (Proc.devRef .tc main_v49) = (Cert.Gcn.sp512 (m ((c : Thread nD τ).loc main_arg1)) (m ((c : Thread nD τ).loc main_arg2)) (m ((c : Thread nD τ).loc main_arg3))) (Cert.Gcn.mm (H2 m c) (m ((c : Thread nD τ).loc main_arg8))) := by
  have e : W8 (F := Ideal) m ρ c (Proc.devRef .tc main_v49)
      = kSp512 (W7 m ρ c (Proc.devRef .tc main_arg1)) (W7 m ρ c (Proc.devRef .tc main_arg2))
          (W7 m ρ c (Proc.devRef .tc main_arg3)) (W7 m ρ c (Proc.devRef .tc main_v35)) := by
    show StableHlo.after hostOps5 (W7 m ρ c) (Proc.devRef .tc main_v49) = _
    after_results_simp
    rfl
  rw [e, kSp512_eq, (keptAt7 m ρ c).a1, (keptAt7 m ρ c).a2, (keptAt7 m ρ c).a3, main_v35_at7 m c ρ]

/-- The bias vector laid as a 1 × 512 row, read back as a vector. -/
theorem main_v50_at8 : Cert.Gcn.rowVec (W8 (F := Ideal) m ρ c (Proc.devRef .tc main_v50)) = (m ((c : Thread nD τ).loc main_arg9)) := by
  have e : W8 (F := Ideal) m ρ c (Proc.devRef .tc main_v50)
      = shapeCast S1x512 (W7 m ρ c (Proc.devRef .tc main_arg9)) shapeCasts_S512_S1x512 := by
    show StableHlo.after hostOps5 (W7 m ρ c) (Proc.devRef .tc main_v50) = _
    after_results
    rfl
  rw [e, (keptAt7 m ρ c).a9]
  exact rowVec_shapeCast _ _

/-- The host stretch does not write h. -/
theorem main_v34_at8 : W8 (F := Ideal) m ρ c (Proc.devRef .tc main_v34) = H2 m c := by
  have e : W8 (F := Ideal) m ρ c (Proc.devRef .tc main_v34) = W7 m ρ c (Proc.devRef .tc main_v34) := by
    show StableHlo.after hostOps5 (W7 m ρ c) (Proc.devRef .tc main_v34) = _
    after_results
  rw [e, main_v34_at7 m c ρ]

/-- The epilogue call's output array is the next h. -/
theorem main_v51_at9 : W9 (F := Ideal) m ρ c (Proc.devRef .tc main_v51) = H3 m c :=
  (W9_arr m ρ c 3).trans ((Cert.KernelIdeal.Reg5.final (V8 m ρ) c).trans (by
    show Cert.Gcn.act3 (W8 m ρ c (Proc.devRef .tc main_v49)) (W8 m ρ c (Proc.devRef .tc main_v34))
      (Cert.Gcn.rowVec (W8 m ρ c (Proc.devRef .tc main_v50))) = _
    rw [main_v49_at8 m c ρ, main_v34_at8 m c ρ, main_v50_at8 m c ρ]
    rfl))

/-! ## Middle layer 4: pallas_call 6 (the product), the host stretch `hostOps7` (the sparse product and the bias row),
    pallas_call 7 (bias, residual, rectifier) -/

/-- The product call's output array is h · W3. -/
theorem main_v52_at10 : W10 (F := Ideal) m ρ c (Proc.devRef .tc main_v52) = Cert.Gcn.mm (H3 m c) (m ((c : Thread nD τ).loc main_arg8)) :=
  (W10_arr m ρ c 2).trans ((Cert.KernelIdeal.Reg6.final (V9 m ρ) c).trans
    (congrArg₂ Cert.Gcn.mm (main_v51_at9 m c ρ) (keptAt9 m ρ c).a8))

/-- The product call only reads h. -/
theorem main_v51_at10 : W10 (F := Ideal) m ρ c (Proc.devRef .tc main_v51) = H3 m c :=
  (show W10 m ρ c (Proc.devRef .tc main_v51) = W9 m ρ c (Proc.devRef .tc main_v51) from
    (W10_arr m ρ c 0).trans (((dat6 (V9 m ρ) c).arrAt_in 0 rfl _).trans (A_eq6 (V9 m ρ) c 0))).trans (main_v51_at9 m c ρ)

set_option maxHeartbeats 4000000 in
/-- The host stretch's sparse product is the adjacency applied to h · W3. -/
theorem main_v66_at11 : W11 (F := Ideal) m ρ c (Proc.devRef .tc main_v66) = (Cert.Gcn.sp512 (m ((c : Thread nD τ).loc main_arg1)) (m ((c : Thread nD τ).loc main_arg2)) (m ((c : Thread nD τ).loc main_arg3))) (Cert.Gcn.mm (H3 m c) (m ((c : Thread nD τ).loc main_arg8))) := by
  have e : W11 (F := Ideal) m ρ c (Proc.devRef .tc main_v66)
      = kSp512 (W10 m ρ c (Proc.devRef .tc main_arg1)) (W10 m ρ c (Proc.devRef .tc main_arg2))
          (W10 m ρ c (Proc.devRef .tc main_arg3)) (W10 m ρ c (Proc.devRef .tc main_v52)) := by
    show StableHlo.after hostOps7 (W10 m ρ c) (Proc.devRef .tc main_v66) = _
    after_results_simp
    rfl
  rw [e, kSp512_eq, (keptAt10 m ρ c).a1, (keptAt10 m ρ c).a2, (keptAt10 m ρ c).a3, main_v52_at10 m c ρ]

/-- The bias vector laid as a 1 × 512 row, read back as a vector. -/
theorem main_v67_at11 : Cert.Gcn.rowVec (W11 (F := Ideal) m ρ c (Proc.devRef .tc main_v67)) = (m ((c : Thread nD τ).loc main_arg9)) := by
  have e : W11 (F := Ideal) m ρ c (Proc.devRef .tc main_v67)
      = shapeCast S1x512 (W10 m ρ c (Proc.devRef .tc main_arg9)) shapeCasts_S512_S1x512 := by
    show StableHlo.after hostOps7 (W10 m ρ c) (Proc.devRef .tc main_v67) = _
    after_results
    rfl
  rw [e, (keptAt10 m ρ c).a9]
  exact rowVec_shapeCast _ _

/-- The host stretch does not write h. -/
theorem main_v51_at11 : W11 (F := Ideal) m ρ c (Proc.devRef .tc main_v51) = H3 m c := by
  have e : W11 (F := Ideal) m ρ c (Proc.devRef .tc main_v51) = W10 m ρ c (Proc.devRef .tc main_v51) := by
    show StableHlo.after hostOps7 (W10 m ρ c) (Proc.devRef .tc main_v51) = _
    after_results
  rw [e, main_v51_at10 m c ρ]

/-- The epilogue call's output array is the next h. -/
theorem main_v68_at12 : W12 (F := Ideal) m ρ c (Proc.devRef .tc main_v68) = H4 m c :=
  (W12_arr m ρ c 3).trans ((Cert.KernelIdeal.Reg7.final (V11 m ρ) c).trans (by
    show Cert.Gcn.act3 (W11 m ρ c (Proc.devRef .tc main_v66)) (W11 m ρ c (Proc.devRef .tc main_v51))
      (Cert.Gcn.rowVec (W11 m ρ c (Proc.devRef .tc main_v67))) = _
    rw [main_v66_at11 m c ρ, main_v51_at11 m c ρ, main_v67_at11 m c ρ]
    rfl))

/-! ## Middle layer 5: pallas_call 8 (the product), the host stretch `hostOps9` (the sparse product and the bias row),
    pallas_call 9 (bias, residual, rectifier) -/

/-- The product call's output array is h · W3. -/
theorem main_v69_at13 : W13 (F := Ideal) m ρ c (Proc.devRef .tc main_v69) = Cert.Gcn.mm (H4 m c) (m ((c : Thread nD τ).loc main_arg8)) :=
  (W13_arr m ρ c 2).trans ((Cert.KernelIdeal.Reg8.final (V12 m ρ) c).trans
    (congrArg₂ Cert.Gcn.mm (main_v68_at12 m c ρ) (keptAt12 m ρ c).a8))

/-- The product call only reads h. -/
theorem main_v68_at13 : W13 (F := Ideal) m ρ c (Proc.devRef .tc main_v68) = H4 m c :=
  (show W13 m ρ c (Proc.devRef .tc main_v68) = W12 m ρ c (Proc.devRef .tc main_v68) from
    (W13_arr m ρ c 0).trans (((dat8 (V12 m ρ) c).arrAt_in 0 rfl _).trans (A_eq8 (V12 m ρ) c 0))).trans (main_v68_at12 m c ρ)

set_option maxHeartbeats 4000000 in
/-- The host stretch's sparse product is the adjacency applied to h · W3. -/
theorem main_v83_at14 : W14 (F := Ideal) m ρ c (Proc.devRef .tc main_v83) = (Cert.Gcn.sp512 (m ((c : Thread nD τ).loc main_arg1)) (m ((c : Thread nD τ).loc main_arg2)) (m ((c : Thread nD τ).loc main_arg3))) (Cert.Gcn.mm (H4 m c) (m ((c : Thread nD τ).loc main_arg8))) := by
  have e : W14 (F := Ideal) m ρ c (Proc.devRef .tc main_v83)
      = kSp512 (W13 m ρ c (Proc.devRef .tc main_arg1)) (W13 m ρ c (Proc.devRef .tc main_arg2))
          (W13 m ρ c (Proc.devRef .tc main_arg3)) (W13 m ρ c (Proc.devRef .tc main_v69)) := by
    show StableHlo.after hostOps9 (W13 m ρ c) (Proc.devRef .tc main_v83) = _
    after_results_simp
    rfl
  rw [e, kSp512_eq, (keptAt13 m ρ c).a1, (keptAt13 m ρ c).a2, (keptAt13 m ρ c).a3, main_v69_at13 m c ρ]

/-- The bias vector laid as a 1 × 512 row, read back as a vector. -/
theorem main_v84_at14 : Cert.Gcn.rowVec (W14 (F := Ideal) m ρ c (Proc.devRef .tc main_v84)) = (m ((c : Thread nD τ).loc main_arg9)) := by
  have e : W14 (F := Ideal) m ρ c (Proc.devRef .tc main_v84)
      = shapeCast S1x512 (W13 m ρ c (Proc.devRef .tc main_arg9)) shapeCasts_S512_S1x512 := by
    show StableHlo.after hostOps9 (W13 m ρ c) (Proc.devRef .tc main_v84) = _
    after_results
    rfl
  rw [e, (keptAt13 m ρ c).a9]
  exact rowVec_shapeCast _ _

/-- The host stretch does not write h. -/
theorem main_v68_at14 : W14 (F := Ideal) m ρ c (Proc.devRef .tc main_v68) = H4 m c := by
  have e : W14 (F := Ideal) m ρ c (Proc.devRef .tc main_v68) = W13 m ρ c (Proc.devRef .tc main_v68) := by
    show StableHlo.after hostOps9 (W13 m ρ c) (Proc.devRef .tc main_v68) = _
    after_results
  rw [e, main_v68_at13 m c ρ]

/-- The epilogue call's output array is the next h. -/
theorem main_v85_at15 : W15 (F := Ideal) m ρ c (Proc.devRef .tc main_v85) = H5 m c :=
  (W15_arr m ρ c 3).trans ((Cert.KernelIdeal.Reg9.final (V14 m ρ) c).trans (by
    show Cert.Gcn.act3 (W14 m ρ c (Proc.devRef .tc main_v83)) (W14 m ρ c (Proc.devRef .tc main_v68))
      (Cert.Gcn.rowVec (W14 m ρ c (Proc.devRef .tc main_v84))) = _
    rw [main_v83_at14 m c ρ, main_v68_at14 m c ρ, main_v84_at14 m c ρ]
    rfl))

end Cert.KernelIdeal.Chain

end
-- ==== Proof.Reg10.lean ====
import proofs.«153699_j13692355740362_2_alg».proof.Proof.Gen.KernelIdeal.Frame
import proofs.«153699_j13692355740362_2_alg».proof.Proof.Spec
import proofs.«153699_j13692355740362_2_alg».proof.Proof.LibMatmulZero
import Idealize.ShloMosaic.Lib.Pipeline.Value
import Idealize.ShloMosaic.Lib.ValueIdx

/-!
# The last layer's matrix product against the two weight matrices side by side (the eleventh pallas_call)

The call tiles the 50000 rows of h into twenty-five blocks of 2000 rows; at a block it multiplies the block of h by the
whole 512 × 128 matrix (the two 512 × 64 weight matrices side by side) into a zero accumulator.  Row r of block t is
row 2000·t + r of the array, so every block written back is that block of ONE matrix, the product, and the blocks
cover all rows.
-/

noncomputable section

open scoped BigOperators

namespace Cert.KernelIdeal.Reg10

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem off_zero : (![0, 0] : Fin 2 → Nat) = fun _ => 0 := funext fun a => by fin_cases a <;> rfl

/-- The block product at an entry: the sum over k of the block of h at (p, k) times the weights at (k, q). -/
theorem pay_ix2 (x0 : FVec Ideal S2000x512 .bf16) (x1 : FVec Ideal S512x128 .f32) (p : Fin 2000) (q : Fin 128) :
    k10_pay1 x0 x1 (ix2 p q) = ∑ k : Fin 512, x0 (ix2 p k) * x1 (ix2 k q) := by
  unfold k10_pay1
  rw [shapeCast_self, shapeCast_self]
  show matmul dot_S2000x512_S512x128_S2000x128_1_0_0_1_n_n none x0 (truncf .bf16 x1 bitsLt_bf16_f32)
      (constant S2000x128 .f32 0x00000000#32) (ix2 p q) = _
  exact Cert.LibMatmulZero.matmul_zero_ix2 (φ₁ := .bf16) (φ₂ := .bf16) dot_S2000x512_S512x128_S2000x128_1_0_0_1_n_n rfl rfl rfl rfl
    (fun i c => by
      unfold DotDims.lhsIdx
      rw [dif_neg (show ¬(0 : Fin _) ∈ dot_S2000x512_S512x128_S2000x128_1_0_0_1_n_n.lhsBatch by decide),
        dif_pos (show (0 : Fin _) ∈ dot_S2000x512_S512x128_S2000x128_1_0_0_1_n_n.lhsNonContracting by decide)]
      rfl)
    (fun i c => by
      unfold DotDims.rhsIdx
      rw [dif_neg (show ¬(1 : Fin _) ∈ dot_S2000x512_S512x128_S2000x128_1_0_0_1_n_n.rhsBatch by decide),
        dif_pos (show (1 : Fin _) ∈ dot_S2000x512_S512x128_S2000x128_1_0_0_1_n_n.rhsNonContracting by decide)]
      rfl)
    none x0 (truncf .bf16 x1 bitsLt_bf16_f32) p q

/-- The same at any index of the block. -/
theorem pay_apply (x0 : FVec Ideal S2000x512 .bf16) (x1 : FVec Ideal S512x128 .f32) (j : S2000x128.Idx) :
    k10_pay1 x0 x1 j = ∑ k : Fin 512, x0 (ix2 (j 0) k) * x1 (ix2 k (j 1)) := by
  exact (congrArg (k10_pay1 x0 x1) (eq_ix2 j)).trans (by exact pay_ix2 x0 x1 (j 0) (j 1))

/-- The printed index maps, decided over the twenty-five points: the block of h and the output block sit at block row t, the
    weights at the origin. -/
theorem idx_facts : ∀ t : Fin cfg10.N, win10_0.index t (0 : Fin 2) = t.val ∧ win10_0.index t (1 : Fin 2) = 0
    ∧ win10_1.index t (0 : Fin 2) = 0 ∧ win10_1.index t (1 : Fin 2) = 0
    ∧ win10_2.index t (0 : Fin 2) = t.val ∧ win10_2.index t (1 : Fin 2) = 0 :=
  (by decide +kernel : ∀ t : Fin grid10.N, _)

/-- What point t writes back is block t of the product of the arrays the call finds. -/
theorem flushed_eq (c : Dev nD) (t : Fin cfg10.N) :
    (dat10 V c).flushed 2 t
      = ((cfg10.win 2).blk t).view.read (Elt Ideal) (Cert.Gcn.mm (V c main_v85) (V c main_v86)) := by
  show (cfg10.win 2).cut (grid10.coords t) ((dat10 V c).after 2 t) = _
  rw [after10_2]
  unfold out10_2
  rw [View.canon_unit_zero off_zero]
  simp only [View.ld_unit_zero (S := S2000x512) off_zero, View.ld_unit_zero (S := S512x128) off_zero]
  obtain ⟨e0, e1, e2, e3, e4, e5⟩ := idx_facts t
  funext j
  refine (pay_apply _ _ j).trans ?_
  let A : Cert.Gcn.Mat 50000 512 := V c main_v85
  let W : Cert.Gcn.Mat 512 128 := V c main_v86
  show ∑ k : Fin 512, A (((cfg10.win 0).blk t).view.emb (ix2 (j 0) k)) * W (((cfg10.win 1).blk t).view.emb (ix2 k (j 1)))
      = ∑ k : Fin 512, A (ix2 ((((cfg10.win 2).blk t).view.emb j) 0) k) * W (ix2 k ((((cfg10.win 2).blk t).view.emb j) 1))
  refine Finset.sum_congr rfl fun k _ => ?_
  have h0 : ((cfg10.win 0).blk t).view.emb (ix2 (j 0) k) = ix2 ((((cfg10.win 2).blk t).view.emb j) 0) k := by
    funext a; apply Fin.ext
    match a with
    | ⟨0, _⟩ =>
      show win10_0.index t (0 : Fin 2) * 2000 + 1 * (j 0).val = win10_2.index t (0 : Fin 2) * 2000 + 1 * (j 0).val
      omega
    | ⟨1, _⟩ =>
      show win10_0.index t (1 : Fin 2) * 512 + 1 * k.val = k.val
      omega
  have h1 : ((cfg10.win 1).blk t).view.emb (ix2 k (j 1)) = ix2 k ((((cfg10.win 2).blk t).view.emb j) 1) := by
    funext a; apply Fin.ext
    match a with
    | ⟨0, _⟩ =>
      show win10_1.index t (0 : Fin 2) * 512 + 1 * k.val = k.val
      omega
    | ⟨1, _⟩ =>
      show win10_1.index t (1 : Fin 2) * 128 + 1 * (j 1).val = win10_2.index t (1 : Fin 2) * 128 + 1 * (j 1).val
      omega
  rw [h0, h1]
  rfl

/-- An index of the array is in point t's block iff each coordinate is in the block's range on its axis. -/
theorem mem_blk (t : Fin cfg10.N) (i : S50000x128.Idx) :
    i ∈ ((cfg10.win 2).blk t).view.set ↔ ∀ a : Fin 2, win10_2.index t a * S2000x128.size a ≤ (i a).val
      ∧ (i a).val < win10_2.index t a * S2000x128.size a + S2000x128.size a := by
  show i ∈ ((View.whole main_v87).slice (win10_2.rect t)).set ↔ _
  rw [View.set_slice_whole, Rect.mem_set_unit]
  exact Iff.rfl

/-- Row r of the array lies in the block of point r / 2000: the twenty-five blocks cover the array. -/
theorem cover (i : S50000x128.Idx) :
    ∃ t : Fin cfg10.N, (cfg10.win 2).flush t = true ∧ i ∈ ((cfg10.win 2).blk t).view.set := by
  have hi0 : (i 0).val < 50000 := (i 0).isLt
  have hi1 : (i 1).val < 128 := (i 1).isLt
  have hN : grid10.N = 25 := N_10
  obtain ⟨e0, e1, e2, e3, e4, e5⟩ := idx_facts ⟨(i 0).val / 2000, by show (i 0).val / 2000 < grid10.N; rw [hN]; omega⟩
  refine ⟨⟨(i 0).val / 2000, by show (i 0).val / 2000 < grid10.N; rw [hN]; omega⟩, flush10_2 _, ?_⟩
  rw [mem_blk]
  intro a
  match a with
  | ⟨0, _⟩ =>
    show win10_2.index _ (0 : Fin 2) * 2000 ≤ (i 0).val ∧ (i 0).val < win10_2.index _ (0 : Fin 2) * 2000 + 2000
    rw [e4]
    show (i 0).val / 2000 * 2000 ≤ (i 0).val ∧ (i 0).val < (i 0).val / 2000 * 2000 + 2000
    omega
  | ⟨1, _⟩ =>
    show win10_2.index _ (1 : Fin 2) * 128 ≤ (i 1).val ∧ (i 1).val < win10_2.index _ (1 : Fin 2) * 128 + 128
    rw [e5]
    omega

/-- After the call the output array is the product of the arrays the call finds. -/
theorem final (c : Dev nD) :
    (dat10 V c).arrAt 2 cfg10.N = Cert.Gcn.mm (V c main_v85) (V c main_v86) :=
  (dat10 V c).arrAt_eq_of_cover 2 _ (fun t _ => flushed_eq V c t) cover

end Cert.KernelIdeal.Reg10

end
-- ==== Proof.LibRowOps.lean ====
/-
  Row-wise operations of a matrix at the ideal values, read at explicit coordinates.

  For an [R, C] f32 matrix: the sum along the lanes at row n is the sum over the columns of the entries of that row; the
  maximum along the lanes at row n is the fold of max, from the starting word's value, over the columns; a vector of R
  entries recast as an [R, 1] column and broadcast to [R, C] has at (n, c) the vector's entry n.  For an [R, K] × [C, K]
  product into the zero accumulator that contracts axis 1 of both operands (a product with the second operand
  transposed), entry (p, q) is Σ_k l(p, k) · r(q, k).  All hold at any extents; indices are written by coordinates.
-/
import Idealize.ShloMosaic.PureOps.Ideal.Laws
import Idealize.ShloMosaic.Lib.ValueIdx
import Idealize.ShloMosaic.Lib.Pipeline.Value

noncomputable section

open scoped BigOperators

namespace Cert.LibRow

open Idealize.ShloMosaic Idealize.ShloMosaic.ValueIdx

/-- A sum along the lanes of an [R, C] matrix, at row n, is the sum over the columns of the entries of that row. -/
theorem rowAdd_apply {R C : Nat} (src : FVec Ideal ⟨2, ![R, C]⟩ .f32)
    (h : Shape.Reduces (⟨2, ![R, C]⟩ : Shape) [1] ⟨1, ![R]⟩) (hφ : FKind.Formats .f32)
    (hacc : (0x00000000#32 : BitVec 32) = FKind.add.neutral .f32 hφ) (n : Fin R) :
    multiReduction .add [1] ⟨1, ![R]⟩ src 0x00000000#32 h hφ hacc (ix1 n) = ∑ a : Fin C, src (ix2 n a) :=
  (Ideal.multiReduction_add_single src _ h hφ hacc (ix1 n)).trans
    (Finset.sum_congr rfl fun a _ => congrArg src (funext fun d => Fin.ext (by
      match d with
      | ⟨0, _⟩ => rfl
      | ⟨1, _⟩ => rfl)))

/-- A maximum along the lanes of an [R, C] matrix, at row n, is the fold of max, from the starting word's value, over
    the columns of the entries of that row. -/
theorem rowMax_apply {R C : Nat} (src : FVec Ideal ⟨2, ![R, C]⟩ .f32) (acc : BitVec 32)
    (h : Shape.Reduces (⟨2, ![R, C]⟩ : Shape) [1] ⟨1, ![R]⟩) (hφ : FKind.Formats .f32)
    (hacc : acc = FKind.maximumf.neutral .f32 hφ) (n : Fin R) :
    multiReduction .maximumf [1] ⟨1, ![R]⟩ src acc h hφ hacc (ix1 n)
      = (Finset.univ : Finset (Fin C)).fold max (Ideal.ofBits .f32 acc) (fun a => src (ix2 n a)) :=
  (Ideal.multiReduction_maximumf_single src acc h hφ hacc (ix1 n)).trans
    (congrArg (fun f => Finset.fold max (Ideal.ofBits .f32 acc) f (Finset.univ : Finset (Fin C)))
      (funext fun a => congrArg src (funext fun d => Fin.ext (by
        match d with
        | ⟨0, _⟩ => rfl
        | ⟨1, _⟩ => rfl))))

/-- A vector of R entries recast as an [R, 1] column and broadcast to [R, C] has at (n, c) the vector's entry n. -/
theorem colBroadcast_apply {R C : Nat} {α : Type} (v : (⟨1, ![R]⟩ : Shape).Idx → α)
    (h1 : (⟨1, ![R]⟩ : Shape).ShapeCasts ⟨2, ![R, 1]⟩) (h2 : (⟨2, ![R, 1]⟩ : Shape).Broadcasts ⟨2, ![R, C]⟩)
    (n : Fin R) (c : Fin C) :
    broadcastTo ⟨2, ![R, C]⟩ (shapeCast ⟨2, ![R, 1]⟩ v h1) h2 (ix2 n c) = v (ix1 n) := by
  refine (broadcastTo_apply (shapeCast ⟨2, ![R, 1]⟩ v h1) h2 (ix2 n c) (ix2 n (0 : Fin 1)) fun ax => ?_).trans ?_
  · match ax with
    | ⟨0, _⟩ =>
      show n.val = if R = 1 then 0 else n.val
      split
      · have := n.isLt; omega
      · rfl
    | ⟨1, _⟩ => rfl
  · exact shapeCast_apply v h1 _ _ (by
      rw [Shape.rowMajor_val_one, Shape.rowMajor_val_two]
      show n.val = n.val * 1 + 0
      omega)

/-- `matmul D prec l r 0 (p, q) = Σ_k l(p, k) · r(q, k)` at the ideal values, for an [R, K] × [C, K] → [R, C] product
    contracting axis 1 of both operands. -/
theorem matmul_zero_nt_ix2 {R K C : Nat} {φ₁ φ₂ : FTy} (D : DotDims ⟨2, ![R, K]⟩ ⟨2, ![C, K]⟩ ⟨2, ![R, C]⟩)
    (hlc : D.lhsContracting = [1]) (hrc : D.rhsContracting = [1]) (hr : D.contr.rank = 1)
    (hs : D.contr.size ⟨0, by omega⟩ = K)
    (hl0 : ∀ (i : (⟨2, ![R, C]⟩ : Shape).Idx) (c : D.contr.Idx), (D.lhsIdx i c 0).val = (i 0).val)
    (hr0 : ∀ (i : (⟨2, ![R, C]⟩ : Shape).Idx) (c : D.contr.Idx), (D.rhsIdx i c 0).val = (i 1).val)
    (prec : Option ContractPrecision)
    (l : FVec Ideal ⟨2, ![R, K]⟩ φ₁) (r : FVec Ideal ⟨2, ![C, K]⟩ φ₂) (p : Fin R) (q : Fin C) :
    matmul D prec l r (constant ⟨2, ![R, C]⟩ .f32 0x00000000#32) (ix2 p q) = ∑ k : Fin K, l (ix2 p k) * r (ix2 q k) := by
  refine (Ideal.matmul_constant_zero_apply D prec l r (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k :=
    funext fun a => Fin.ext (by
      match a with
      | ⟨0, _⟩ => exact hl0 _ _
      | ⟨1, _⟩ => exact (D.lhsIdx_val_of_single hlc _ _).trans hk)
  have er : D.rhsIdx (ix2 p q) ((contrEquiv1 D K hr hs).symm k) = ix2 q k :=
    funext fun a => Fin.ext (by
      match a with
      | ⟨0, _⟩ => exact hr0 _ _
      | ⟨1, _⟩ => exact (D.rhsIdx_val_of_single hrc _ _).trans hk)
  rw [el, er]

end Cert.LibRow

end
-- ==== Proof.Reg11.lean ====
import proofs.«153699_j13692355740362_2_alg».proof.Proof.Gen.KernelIdeal.Frame
import proofs.«153699_j13692355740362_2_alg».proof.Proof.Spec
import proofs.«153699_j13692355740362_2_alg».proof.Proof.LibRowOps
import Idealize.ShloMosaic.Lib.Pipeline.Value
import Idealize.ShloMosaic.Lib.ValueIdx
import Idealize.ShloMosaic.Lib.ValueLayout
import Idealize.ShloMosaic.PureOps.Ideal.Laws

/-!
# The last layer's two biases, projected residual, rectifier and row-wise log-softmax (the twelfth pallas_call)

The call tiles the 50000 rows into twenty-five blocks of 2000 rows, all 64 columns wide.  At a block it first forms
a = max(s + r + b + pb, 0) entry by entry (the two bias rows repeated down the rows), then for each row takes the
maximum m of the row's 64 entries folded from −∞, shifts the row to z = a − m, sums exp z along the row, and writes
z − log Σ exp z.  An output entry depends on its WHOLE ROW of a; a block holds whole rows, and row p of block t is row
2000·t + p of the arrays, so the maximum and the sum over the 64 columns of the block's row are those of the array's
row.  Every block written back is therefore that block of ONE matrix, the log-softmax of max(s + r + b + pb, 0), and
the twenty-five blocks cover all rows.
-/

noncomputable section

open scoped BigOperators

namespace Cert.KernelIdeal.Reg11

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem off_zero : (![0, 0] : Fin 2 → Nat) = fun _ => 0 := funext fun a => by fin_cases a <;> rfl

/-! ## The body's arithmetic in three named stages -/

/-- The rectified sum of a block, as the body spells it. -/
def actB (x0 : FVec Ideal S2000x64 .f32) (x1 : FVec Ideal S2000x64 .bf16) (x2 x3 : FVec Ideal S1x64 .f32) :
    FVec Ideal S2000x64 .f32 :=
  maximumf (addf (addf (addf x0 (extf .f32 x1 bitsLt_bf16_f32)) (broadcastTo S2000x64 x2 broadcasts_S1x64_S2000x64))
    (broadcastTo S2000x64 x3 broadcasts_S1x64_S2000x64)) (broadcast S2000x64 (Scalar.ofBits .f32 0x00000000#32))

/-- A block with each row shifted down by the row's maximum, as the body spells it: the maximum along the lanes,
    recast as a column and repeated along the rows, subtracted. -/
def shiftB (a : FVec Ideal S2000x64 .f32) : FVec Ideal S2000x64 .f32 :=
  subf a (broadcastTo S2000x64 (shapeCast S2000x1
    (multiReduction .maximumf [1] S2000 a 0xFF800000#32 reduces_S2000x64_S2000 (.inl rfl) rfl)
    shapeCasts_S2000_S2000x1) broadcasts_S2000x1_S2000x64)

/-- The shifted block minus the logarithm of the row sums of its exponentials, as the body spells it. -/
def lsmB (a : FVec Ideal S2000x64 .f32) : FVec Ideal S2000x64 .f32 :=
  subf (shiftB a) (broadcastTo S2000x64 (log (shapeCast S2000x1
    (multiReduction .add [1] S2000 (exp (shiftB a)) 0x00000000#32 reduces_S2000x64_S2000 (.inl rfl) rfl)
    shapeCasts_S2000_S2000x1)) broadcasts_S2000x1_S2000x64)

/-- The body's value is the third stage of the first: the shape changes that keep the shape drop out. -/
theorem pay_split (x0 : FVec Ideal S2000x64 .f32) (x1 : FVec Ideal S2000x64 .bf16) (x2 x3 : FVec Ideal S1x64 .f32) :
    k11_pay1 (F := Ideal) x0 x1 x2 x3 = lsmB (actB x0 x1 x2 x3) := by
  unfold k11_pay1
  rw [shapeCast_self, shapeCast_self, shapeCast_self, shapeCast_self]
  rfl

/-- The rectified sum at an entry: the two blocks' entries there plus the two bias rows' entries in that column,
    rectified.  The format change keeps the extended real, and the zero word is the extended real 0. -/
theorem actB_ix2 (x0 : FVec Ideal S2000x64 .f32) (x1 : FVec Ideal S2000x64 .bf16) (x2 x3 : FVec Ideal S1x64 .f32)
    (p : Fin 2000) (q : Fin 64) :
    (actB x0 x1 x2 x3 (ix2 p q) : EReal)
      = max (x0 (ix2 p q) + x1 (ix2 p q) + x2 (ix2 (0 : Fin 1) q) + x3 (ix2 (0 : Fin 1) q)) 0 := by
  show max (x0 (ix2 p q) + x1 (ix2 p q) + broadcastTo S2000x64 x2 broadcasts_S1x64_S2000x64 (ix2 p q)
        + broadcastTo S2000x64 x3 broadcasts_S1x64_S2000x64 (ix2 p q))
      (Ideal.ofBits .f32 0x00000000#32) = _
  rw [Ideal.ofBits_zero_f32]
  refine (congrArg (fun u => max (x0 (ix2 p q) + x1 (ix2 p q) + u
      + broadcastTo S2000x64 x3 broadcasts_S1x64_S2000x64 (ix2 p q)) 0)
    (broadcastTo_1b_ab_apply (a := 2000) (b := 64) x2 broadcasts_S1x64_S2000x64 p q)).trans ?_
  exact congrArg (fun u => max (x0 (ix2 p q) + x1 (ix2 p q) + x2 (ix2 (0 : Fin 1) q) + u) 0)
    (broadcastTo_1b_ab_apply (a := 2000) (b := 64) x3 broadcasts_S1x64_S2000x64 p q)

/-- The word the maximum along the lanes starts from is −∞. -/
theorem ofBits_neg_inf : Ideal.ofBits .f32 0xFF800000#32 = (⊥ : EReal) := by simp [Ideal.ofBits, Ideal.ieee]

/-- The maximum along the lanes at row n is the row's maximum folded from −∞. -/
theorem rmax_ix1 (a : FVec Ideal S2000x64 .f32) (n : Fin 2000) :
    (multiReduction .maximumf [1] S2000 a 0xFF800000#32 reduces_S2000x64_S2000 (.inl rfl) rfl (ix1 n) : EReal)
      = Cert.Gcn.rowMax (R := 2000) (C := 64) a n := by
  refine (Cert.LibRow.rowMax_apply (R := 2000) (C := 64) a 0xFF800000#32 reduces_S2000x64_S2000 (.inl rfl) rfl n).trans ?_
  rw [ofBits_neg_inf]
  rfl

/-- The shifted block at an entry is the entry minus its row's maximum. -/
theorem shiftB_ix2 (a : FVec Ideal S2000x64 .f32) (p : Fin 2000) (q : Fin 64) :
    (shiftB a (ix2 p q) : EReal) = Cert.Gcn.shifted (R := 2000) (C := 64) a (ix2 p q) := by
  show a (ix2 p q) - broadcastTo S2000x64 (shapeCast S2000x1
      (multiReduction .maximumf [1] S2000 a 0xFF800000#32 reduces_S2000x64_S2000 (.inl rfl) rfl)
      shapeCasts_S2000_S2000x1) broadcasts_S2000x1_S2000x64 (ix2 p q)
    = a (ix2 p q) - Cert.Gcn.rowMax (R := 2000) (C := 64) a p
  refine congrArg (fun u : EReal => a (ix2 p q) - u) ?_
  exact (Cert.LibRow.colBroadcast_apply (R := 2000) (C := 64) _ shapeCasts_S2000_S2000x1
    broadcasts_S2000x1_S2000x64 p q).trans (rmax_ix1 a p)

/-- So the shifted block is the whole-array shift of the block. -/
theorem shiftB_eq (a : FVec Ideal S2000x64 .f32) : shiftB a = Cert.Gcn.shifted (R := 2000) (C := 64) a :=
  funext fun j => (congrArg (shiftB a) (eq_ix2 j)).trans
    ((shiftB_ix2 a (j 0) (j 1)).trans (congrArg (Cert.Gcn.shifted (R := 2000) (C := 64) a) (eq_ix2 j)).symm)

/-- The last subtraction at an entry, for any block z: the sum along the lanes at row p is the sum over the 64
    columns of the exponentials of row p, and its logarithm, recast as a column and repeated along the rows, is
    subtracted from the entry. -/
theorem tail_ix2 (z : FVec Ideal S2000x64 .f32) (p : Fin 2000) (q : Fin 64) :
    (subf z (broadcastTo S2000x64 (log (shapeCast S2000x1
        (multiReduction .add [1] S2000 (exp z) 0x00000000#32 reduces_S2000x64_S2000 (.inl rfl) rfl)
        shapeCasts_S2000_S2000x1)) broadcasts_S2000x1_S2000x64) (ix2 p q) : EReal)
      = z (ix2 p q) - Ideal.log (∑ c : Fin 64, Ideal.exp (z (ix2 p c))) := by
  show z (ix2 p q) - broadcastTo S2000x64 (shapeCast S2000x1
      (log (multiReduction .add [1] S2000 (exp z) 0x00000000#32 reduces_S2000x64_S2000 (.inl rfl) rfl))
      shapeCasts_S2000_S2000x1) broadcasts_S2000x1_S2000x64 (ix2 p q)
    = z (ix2 p q) - Ideal.log (∑ c : Fin 64, Ideal.exp (z (ix2 p c)))
  refine congrArg (fun u : EReal => z (ix2 p q) - u) ?_
  refine (Cert.LibRow.colBroadcast_apply (R := 2000) (C := 64) _ shapeCasts_S2000_S2000x1
    broadcasts_S2000x1_S2000x64 p q).trans ?_
  show Ideal.log (multiReduction .add [1] S2000 (exp z) 0x00000000#32
      reduces_S2000x64_S2000 (.inl rfl) rfl (ix1 p)) = _
  refine congrArg Ideal.log ?_
  exact Cert.LibRow.rowAdd_apply (R := 2000) (C := 64) (exp z) reduces_S2000x64_S2000 (.inl rfl) rfl p

/-- The third stage at an entry is the block's log-softmax there. -/
theorem lsmB_ix2 (a : FVec Ideal S2000x64 .f32) (p : Fin 2000) (q : Fin 64) :
    (lsmB a (ix2 p q) : EReal) = Cert.Gcn.lsm (R := 2000) (C := 64) a (ix2 p q) := by
  unfold lsmB
  refine (tail_ix2 (shiftB a) p q).trans ?_
  rw [shiftB_eq]
  rfl

/-- So the body's value is the log-softmax of the rectified sum of the blocks, as one function of the block index. -/
theorem pay_apply (x0 : FVec Ideal S2000x64 .f32) (x1 : FVec Ideal S2000x64 .bf16) (x2 x3 : FVec Ideal S1x64 .f32)
    (j : S2000x64.Idx) :
    (k11_pay1 (F := Ideal) x0 x1 x2 x3 j : EReal)
      = Cert.Gcn.lsm (R := 2000) (C := 64) (actB x0 x1 x2 x3) (ix2 (j 0) (j 1)) := by
  refine (congrFun (pay_split x0 x1 x2 x3) j).trans ?_
  refine (congrArg (lsmB (actB x0 x1 x2 x3)) (eq_ix2 j)).trans ?_
  exact lsmB_ix2 (actB x0 x1 x2 x3) (j 0) (j 1)

/-- The log-softmax at (m, q) of one matrix and at (n, q) of another agree when row m of the first is row n of the
    second: the entry, the row's maximum and the row's sum of exponentials all read that row only. -/
theorem lsm_row {R R' C : Nat} (X : Cert.Gcn.Mat R C) (Y : Cert.Gcn.Mat R' C) (n : Fin R) (m : Fin R')
    (h : ∀ a : Fin C, Y (ix2 m a) = X (ix2 n a)) (q : Fin C) :
    Cert.Gcn.lsm Y (ix2 m q) = Cert.Gcn.lsm X (ix2 n q) := by
  show Y (ix2 m q) - (Finset.univ : Finset (Fin C)).fold max ⊥ (fun a => Y (ix2 m a))
      - Ideal.log (∑ a : Fin C, Ideal.exp (Y (ix2 m a) - (Finset.univ : Finset (Fin C)).fold max ⊥ (fun a' => Y (ix2 m a'))))
    = X (ix2 n q) - (Finset.univ : Finset (Fin C)).fold max ⊥ (fun a => X (ix2 n a))
      - Ideal.log (∑ a : Fin C, Ideal.exp (X (ix2 n a) - (Finset.univ : Finset (Fin C)).fold max ⊥ (fun a' => X (ix2 n a'))))
  simp only [h]

/-- The printed index maps, decided over the twenty-five points: the two input blocks and the output block sit at
    block row t, the two bias rows at the origin. -/
theorem idx_facts : ∀ t : Fin cfg11.N, win11_0.index t (0 : Fin 2) = t.val ∧ win11_0.index t (1 : Fin 2) = 0
    ∧ win11_1.index t (0 : Fin 2) = t.val ∧ win11_1.index t (1 : Fin 2) = 0
    ∧ win11_2.index t (0 : Fin 2) = 0 ∧ win11_2.index t (1 : Fin 2) = 0
    ∧ win11_3.index t (0 : Fin 2) = 0 ∧ win11_3.index t (1 : Fin 2) = 0
    ∧ win11_4.index t (0 : Fin 2) = t.val ∧ win11_4.index t (1 : Fin 2) = 0 :=
  (by decide +kernel : ∀ t : Fin grid11.N, _)

/-- What point t writes back is block t of the log-softmax of the rectified sum of the arrays the call finds. -/
theorem flushed_eq (c : Dev nD) (t : Fin cfg11.N) :
    (dat11 V c).flushed 4 t
      = ((cfg11.win 4).blk t).view.read (Elt Ideal)
          (Cert.Gcn.lsm (Cert.Gcn.act4 (V c main_v103) (V c main_v89) (Cert.Gcn.rowVec (V c main_v104))
            (Cert.Gcn.rowVec (V c main_v105)))) := by
  show (cfg11.win 4).cut (grid11.coords t) ((dat11 V c).after 4 t) = _
  rw [after11_4]
  unfold out11_4
  rw [View.canon_unit_zero off_zero]
  simp only [View.ld_unit_zero (S := S2000x64) off_zero, View.ld_unit_zero (S := S1x64) off_zero]
  obtain ⟨e0, e1, e2, e3, e4, e5, e6, e7, e8, e9⟩ := idx_facts t
  funext j
  refine (pay_apply _ _ _ _ j).trans ?_
  let A : Cert.Gcn.Mat 50000 64 := V c main_v103
  let R : Cert.Gcn.Mat 50000 64 := V c main_v89
  let B : Cert.Gcn.Mat 1 64 := V c main_v104
  let P : Cert.Gcn.Mat 1 64 := V c main_v105
  have hrow : ∀ a : Fin 64,
      actB (iblk11 V c 0 t) (iblk11 V c 1 t) (iblk11 V c 2 t) (iblk11 V c 3 t) (ix2 (j 0) a)
        = Cert.Gcn.act4 A R (Cert.Gcn.rowVec B) (Cert.Gcn.rowVec P) (ix2 ((((cfg11.win 4).blk t).view.emb j) 0) a) := by
    intro a
    refine (actB_ix2 _ _ _ _ (j 0) a).trans ?_
    show max (A (((cfg11.win 0).blk t).view.emb (ix2 (j 0) a)) + R (((cfg11.win 1).blk t).view.emb (ix2 (j 0) a))
          + B (((cfg11.win 2).blk t).view.emb (ix2 (0 : Fin 1) a))
          + P (((cfg11.win 3).blk t).view.emb (ix2 (0 : Fin 1) a))) 0
        = max (A (ix2 ((((cfg11.win 4).blk t).view.emb j) 0) a) + R (ix2 ((((cfg11.win 4).blk t).view.emb j) 0) a)
          + B (ix2 (0 : Fin 1) a) + P (ix2 (0 : Fin 1) a)) 0
    have h0 : ((cfg11.win 0).blk t).view.emb (ix2 (j 0) a) = ix2 ((((cfg11.win 4).blk t).view.emb j) 0) a := by
      funext d; apply Fin.ext
      match d with
      | ⟨0, _⟩ =>
        show win11_0.index t (0 : Fin 2) * 2000 + 1 * (j 0).val = win11_4.index t (0 : Fin 2) * 2000 + 1 * (j 0).val
        omega
      | ⟨1, _⟩ =>
        show win11_0.index t (1 : Fin 2) * 64 + 1 * a.val = a.val
        omega
    have h1 : ((cfg11.win 1).blk t).view.emb (ix2 (j 0) a) = ix2 ((((cfg11.win 4).blk t).view.emb j) 0) a := by
      funext d; apply Fin.ext
      match d with
      | ⟨0, _⟩ =>
        show win11_1.index t (0 : Fin 2) * 2000 + 1 * (j 0).val = win11_4.index t (0 : Fin 2) * 2000 + 1 * (j 0).val
        omega
      | ⟨1, _⟩ =>
        show win11_1.index t (1 : Fin 2) * 64 + 1 * a.val = a.val
        omega
    have h2 : ((cfg11.win 2).blk t).view.emb (ix2 (0 : Fin 1) a) = ix2 (0 : Fin 1) a := by
      funext d; apply Fin.ext
      match d with
      | ⟨0, _⟩ =>
        show win11_2.index t (0 : Fin 2) * 1 + 1 * 0 = 0
        omega
      | ⟨1, _⟩ =>
        show win11_2.index t (1 : Fin 2) * 64 + 1 * a.val = a.val
        omega
    have h3 : ((cfg11.win 3).blk t).view.emb (ix2 (0 : Fin 1) a) = ix2 (0 : Fin 1) a := by
      funext d; apply Fin.ext
      match d with
      | ⟨0, _⟩ =>
        show win11_3.index t (0 : Fin 2) * 1 + 1 * 0 = 0
        omega
      | ⟨1, _⟩ =>
        show win11_3.index t (1 : Fin 2) * 64 + 1 * a.val = a.val
        omega
    rw [h0, h1, h2, h3]
    rfl
  refine (lsm_row (Cert.Gcn.act4 A R (Cert.Gcn.rowVec B) (Cert.Gcn.rowVec P))
    (actB (iblk11 V c 0 t) (iblk11 V c 1 t) (iblk11 V c 2 t) (iblk11 V c 3 t))
    ((((cfg11.win 4).blk t).view.emb j) 0) (j 0) hrow (j 1)).trans ?_
  have hj : ix2 ((((cfg11.win 4).blk t).view.emb j) 0) (j 1) = ((cfg11.win 4).blk t).view.emb j := by
    funext d; apply Fin.ext
    match d with
    | ⟨0, _⟩ => rfl
    | ⟨1, _⟩ =>
      show (j 1).val = win11_4.index t (1 : Fin 2) * 64 + 1 * (j 1).val
      omega
  exact congrArg (Cert.Gcn.lsm (Cert.Gcn.act4 A R (Cert.Gcn.rowVec B) (Cert.Gcn.rowVec P))) hj

/-- An index of the array is in point t's block iff each coordinate is in the block's range on its axis. -/
theorem mem_blk (t : Fin cfg11.N) (i : S50000x64.Idx) :
    i ∈ ((cfg11.win 4).blk t).view.set ↔ ∀ a : Fin 2, win11_4.index t a * S2000x64.size a ≤ (i a).val
      ∧ (i a).val < win11_4.index t a * S2000x64.size a + S2000x64.size a := by
  show i ∈ ((View.whole main_v106).slice (win11_4.rect t)).set ↔ _
  rw [View.set_slice_whole, Rect.mem_set_unit]
  exact Iff.rfl

/-- Row r of the array lies in the block of point r / 2000: the twenty-five blocks cover the array. -/
theorem cover (i : S50000x64.Idx) :
    ∃ t : Fin cfg11.N, (cfg11.win 4).flush t = true ∧ i ∈ ((cfg11.win 4).blk t).view.set := by
  have hi0 : (i 0).val < 50000 := (i 0).isLt
  have hi1 : (i 1).val < 64 := (i 1).isLt
  have hN : grid11.N = 25 := N_11
  obtain ⟨e0, e1, e2, e3, e4, e5, e6, e7, e8, e9⟩ :=
    idx_facts ⟨(i 0).val / 2000, by show (i 0).val / 2000 < grid11.N; rw [hN]; omega⟩
  refine ⟨⟨(i 0).val / 2000, by show (i 0).val / 2000 < grid11.N; rw [hN]; omega⟩, flush11_4 _, ?_⟩
  rw [mem_blk]
  intro a
  match a with
  | ⟨0, _⟩ =>
    show win11_4.index _ (0 : Fin 2) * 2000 ≤ (i 0).val ∧ (i 0).val < win11_4.index _ (0 : Fin 2) * 2000 + 2000
    rw [e8]
    show (i 0).val / 2000 * 2000 ≤ (i 0).val ∧ (i 0).val < (i 0).val / 2000 * 2000 + 2000
    omega
  | ⟨1, _⟩ =>
    show win11_4.index _ (1 : Fin 2) * 64 ≤ (i 1).val ∧ (i 1).val < win11_4.index _ (1 : Fin 2) * 64 + 64
    rw [e9]
    omega

/-- After the call the output array is the log-softmax of the rectified sum of the arrays the call finds. -/
theorem final (c : Dev nD) :
    (dat11 V c).arrAt 4 cfg11.N
      = Cert.Gcn.lsm (Cert.Gcn.act4 (V c main_v103) (V c main_v89) (Cert.Gcn.rowVec (V c main_v104))
          (Cert.Gcn.rowVec (V c main_v105))) :=
  (dat11 V c).arrAt_eq_of_cover 4 _ (fun t _ => flushed_eq V c t) cover

end Cert.KernelIdeal.Reg11

end
-- ==== Proof.LibHostOps.lean ====
/-
  Row-wise operations of two-dimensional arrays read at one entry, on the extended reals, at ANY extents.

  * A sum along the columns of an [R, C] matrix (a reduction over axis 1) read at row p is Σ_{k < C} src(p, k): for the
    vector unit's reduction from the zero word (`rowAdd_apply`) and for the host's reduction from an initial value,
    which is added in front (`hostRowAdd_apply`).
  * A vector [a] viewed as a column [a, 1] reads, at (i, u), the vector at i (`shapeCast_a_a1_apply`); a column
    [a, 1] repeated along b columns reads, at (p, c), the column at (p, 0) (`broadcastTo_a1_ab_apply`).
  * The host's general matrix product of [R, K] by [K, C], contracting the left operand's axis 1 with the right
    operand's axis 0, read at (p, q), is Σ_{k < K} l(p, k) · r(k, q) (`dotGeneral_ix2`): the contraction's one-axis
    index is re-indexed over `Fin K`, and the operand indices at result entry (p, q) and position k are (p, k), (k, q).
  * Three matrices of a, b and c columns laid side by side read, at a column, the matrix whose span of columns holds it,
    at the column less the widths before it (`concat3_apply_0`, `_1`, `_2`; for two matrices `concat2_apply_0`, `_1`).
  Imports only the library.
-/
import Idealize.ShloMosaic.PureOps.Ideal.Laws
import Idealize.ShloMosaic.Lib.ValueIdx
import Idealize.ShloMosaic.Lib.Pipeline.Value

noncomputable section

open scoped BigOperators

namespace Cert.LibRowOps

open Idealize.ShloMosaic Idealize.ShloMosaic.ValueIdx

/-- A sum along the columns of an [R, C] matrix, at row p, is the sum over the columns of that row's entries. -/
theorem rowAdd_apply {R C : Nat} (src : FVec Ideal ⟨2, ![R, C]⟩ .f32)
    (h : Shape.Reduces (⟨2, ![R, C]⟩ : Shape) [1] ⟨1, ![R]⟩) (hφ : FKind.Formats .f32)
    (hacc : (0x00000000#32 : BitVec 32) = FKind.add.neutral .f32 hφ) (p : Fin R) :
    multiReduction .add [1] ⟨1, ![R]⟩ src 0x00000000#32 h hφ hacc (ix1 p) = ∑ k : Fin C, src (ix2 p k) :=
  (Ideal.multiReduction_add_single src _ h hφ hacc (ix1 p)).trans
    (Finset.sum_congr rfl fun k _ => congrArg src (funext fun d => Fin.ext (by
      match d with
      | ⟨0, _⟩ => rfl
      | ⟨1, _⟩ => rfl)))

/-- The host's sum along the columns, at row p: the initial value plus the sum over the columns of that row's entries. -/
theorem hostRowAdd_apply {R C : Nat} (x : FVec Ideal ⟨2, ![R, C]⟩ .f32) (init : FVec Ideal ⟨0, ![]⟩ .f32)
    (h' : Shape.ReducesTo (⟨2, ![R, C]⟩ : Shape) [1] ⟨1, ![R]⟩) (h : Shape.Reduces (⟨2, ![R, C]⟩ : Shape) [1] ⟨1, ![R]⟩)
    (hu : 0 < (⟨0, ![]⟩ : Shape).numel) (p : Fin R) :
    Host.reduceAdd (F := Ideal) x init h' hu (ix1 p) = init (Shape.Idx.first hu) + ∑ k : Fin C, x (ix2 p k) :=
  (Ideal.hostReduceAdd_single h' h x (init (Shape.Idx.first hu)) (ix1 p)).trans
    (congrArg (init (Shape.Idx.first hu) + ·) (Finset.sum_congr rfl fun k _ => congrArg x (funext fun d => Fin.ext (by
      match d with
      | ⟨0, _⟩ => rfl
      | ⟨1, _⟩ => rfl))))

/-- A vector [a] viewed as a column [a, 1] reads, at (i, u), the vector at i. -/
theorem shapeCast_a_a1_apply {α : Type} {a : Nat} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] repeated along b columns reads, at (p, c), the column at (p, 0). -/
theorem broadcastTo_a1_ab_apply {α : Type} {a b : Nat} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- `dot_general D l r (p, q) = Σ_k l(p, k) · r(k, q)` at the ideal values, for two-dimensional operands with one
    contracted axis (the left operand's axis 1 with the right operand's axis 0). -/
theorem dotGeneral_ix2 {R K C : Nat} {φ₁ φ₂ : FTy} (D : DotDims ⟨2, ![R, K]⟩ ⟨2, ![K, C]⟩ ⟨2, ![R, C]⟩)
    (hlc : D.lhsContracting = [1]) (hrc : D.rhsContracting = [0]) (hr : D.contr.rank = 1)
    (hs : D.contr.size ⟨0, by omega⟩ = K)
    (hl0 : ∀ (i : (⟨2, ![R, C]⟩ : Shape).Idx) (c : D.contr.Idx), (D.lhsIdx i c 0).val = (i 0).val)
    (hr1 : ∀ (i : (⟨2, ![R, C]⟩ : Shape).Idx) (c : D.contr.Idx), (D.rhsIdx i c 1).val = (i 1).val)
    (prec : Option ContractPrecision)
    (l : FVec Ideal ⟨2, ![R, K]⟩ φ₁) (r : FVec Ideal ⟨2, ![K, C]⟩ φ₂) (p : Fin R) (q : Fin C) :
    Host.dotGeneral (F := Ideal) D prec l r (ix2 p q) = ∑ k : Fin K, l (ix2 p k) * r (ix2 k q) := by
  refine (Ideal.dotGeneral_apply D prec _ l r (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k :=
    funext fun a => Fin.ext (by
      match a with
      | ⟨0, _⟩ => exact hl0 _ _
      | ⟨1, _⟩ => exact (D.lhsIdx_val_of_single hlc _ _).trans hk)
  have er : D.rhsIdx (ix2 p q) ((contrEquiv1 D K hr hs).symm k) = ix2 k q :=
    funext fun a => Fin.ext (by
      match a with
      | ⟨0, _⟩ => exact (D.rhsIdx_val_of_single hrc _ _).trans hk
      | ⟨1, _⟩ => exact hr1 _ _)
  rw [el, er]

/-! ## Three matrices side by side -/

section Concat3
variable {α : Type} {R a b c n : Nat}
  (x1 : (⟨2, ![R, a]⟩ : Shape).Idx → α) (x2 : (⟨2, ![R, b]⟩ : Shape).Idx → α) (x3 : (⟨2, ![R, c]⟩ : Shape).Idx → α)
  (h : Shape.Concatenates [(⟨2, ![R, a]⟩ : Shape), ⟨2, ![R, b]⟩, ⟨2, ![R, c]⟩] ⟨2, ![R, n]⟩ 1)

/-- Three matrices of a, b and c columns side by side read, at a column q below a, the first at column q. -/
theorem concat3_apply_0 (p : Fin R) (q : Fin n) (q' : Fin a) (hq : q'.val = q.val) :
    concatenate ⟨2, ![R, n]⟩ 1 [⟨⟨2, ![R, a]⟩, x1⟩, ⟨⟨2, ![R, b]⟩, x2⟩, ⟨⟨2, ![R, c]⟩, x3⟩] h (ix2 p q) = x1 (ix2 p q') :=
  concatenate_apply_piece (t := ⟨2, ![R, n]⟩) (1 : Fin 2) [⟨⟨2, ![R, a]⟩, x1⟩, ⟨⟨2, ![R, b]⟩, x2⟩, ⟨⟨2, ![R, c]⟩, x3⟩] h (ix2 p q) 0 (by simp)
    ⟨2, ![R, a]⟩ x1 rfl rfl 0 rfl (ix2 p q')
    (fun d hd => by
      match d with
      | ⟨0, _⟩ => rfl
      | ⟨1, _⟩ => exact absurd rfl hd)
    (by show 0 + q'.val = q.val; omega)

/-- At a column a + q', the second at column q'. -/
theorem concat3_apply_1 (p : Fin R) (q : Fin n) (q' : Fin b) (hq : a + q'.val = q.val) :
    concatenate ⟨2, ![R, n]⟩ 1 [⟨⟨2, ![R, a]⟩, x1⟩, ⟨⟨2, ![R, b]⟩, x2⟩, ⟨⟨2, ![R, c]⟩, x3⟩] h (ix2 p q) = x2 (ix2 p q') :=
  concatenate_apply_piece (t := ⟨2, ![R, n]⟩) (1 : Fin 2) [⟨⟨2, ![R, a]⟩, x1⟩, ⟨⟨2, ![R, b]⟩, x2⟩, ⟨⟨2, ![R, c]⟩, x3⟩] h (ix2 p q) 1 (by simp)
    ⟨2, ![R, b]⟩ x2 rfl rfl a (by simp) (ix2 p q')
    (fun d hd => by
      match d with
      | ⟨0, _⟩ => rfl
      | ⟨1, _⟩ => exact absurd rfl hd)
    (by show a + q'.val = q.val; omega)

/-- At a column a + b + q', the third at column q'. -/
theorem concat3_apply_2 (p : Fin R) (q : Fin n) (q' : Fin c) (hq : a + b + q'.val = q.val) :
    concatenate ⟨2, ![R, n]⟩ 1 [⟨⟨2, ![R, a]⟩, x1⟩, ⟨⟨2, ![R, b]⟩, x2⟩, ⟨⟨2, ![R, c]⟩, x3⟩] h (ix2 p q) = x3 (ix2 p q') :=
  concatenate_apply_piece (t := ⟨2, ![R, n]⟩) (1 : Fin 2) [⟨⟨2, ![R, a]⟩, x1⟩, ⟨⟨2, ![R, b]⟩, x2⟩, ⟨⟨2, ![R, c]⟩, x3⟩] h (ix2 p q) 2 (by simp)
    ⟨2, ![R, c]⟩ x3 rfl rfl (a + b) (by simp) (ix2 p q')
    (fun d hd => by
      match d with
      | ⟨0, _⟩ => rfl
      | ⟨1, _⟩ => exact absurd rfl hd)
    (by show a + b + q'.val = q.val; omega)

end Concat3

/-! ## Two matrices side by side -/

section Concat2
variable {α : Type} {R a b n : Nat}
  (x1 : (⟨2, ![R, a]⟩ : Shape).Idx → α) (x2 : (⟨2, ![R, b]⟩ : Shape).Idx → α)
  (h : Shape.Concatenates [(⟨2, ![R, a]⟩ : Shape), ⟨2, ![R, b]⟩] ⟨2, ![R, n]⟩ 1)

/-- Two matrices of a and b columns side by side read, at a column q below a, the first at column q. -/
theorem concat2_apply_0 (p : Fin R) (q : Fin n) (q' : Fin a) (hq : q'.val = q.val) :
    concatenate ⟨2, ![R, n]⟩ 1 [⟨⟨2, ![R, a]⟩, x1⟩, ⟨⟨2, ![R, b]⟩, x2⟩] h (ix2 p q) = x1 (ix2 p q') :=
  concatenate_apply_piece (t := ⟨2, ![R, n]⟩) (1 : Fin 2) [⟨⟨2, ![R, a]⟩, x1⟩, ⟨⟨2, ![R, b]⟩, x2⟩] h (ix2 p q) 0 (by simp)
    ⟨2, ![R, a]⟩ x1 rfl rfl 0 rfl (ix2 p q')
    (fun d hd => by
      match d with
      | ⟨0, _⟩ => rfl
      | ⟨1, _⟩ => exact absurd rfl hd)
    (by show 0 + q'.val = q.val; omega)

/-- At a column a + q', the second at column q'. -/
theorem concat2_apply_1 (p : Fin R) (q : Fin n) (q' : Fin b) (hq : a + q'.val = q.val) :
    concatenate ⟨2, ![R, n]⟩ 1 [⟨⟨2, ![R, a]⟩, x1⟩, ⟨⟨2, ![R, b]⟩, x2⟩] h (ix2 p q) = x2 (ix2 p q') :=
  concatenate_apply_piece (t := ⟨2, ![R, n]⟩) (1 : Fin 2) [⟨⟨2, ![R, a]⟩, x1⟩, ⟨⟨2, ![R, b]⟩, x2⟩] h (ix2 p q) 1 (by simp)
    ⟨2, ![R, b]⟩ x2 rfl rfl a (by simp) (ix2 p q')
    (fun d hd => by
      match d with
      | ⟨0, _⟩ => rfl
      | ⟨1, _⟩ => exact absurd rfl hd)
    (by show a + q'.val = q.val; omega)

end Concat2

end Cert.LibRowOps

end
-- ==== Proof.KernelLast.lean ====
import proofs.«153699_j13692355740362_2_alg».proof.Proof.KernelChain
import proofs.«153699_j13692355740362_2_alg».proof.Proof.Reg10
import proofs.«153699_j13692355740362_2_alg».proof.Proof.Reg11
import proofs.«153699_j13692355740362_2_alg».proof.Proof.LibHostOps

/-!
# The last layer of the kernel program, and its result

The last layer multiplies the fifth hidden activation by the two 512 × 64 weight matrices SET SIDE BY SIDE (one
512 × 128 matrix) and cuts the 128-column product back into its left and right halves.  Column q of the left half is
column q of the product, which only reads column q of the side-by-side matrix, that is column q of the first weight
matrix: the left half is h · W2, and likewise the right half is h · P2.  The left half goes through the sparse product,
the right half is the projected residual, and the last call adds the biases, rectifies and takes the row-wise
log-softmax.  The result buffer therefore ends at the network function of the launch arrays.
-/

set_option maxRecDepth 16384

noncomputable section

open scoped BigOperators

namespace Cert.KernelIdeal.Chain

open Cert.KernelIdeal Cert.KernelIdeal.Gen Idealize.ShloMosaic Idealize.ShloMosaic.TcCoe Idealize.SL.Sem
open Idealize.ShloMosaic.ValueIdx
open Idealize.ShloMosaic.Pipeline (Dat)

/-- The left half of A · [X1 | X2] is A · X1. -/
theorem slice_mm_left (A : Cert.Gcn.Mat 50000 512) (X1 X2 : Cert.Gcn.Mat 512 64)
    (hc : Shape.Concatenates [(⟨2, ![512, 64]⟩ : Shape), ⟨2, ![512, 64]⟩] ⟨2, ![512, 128]⟩ 1)
    (hs : (⟨2, ![50000, 128]⟩ : Shape).Slices ![0, 0] ⟨2, ![50000, 64]⟩) :
    extractStridedSlice ⟨2, ![50000, 64]⟩ ![0, 0]
        (Cert.Gcn.mm A (concatenate ⟨2, ![512, 128]⟩ 1 [⟨⟨2, ![512, 64]⟩, X1⟩, ⟨⟨2, ![512, 64]⟩, X2⟩] hc)) hs
      = Cert.Gcn.mm A X1 := by
  funext i
  obtain ⟨p, q, rfl⟩ : ∃ (p : Fin 50000) (q : Fin 64), i = ix2 p q := ⟨i 0, i 1, eq_ix2 i⟩
  refine (slice2_axis1_apply 0 _ hs p q ⟨q.val, by omega⟩ (by simp)).trans ?_
  show ∑ k : Fin 512, A (ix2 p k) * _ = ∑ k : Fin 512, A (ix2 p k) * X1 (ix2 k q)
  refine Finset.sum_congr rfl fun k _ => congrArg (A (ix2 p k) * ·) ?_
  exact Cert.LibRowOps.concat2_apply_0 X1 X2 hc k ⟨q.val, by omega⟩ q rfl

/-- The right half of A · [X1 | X2] is A · X2. -/
theorem slice_mm_right (A : Cert.Gcn.Mat 50000 512) (X1 X2 : Cert.Gcn.Mat 512 64)
    (hc : Shape.Concatenates [(⟨2, ![512, 64]⟩ : Shape), ⟨2, ![512, 64]⟩] ⟨2, ![512, 128]⟩ 1)
    (hs : (⟨2, ![50000, 128]⟩ : Shape).Slices ![0, 64] ⟨2, ![50000, 64]⟩) :
    extractStridedSlice ⟨2, ![50000, 64]⟩ ![0, 64]
        (Cert.Gcn.mm A (concatenate ⟨2, ![512, 128]⟩ 1 [⟨⟨2, ![512, 64]⟩, X1⟩, ⟨⟨2, ![512, 64]⟩, X2⟩] hc)) hs
      = Cert.Gcn.mm A X2 := by
  funext i
  obtain ⟨p, q, rfl⟩ : ∃ (p : Fin 50000) (q : Fin 64), i = ix2 p q := ⟨i 0, i 1, eq_ix2 i⟩
  refine (slice2_axis1_apply 64 _ hs p q ⟨64 + q.val, by omega⟩ rfl).trans ?_
  show ∑ k : Fin 512, A (ix2 p k) * _ = ∑ k : Fin 512, A (ix2 p k) * X2 (ix2 k q)
  refine Finset.sum_congr rfl fun k _ => congrArg (A (ix2 p k) * ·) ?_
  exact Cert.LibRowOps.concat2_apply_1 X1 X2 hc k ⟨64 + q.val, by omega⟩ q rfl

variable (m : (ℓ : Loc nD τ sig) → Buf (Elt Ideal) ℓ) (c : Dev nD)

/-- The last layer's two weight matrices side by side. -/
def Wcat : Cert.Gcn.Mat 512 128 :=
  concatenate S512x128 1 [⟨S512x64, (m ((c : Thread nD τ).loc main_arg10))⟩, ⟨S512x64, (m ((c : Thread nD τ).loc main_arg12))⟩] concatenates_S512x64_S512x64_S512x128_d1

variable (ρ : Dev nD → PrngReg)

/-- The host stretch before the eleventh call sets the two weight matrices side by side and leaves h. -/
theorem main_v86_at16 : W16 (F := Ideal) m ρ c (Proc.devRef .tc main_v86) = Wcat m c := by
  have e : W16 (F := Ideal) m ρ c (Proc.devRef .tc main_v86)
      = concatenate S512x128 1 [⟨S512x64, W15 m ρ c (Proc.devRef .tc main_arg10)⟩, ⟨S512x64, W15 m ρ c (Proc.devRef .tc main_arg12)⟩]
          concatenates_S512x64_S512x64_S512x128_d1 := by
    show StableHlo.after hostOps10 (W15 m ρ c) (Proc.devRef .tc main_v86) = _
    after_results
  rw [e, (keptAt15 m ρ c).a10, (keptAt15 m ρ c).a12]
  rfl
theorem main_v85_at16 : W16 (F := Ideal) m ρ c (Proc.devRef .tc main_v85) = H5 m c := by
  have e : W16 (F := Ideal) m ρ c (Proc.devRef .tc main_v85) = W15 m ρ c (Proc.devRef .tc main_v85) := by
    show StableHlo.after hostOps10 (W15 m ρ c) (Proc.devRef .tc main_v85) = _
    after_results
  rw [e, main_v85_at15 m c ρ]

/-- The eleventh call's output array is h · [W2 | P2]. -/
theorem main_v87_at17 : W17 (F := Ideal) m ρ c (Proc.devRef .tc main_v87) = Cert.Gcn.mm (H5 m c) (Wcat m c) :=
  (W17_arr m ρ c 2).trans ((Cert.KernelIdeal.Reg10.final (V16 m ρ) c).trans
    (congrArg₂ Cert.Gcn.mm (main_v85_at16 m c ρ) (main_v86_at16 m c ρ)))

set_option maxHeartbeats 4000000 in
/-- The last host stretch's sparse product is the adjacency applied to h · W2 (the left half of the product). -/
theorem main_v103_at18 : W18 (F := Ideal) m ρ c (Proc.devRef .tc main_v103) = (Cert.Gcn.sp64 (m ((c : Thread nD τ).loc main_arg1)) (m ((c : Thread nD τ).loc main_arg2)) (m ((c : Thread nD τ).loc main_arg3))) (Cert.Gcn.mm (H5 m c) (m ((c : Thread nD τ).loc main_arg10))) := by
  have e : W18 (F := Ideal) m ρ c (Proc.devRef .tc main_v103)
      = kSp64 (W17 m ρ c (Proc.devRef .tc main_arg1)) (W17 m ρ c (Proc.devRef .tc main_arg2))
          (W17 m ρ c (Proc.devRef .tc main_arg3))
          (extractStridedSlice S50000x64 ![0, 0] (W17 m ρ c (Proc.devRef .tc main_v87)) slices_S50000x128_S50000x64_0_0) := by
    show StableHlo.after hostOps11 (W17 m ρ c) (Proc.devRef .tc main_v103) = _
    after_results_simp
    rfl
  rw [e, kSp64_eq, (keptAt17 m ρ c).a1, (keptAt17 m ρ c).a2, (keptAt17 m ρ c).a3, main_v87_at17 m c ρ]
  exact congrArg (Cert.Gcn.sp64 (m ((c : Thread nD τ).loc main_arg1)) (m ((c : Thread nD τ).loc main_arg2)) (m ((c : Thread nD τ).loc main_arg3))) (slice_mm_left (H5 m c) (m ((c : Thread nD τ).loc main_arg10)) (m ((c : Thread nD τ).loc main_arg12)) concatenates_S512x64_S512x64_S512x128_d1 slices_S50000x128_S50000x64_0_0)

/-- The projected residual is the right half of the product: h · P2. -/
theorem main_v89_at18 : W18 (F := Ideal) m ρ c (Proc.devRef .tc main_v89) = Cert.Gcn.mm (H5 m c) (m ((c : Thread nD τ).loc main_arg12)) := by
  have e : W18 (F := Ideal) m ρ c (Proc.devRef .tc main_v89)
      = extractStridedSlice S50000x64 ![0, 64] (W17 m ρ c (Proc.devRef .tc main_v87)) slices_S50000x128_S50000x64_0_64 := by
    show StableHlo.after hostOps11 (W17 m ρ c) (Proc.devRef .tc main_v89) = _
    after_results
  rw [e, main_v87_at17 m c ρ]
  exact slice_mm_right (H5 m c) (m ((c : Thread nD τ).loc main_arg10)) (m ((c : Thread nD τ).loc main_arg12)) concatenates_S512x64_S512x64_S512x128_d1 slices_S50000x128_S50000x64_0_64

/-- The last layer's two bias vectors laid as rows, read back. -/
theorem main_v104_at18 : Cert.Gcn.rowVec (W18 (F := Ideal) m ρ c (Proc.devRef .tc main_v104)) = (m ((c : Thread nD τ).loc main_arg11)) := by
  have e : W18 (F := Ideal) m ρ c (Proc.devRef .tc main_v104)
      = shapeCast S1x64 (W17 m ρ c (Proc.devRef .tc main_arg11)) shapeCasts_S64_S1x64 := by
    show StableHlo.after hostOps11 (W17 m ρ c) (Proc.devRef .tc main_v104) = _
    after_results
    rfl
  rw [e, (keptAt17 m ρ c).a11]
  exact rowVec_shapeCast _ _
theorem main_v105_at18 : Cert.Gcn.rowVec (W18 (F := Ideal) m ρ c (Proc.devRef .tc main_v105)) = (m ((c : Thread nD τ).loc main_arg13)) := by
  have e : W18 (F := Ideal) m ρ c (Proc.devRef .tc main_v105)
      = shapeCast S1x64 (W17 m ρ c (Proc.devRef .tc main_arg13)) shapeCasts_S64_S1x64 := by
    show StableHlo.after hostOps11 (W17 m ρ c) (Proc.devRef .tc main_v105) = _
    after_results
    rfl
  rw [e, (keptAt17 m ρ c).a13]
  exact rowVec_shapeCast _ _

/-- THE RESULT: after the last call the result buffer holds the network function of the launch arrays. -/
theorem result : W19 (F := Ideal) m ρ c (Proc.devRef .tc main_v106)
    = Cert.Gcn.net (Cert.Gcn.sp512 (m ((c : Thread nD τ).loc main_arg1)) (m ((c : Thread nD τ).loc main_arg2)) (m ((c : Thread nD τ).loc main_arg3))) (Cert.Gcn.sp64 (m ((c : Thread nD τ).loc main_arg1)) (m ((c : Thread nD τ).loc main_arg2)) (m ((c : Thread nD τ).loc main_arg3))) (m ((c : Thread nD τ).loc main_arg0)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) :=
  (W19_arr m ρ c 4).trans ((Cert.KernelIdeal.Reg11.final (V18 m ρ) c).trans (by
    show Cert.Gcn.lsm (Cert.Gcn.act4 (W18 m ρ c (Proc.devRef .tc main_v103)) (W18 m ρ c (Proc.devRef .tc main_v89))
      (Cert.Gcn.rowVec (W18 m ρ c (Proc.devRef .tc main_v104))) (Cert.Gcn.rowVec (W18 m ρ c (Proc.devRef .tc main_v105)))) = _
    rw [main_v103_at18 m c ρ, main_v89_at18 m c ρ, main_v104_at18 m c ρ, main_v105_at18 m c ρ]
    rfl))

end Cert.KernelIdeal.Chain

end
-- ==== Proof.RefFrame.lean ====
import proofs.«153699_j13692355740362_2_alg».proof.Proof.RefOps

/-!
# The reference program writes none of its arguments

Each of the 182 host operations writes its own result buffer, and no result buffer is an argument: folding the
operations over the launch contents leaves every argument buffer at its launch contents.
-/

set_option maxRecDepth 16384

noncomputable section

namespace Cert.ReferenceIdeal.RefValue

open Cert.ReferenceIdeal Cert.ReferenceIdeal.Gen Cert.ReferenceIdeal.RunP
open Idealize.ShloMosaic Idealize.ShloMosaic.TcCoe Idealize.SL.Sem Idealize.ShloMosaic.StableHlo

variable {F : FTy → Type} [FloatOps F]
variable (m : (ℓ : Loc nD τ sig) → Buf (Elt F) ℓ) (c : Dev nD)

set_option maxHeartbeats 4000000 in
theorem arg0_kept : after (ops (F := F)) (launchContents m c) (Proc.devRef .tc main_arg0) = m ((c.tc : Thread nD τ).loc main_arg0) := by
  after_results_simp <;> rfl
set_option maxHeartbeats 4000000 in
theorem arg1_kept : after (ops (F := F)) (launchContents m c) (Proc.devRef .tc main_arg1) = m ((c.tc : Thread nD τ).loc main_arg1) := by
  after_results_simp <;> rfl
set_option maxHeartbeats 4000000 in
theorem arg2_kept : after (ops (F := F)) (launchContents m c) (Proc.devRef .tc main_arg2) = m ((c.tc : Thread nD τ).loc main_arg2) := by
  after_results_simp <;> rfl
set_option maxHeartbeats 4000000 in
theorem arg3_kept : after (ops (F := F)) (launchContents m c) (Proc.devRef .tc main_arg3) = m ((c.tc : Thread nD τ).loc main_arg3) := by
  after_results_simp <;> rfl
set_option maxHeartbeats 4000000 in
theorem arg4_kept : after (ops (F := F)) (launchContents m c) (Proc.devRef .tc main_arg4) = m ((c.tc : Thread nD τ).loc main_arg4) := by
  after_results_simp <;> rfl
set_option maxHeartbeats 4000000 in
theorem arg5_kept : after (ops (F := F)) (launchContents m c) (Proc.devRef .tc main_arg5) = m ((c.tc : Thread nD τ).loc main_arg5) := by
  after_results_simp <;> rfl
set_option maxHeartbeats 4000000 in
theorem arg6_kept : after (ops (F := F)) (launchContents m c) (Proc.devRef .tc main_arg6) = m ((c.tc : Thread nD τ).loc main_arg6) := by
  after_results_simp <;> rfl
set_option maxHeartbeats 4000000 in
theorem arg7_kept : after (ops (F := F)) (launchContents m c) (Proc.devRef .tc main_arg7) = m ((c.tc : Thread nD τ).loc main_arg7) := by
  after_results_simp <;> rfl
set_option maxHeartbeats 4000000 in
theorem arg8_kept : after (ops (F := F)) (launchContents m c) (Proc.devRef .tc main_arg8) = m ((c.tc : Thread nD τ).loc main_arg8) := by
  after_results_simp <;> rfl
set_option maxHeartbeats 4000000 in
theorem arg9_kept : after (ops (F := F)) (launchContents m c) (Proc.devRef .tc main_arg9) = m ((c.tc : Thread nD τ).loc main_arg9) := by
  after_results_simp <;> rfl
set_option maxHeartbeats 4000000 in
theorem arg10_kept : after (ops (F := F)) (launchContents m c) (Proc.devRef .tc main_arg10) = m ((c.tc : Thread nD τ).loc main_arg10) := by
  after_results_simp <;> rfl
set_option maxHeartbeats 4000000 in
theorem arg11_kept : after (ops (F := F)) (launchContents m c) (Proc.devRef .tc main_arg11) = m ((c.tc : Thread nD τ).loc main_arg11) := by
  after_results_simp <;> rfl
set_option maxHeartbeats 4000000 in
theorem arg12_kept : after (ops (F := F)) (launchContents m c) (Proc.devRef .tc main_arg12) = m ((c.tc : Thread nD τ).loc main_arg12) := by
  after_results_simp <;> rfl
set_option maxHeartbeats 4000000 in
theorem arg13_kept : after (ops (F := F)) (launchContents m c) (Proc.devRef .tc main_arg13) = m ((c.tc : Thread nD τ).loc main_arg13) := by
  after_results_simp <;> rfl

end Cert.ReferenceIdeal.RefValue

end
-- ==== Proof.LibAfter.lean ====
/-
  The buffer contents after two lines of host operations run one after the other are the contents after the second
  line, started from the contents after the first.  Imports only the library.
-/
import Idealize.ShloMosaic.Lib.StableHlo.Run

noncomputable section

namespace Cert.LibAfter

open Idealize.ShloMosaic Idealize.ShloMosaic.StableHlo

variable {τ : Topo} {sig : RefSig} {Val : EltTy → Type}

/-- `after (l₁ ++ l₂) V = after l₂ (after l₁ V)`. -/
theorem after_append (l₁ l₂ : List (HloOp τ sig Val)) (V : Valuation τ sig Val) :
    after (l₁ ++ l₂) V = after l₂ (after l₁ V) := by
  induction l₁ generalizing V with
  | nil => rfl
  | cons op l ih => exact ih (op.result V)

end Cert.LibAfter

end
-- ==== Proof.LibBcast.lean ====
/-
  `broadcast_in_dim` of small shapes read at one entry, at ANY extents and any element type.

  * A column [N, 1] repeated along C columns (operand axes to result axes 0, 1) reads, at (n, c), the column at (n, 0)
    (`bcastCol_apply`); a row [1, C] repeated along N rows reads, at (n, c), the row at (0, c) (`bcastRow_apply`).
  * A vector [C] laid as a row [1, C] (operand axis to result axis 1) reads, at (u, c), the vector at c
    (`bcastVecRow_apply`); a vector [N] laid as a column [N, 1] (operand axis to result axis 0) reads, at (n, u), the
    vector at n (`bcastVecCol_apply`).
  * A scalar broadcast to any shape reads, at any index, the scalar (`bcastScalar_apply`).
  Imports only the library.
-/
import Idealize.ShloMosaic.Lib.ValueIdx
import Idealize.ShloMosaic.Lib.Pipeline.Value

noncomputable section

namespace Cert.LibBcast

open Idealize.ShloMosaic Idealize.ShloMosaic.ValueIdx

variable {α : Type}

/-- A column [N, 1] repeated along C columns reads, at (n, c), the column at (n, 0). -/
theorem bcastCol_apply {N C : Nat} (x : (⟨2, ![N, 1]⟩ : Shape).Idx → α)
    (h : (⟨2, ![N, 1]⟩ : Shape).BroadcastsInDim ⟨2, ![N, C]⟩ ![0, 1]) (n : Fin N) (c : Fin C) :
    broadcastInDim ⟨2, ![N, C]⟩ ![0, 1] h x (ix2 n c) = x (ix2 n (0 : Fin 1)) := by
  refine broadcastInDim_apply ![0, 1] h x (ix2 n c) (ix2 n (0 : Fin 1)) fun a => ?_
  match a with
  | ⟨0, _⟩ =>
    show n.val = if N = 1 then 0 else n.val
    split
    · have := n.isLt; omega
    · rfl
  | ⟨1, _⟩ => rfl

/-- A row [1, C] repeated along N rows reads, at (n, c), the row at (0, c). -/
theorem bcastRow_apply {N C : Nat} (x : (⟨2, ![1, C]⟩ : Shape).Idx → α)
    (h : (⟨2, ![1, C]⟩ : Shape).BroadcastsInDim ⟨2, ![N, C]⟩ ![0, 1]) (n : Fin N) (c : Fin C) :
    broadcastInDim ⟨2, ![N, C]⟩ ![0, 1] h x (ix2 n c) = x (ix2 (0 : Fin 1) c) := by
  refine broadcastInDim_apply ![0, 1] h x (ix2 n c) (ix2 (0 : Fin 1) c) fun a => ?_
  match a with
  | ⟨0, _⟩ => rfl
  | ⟨1, _⟩ =>
    show c.val = if C = 1 then 0 else c.val
    split
    · have := c.isLt; omega
    · rfl

/-- A vector [C] laid as a row [1, C] reads, at (u, c), the vector at c. -/
theorem bcastVecRow_apply {C : Nat} (x : (⟨1, ![C]⟩ : Shape).Idx → α)
    (h : (⟨1, ![C]⟩ : Shape).BroadcastsInDim ⟨2, ![1, C]⟩ ![1]) (u : Fin 1) (c : Fin C) :
    broadcastInDim ⟨2, ![1, C]⟩ ![1] h x (ix2 u c) = x (ix1 c) := by
  refine broadcastInDim_apply ![1] h x (ix2 u c) (ix1 c) fun a => ?_
  match a with
  | ⟨0, _⟩ =>
    show c.val = if C = 1 then 0 else c.val
    split
    · have := c.isLt; omega
    · rfl

/-- A vector [N] laid as a column [N, 1] reads, at (n, u), the vector at n. -/
theorem bcastVecCol_apply {N : Nat} (x : (⟨1, ![N]⟩ : Shape).Idx → α)
    (h : (⟨1, ![N]⟩ : Shape).BroadcastsInDim ⟨2, ![N, 1]⟩ ![0]) (n : Fin N) (u : Fin 1) :
    broadcastInDim ⟨2, ![N, 1]⟩ ![0] h x (ix2 n u) = x (ix1 n) := by
  refine broadcastInDim_apply ![0] h x (ix2 n u) (ix1 n) fun a => ?_
  match a with
  | ⟨0, _⟩ =>
    show n.val = if N = 1 then 0 else n.val
    split
    · have := n.isLt; omega
    · rfl

/-- A scalar broadcast to any shape reads, at any index, the scalar. -/
theorem bcastScalar_apply {t : Shape} (x : (⟨0, ![]⟩ : Shape).Idx → α)
    (h : (⟨0, ![]⟩ : Shape).BroadcastsInDim t ![]) (j : t.Idx) :
    broadcastInDim t ![] h x j = x ix0 :=
  broadcastInDim_apply ![] h x j ix0 fun a => a.elim0

end Cert.LibBcast

end
-- ==== Proof.LibGraphOps.lean ====
/-
  Rows of a node table gathered along an edge list, and rows scattered back with addition, at the ideal values.

  A table x : [N, J] gathered at a column of E start indices has at (e, j) the entry x(r e, j), where r e is the start
  index of edge e read as a signed integer and clamped into [0, N - 1]; a vector x : [N] gathered the same way has at e
  the entry x(r e).  A scatter-add of updates u : [E, J] into a table [N, J] at a column of E indices adds u(e, j) into
  row d of column j exactly for the edges e whose index, read signed and NOT clamped, is d; an index outside [0, N)
  adds nothing.  So an edge that lands on row d has a non-negative index whose clamp is d itself.

  The law proved here (scatterAdd_rescale): if every update of one scatter is the matching update of another times a
  factor that depends only on the row the edge lands on, and that factor is a non-negative real number, then the first
  scatter's sum is the second's times the factor.  On the extended reals (a + b) * c = a * c + b * c holds for any a, b
  once 0 ≤ c < ⊤, which is what lets the factor leave the sum whatever the summands are.
  Also here: the host's reduction with a maximum body along the columns of a matrix, at a row, as a fold of max over the
  columns (hostRowMax_apply), at any extents.
  Imports only the library.
-/
import Idealize.ShloMosaic.PureOps.Ideal.Laws
import Idealize.ShloMosaic.Lib.ValueIdx
import Idealize.ShloMosaic.Lib.Pipeline.Value

noncomputable section

open scoped BigOperators

namespace Cert.LibGraph

open Idealize.ShloMosaic Idealize.ShloMosaic.ValueIdx

/-! ## A start index read signed and clamped into the table -/

/-- A start index word read as a signed integer and clamped into [0, N - 1]. -/
def clampIdx (N : Nat) (hN : 0 < N) {w : Nat} (v : BitVec w) : Fin N :=
  ⟨min v.toInt.toNat (N - 1), by have := Nat.min_le_right v.toInt.toNat (N - 1); omega⟩

/-- A non-negative index below N is its own clamp. -/
theorem clampIdx_of_landed {N : Nat} (hN : 0 < N) {w : Nat} (v : BitVec w) (d : Fin N) (h : v.toInt = (d.val : Int)) :
    clampIdx N hN v = d := by
  apply Fin.ext
  show min v.toInt.toNat (N - 1) = d.val
  have := d.isLt
  have h' : v.toInt.toNat = d.val := by omega
  rw [h']; omega

/-! ## Gathers of rows -/

/-- The dimension numbers of x[idx] for a table [N, J] and a column [E, 1] of start indices. -/
abbrev rowsGather (N J E : Nat) (wf : GatherDims.WF ⟨2, ![N, J]⟩ ⟨2, ![E, 1]⟩ ⟨2, ![E, J]⟩ [1] [0] [] [0] [] 1 ![1, J]) :
    GatherDims ⟨2, ![N, J]⟩ ⟨2, ![E, 1]⟩ ⟨2, ![E, J]⟩ where
  offsetDims := [1]
  collapsedSliceDims := [0]
  operandBatchingDims := []
  startIndicesBatchingDims := []
  startIndexMap := [0]
  indexVectorDim := 1
  sliceSizes := ![1, J]
  wf := wf

/-- The gathered table at (e, j) is the table at (clamped start index of e, j). -/
theorem gatherRows_apply {α : Type} {N J E w : Nat} (hN : 0 < N)
    (wf : GatherDims.WF ⟨2, ![N, J]⟩ ⟨2, ![E, 1]⟩ ⟨2, ![E, J]⟩ [1] [0] [] [0] [] 1 ![1, J])
    (x : (⟨2, ![N, J]⟩ : Shape).Idx → α) (idx : IVec ⟨2, ![E, 1]⟩ w) (e : Fin E) (j : Fin J) :
    Host.gather (rowsGather N J E wf) x idx (ix2 e j) = x (ix2 (clampIdx N hN (idx (ix2 e (0 : Fin 1)))) j) := by
  -- the row coordinate: the clamped start index, no batch and no offset part
  have h0 : (rowsGather N J E wf).start (ix2 e j) idx (0 : Fin 2) + (rowsGather N J E wf).batchCoord (ix2 e j) (0 : Fin 2)
      + (rowsGather N J E wf).offCoord (ix2 e j) (0 : Fin 2) = (clampIdx N hN (idx (ix2 e (0 : Fin 1)))).val := by
    rw [GatherDims.batchCoord_eq_zero _ _ _ List.not_mem_nil, Nat.add_zero,
      GatherDims.offCoord_eq_zero _ _ _ (fun h => ((GatherDims.mem_sKept _ _).mp h).1 (List.mem_singleton.mpr rfl)),
      Nat.add_zero]
    unfold GatherDims.start
    rw [dif_pos (show (0 : Fin 2) ∈ (rowsGather N J E wf).startIndexMap from List.mem_singleton.mpr rfl)]
    have hsi : (rowsGather N J E wf).siIdx (ix2 e j) ⟨List.idxOf (0 : Fin 2) (rowsGather N J E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  -- the column coordinate: no start, no batch part, the result's own column
  have h1 : (rowsGather N J E wf).start (ix2 e j) idx (1 : Fin 2) + (rowsGather N J E wf).batchCoord (ix2 e j) (1 : Fin 2)
      + (rowsGather N J E wf).offCoord (ix2 e j) (1 : Fin 2) = j.val := by
    have hs : (rowsGather N J E wf).start (ix2 e j) idx (1 : Fin 2) = 0 := by
      unfold GatherDims.start
      exact dif_neg (show ¬ (1 : Fin 2) ∈ ([0] : List (Fin 2)) by decide)
    have hk : (1 : Fin 2) ∈ (rowsGather N J E wf).sKept :=
      (GatherDims.mem_sKept _ _).mpr ⟨(show ¬ (1 : Fin 2) ∈ ([0] : List (Fin 2)) by decide), List.not_mem_nil⟩
    rw [hs, GatherDims.batchCoord_eq_zero _ _ _ List.not_mem_nil, Nat.add_zero, Nat.zero_add]
    unfold GatherDims.offCoord
    rw [dif_pos hk]
    rfl
  unfold Host.gather
  refine congrArg x (funext fun a => Fin.ext ?_)
  match a with
  | ⟨0, _⟩ => exact h0
  | ⟨1, _⟩ => exact h1

/-- The dimension numbers of x[idx] for a vector [N] and a column [E, 1] of start indices. -/
abbrev vecGather (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- The gathered vector at e is the vector at the clamped start index of e. -/
theorem gatherVec_apply {α : Type} {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGather N E wf) x idx (ix1 e) = x (ix1 (clampIdx N hN (idx (ix2 e (0 : Fin 1))))) := by
  unfold Host.gather
  refine congrArg x (funext fun a => Fin.ext ?_)
  obtain rfl : a = 0 := Subsingleton.elim _ _
  show (vecGather N E wf).start (ix1 e) idx 0 + (vecGather N E wf).batchCoord (ix1 e) 0 + (vecGather N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGather N E wf).startIndexMap from List.mem_singleton.mpr rfl)]
  have hsi : (vecGather N E wf).siIdx (ix1 e) ⟨List.idxOf (0 : Fin 1) (vecGather N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-! ## Scatter-adds of rows -/

/-- The dimension numbers of .at[idx].add(u) for a table [N, J], a column [E, 1] of indices and updates [E, J]. -/
abbrev rowsScatter (N J E : Nat) (wf : ScatterDims.WF ⟨2, ![N, J]⟩ ⟨2, ![E, 1]⟩ ⟨2, ![E, J]⟩ [1] [0] [0] 1) :
    ScatterDims ⟨2, ![N, J]⟩ ⟨2, ![E, 1]⟩ ⟨2, ![E, J]⟩ where
  updateWindowDims := [1]
  insertedWindowDims := [0]
  scatterDimsToOperandDims := [0]
  indexVectorDim := 1
  wf := wf

/-- An update that lands on row d comes from an edge whose index, read signed, is d: it is not negative and its
    value is d. -/
theorem scatterRows_landed {N J E w : Nat} (wf : ScatterDims.WF ⟨2, ![N, J]⟩ ⟨2, ![E, 1]⟩ ⟨2, ![E, J]⟩ [1] [0] [0] 1)
    (idx : IVec ⟨2, ![E, 1]⟩ w) (u : (⟨2, ![E, J]⟩ : Shape).Idx) (i : (⟨2, ![N, J]⟩ : Shape).Idx)
    (h : (rowsScatter N J E wf).resultIdx? u idx = some i) :
    (idx (ix2 (u 0) (0 : Fin 1))).toInt = ((i 0).val : Int) := by
  unfold ScatterDims.resultIdx? at h
  split at h
  · rename_i hall
    have hi := congrFun (Option.some.inj h) 0
    have hv : ((rowsScatter N J E wf).start u idx 0 + (rowsScatter N J E wf).window u 0).toNat = (i 0).val :=
      congrArg Fin.val hi
    have hw : (rowsScatter N J E wf).window u (0 : Fin 2) = 0 := by
      unfold ScatterDims.window
      exact dif_neg (show ¬ (0 : Fin 2) ∈ (rowsScatter N J E wf).sKept by
        simp [ScatterDims.sKept, Shape.kept, List.mem_filter, List.mem_finRange])
    have hst : (rowsScatter N J E wf).start u idx (0 : Fin 2) = (idx (ix2 (u 0) (0 : Fin 1))).toInt := by
      unfold ScatterDims.start
      rw [dif_pos (show (0 : Fin 2) ∈ (rowsScatter N J E wf).scatterDimsToOperandDims from List.mem_singleton.mpr rfl)]
      have hsi : (rowsScatter N J E wf).siIdx u ⟨List.idxOf (0 : Fin 2) (rowsScatter N J E wf).scatterDimsToOperandDims,
          List.idxOf_lt_length_iff.2 (List.mem_singleton.mpr rfl)⟩ = ix2 (u 0) (0 : Fin 1) := by
        funext b; refine Fin.ext ?_
        match b with
        | ⟨0, _⟩ => rfl
        | ⟨1, _⟩ => rfl
      rw [hsi]
      rfl
    have hnn : 0 ≤ (rowsScatter N J E wf).start u idx 0 + (((rowsScatter N J E wf).window u 0 : Nat) : Int) := (hall 0).1
    rw [hw, hst] at hv hnn
    simp only [Nat.cast_zero, add_zero] at hv hnn
    omega
  · exact absurd h (by simp)

/-! ## A factor that leaves a sum -/

/-- A non-negative real factor leaves a finite sum of extended reals. -/
theorem sum_mul_of_nonneg_ne_top {ι : Type} (s : Finset ι) (f : ι → EReal) (c : EReal) (h0 : 0 ≤ c) (ht : c ≠ ⊤) :
    (∑ i ∈ s, f i) * c = ∑ i ∈ s, f i * c := by
  classical
  induction s using Finset.induction_on with
  | empty => simp
  | insert a s ha ih =>
    rw [Finset.sum_insert ha, Finset.sum_insert ha, EReal.right_distrib_of_nonneg_of_ne_top h0 ht, ih]

/-- THE LAW.  Two scatter-adds into zero tables at the same indices.  If at every update that lands on a row the
    second scatter's update is the first's times a factor c(row), and c(row) is a non-negative real, then at every
    entry the first scatter's sum times c(row) is the second's sum. -/
theorem scatterAdd_rescale {N J E w : Nat} (wf : ScatterDims.WF ⟨2, ![N, J]⟩ ⟨2, ![E, 1]⟩ ⟨2, ![E, J]⟩ [1] [0] [0] 1)
    (z : FVec Ideal ⟨2, ![N, J]⟩ .f32) (hz : ∀ i, z i = 0) (idx : IVec ⟨2, ![E, 1]⟩ w)
    (u₁ u₂ : FVec Ideal ⟨2, ![E, J]⟩ .f32) (c : Fin N → EReal) (h0 : ∀ n, 0 ≤ c n) (ht : ∀ n, c n ≠ ⊤)
    (hu : ∀ (u : (⟨2, ![E, J]⟩ : Shape).Idx) (i : (⟨2, ![N, J]⟩ : Shape).Idx),
      (rowsScatter N J E wf).resultIdx? u idx = some i → u₂ u = u₁ u * c (i 0))
    (i : (⟨2, ![N, J]⟩ : Shape).Idx) :
    Host.scatterAdd (F := Ideal) (rowsScatter N J E wf) z idx u₁ i * c (i 0)
      = Host.scatterAdd (F := Ideal) (rowsScatter N J E wf) z idx u₂ i := by
  simp only [Host.scatterAdd, Ideal.hostScatterAdd_def, Ideal.hostScatterAdd]
  rw [hz i, zero_add, zero_add]
  refine (sum_mul_of_nonneg_ne_top _ _ (c (i 0)) (h0 _) (ht _)).trans ?_
  refine Finset.sum_congr rfl fun u hu' => ?_
  exact (hu u i (Finset.mem_filter.mp hu').2).symm

/-! ## The inverse square root of a degree, guarded -/

/-- where(x > 0, rsqrt x, 0) on the extended reals is a non-negative real number, whatever x is: the inverse root of a
    positive real, 0 at +∞ (rsqrt's value there), and 0 where the guard fails. -/
theorem guardedRsqrt_nonneg_ne_top (x : EReal) :
    0 ≤ Scalar.select (Ideal.cmp .ogt x 0) (Ideal.rsqrt x) (0 : EReal)
      ∧ Scalar.select (Ideal.cmp .ogt x 0) (Ideal.rsqrt x) (0 : EReal) ≠ ⊤ := by
  induction x using EReal.rec with
  | bot => simp [Scalar.select, Ideal.cmp]
  | top =>
    have hr : Ideal.rsqrt (⊤ : EReal) = 0 := rfl
    simp [Scalar.select, Ideal.cmp, hr]
  | coe r =>
    by_cases h : 0 < r
    · have h1 : ¬ r < 0 := not_lt.mpr h.le
      have h2 : r ≠ 0 := h.ne'
      have hc : Ideal.cmp .ogt (r : EReal) 0 = 1#1 := by simp [Ideal.cmp, h]
      have hr : Ideal.rsqrt (r : EReal) = (((Real.sqrt r)⁻¹ : ℝ) : EReal) := by
        show (if r < 0 then (⊥ : EReal) else if r = 0 then ⊤ else (((Real.sqrt r)⁻¹ : ℝ) : EReal)) = _
        rw [if_neg h1, if_neg h2]
      rw [hc, show Scalar.select 1#1 (Ideal.rsqrt (r : EReal)) (0 : EReal) = Ideal.rsqrt (r : EReal) from if_pos rfl, hr]
      exact ⟨by exact_mod_cast inv_nonneg.mpr (Real.sqrt_nonneg r), EReal.coe_ne_top _⟩
    · have hc : Ideal.cmp .ogt (r : EReal) 0 = 0#1 := by simp [Ideal.cmp, h]
      rw [hc, show Scalar.select 0#1 (Ideal.rsqrt (r : EReal)) (0 : EReal) = 0 from if_neg (by decide)]
      exact ⟨le_refl _, EReal.zero_ne_top⟩

/-! ## A negative index wrapped, where the index is not negative -/

/-- where(v < 0, a, v) is v for an index word v that is not negative as a signed integer, whatever a is (in the
    programs a is v + n, the index wrapped from the end). -/
theorem wrapIdx_of_nonneg {w : Nat} (v a z : BitVec w) (hz : z = 0#w) (h : 0 ≤ v.toInt) :
    Scalar.select (IntOp.cmpi .slt v z) a v = v := by
  subst hz
  have : IntOp.cmpi .slt v 0#w = 0#1 := by
    simp only [IntOp.cmpi, BitVec.slt, BitVec.toInt_zero]
    simp [not_lt.mpr h]
  rw [this]
  exact if_neg (by decide)

/-! ## A row's maximum on the host -/

/-- The host's reduction with a maximum body along the columns of an [R, C] matrix, at row p: the fold of max, from the
    initial value, over the columns of that row's entries. -/
theorem hostRowMax_apply {R C : Nat} (x : FVec Ideal ⟨2, ![R, C]⟩ .f32) (init : FVec Ideal ⟨0, ![]⟩ .f32)
    (h' : Shape.ReducesTo (⟨2, ![R, C]⟩ : Shape) [1] ⟨1, ![R]⟩) (h : Shape.Reduces (⟨2, ![R, C]⟩ : Shape) [1] ⟨1, ![R]⟩)
    (hu : 0 < (⟨0, ![]⟩ : Shape).numel) (p : Fin R) :
    Host.reduce FloatOps.maximumf x init h' hu (ix1 p)
      = (Finset.univ : Finset (Fin C)).fold max (init (Shape.Idx.first hu)) (fun k => x (ix2 p k)) := by
  rw [Host.reduce_eq_fold_single FloatOps.maximumf x _ h' h hu]
  exact congrArg (fun f => Finset.fold max (init (Shape.Idx.first hu)) f (Finset.univ : Finset (Fin C)))
    (funext fun k => congrArg x (funext fun d => Fin.ext (by
      match d with
      | ⟨0, _⟩ => rfl
      | ⟨1, _⟩ => rfl)))

end Cert.LibGraph

end
-- ==== Proof.RefSide.lean ====
import proofs.«153699_j13692355740362_2_alg».proof.Proof.RefOps
import proofs.«153699_j13692355740362_2_alg».proof.Proof.Spec
import proofs.«153699_j13692355740362_2_alg».proof.Proof.Sparse
import proofs.«153699_j13692355740362_2_alg».proof.Proof.LibAfter
import proofs.«153699_j13692355740362_2_alg».proof.Proof.LibBcast
import proofs.«153699_j13692355740362_2_alg».proof.Proof.LibHostOps
import proofs.«153699_j13692355740362_2_alg».proof.Proof.LibGraphOps
import Idealize.ShloMosaic.Lib.StableHlo.Run
import Idealize.ShloMosaic.Lib.ValueIdx

/-!
# The reference program's result is the network function of its arguments

The reference's 182 host operations run as six consecutive pieces, one per layer.  For each piece, from ANY starting
contents W of the buffers: the piece's output buffer is a fixed function of W at the few buffers the piece reads (the
previous layer's output and the argument arrays), and the piece leaves every argument buffer as it found it.  Each such
function is then identified with the layer of the network: a host matrix product is the matrix product, a bias laid as
a row and repeated down the rows reads the bias at the column, a rectifier is the maximum with 0, and the log-softmax
is the shifted form z − log Σ exp z.  The reference adds a layer's bias before the residual and rectifies twice where
the network adds it after and rectifies once: commutativity and associativity of + on the extended reals and
idempotence of max join the two.  The sparse adjacency product is never opened: each piece's term contains it as one
function applied to the layer's matrix product.  Composing the six pieces, with each piece's output named once, gives
the network function of the fourteen argument arrays.
-/

noncomputable section

open scoped BigOperators

namespace Cert.ReferenceIdeal.RefValue

open Cert.ReferenceIdeal Cert.ReferenceIdeal.RunP Idealize.ShloMosaic Idealize.ShloMosaic.TcCoe Idealize.SL.Sem
open Idealize.ShloMosaic.StableHlo Idealize.ShloMosaic.ValueIdx

variable [Cert.ReferenceIdeal.Facts]
open Cert.ReferenceIdeal.Facts₀ Cert.ReferenceIdeal.Facts

/-- The edge list's index columns, the edge values, the node features at 512 columns, the square weights, a bias. -/
abbrev TI32 : Type := IVec S160000 32
abbrev TF32 : Type := FVec Ideal S160000 .f32
abbrev TH : Type := FVec Ideal S50000x512 .f32
abbrev TW : Type := FVec Ideal S512x512 .f32
abbrev TB : Type := FVec Ideal S512 .f32

/-- The zero matrix a rectifier compares with. -/
def zero512 : TH := broadcastInDim S50000x512 ![] bcast_S_S50000x512 (constant (F := Ideal) S_ .f32 0x00000000#32)

/-- A bias vector laid as a row and repeated down the 50000 rows. -/
def bias512 (b : TB) : TH :=
  broadcastInDim S50000x512 ![0, 1] bcast_S1x512_S50000x512_0_1 (broadcastInDim S1x512 ![1] bcast_S512_S1x512_1 b)

/-- A middle layer as the reference writes it: the sparse product of h · W, plus the bias, plus h, rectified twice. -/
def midT (row col : TI32) (val : TF32) (h : TH) (W8 : TW) (b : TB) : TH :=
  maximumf (F := Ideal) (maximumf (F := Ideal) (addf (F := Ideal) (addf (F := Ideal)
      (Cert.Gcn.sp512 row col val (Host.dotGeneral (F := Ideal) dot_S50000x512_S512x512_S50000x512_1_0_0_1_n_n none h W8))
      (bias512 b)) h) zero512) zero512

/-- Every entry of the zero matrix is 0. -/
theorem zero512_apply (i : S50000x512.Idx) : zero512 i = 0 :=
  (Cert.LibBcast.bcastScalar_apply _ bcast_S_S50000x512 i).trans Ideal.ofBits_zero_f32

/-- Entry (p, q) of the repeated bias is entry q of the bias vector. -/
theorem bias512_ix2 (b : TB) (p : Fin 50000) (q : Fin 512) : bias512 b (ix2 p q) = b (ix1 q) :=
  (Cert.LibBcast.bcastRow_apply _ bcast_S1x512_S50000x512_0_1 p q).trans
    (Cert.LibBcast.bcastVecRow_apply b bcast_S512_S1x512_1 (0 : Fin 1) q)

/-- The same at any index. -/
theorem bias512_apply (b : TB) (i : S50000x512.Idx) : bias512 b i = b (ix1 (i 1)) :=
  (congrArg (bias512 b) (eq_ix2 i)).trans (by exact bias512_ix2 b (i 0) (i 1))

/-- The host product of the node features by a 512 × 512 weight matrix is the matrix product. -/
theorem dot512_eq_mm (h : TH) (W8 : TW) :
    Host.dotGeneral (F := Ideal) dot_S50000x512_S512x512_S50000x512_1_0_0_1_n_n none h W8 = Cert.Gcn.mm h W8 := by
  funext i
  refine (congrArg (Host.dotGeneral (F := Ideal) dot_S50000x512_S512x512_S50000x512_1_0_0_1_n_n none h W8) (eq_ix2 i)).trans ?_
  exact Cert.LibRowOps.dotGeneral_ix2 (φ₁ := .f32) (φ₂ := .f32) dot_S50000x512_S512x512_S50000x512_1_0_0_1_n_n rfl rfl rfl rfl
    (fun i c => by
      unfold DotDims.lhsIdx
      rw [dif_neg (show ¬(0 : Fin _) ∈ dot_S50000x512_S512x512_S50000x512_1_0_0_1_n_n.lhsBatch by decide),
        dif_pos (show (0 : Fin _) ∈ dot_S50000x512_S512x512_S50000x512_1_0_0_1_n_n.lhsNonContracting by decide)]
      rfl)
    (fun i c => by
      unfold DotDims.rhsIdx
      rw [dif_neg (show ¬(1 : Fin _) ∈ dot_S50000x512_S512x512_S50000x512_1_0_0_1_n_n.rhsBatch by decide),
        dif_pos (show (1 : Fin _) ∈ dot_S50000x512_S512x512_S50000x512_1_0_0_1_n_n.rhsNonContracting by decide)]
      rfl)
    none h W8 (i 0) (i 1)

/-- The reference's middle layer is the network's: the bias moves behind the residual and the two rectifiers are one. -/
theorem midT_eq (row col : TI32) (val : TF32) (h : TH) (W8 : TW) (b : TB) :
    midT row col val h W8 b = Cert.Gcn.mid (Cert.Gcn.sp512 row col val) W8 b h := by
  funext i
  unfold midT
  rw [dot512_eq_mm]
  show max (max (Cert.Gcn.sp512 row col val (Cert.Gcn.mm h W8) i + bias512 b i + h i) (zero512 i)) (zero512 i)
      = max (Cert.Gcn.sp512 row col val (Cert.Gcn.mm h W8) i + h i + b (ix1 (i 1))) 0
  rw [zero512_apply, bias512_apply, Cert.Gcn.max_zero_idem, Cert.Gcn.add_swap3]

/-- The node features at 1024 columns and a 1024 × 512 weight matrix. -/
abbrev TX : Type := FVec Ideal S50000x1024 .f32
abbrev TW1 : Type := FVec Ideal S1024x512 .f32

/-- The first layer as the reference writes it: the sparse product of x · W1, plus its bias, plus the projected
    residual x · P1, plus the projection's bias, rectified twice. -/
def l1T (row col : TI32) (val : TF32) (x : TX) (W1 : TW1) (b1 : TB) (P1 : TW1) (pb1 : TB) : TH :=
  maximumf (F := Ideal) (maximumf (F := Ideal) (addf (F := Ideal) (addf (F := Ideal) (addf (F := Ideal)
      (Cert.Gcn.sp512 row col val (Host.dotGeneral (F := Ideal) dot_S50000x1024_S1024x512_S50000x512_1_0_0_1_n_n none x W1))
      (bias512 b1))
      (Host.dotGeneral (F := Ideal) dot_S50000x1024_S1024x512_S50000x512_1_0_0_1_n_n none x P1))
      (bias512 pb1)) zero512) zero512

/-- The host product of the input features by a 1024 × 512 weight matrix is the matrix product. -/
theorem dot1024_eq_mm (x : TX) (W1 : TW1) :
    Host.dotGeneral (F := Ideal) dot_S50000x1024_S1024x512_S50000x512_1_0_0_1_n_n none x W1 = Cert.Gcn.mm x W1 := by
  funext i
  refine (congrArg (Host.dotGeneral (F := Ideal) dot_S50000x1024_S1024x512_S50000x512_1_0_0_1_n_n none x W1) (eq_ix2 i)).trans ?_
  exact Cert.LibRowOps.dotGeneral_ix2 (φ₁ := .f32) (φ₂ := .f32) dot_S50000x1024_S1024x512_S50000x512_1_0_0_1_n_n rfl rfl rfl rfl
    (fun i c => by
      unfold DotDims.lhsIdx
      rw [dif_neg (show ¬(0 : Fin _) ∈ dot_S50000x1024_S1024x512_S50000x512_1_0_0_1_n_n.lhsBatch by decide),
        dif_pos (show (0 : Fin _) ∈ dot_S50000x1024_S1024x512_S50000x512_1_0_0_1_n_n.lhsNonContracting by decide)]
      rfl)
    (fun i c => by
      unfold DotDims.rhsIdx
      rw [dif_neg (show ¬(1 : Fin _) ∈ dot_S50000x1024_S1024x512_S50000x512_1_0_0_1_n_n.rhsBatch by decide),
        dif_pos (show (1 : Fin _) ∈ dot_S50000x1024_S1024x512_S50000x512_1_0_0_1_n_n.rhsNonContracting by decide)]
      rfl)
    none x W1 (i 0) (i 1)

/-- The reference's first layer is the network's: the first bias moves behind the residual and the two rectifiers
    are one. -/
theorem l1T_eq (row col : TI32) (val : TF32) (x : TX) (W1 : TW1) (b1 : TB) (P1 : TW1) (pb1 : TB) :
    l1T row col val x W1 b1 P1 pb1
      = Cert.Gcn.act4 (Cert.Gcn.sp512 row col val (Cert.Gcn.mm x W1)) (Cert.Gcn.mm x P1) b1 pb1 := by
  funext i
  unfold l1T
  rw [dot1024_eq_mm, dot1024_eq_mm]
  show max (max (Cert.Gcn.sp512 row col val (Cert.Gcn.mm x W1) i + bias512 b1 i + Cert.Gcn.mm x P1 i + bias512 pb1 i)
        (zero512 i)) (zero512 i)
      = max (Cert.Gcn.sp512 row col val (Cert.Gcn.mm x W1) i + Cert.Gcn.mm x P1 i + b1 (ix1 (i 1)) + pb1 (ix1 (i 1))) 0
  rw [zero512_apply, bias512_apply, bias512_apply, Cert.Gcn.max_zero_idem, Cert.Gcn.add_swap4]

/-- The class scores at 64 columns, a 512 × 64 weight matrix, a bias of 64 entries, a vector of one entry per node. -/
abbrev TO : Type := FVec Ideal S50000x64 .f32
abbrev TW2 : Type := FVec Ideal S512x64 .f32
abbrev TB2 : Type := FVec Ideal S64 .f32
abbrev TV : Type := FVec Ideal S50000 .f32

/-- The zero matrix the last rectifier compares with. -/
def zero64 : TO := broadcastInDim S50000x64 ![] bcast_S_S50000x64 (constant (F := Ideal) S_ .f32 0x00000000#32)

/-- A bias vector of 64 entries laid as a row and repeated down the 50000 rows. -/
def bias64 (b : TB2) : TO :=
  broadcastInDim S50000x64 ![0, 1] bcast_S1x64_S50000x64_0_1 (broadcastInDim S1x64 ![1] bcast_S64_S1x64_1 b)

/-- The last layer before the softmax, as the reference writes it: the sparse product of h · W2, plus its bias, plus
    the projected residual h · P2, plus the projection's bias, rectified once. -/
def l6T (row col : TI32) (val : TF32) (h : TH) (W2 : TW2) (b2 : TB2) (P2 : TW2) (pb2 : TB2) : TO :=
  maximumf (F := Ideal) (addf (F := Ideal) (addf (F := Ideal) (addf (F := Ideal)
      (Cert.Gcn.sp64 row col val (Host.dotGeneral (F := Ideal) dot_S50000x512_S512x64_S50000x64_1_0_0_1_n_n none h W2))
      (bias64 b2))
      (Host.dotGeneral (F := Ideal) dot_S50000x512_S512x64_S50000x64_1_0_0_1_n_n none h P2))
      (bias64 pb2)) zero64

/-- The row maxima as the reference writes them: −∞ against the maximum-reduction of each row from −∞. -/
def rowMaxT (z : TO) : TV :=
  maximumf (F := Ideal) (broadcastInDim S50000 ![] bcast_S_S50000 (constant (F := Ideal) S_ .f32 0xFF800000#32))
    (Host.reduce (FloatOps.maximumf (F := Ideal) (φ := .f32)) z (constant (F := Ideal) S_ .f32 0xFF800000#32)
      reducesTo_S50000x64_S50000_d1 h_S_)

/-- A vector of one entry per node laid as a column. -/
def col1 (v : TV) : FVec Ideal S50000x1 .f32 := broadcastInDim S50000x1 ![0] bcast_S50000_S50000x1_0 v

/-- A column repeated along the 64 columns. -/
def rep64 (u : FVec Ideal S50000x1 .f32) : TO := broadcastInDim S50000x64 ![0, 1] bcast_S50000x1_S50000x64_0_1 u

/-- The rows shifted down by their maxima. -/
def shiftT (z : TO) : TO := subf (F := Ideal) z (rep64 (col1 (rowMaxT z)))

/-- The log-softmax as the reference writes it: the shifted rows less the logarithm of each row's sum of exponentials. -/
def lsmT (z : TO) : TO :=
  subf (F := Ideal) (shiftT z)
    (rep64 (Host.log (col1 (Host.reduceAdd (F := Ideal) (Host.exp (shiftT z)) (constant (F := Ideal) S_ .f32 0x00000000#32)
      reducesTo_S50000x64_S50000_d1 h_S_))))

/-- Every entry of the 64-column zero matrix is 0. -/
theorem zero64_apply (i : S50000x64.Idx) : zero64 i = 0 :=
  (Cert.LibBcast.bcastScalar_apply _ bcast_S_S50000x64 i).trans Ideal.ofBits_zero_f32

/-- Entry (p, q) of the repeated 64-entry bias is entry q of the bias vector. -/
theorem bias64_ix2 (b : TB2) (p : Fin 50000) (q : Fin 64) : bias64 b (ix2 p q) = b (ix1 q) :=
  (Cert.LibBcast.bcastRow_apply _ bcast_S1x64_S50000x64_0_1 p q).trans
    (Cert.LibBcast.bcastVecRow_apply b bcast_S64_S1x64_1 (0 : Fin 1) q)

/-- The same at any index. -/
theorem bias64_apply (b : TB2) (i : S50000x64.Idx) : bias64 b i = b (ix1 (i 1)) :=
  (congrArg (bias64 b) (eq_ix2 i)).trans (by exact bias64_ix2 b (i 0) (i 1))

/-- The host product of the node features by a 512 × 64 weight matrix is the matrix product. -/
theorem dot64_eq_mm (h : TH) (W2 : TW2) :
    Host.dotGeneral (F := Ideal) dot_S50000x512_S512x64_S50000x64_1_0_0_1_n_n none h W2 = Cert.Gcn.mm h W2 := by
  funext i
  refine (congrArg (Host.dotGeneral (F := Ideal) dot_S50000x512_S512x64_S50000x64_1_0_0_1_n_n none h W2) (eq_ix2 i)).trans ?_
  exact Cert.LibRowOps.dotGeneral_ix2 (φ₁ := .f32) (φ₂ := .f32) dot_S50000x512_S512x64_S50000x64_1_0_0_1_n_n rfl rfl rfl rfl
    (fun i c => by
      unfold DotDims.lhsIdx
      rw [dif_neg (show ¬(0 : Fin _) ∈ dot_S50000x512_S512x64_S50000x64_1_0_0_1_n_n.lhsBatch by decide),
        dif_pos (show (0 : Fin _) ∈ dot_S50000x512_S512x64_S50000x64_1_0_0_1_n_n.lhsNonContracting by decide)]
      rfl)
    (fun i c => by
      unfold DotDims.rhsIdx
      rw [dif_neg (show ¬(1 : Fin _) ∈ dot_S50000x512_S512x64_S50000x64_1_0_0_1_n_n.rhsBatch by decide),
        dif_pos (show (1 : Fin _) ∈ dot_S50000x512_S512x64_S50000x64_1_0_0_1_n_n.rhsNonContracting by decide)]
      rfl)
    none h W2 (i 0) (i 1)

/-- The reference's last layer before the softmax is the network's: the first bias moves behind the residual. -/
theorem l6T_eq (row col : TI32) (val : TF32) (h : TH) (W2 : TW2) (b2 : TB2) (P2 : TW2) (pb2 : TB2) :
    l6T row col val h W2 b2 P2 pb2
      = Cert.Gcn.act4 (Cert.Gcn.sp64 row col val (Cert.Gcn.mm h W2)) (Cert.Gcn.mm h P2) b2 pb2 := by
  funext i
  unfold l6T
  rw [dot64_eq_mm, dot64_eq_mm]
  show max (Cert.Gcn.sp64 row col val (Cert.Gcn.mm h W2) i + bias64 b2 i + Cert.Gcn.mm h P2 i + bias64 pb2 i) (zero64 i)
      = max (Cert.Gcn.sp64 row col val (Cert.Gcn.mm h W2) i + Cert.Gcn.mm h P2 i + b2 (ix1 (i 1)) + pb2 (ix1 (i 1))) 0
  rw [zero64_apply, bias64_apply, bias64_apply, Cert.Gcn.add_swap4]

/-- The word 0xFF800000 is −∞. -/
theorem negInf_f32 : Ideal.ofBits .f32 0xFF800000#32 = ⊥ := by simp [Ideal.ofBits, Ideal.ieee]

/-- The constant of that word is −∞ at its one entry. -/
theorem negInf_const (j : S_.Idx) : constant (F := Ideal) S_ .f32 0xFF800000#32 j = ⊥ :=
  (constant_apply (s := S_) (φ := .f32) 0xFF800000#32 j).trans negInf_f32

/-- The reference's maximum of row n is the fold of max over the row from −∞: the extra −∞ in front changes nothing. -/
theorem rowMaxT_apply (z : TO) (n : Fin 50000) : rowMaxT z (ix1 n) = Cert.Gcn.rowMax z n := by
  unfold rowMaxT
  rw [maximumf_apply, Cert.LibBcast.bcastScalar_apply,
    Cert.LibGraph.hostRowMax_apply z (constant (F := Ideal) S_ .f32 0xFF800000#32) reducesTo_S50000x64_S50000_d1
      (by decide) h_S_ n,
    negInf_const, negInf_const, max_bot_left]
  rfl
/-- Entry (p, q) of a per-node vector laid as a column and repeated is the vector's entry p. -/
theorem rep64_col1_ix2 (v : TV) (p : Fin 50000) (q : Fin 64) : rep64 (col1 v) (ix2 p q) = v (ix1 p) :=
  (Cert.LibBcast.bcastCol_apply _ bcast_S50000x1_S50000x64_0_1 p q).trans
    (Cert.LibBcast.bcastVecCol_apply v bcast_S50000_S50000x1_0 p (0 : Fin 1))

/-- The reference's shifted rows are the network's. -/
theorem shiftT_eq (z : TO) : shiftT z = Cert.Gcn.shifted z := by
  funext i
  show z i - rep64 (col1 (rowMaxT z)) i = z i - Cert.Gcn.rowMax z (i 0)
  refine congrArg (z i - ·) ?_
  refine (congrArg (rep64 (col1 (rowMaxT z))) (eq_ix2 i)).trans ?_
  exact (by exact rep64_col1_ix2 (rowMaxT z) (i 0) (i 1) : rep64 (col1 (rowMaxT z)) (ix2 (i 0) (i 1)) = rowMaxT z (ix1 (i 0))).trans
    (by exact rowMaxT_apply z (i 0))

/-- Entry (p, q) of the repeated logarithm of a column is the logarithm of the column's entry p. -/
theorem rep64_log_col1_ix2 (v : TV) (p : Fin 50000) (q : Fin 64) :
    rep64 (Host.log (col1 v)) (ix2 p q) = Ideal.log (v (ix1 p)) :=
  (Cert.LibBcast.bcastCol_apply _ bcast_S50000x1_S50000x64_0_1 p q).trans
    (congrArg Ideal.log (Cert.LibBcast.bcastVecCol_apply v bcast_S50000_S50000x1_0 p (0 : Fin 1)))

/-- The constant of the zero word is 0 at its one entry. -/
theorem zero_const (j : S_.Idx) : constant (F := Ideal) S_ .f32 0x00000000#32 j = 0 :=
  (constant_apply (s := S_) (φ := .f32) 0x00000000#32 j).trans Ideal.ofBits_zero_f32

/-- The host's sum of exponentials of row p, from the zero word, is the sum over the row. -/
theorem sumExp_apply (s : TO) (p : Fin 50000) :
    Host.reduceAdd (F := Ideal) (Host.exp s) (constant (F := Ideal) S_ .f32 0x00000000#32)
      reducesTo_S50000x64_S50000_d1 h_S_ (ix1 p) = ∑ a : Fin 64, Ideal.exp (s (ix2 p a)) := by
  rw [Cert.LibRowOps.hostRowAdd_apply (Host.exp s) (constant (F := Ideal) S_ .f32 0x00000000#32)
    reducesTo_S50000x64_S50000_d1 (by decide) h_S_ p, zero_const, zero_add]
  rfl

/-- The reference's log-softmax is the network's. -/
theorem lsmT_eq (z : TO) : lsmT z = Cert.Gcn.lsm z := by
  funext i
  unfold lsmT
  rw [shiftT_eq]
  show Cert.Gcn.shifted z i - rep64 (Host.log (col1 (Host.reduceAdd (F := Ideal) (Host.exp (Cert.Gcn.shifted z))
        (constant (F := Ideal) S_ .f32 0x00000000#32) reducesTo_S50000x64_S50000_d1 h_S_))) i
      = Cert.Gcn.shifted z i - Ideal.log (∑ a : Fin 64, Ideal.exp (Cert.Gcn.shifted z (ix2 (i 0) a)))
  refine congrArg (Cert.Gcn.shifted z i - ·) ?_
  refine (congrArg (rep64 (Host.log (col1 (Host.reduceAdd (F := Ideal) (Host.exp (Cert.Gcn.shifted z))
        (constant (F := Ideal) S_ .f32 0x00000000#32) reducesTo_S50000x64_S50000_d1 h_S_)))) (eq_ix2 i)).trans ?_
  refine (by exact rep64_log_col1_ix2 _ (i 0) (i 1) : _ = Ideal.log ((Host.reduceAdd (F := Ideal) (Host.exp (Cert.Gcn.shifted z))
        (constant (F := Ideal) S_ .f32 0x00000000#32) reducesTo_S50000x64_S50000_d1 h_S_) (ix1 (i 0)))).trans ?_
  exact congrArg Ideal.log (by exact sumExp_apply (Cert.Gcn.shifted z) (i 0))

/-! ## The six pieces: each output buffer over the buffers its piece reads -/

set_option maxRecDepth 8192 in
set_option maxHeartbeats 4000000 in
/-- The first layer's output buffer after piece 1, over the buffers the piece reads. -/
theorem piece1 (W : Valuation τ sig (Elt Ideal)) :
    after (ops1 (F := Ideal)) W (Proc.devRef .tc main_v23)
      = l1T (W (Proc.devRef .tc main_arg1)) (W (Proc.devRef .tc main_arg2)) (W (Proc.devRef .tc main_arg3))
          (W (Proc.devRef .tc main_arg0)) (W (Proc.devRef .tc main_arg4)) (W (Proc.devRef .tc main_arg5))
          (W (Proc.devRef .tc main_arg6)) (W (Proc.devRef .tc main_arg7)) := by
  after_results
  rfl

set_option maxRecDepth 8192 in
set_option maxHeartbeats 4000000 in
/-- The output buffer of middle layer 1 after piece 2, over the buffers the piece reads. -/
theorem piece2 (W : Valuation τ sig (Elt Ideal)) :
    after (ops2 (F := Ideal)) W (Proc.devRef .tc main_v43)
      = midT (W (Proc.devRef .tc main_arg1)) (W (Proc.devRef .tc main_arg2)) (W (Proc.devRef .tc main_arg3))
          (W (Proc.devRef .tc main_v23)) (W (Proc.devRef .tc main_arg8)) (W (Proc.devRef .tc main_arg9)) := by
  after_results
  rfl

set_option maxRecDepth 8192 in
set_option maxHeartbeats 4000000 in
/-- The output buffer of middle layer 2 after piece 3, over the buffers the piece reads. -/
theorem piece3 (W : Valuation τ sig (Elt Ideal)) :
    after (ops3 (F := Ideal)) W (Proc.devRef .tc main_v63)
      = midT (W (Proc.devRef .tc main_arg1)) (W (Proc.devRef .tc main_arg2)) (W (Proc.devRef .tc main_arg3))
          (W (Proc.devRef .tc main_v43)) (W (Proc.devRef .tc main_arg8)) (W (Proc.devRef .tc main_arg9)) := by
  after_results
  rfl

set_option maxRecDepth 8192 in
set_option maxHeartbeats 4000000 in
/-- The output buffer of middle layer 3 after piece 4, over the buffers the piece reads. -/
theorem piece4 (W : Valuation τ sig (Elt Ideal)) :
    after (ops4 (F := Ideal)) W (Proc.devRef .tc main_v83)
      = midT (W (Proc.devRef .tc main_arg1)) (W (Proc.devRef .tc main_arg2)) (W (Proc.devRef .tc main_arg3))
          (W (Proc.devRef .tc main_v63)) (W (Proc.devRef .tc main_arg8)) (W (Proc.devRef .tc main_arg9)) := by
  after_results
  rfl

set_option maxRecDepth 8192 in
set_option maxHeartbeats 4000000 in
/-- The output buffer of middle layer 4 after piece 5, over the buffers the piece reads. -/
theorem piece5 (W : Valuation τ sig (Elt Ideal)) :
    after (ops5 (F := Ideal)) W (Proc.devRef .tc main_v103)
      = midT (W (Proc.devRef .tc main_arg1)) (W (Proc.devRef .tc main_arg2)) (W (Proc.devRef .tc main_arg3))
          (W (Proc.devRef .tc main_v83)) (W (Proc.devRef .tc main_arg8)) (W (Proc.devRef .tc main_arg9)) := by
  after_results
  rfl

section LastPieceSplit

variable {F : FTy → Type} [FloatOps F]

/-- Operations 140 … 167 of the line: the last layer through its rectifier (`main_v126`), each operation as in the line. -/
abbrev opsLast : List (HloOp τ sig (Elt F)) :=
  [ binary main_v103 main_arg10 main_v104 ((fun l r => Host.dotGeneral dot_S50000x512_S512x64_S50000x64_1_0_0_1_n_n none l r) : (⟨S50000x512, .f32⟩ : BufTy).Contents (Elt F) → (⟨S512x64, .f32⟩ : BufTy).Contents (Elt F) → (⟨S50000x64, .f32⟩ : BufTy).Contents (Elt F)),
    unary main_arg3 main_v105 (broadcastInDim S160000x1 ![0] bcast_S160000_S160000x1_0 : (⟨S160000, .f32⟩ : BufTy).Contents (Elt F) → (⟨S160000x1, .f32⟩ : BufTy).Contents (Elt F)),
    nullary main_c_13 (constantI S_ 32 0#32),
    unary main_c_13 main_v106 (broadcastInDim S160000 ![] bcast_S_S160000 : (⟨S_, .i32⟩ : BufTy).Contents (Elt F) → (⟨S160000, .i32⟩ : BufTy).Contents (Elt F)),
    binary main_arg2 main_v106 main_v107 (cmpi .slt : (⟨S160000, .i32⟩ : BufTy).Contents (Elt F) → (⟨S160000, .i32⟩ : BufTy).Contents (Elt F) → (⟨S160000, .i1⟩ : BufTy).Contents (Elt F)),
    nullary main_c_14 (constantI S_ 32 50000#32),
    unary main_c_14 main_v108 (broadcastInDim S160000 ![] bcast_S_S160000 : (⟨S_, .i32⟩ : BufTy).Contents (Elt F) → (⟨S160000, .i32⟩ : BufTy).Contents (Elt F)),
    binary main_arg2 main_v108 main_v109 (addi : (⟨S160000, .i32⟩ : BufTy).Contents (Elt F) → (⟨S160000, .i32⟩ : BufTy).Contents (Elt F) → (⟨S160000, .i32⟩ : BufTy).Contents (Elt F)),
    ternary main_v107 main_v109 main_arg2 main_v110 (select : (⟨S160000, .i1⟩ : BufTy).Contents (Elt F) → (⟨S160000, .i32⟩ : BufTy).Contents (Elt F) → (⟨S160000, .i32⟩ : BufTy).Contents (Elt F) → (⟨S160000, .i32⟩ : BufTy).Contents (Elt F)),
    unary main_v110 main_v111 (broadcastInDim S160000x1 ![0] bcast_S160000_S160000x1_0 : (⟨S160000, .i32⟩ : BufTy).Contents (Elt F) → (⟨S160000x1, .i32⟩ : BufTy).Contents (Elt F)),
    binary main_v104 main_v111 main_v112 ((fun x i => Host.gather gather_S50000x64_S160000x1_S160000x64_1_0_n_n_0_1_164 x i) : (⟨S50000x64, .f32⟩ : BufTy).Contents (Elt F) → (⟨S160000x1, .i32⟩ : BufTy).Contents (Elt F) → (⟨S160000x64, .f32⟩ : BufTy).Contents (Elt F)),
    unary main_v105 main_v113 (broadcastInDim S160000x64 ![0, 1] bcast_S160000x1_S160000x64_0_1 : (⟨S160000x1, .f32⟩ : BufTy).Contents (Elt F) → (⟨S160000x64, .f32⟩ : BufTy).Contents (Elt F)),
    binary main_v113 main_v112 main_v114 (mulf : (⟨S160000x64, .f32⟩ : BufTy).Contents (Elt F) → (⟨S160000x64, .f32⟩ : BufTy).Contents (Elt F) → (⟨S160000x64, .f32⟩ : BufTy).Contents (Elt F)),
    nullary main_cst_15 (constant S_ .f32 0x00000000#32),
    unary main_cst_15 main_v115 (broadcastInDim S50000x64 ![] bcast_S_S50000x64 : (⟨S_, .f32⟩ : BufTy).Contents (Elt F) → (⟨S50000x64, .f32⟩ : BufTy).Contents (Elt F)),
    unary main_arg1 main_v116 (broadcastInDim S160000x1 ![0] bcast_S160000_S160000x1_0 : (⟨S160000, .i32⟩ : BufTy).Contents (Elt F) → (⟨S160000x1, .i32⟩ : BufTy).Contents (Elt F)),
    ternary main_v115 main_v116 main_v114 main_v117 ((fun x i u => Host.scatterAdd scatter_S50000x64_S160000x1_S160000x64_1_0_0_1 x i u) : (⟨S50000x64, .f32⟩ : BufTy).Contents (Elt F) → (⟨S160000x1, .i32⟩ : BufTy).Contents (Elt F) → (⟨S160000x64, .f32⟩ : BufTy).Contents (Elt F) → (⟨S50000x64, .f32⟩ : BufTy).Contents (Elt F)),
    unary main_arg11 main_v118 (broadcastInDim S1x64 ![1] bcast_S64_S1x64_1 : (⟨S64, .f32⟩ : BufTy).Contents (Elt F) → (⟨S1x64, .f32⟩ : BufTy).Contents (Elt F)),
    unary main_v118 main_v119 (broadcastInDim S50000x64 ![0, 1] bcast_S1x64_S50000x64_0_1 : (⟨S1x64, .f32⟩ : BufTy).Contents (Elt F) → (⟨S50000x64, .f32⟩ : BufTy).Contents (Elt F)),
    binary main_v117 main_v119 main_v120 (addf : (⟨S50000x64, .f32⟩ : BufTy).Contents (Elt F) → (⟨S50000x64, .f32⟩ : BufTy).Contents (Elt F) → (⟨S50000x64, .f32⟩ : BufTy).Contents (Elt F)),
    binary main_v103 main_arg12 main_v121 ((fun l r => Host.dotGeneral dot_S50000x512_S512x64_S50000x64_1_0_0_1_n_n none l r) : (⟨S50000x512, .f32⟩ : BufTy).Contents (Elt F) → (⟨S512x64, .f32⟩ : BufTy).Contents (Elt F) → (⟨S50000x64, .f32⟩ : BufTy).Contents (Elt F)),
    binary main_v120 main_v121 main_v122 (addf : (⟨S50000x64, .f32⟩ : BufTy).Contents (Elt F) → (⟨S50000x64, .f32⟩ : BufTy).Contents (Elt F) → (⟨S50000x64, .f32⟩ : BufTy).Contents (Elt F)),
    unary main_arg13 main_v123 (broadcastInDim S1x64 ![1] bcast_S64_S1x64_1 : (⟨S64, .f32⟩ : BufTy).Contents (Elt F) → (⟨S1x64, .f32⟩ : BufTy).Contents (Elt F)),
    unary main_v123 main_v124 (broadcastInDim S50000x64 ![0, 1] bcast_S1x64_S50000x64_0_1 : (⟨S1x64, .f32⟩ : BufTy).Contents (Elt F) → (⟨S50000x64, .f32⟩ : BufTy).Contents (Elt F)),
    binary main_v122 main_v124 main_v125 (addf : (⟨S50000x64, .f32⟩ : BufTy).Contents (Elt F) → (⟨S50000x64, .f32⟩ : BufTy).Contents (Elt F) → (⟨S50000x64, .f32⟩ : BufTy).Contents (Elt F)),
    TRef.nullary (TRef.of (T := ⟨S_, .f32⟩) main_call10_cst) (constant S_ .f32 0x00000000#32),
    TRef.unary (TRef.of (T := ⟨S_, .f32⟩) main_call10_cst) (TRef.of (T := ⟨S50000x64, .f32⟩) main_call10_v0) (broadcastInDim S50000x64 ![] bcast_S_S50000x64),
    TRef.binary (TRef.of (T := ⟨S50000x64, .f32⟩) main_v125) (TRef.of (T := ⟨S50000x64, .f32⟩) main_call10_v0) (TRef.of (T := ⟨S50000x64, .f32⟩) main_v126) maximumf ]

/-- Operations 168 … 182 of the line: the row-wise log-softmax of `main_v126` (through `main_v127`), each operation as in the line. -/
abbrev opsLsm : List (HloOp τ sig (Elt F)) :=
  [ TRef.nullary (TRef.of (T := ⟨S_, .f32⟩) main_call11_cst) (constant S_ .f32 0xFF800000#32),
    TRef.binary (TRef.of (T := ⟨S50000x64, .f32⟩) main_v126) (TRef.of (T := ⟨S_, .f32⟩) main_call11_cst) (TRef.of (T := ⟨S50000, .f32⟩) main_call11_v0) (fun x v => Host.reduce FloatOps.maximumf x v reducesTo_S50000x64_S50000_d1 h_S_),
    TRef.nullary (TRef.of (T := ⟨S_, .f32⟩) main_call11_cst_0) (constant S_ .f32 0xFF800000#32),
    TRef.unary (TRef.of (T := ⟨S_, .f32⟩) main_call11_cst_0) (TRef.of (T := ⟨S50000, .f32⟩) main_call11_v1) (broadcastInDim S50000 ![] bcast_S_S50000),
    TRef.binary (TRef.of (T := ⟨S50000, .f32⟩) main_call11_v1) (TRef.of (T := ⟨S50000, .f32⟩) main_call11_v0) (TRef.of (T := ⟨S50000, .f32⟩) main_call11_v2) maximumf,
    TRef.unary (TRef.of (T := ⟨S50000, .f32⟩) main_call11_v2) (TRef.of (T := ⟨S50000x1, .f32⟩) main_call11_v3) (broadcastInDim S50000x1 ![0] bcast_S50000_S50000x1_0),
    TRef.unary (TRef.of (T := ⟨S50000x1, .f32⟩) main_call11_v3) (TRef.of (T := ⟨S50000x64, .f32⟩) main_call11_v4) (broadcastInDim S50000x64 ![0, 1] bcast_S50000x1_S50000x64_0_1),
    TRef.binary (TRef.of (T := ⟨S50000x64, .f32⟩) main_v126) (TRef.of (T := ⟨S50000x64, .f32⟩) main_call11_v4) (TRef.of (T := ⟨S50000x64, .f32⟩) main_call11_v5) subf,
    TRef.unary (TRef.of (T := ⟨S50000x64, .f32⟩) main_call11_v5) (TRef.of (T := ⟨S50000x64, .f32⟩) main_call11_v6) Host.exp,
    TRef.nullary (TRef.of (T := ⟨S_, .f32⟩) main_call11_cst_1) (constant S_ .f32 0x00000000#32),
    TRef.binary (TRef.of (T := ⟨S50000x64, .f32⟩) main_call11_v6) (TRef.of (T := ⟨S_, .f32⟩) main_call11_cst_1) (TRef.of (T := ⟨S50000, .f32⟩) main_call11_v7) (fun x v => Host.reduceAdd x v reducesTo_S50000x64_S50000_d1 h_S_),
    TRef.unary (TRef.of (T := ⟨S50000, .f32⟩) main_call11_v7) (TRef.of (T := ⟨S50000x1, .f32⟩) main_call11_v8) (broadcastInDim S50000x1 ![0] bcast_S50000_S50000x1_0),
    TRef.unary (TRef.of (T := ⟨S50000x1, .f32⟩) main_call11_v8) (TRef.of (T := ⟨S50000x1, .f32⟩) main_call11_v9) Host.log,
    TRef.unary (TRef.of (T := ⟨S50000x1, .f32⟩) main_call11_v9) (TRef.of (T := ⟨S50000x64, .f32⟩) main_call11_v10) (broadcastInDim S50000x64 ![0, 1] bcast_S50000x1_S50000x64_0_1),
    TRef.binary (TRef.of (T := ⟨S50000x64, .f32⟩) main_call11_v5) (TRef.of (T := ⟨S50000x64, .f32⟩) main_call11_v10) (TRef.of (T := ⟨S50000x64, .f32⟩) main_v127) subf  ]

/-- Piece 6 is those two lines one after the other. -/
theorem ops6_split : (ops6 : List (HloOp τ sig (Elt F))) = opsLast ++ opsLsm := rfl

end LastPieceSplit

/-- Carrying a value to an equal type and back is the identity. -/
theorem cast_cast_cancel {α β : Type} (h1 : β = α) (h2 : α = β) (v : α) : cast h1 (cast h2 v) = v := by
  subst h2
  rfl

set_option maxRecDepth 8192 in
set_option maxHeartbeats 4000000 in
/-- The last rectifier's output buffer after the last layer's operations, over the buffers they read. -/
theorem piece6a (W : Valuation τ sig (Elt Ideal)) :
    after (opsLast (F := Ideal)) W (Proc.devRef .tc main_v126)
      = l6T (W (Proc.devRef .tc main_arg1)) (W (Proc.devRef .tc main_arg2)) (W (Proc.devRef .tc main_arg3))
          (W (Proc.devRef .tc main_v103)) (W (Proc.devRef .tc main_arg10)) (W (Proc.devRef .tc main_arg11))
          (W (Proc.devRef .tc main_arg12)) (W (Proc.devRef .tc main_arg13)) := by
  after_results
  rfl

set_option maxRecDepth 8192 in
set_option maxHeartbeats 4000000 in
/-- The result buffer after the log-softmax's operations is the reference's log-softmax of the buffer they start from,
    both read at the type of the tensor value they hold. -/
theorem piece6b (W : Valuation τ sig (Elt Ideal)) :
    after (opsLsm (F := Ideal)) W (Proc.devRef .tc main_v127)
      = (TRef.of (T := ⟨S50000x64, .f32⟩) main_v127).toBuf (Val := Elt Ideal)
          (lsmT ((TRef.of (T := ⟨S50000x64, .f32⟩) main_v126).ofBuf (Val := Elt Ideal) (W (Proc.devRef .tc main_v126)))) := by
  after_results
  simp only [TRef.toBuf, TRef.ofBuf, cast_cast_cancel]
  rfl

/-- Contents at the value's type, carried to the result buffer's type, are those contents. -/
theorem toBuf127 (X : TO) : (TRef.of (T := ⟨S50000x64, .f32⟩) main_v127).toBuf (Val := Elt Ideal) X = X := rfl

/-- Contents of the last rectifier's buffer, carried to the value's type, are those contents. -/
theorem ofBuf126 (Y : TO) : (TRef.of (T := ⟨S50000x64, .f32⟩) main_v126).ofBuf (Val := Elt Ideal) Y = Y := rfl

/-- The result buffer after piece 6, over the buffers the piece reads. -/
theorem piece6 (W : Valuation τ sig (Elt Ideal)) :
    after (ops6 (F := Ideal)) W (Proc.devRef .tc main_v127)
      = lsmT (l6T (W (Proc.devRef .tc main_arg1)) (W (Proc.devRef .tc main_arg2)) (W (Proc.devRef .tc main_arg3))
          (W (Proc.devRef .tc main_v103)) (W (Proc.devRef .tc main_arg10)) (W (Proc.devRef .tc main_arg11))
          (W (Proc.devRef .tc main_arg12)) (W (Proc.devRef .tc main_arg13))) := by
  rw [ops6_split, Cert.LibAfter.after_append, piece6b, piece6a]
  exact (toBuf127 _).trans (congrArg lsmT (ofBuf126 _))

/-! ## No piece writes an argument buffer -/

/-- The fourteen argument buffers. -/
def argRefs : List (Ref sig .tc) := [main_arg0, main_arg1, main_arg2, main_arg3, main_arg4, main_arg5, main_arg6, main_arg7, main_arg8, main_arg9, main_arg10, main_arg11, main_arg12, main_arg13]

/-- The buffers the operations of piece 1 write. -/
def wl1 : List (Ref sig .tc) := [main_v0, main_v1, main_c, main_v2, main_v3, main_c_0, main_v4, main_v5, main_v6, main_v7, main_v8, main_v9, main_v10, main_cst, main_v11, main_v12, main_v13, main_v14, main_v15, main_v16, main_v17, main_v18, main_v19, main_v20, main_v21, main_call0_cst, main_call0_v0, main_v22, main_call1_cst, main_call1_v0, main_v23]

set_option maxRecDepth 8192 in
/-- Every operation of piece 1 writes a buffer of that list. -/
theorem writes1 : (ops1 (F := Ideal)).Forall fun op => op.writes ⊆ (wl1.map (Proc.devRef (τ := τ) .tc)).toFinset := by
  simp only [List.Forall, nullary_writes, unary_writes, binary_writes, ternary_writes]
  repeat' apply And.intro
  all_goals exact Finset.singleton_subset_iff.mpr (List.mem_toFinset.mpr (List.mem_map_of_mem (by decide)))

/-- Piece 1 leaves every argument buffer as it found it. -/
theorem frame1 (W : Valuation τ sig (Elt Ideal)) (r : Ref sig .tc) (hr : r ∈ argRefs) :
    after (ops1 (F := Ideal)) W (Proc.devRef .tc r) = W (Proc.devRef .tc r) :=
  after_of_writes_sub _ W writes1 ((by decide : ∀ r ∈ argRefs, r ∉ wl1) r hr)

/-- The buffers the operations of piece 2 write. -/
def wl2 : List (Ref sig .tc) := [main_v24, main_v25, main_c_1, main_v26, main_v27, main_c_2, main_v28, main_v29, main_v30, main_v31, main_v32, main_v33, main_v34, main_cst_3, main_v35, main_v36, main_v37, main_v38, main_v39, main_v40, main_v41, main_call2_cst, main_call2_v0, main_v42, main_call3_cst, main_call3_v0, main_v43]

set_option maxRecDepth 8192 in
/-- Every operation of piece 2 writes a buffer of that list. -/
theorem writes2 : (ops2 (F := Ideal)).Forall fun op => op.writes ⊆ (wl2.map (Proc.devRef (τ := τ) .tc)).toFinset := by
  simp only [List.Forall, nullary_writes, unary_writes, binary_writes, ternary_writes]
  repeat' apply And.intro
  all_goals exact Finset.singleton_subset_iff.mpr (List.mem_toFinset.mpr (List.mem_map_of_mem (by decide)))

/-- Piece 2 leaves every argument buffer as it found it. -/
theorem frame2 (W : Valuation τ sig (Elt Ideal)) (r : Ref sig .tc) (hr : r ∈ argRefs) :
    after (ops2 (F := Ideal)) W (Proc.devRef .tc r) = W (Proc.devRef .tc r) :=
  after_of_writes_sub _ W writes2 ((by decide : ∀ r ∈ argRefs, r ∉ wl2) r hr)

/-- The buffers the operations of piece 3 write. -/
def wl3 : List (Ref sig .tc) := [main_v44, main_v45, main_c_4, main_v46, main_v47, main_c_5, main_v48, main_v49, main_v50, main_v51, main_v52, main_v53, main_v54, main_cst_6, main_v55, main_v56, main_v57, main_v58, main_v59, main_v60, main_v61, main_call4_cst, main_call4_v0, main_v62, main_call5_cst, main_call5_v0, main_v63]

set_option maxRecDepth 8192 in
/-- Every operation of piece 3 writes a buffer of that list. -/
theorem writes3 : (ops3 (F := Ideal)).Forall fun op => op.writes ⊆ (wl3.map (Proc.devRef (τ := τ) .tc)).toFinset := by
  simp only [List.Forall, nullary_writes, unary_writes, binary_writes, ternary_writes]
  repeat' apply And.intro
  all_goals exact Finset.singleton_subset_iff.mpr (List.mem_toFinset.mpr (List.mem_map_of_mem (by decide)))

/-- Piece 3 leaves every argument buffer as it found it. -/
theorem frame3 (W : Valuation τ sig (Elt Ideal)) (r : Ref sig .tc) (hr : r ∈ argRefs) :
    after (ops3 (F := Ideal)) W (Proc.devRef .tc r) = W (Proc.devRef .tc r) :=
  after_of_writes_sub _ W writes3 ((by decide : ∀ r ∈ argRefs, r ∉ wl3) r hr)

/-- The buffers the operations of piece 4 write. -/
def wl4 : List (Ref sig .tc) := [main_v64, main_v65, main_c_7, main_v66, main_v67, main_c_8, main_v68, main_v69, main_v70, main_v71, main_v72, main_v73, main_v74, main_cst_9, main_v75, main_v76, main_v77, main_v78, main_v79, main_v80, main_v81, main_call6_cst, main_call6_v0, main_v82, main_call7_cst, main_call7_v0, main_v83]

set_option maxRecDepth 8192 in
/-- Every operation of piece 4 writes a buffer of that list. -/
theorem writes4 : (ops4 (F := Ideal)).Forall fun op => op.writes ⊆ (wl4.map (Proc.devRef (τ := τ) .tc)).toFinset := by
  simp only [List.Forall, nullary_writes, unary_writes, binary_writes, ternary_writes]
  repeat' apply And.intro
  all_goals exact Finset.singleton_subset_iff.mpr (List.mem_toFinset.mpr (List.mem_map_of_mem (by decide)))

/-- Piece 4 leaves every argument buffer as it found it. -/
theorem frame4 (W : Valuation τ sig (Elt Ideal)) (r : Ref sig .tc) (hr : r ∈ argRefs) :
    after (ops4 (F := Ideal)) W (Proc.devRef .tc r) = W (Proc.devRef .tc r) :=
  after_of_writes_sub _ W writes4 ((by decide : ∀ r ∈ argRefs, r ∉ wl4) r hr)

/-- The buffers the operations of piece 5 write. -/
def wl5 : List (Ref sig .tc) := [main_v84, main_v85, main_c_10, main_v86, main_v87, main_c_11, main_v88, main_v89, main_v90, main_v91, main_v92, main_v93, main_v94, main_cst_12, main_v95, main_v96, main_v97, main_v98, main_v99, main_v100, main_v101, main_call8_cst, main_call8_v0, main_v102, main_call9_cst, main_call9_v0, main_v103]

set_option maxRecDepth 8192 in
/-- Every operation of piece 5 writes a buffer of that list. -/
theorem writes5 : (ops5 (F := Ideal)).Forall fun op => op.writes ⊆ (wl5.map (Proc.devRef (τ := τ) .tc)).toFinset := by
  simp only [List.Forall, nullary_writes, unary_writes, binary_writes, ternary_writes]
  repeat' apply And.intro
  all_goals exact Finset.singleton_subset_iff.mpr (List.mem_toFinset.mpr (List.mem_map_of_mem (by decide)))

/-- Piece 5 leaves every argument buffer as it found it. -/
theorem frame5 (W : Valuation τ sig (Elt Ideal)) (r : Ref sig .tc) (hr : r ∈ argRefs) :
    after (ops5 (F := Ideal)) W (Proc.devRef .tc r) = W (Proc.devRef .tc r) :=
  after_of_writes_sub _ W writes5 ((by decide : ∀ r ∈ argRefs, r ∉ wl5) r hr)

/-! ## The six pieces composed -/

/-- The result buffer after all 182 operations, from any starting contents V: the six pieces run one after the other,
    each piece's output named once, the argument buffers unchanged throughout. -/
theorem result_of (V : Valuation τ sig (Elt Ideal)) :
    after (ops (F := Ideal)) V (Proc.devRef .tc main_v127)
      = Cert.Gcn.net
          (Cert.Gcn.sp512 (V (Proc.devRef .tc main_arg1)) (V (Proc.devRef .tc main_arg2)) (V (Proc.devRef .tc main_arg3)))
          (Cert.Gcn.sp64 (V (Proc.devRef .tc main_arg1)) (V (Proc.devRef .tc main_arg2)) (V (Proc.devRef .tc main_arg3)))
          (V (Proc.devRef .tc main_arg0)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) := by
  rw [ops_split, Cert.LibAfter.after_append, Cert.LibAfter.after_append, Cert.LibAfter.after_append,
    Cert.LibAfter.after_append, Cert.LibAfter.after_append]
  have e1 := piece1 V
  have f1 := frame1 V
  generalize after (ops1 (F := Ideal)) V = V1 at e1 f1 ⊢
  have e2 := piece2 V1
  have f2 := frame2 V1
  generalize after (ops2 (F := Ideal)) V1 = V2 at e2 f2 ⊢
  have e3 := piece3 V2
  have f3 := frame3 V2
  generalize after (ops3 (F := Ideal)) V2 = V3 at e3 f3 ⊢
  have e4 := piece4 V3
  have f4 := frame4 V3
  generalize after (ops4 (F := Ideal)) V3 = V4 at e4 f4 ⊢
  have e5 := piece5 V4
  have f5 := frame5 V4
  generalize after (ops5 (F := Ideal)) V4 = V5 at e5 f5 ⊢
  have g2 : ∀ r ∈ argRefs, V2 (Proc.devRef .tc r) = V (Proc.devRef .tc r) := fun r hr => (f2 r hr).trans (f1 r hr)
  have g3 : ∀ r ∈ argRefs, V3 (Proc.devRef .tc r) = V (Proc.devRef .tc r) := fun r hr => (f3 r hr).trans (g2 r hr)
  have g4 : ∀ r ∈ argRefs, V4 (Proc.devRef .tc r) = V (Proc.devRef .tc r) := fun r hr => (f4 r hr).trans (g3 r hr)
  have g5 : ∀ r ∈ argRefs, V5 (Proc.devRef .tc r) = V (Proc.devRef .tc r) := fun r hr => (f5 r hr).trans (g4 r hr)
  rw [f1 main_arg1 (by decide), f1 main_arg2 (by decide), f1 main_arg3 (by decide), f1 main_arg8 (by decide),
    f1 main_arg9 (by decide), midT_eq] at e2
  rw [g2 main_arg1 (by decide), g2 main_arg2 (by decide), g2 main_arg3 (by decide), g2 main_arg8 (by decide),
    g2 main_arg9 (by decide), midT_eq] at e3
  rw [g3 main_arg1 (by decide), g3 main_arg2 (by decide), g3 main_arg3 (by decide), g3 main_arg8 (by decide),
    g3 main_arg9 (by decide), midT_eq] at e4
  rw [g4 main_arg1 (by decide), g4 main_arg2 (by decide), g4 main_arg3 (by decide), g4 main_arg8 (by decide),
    g4 main_arg9 (by decide), midT_eq] at e5
  rw [l1T_eq] at e1
  rw [piece6 V5, g5 main_arg1 (by decide), g5 main_arg2 (by decide), g5 main_arg3 (by decide), g5 main_arg10 (by decide),
    g5 main_arg11 (by decide), g5 main_arg12 (by decide), g5 main_arg13 (by decide), lsmT_eq, l6T_eq, e5, e4, e3, e2, e1]
  rfl

/-- The reference's result buffer, read out of the fold of its 182 host operations over the launch contents, is the
    network function of the argument arrays. -/
theorem result (m : (ℓ : Loc nD τ sig) → Buf (Elt Ideal) ℓ) (c : Dev nD) :
    StableHlo.after (Cert.ReferenceIdeal.RunP.ops (F := Ideal)) (StableHlo.launchContents m c) (Proc.devRef .tc main_v127)
      = Cert.Gcn.net
          (Cert.Gcn.sp512 (m ((c.tc : Thread nD τ).loc main_arg1)) (m ((c.tc : Thread nD τ).loc main_arg2)) (m ((c.tc : Thread nD τ).loc main_arg3)))
          (Cert.Gcn.sp64 (m ((c.tc : Thread nD τ).loc main_arg1)) (m ((c.tc : Thread nD τ).loc main_arg2)) (m ((c.tc : Thread nD τ).loc main_arg3)))
          (m ((c.tc : Thread nD τ).loc main_arg0)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8))
          (m ((c.tc : Thread nD τ).loc main_arg9)) (m ((c.tc : Thread nD τ).loc main_arg10)) (m ((c.tc : Thread nD τ).loc main_arg11))
          (m ((c.tc : Thread nD τ).loc main_arg12)) (m ((c.tc : Thread nD τ).loc main_arg13)) :=
  result_of (StableHlo.launchContents m c)

end Cert.ReferenceIdeal.RefValue

end
-- ==== Proof.lean ====
/-
  The kernel — a graph-convolution network on TPU: twelve pallas_calls (dense products on row blocks, fused
  bias + residual + rectifier epilogues, a last epilogue with the row-wise log-softmax) among host stretches that run the
  sparse adjacency product — against the same network written with whole-array jnp operations.

  At the ideal values both programs compute ONE function of the argument arrays, `Cert.Gcn.net` (Proof/Spec.lean):
  a change of float format is the identity; a block product into a zero accumulator and the host's dot_general are the
  same sum over k; the kernel tiles the 50000 rows into blocks and every block written back is that block of one
  whole-array function, the blocks covering all rows; the sparse adjacency product is the same chain of host operations in
  both programs and is never opened; the reference adds a bias before the residual where the kernel adds it after
  (+ on the extended reals is commutative and associative) and rectifies twice where the kernel rectifies once
  (max(max(u, 0), 0) = max(u, 0)); the last layer's two weight matrices set side by side and the product cut in two are
  the two separate products.  No law used needs finiteness, so the precondition is never opened.

  The three frames: the kernel's two are the generated frame certificates; the reference has no kernel, its frame is its
  run with the result dropped.  `preserves` is `True`: the ideal pass rewrote no operation.
-/
import proofs.«153699_j13692355740362_2_alg».proof.Defs
import proofs.«153699_j13692355740362_2_alg».proof.Proof.Gen.Kernel
import proofs.«153699_j13692355740362_2_alg».proof.Proof.Gen.Kernel.Frame
import proofs.«153699_j13692355740362_2_alg».proof.Proof.Gen.KernelIdeal
import proofs.«153699_j13692355740362_2_alg».proof.Proof.Gen.KernelIdeal.Frame
import proofs.«153699_j13692355740362_2_alg».proof.Proof.Gen.ReferenceIdeal
import proofs.«153699_j13692355740362_2_alg».proof.Proof.Gen.Pre_finite_inputs
import proofs.«153699_j13692355740362_2_alg».proof.Proof.KernelRun
import proofs.«153699_j13692355740362_2_alg».proof.Proof.KernelLast
import proofs.«153699_j13692355740362_2_alg».proof.Proof.RefOps
import proofs.«153699_j13692355740362_2_alg».proof.Proof.RefFrame
import proofs.«153699_j13692355740362_2_alg».proof.Proof.RefSide
import Idealize.ShloMosaic.Adequacy
import Idealize.ShloMosaic.Init

set_option maxRecDepth 16384

noncomputable section

namespace Cert.Proof

open Idealize.ShloMosaic Idealize.SL.Sem

/-- The kernel program as printed runs and leaves its arguments: the generated frame certificate. -/
theorem frame_k : Cert.frame_Kernel (hKernel := Cert.Kernel.Gen.facts) (hPre_finite_inputs := Cert.Pre_finite_inputs.Gen.facts) :=
  fun m ρ _ => Cert.Kernel.Gen.frame m ρ

/-- The idealized kernel program runs and leaves its arguments: the generated frame certificate. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The idealized reference runs and leaves its arguments: every final buffer is the fold of the host operations over
    the launch contents, and no operation writes an argument. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun r h c =>
    ⟨(h c Cert.ReferenceIdeal.main_arg0).trans (Cert.ReferenceIdeal.RefValue.arg0_kept m c),
     (h c Cert.ReferenceIdeal.main_arg1).trans (Cert.ReferenceIdeal.RefValue.arg1_kept m c),
     (h c Cert.ReferenceIdeal.main_arg2).trans (Cert.ReferenceIdeal.RefValue.arg2_kept m c),
     (h c Cert.ReferenceIdeal.main_arg3).trans (Cert.ReferenceIdeal.RefValue.arg3_kept m c),
     (h c Cert.ReferenceIdeal.main_arg4).trans (Cert.ReferenceIdeal.RefValue.arg4_kept m c),
     (h c Cert.ReferenceIdeal.main_arg5).trans (Cert.ReferenceIdeal.RefValue.arg5_kept m c),
     (h c Cert.ReferenceIdeal.main_arg6).trans (Cert.ReferenceIdeal.RefValue.arg6_kept m c),
     (h c Cert.ReferenceIdeal.main_arg7).trans (Cert.ReferenceIdeal.RefValue.arg7_kept m c),
     (h c Cert.ReferenceIdeal.main_arg8).trans (Cert.ReferenceIdeal.RefValue.arg8_kept m c),
     (h c Cert.ReferenceIdeal.main_arg9).trans (Cert.ReferenceIdeal.RefValue.arg9_kept m c),
     (h c Cert.ReferenceIdeal.main_arg10).trans (Cert.ReferenceIdeal.RefValue.arg10_kept m c),
     (h c Cert.ReferenceIdeal.main_arg11).trans (Cert.ReferenceIdeal.RefValue.arg11_kept m c),
     (h c Cert.ReferenceIdeal.main_arg12).trans (Cert.ReferenceIdeal.RefValue.arg12_kept m c),
     (h c Cert.ReferenceIdeal.main_arg13).trans (Cert.ReferenceIdeal.RefValue.arg13_kept m c)⟩)
    (Cert.ReferenceIdeal.RunP.run_after (F := Ideal) m ρ)

/-- From memories agreeing on the arguments both idealized programs end with the network function of the arguments in
    their result buffers. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.Gcn.net
      (Cert.Gcn.sp512 (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)))
      (Cert.Gcn.sp64 (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)))
      (m ((c.tc : Thread Cert.KernelIdeal.nD Cert.KernelIdeal.τ).loc Cert.KernelIdeal.main_arg0))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13)), ?_, ?_⟩
  · exact (θ_run Cert.KernelIdeal.defs _ _).mono (fun r h c => ⟨(h c).1.trans (Cert.KernelIdeal.Chain.result m c ρ), (h c).2⟩)
      (Cert.KernelIdeal.ValueRun.run (F := Ideal) m ρ)
  · refine (θ_run Cert.ReferenceIdeal.defs _ _).mono (fun r h c => ?_) (Cert.ReferenceIdeal.RunP.run_after (F := Ideal) m' ρ')
    obtain ⟨e0, e1, e2, e3, e4, e5, e6, e7, e8, e9, e10, e11, e12, e13⟩ := hagree c
    refine ⟨(h c Cert.ReferenceIdeal.main_v127).trans ((Cert.ReferenceIdeal.RefValue.result m' c).trans ?_),
     (h c Cert.ReferenceIdeal.main_arg0).trans (Cert.ReferenceIdeal.RefValue.arg0_kept m' c),
     (h c Cert.ReferenceIdeal.main_arg1).trans (Cert.ReferenceIdeal.RefValue.arg1_kept m' c),
     (h c Cert.ReferenceIdeal.main_arg2).trans (Cert.ReferenceIdeal.RefValue.arg2_kept m' c),
     (h c Cert.ReferenceIdeal.main_arg3).trans (Cert.ReferenceIdeal.RefValue.arg3_kept m' c),
     (h c Cert.ReferenceIdeal.main_arg4).trans (Cert.ReferenceIdeal.RefValue.arg4_kept m' c),
     (h c Cert.ReferenceIdeal.main_arg5).trans (Cert.ReferenceIdeal.RefValue.arg5_kept m' c),
     (h c Cert.ReferenceIdeal.main_arg6).trans (Cert.ReferenceIdeal.RefValue.arg6_kept m' c),
     (h c Cert.ReferenceIdeal.main_arg7).trans (Cert.ReferenceIdeal.RefValue.arg7_kept m' c),
     (h c Cert.ReferenceIdeal.main_arg8).trans (Cert.ReferenceIdeal.RefValue.arg8_kept m' c),
     (h c Cert.ReferenceIdeal.main_arg9).trans (Cert.ReferenceIdeal.RefValue.arg9_kept m' c),
     (h c Cert.ReferenceIdeal.main_arg10).trans (Cert.ReferenceIdeal.RefValue.arg10_kept m' c),
     (h c Cert.ReferenceIdeal.main_arg11).trans (Cert.ReferenceIdeal.RefValue.arg11_kept m' c),
     (h c Cert.ReferenceIdeal.main_arg12).trans (Cert.ReferenceIdeal.RefValue.arg12_kept m' c),
     (h c Cert.ReferenceIdeal.main_arg13).trans (Cert.ReferenceIdeal.RefValue.arg13_kept m' c)⟩
    rw [e0, e1, e2, e3, e4, e5, e6, e7, e8, e9, e10, e11, e12, e13]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
